-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50x2 : Shape := ⟨3, ![4096, 50, 2]⟩
abbrev S64x64 : Shape := ⟨2, ![64, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S4096x50x2 : S_.BroadcastsInDim S4096x50x2 (![] : Fin 0 → Fin S4096x50x2.rank)
  reducesTo_S4096x50x2_S_d0_1_2 : S4096x50x2.ReducesTo [0, 1, 2] S_

variable [Facts]

def fn {F : FTy → Type} [FloatOps F] (main_arg0 : IVec S4096x50x2 32) (main_arg1 : FVec F S64x64 .f32) (main_arg2 : FVec F S64x64 .f32) : IVec S_ 1 :=
  let main_v0 : FVec F S64x64 .f32 := Host.absf main_arg1
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_c_2 : IVec S_ 32 := constantI S_ 32 0#32
  let main_v9 : IVec S4096x50x2 32 := broadcastInDim S4096x50x2 ![] bcast_S_S4096x50x2 main_c_2
  let main_v10 : IVec S4096x50x2 1 := cmpi .sge main_arg0 main_v9
  let main_c_3 : IVec S_ 32 := constantI S_ 32 63#32
  let main_v11 : IVec S4096x50x2 32 := broadcastInDim S4096x50x2 ![] bcast_S_S4096x50x2 main_c_3
  let main_v12 : IVec S4096x50x2 1 := cmpi .sle main_arg0 main_v11
  let main_v13 : IVec S4096x50x2 1 := andi main_v10 main_v12
  let main_c_4 : IVec S_ 1 := constantI S_ 1 1#1
  let main_v14 : IVec S_ 1 := (fun x v => Host.reduce IntOp.andi x v reducesTo_S4096x50x2_S_d0_1_2 h_S_) main_v13 main_c_4
  let main_v15 : IVec S_ 1 := andi main_v8 main_v14
  main_v15
-- ==== Kernel.lean ====
abbrev S4096x50x2 : Shape := ⟨3, ![4096, 50, 2]⟩
abbrev S64x64 : Shape := ⟨2, ![64, 64]⟩
abbrev S4096x50x1 : Shape := ⟨3, ![4096, 50, 1]⟩
abbrev S4096x50 : Shape := ⟨2, ![4096, 50]⟩
abbrev S_ : Shape := ⟨0, ![]⟩
abbrev S4096x128 : Shape := ⟨2, ![4096, 128]⟩
abbrev S4096x64 : Shape := ⟨2, ![4096, 64]⟩
abbrev S4096x50x128 : Shape := ⟨3, ![4096, 50, 128]⟩
abbrev S128x50 : Shape := ⟨2, ![128, 50]⟩
abbrev S50x128 : Shape := ⟨2, ![50, 128]⟩
abbrev S256x128 : Shape := ⟨2, ![256, 128]⟩
abbrev S1x50x128 : Shape := ⟨3, ![1, 50, 128]⟩
abbrev S1x50 : Shape := ⟨2, ![1, 50]⟩
abbrev S50 : Shape := ⟨1, ![50]⟩

abbrev nBuf : Table → Nat
  | .hbm => 29
  | .local .tc .vmem => 3
  | .shared => 1
  | .local .scVector .vmem => 9
  | _ => 0

abbrev bufTy : (tb : Table) → Fin (nBuf tb) → BufTy
  | .hbm, ⟨0, _⟩ => ⟨S4096x50x2, .i32⟩
  | .hbm, ⟨1, _⟩ => ⟨S64x64, .f32⟩
  | .hbm, ⟨2, _⟩ => ⟨S64x64, .f32⟩
  | .hbm, ⟨3, _⟩ => ⟨S4096x50x1, .i32⟩
  | .hbm, ⟨4, _⟩ => ⟨S4096x50, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S_, .i32⟩
  | .hbm, ⟨11, _⟩ => ⟨S4096x50, .i32⟩
  | .hbm, ⟨12, _⟩ => ⟨S4096x50, .i32⟩
  | .hbm, ⟨13, _⟩ => ⟨S_, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S4096x50, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4096x50, .i32⟩
  | .hbm, ⟨22, _⟩ => ⟨S4096x50, .i32⟩
  | .hbm, ⟨23, _⟩ => ⟨S_, .i32⟩
  | .hbm, ⟨24, _⟩ => ⟨S4096x50, .i32⟩
  | .hbm, ⟨25, _⟩ => ⟨S4096x50, .i32⟩
  | .hbm, ⟨26, _⟩ => ⟨S4096x50, .i32⟩
  | .hbm, ⟨27, _⟩ => ⟨S4096x128, .f32⟩
  | .hbm, ⟨28, _⟩ => ⟨S4096x50x128, .f32⟩
  | .local .tc .vmem, ⟨0, _⟩ => ⟨S64x64, .f32⟩
  | .local .tc .vmem, ⟨1, _⟩ => ⟨S64x64, .f32⟩
  | .local .tc .vmem, ⟨2, _⟩ => ⟨S4096x128, .f32⟩
  | .shared, ⟨0, _⟩ => ⟨S4096x128, .f32⟩
  | .local .scVector .vmem, ⟨0, _⟩ => ⟨S128x50, .i32⟩
  | .local .scVector .vmem, ⟨1, _⟩ => ⟨S50x128, .f32⟩
  | .local .scVector .vmem, ⟨2, _⟩ => ⟨S50x128, .f32⟩
  | .local .scVector .vmem, ⟨3, _⟩ => ⟨S50x128, .f32⟩
  | .local .scVector .vmem, ⟨4, _⟩ => ⟨S50x128, .f32⟩
  | .local .scVector .vmem, ⟨5, _⟩ => ⟨S50x128, .f32⟩
  | .local .scVector .vmem, ⟨6, _⟩ => ⟨S50x128, .f32⟩
  | .local .scVector .vmem, ⟨7, _⟩ => ⟨S50x128, .f32⟩
  | .local .scVector .vmem, ⟨8, _⟩ => ⟨S50x128, .f32⟩
  | _, _ => ⟨S4096x50x2, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 21 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 5 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v8_scv : Ref sig .scVector := ⟨.hbm, 26, rfl⟩
abbrev main_v9_scv : Ref sig .scVector := ⟨.hbm, 27, rfl⟩
abbrev main_v10_scv : Ref sig .scVector := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch1 : Ref sig .scVector := ⟨.shared, 0, rfl⟩
abbrev cc1_scratch0 : Ref sig .scVector := ⟨.vmem, 0, rfl⟩
abbrev cc1_scratch2 : Ref sig .scVector := ⟨.vmem, 1, rfl⟩
abbrev cc1_scratch3 : Ref sig .scVector := ⟨.vmem, 2, rfl⟩
abbrev cc1_scratch4 : Ref sig .scVector := ⟨.vmem, 3, rfl⟩
abbrev cc1_scratch5 : Ref sig .scVector := ⟨.vmem, 4, rfl⟩
abbrev cc1_scratch6 : Ref sig .scVector := ⟨.vmem, 5, rfl⟩
abbrev cc1_scratch7 : Ref sig .scVector := ⟨.vmem, 6, rfl⟩
abbrev cc1_scratch8 : Ref sig .scVector := ⟨.vmem, 7, rfl⟩
abbrev cc1_scratch9 : Ref sig .scVector := ⟨.vmem, 8, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c256_i32_0 : BitVec 32 := 256#32
  let v4 : BitVec 32 := Scalar.muli arg1 c256_i32_0
  let c0_i32_35_r0 : BitVec 32 := 0#32
  ![v4.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_35_r1 : BitVec 32 := 0#32
  ![v2.toNat, 0]
@[reducible] def k1_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k1_cond1 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_36 : BitVec 32 := 0#32
  let v40 : BitVec 1 := Scalar.cmpi .sgt arg31 c0_i32_36
  let v41 : BitVec 32 := Scalar.extui v40
  let c0_i32_37 : BitVec 32 := 0#32
  let v42 : BitVec 1 := Scalar.cmpi .ne v41 c0_i32_37
  v42

def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_off4 (k1_t1 : Fin k1_t1_loop.trips) (c0_i32_35 : BitVec 32) : Fin 2 → Nat :=
  let c0_i32_1 : BitVec 32 := 0#32
  let c1_i32 : BitVec 32 := 1#32
  let arg31 : BitVec 32 := Scf.iv c0_i32_1 c1_i32 k1_t1
  let c8_i32 : BitVec 32 := 8#32
  let v38 : BitVec 32 := Scalar.muli arg31 c8_i32
  let v39 : BitVec 32 := Scalar.addi v38 c0_i32_35
  let c0_i32_38 : BitVec 32 := 0#32
  ![v39.toNat, 0]
def k1_cond2 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_43 : BitVec 32 := 0#32
  let v48 : BitVec 1 := Scalar.cmpi .sgt arg31 c0_i32_43
  let v49 : BitVec 32 := Scalar.extui v48
  let c0_i32_44 : BitVec 32 := 0#32
  let v50 : BitVec 1 := Scalar.cmpi .ne v49 c0_i32_44
  v50

def k1_off5 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_cond3 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_50 : BitVec 32 := 0#32
  let v56 : BitVec 1 := Scalar.cmpi .sgt arg31 c0_i32_50
  let v57 : BitVec 32 := Scalar.extui v56
  let c0_i32_51 : BitVec 32 := 0#32
  let v58 : BitVec 1 := Scalar.cmpi .ne v57 c0_i32_51
  v58

def k1_off6 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_cond4 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_56 : BitVec 32 := 0#32
  let v64 : BitVec 1 := Scalar.cmpi .sgt arg31 c0_i32_56
  let v65 : BitVec 32 := Scalar.extui v64
  let c0_i32_57 : BitVec 32 := 0#32
  let v66 : BitVec 1 := Scalar.cmpi .ne v65 c0_i32_57
  v66

def k1_off7 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_cond5 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_62 : BitVec 32 := 0#32
  let v72 : BitVec 1 := Scalar.cmpi .sgt arg31 c0_i32_62
  let v73 : BitVec 32 := Scalar.extui v72
  let c0_i32_63 : BitVec 32 := 0#32
  let v74 : BitVec 1 := Scalar.cmpi .ne v73 c0_i32_63
  v74

def k1_off8 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_cond6 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_68 : BitVec 32 := 0#32
  let v80 : BitVec 1 := Scalar.cmpi .sgt arg31 c0_i32_68
  let v81 : BitVec 32 := Scalar.extui v80
  let c0_i32_69 : BitVec 32 := 0#32
  let v82 : BitVec 1 := Scalar.cmpi .ne v81 c0_i32_69
  v82

def k1_off9 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_cond7 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_74 : BitVec 32 := 0#32
  let v88 : BitVec 1 := Scalar.cmpi .sgt arg31 c0_i32_74
  let v89 : BitVec 32 := Scalar.extui v88
  let c0_i32_75 : BitVec 32 := 0#32
  let v90 : BitVec 1 := Scalar.cmpi .ne v89 c0_i32_75
  v90

def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_cond8 (k1_t1 : Fin k1_t1_loop.trips) : BitVec 1 :=
  let c0_i32_1 : BitVec 32 := 0#32
  let c1_i32 : BitVec 32 := 1#32
  let arg31 : BitVec 32 := Scf.iv c0_i32_1 c1_i32 k1_t1
  let c0_i32_80 : BitVec 32 := 0#32
  let v96 : BitVec 1 := Scalar.cmpi .sgt arg31 c0_i32_80
  let v97 : BitVec 32 := Scalar.extui v96
  let c0_i32_81 : BitVec 32 := 0#32
  let v98 : BitVec 1 := Scalar.cmpi .ne v97 c0_i32_81
  v98

def k1_off11 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_157 : BitVec 32 := 0#32
  let c0_i32_158 : BitVec 32 := 0#32
  ![v2.toNat, 0, 0]
def k1_off12 (i : grid1.Coords) (k1_t1 : Fin k1_t1_loop.trips) (c0_i32_86 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1 : BitVec 32 := 0#32
  let c1_i32 : BitVec 32 := 1#32
  let arg31 : BitVec 32 := Scf.iv c0_i32_1 c1_i32 k1_t1
  let c8_i32_85 : BitVec 32 := 8#32
  let v102 : BitVec 32 := Scalar.muli arg31 c8_i32_85
  let v103 : BitVec 32 := Scalar.addi v102 c0_i32_86
  let v107 : BitVec 32 := Scalar.addi v2 v103
  let c0_i32_90 : BitVec 32 := 0#32
  let c0_i32_91 : BitVec 32 := 0#32
  ![v107.toNat, 0, 0]
def k1_off13 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c0_i32_4 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S4096x50x2_S4096x50x1_0_0_0 : S4096x50x2.Slices ![0, 0, 0] S4096x50x1
  shapeCasts_S4096x50x1_S4096x50 : S4096x50x1.ShapeCasts S4096x50
  bcast_S_S4096x50 : S_.BroadcastsInDim S4096x50 (![] : Fin 0 → Fin S4096x50.rank)
  slices_S4096x50x2_S4096x50x1_0_0_1 : S4096x50x2.Slices ![0, 0, 1] S4096x50x1
  iota_S4096x64_d0_w32 : S4096x64.Iotas .tc 32 [0]
  iota_S4096x64_d1_w32 : S4096x64.Iotas .tc 32 [1]
  natLt_1_32 : 1 < 32
  broadcasts_S4096x64_S4096x64 : S4096x64.Broadcasts S4096x64
  inb_S64x64_S64x64_0_0 : ∀ a, (![0, 0] : Fin 2 → Nat) a + S64x64.size a ≤ S64x64.size a
  h_S64x64 : 0 < S64x64.numel
  inb_S4096x128_S4096x64_0_0 : ∀ a, (![0, 0] : Fin 2 → Nat) a + S4096x64.size a ≤ S4096x128.size a
  h_S4096x64 : 0 < S4096x64.numel
  inb_S4096x128_S4096x64_0_64 : ∀ a, (![0, 64] : Fin 2 → Nat) a + S4096x64.size a ≤ S4096x128.size a
  squeezes_S1x50x128_S50x128 : S1x50x128.Squeezes S50x128
  squeezes_S1x50_S50 : S1x50.Squeezes S50
  inb_S4096x128_S4096x128_0_0 : ∀ a, (![0, 0] : Fin 2 → Nat) a + S4096x128.size a ≤ S4096x128.size a
  gathers_S4096x128_S50x128 : S4096x128.Gathers 0 S50x128
  dot_S4096x64_S64x64_S4096x64_1_0_0_1_n_n_wf : DotDims.WF S4096x64 S64x64 S4096x64 [1] [0] [0] [1] [] []
  hcc1_scratch10 : 3 + S_.numel ≤ 21
  hcc1_scratch11 : 4 + S_.numel ≤ 21
  hcc1_scratch12 : 5 + S_.numel ≤ 21
  hcc1_scratch13 : 6 + S_.numel ≤ 21
  hcc1_scratch14 : 7 + S_.numel ≤ 21
  hcc1_scratch15 : 8 + S_.numel ≤ 21
  hcc1_scratch16 : 9 + S_.numel ≤ 21
  hcc1_scratch17 : 10 + S_.numel ≤ 21
  hcc1_scratch18 : 11 + S_.numel ≤ 21
  hcc1_scratch19 : 12 + S_.numel ≤ 21
  hcc1_scratch20 : 13 + S_.numel ≤ 21
  hcc1_scratch21 : 14 + S_.numel ≤ 21
  hcc1_scratch22 : 15 + S_.numel ≤ 21
  hcc1_scratch23 : 16 + S_.numel ≤ 21
  hcc1_scratch24 : 17 + S_.numel ≤ 21
  hcc1_scratch25 : 18 + S_.numel ≤ 21
  hcc1_scoped0 : 19 + S_.numel ≤ 21
  hcc1_scoped1 : 20 + S_.numel ≤ 21
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hcore1 : grid1.bound 0 ≤ τ.nSC
  hsub1 : grid1.bound 1 ≤ τ.nSub
  k1_off1_inb : ∀ i : grid1.Coords, ∀ a, (k1_off1 i) a + S256x128.size a ≤ S4096x128.size a
  k1_off2_inb : ∀ i : grid1.Coords, ∀ a, (k1_off2 i) a + S128x50.size a ≤ S4096x50.size a
  k1_t1_ok : k1_t1_loop.OK
  k1_off3_inb : ∀ (i : grid1.Coords) (k1_t1 : Fin k1_t1_loop.trips), ∀ (k1_h1 : k1_cond1 k1_t1 = 1#1), ∀ a, (k1_off3 i) a + S1x50x128.size a ≤ S4096x50x128.size a
  k1_off4_inb : ∀ k1_t1 : Fin k1_t1_loop.trips, ∀ (r : Fin 8), ∀ a, (k1_off4 k1_t1 (BitVec.ofNat 32 r.val)) a + S1x50.size a ≤ S128x50.size a
  k1_off5_inb : ∀ (i : grid1.Coords) (k1_t1 : Fin k1_t1_loop.trips), ∀ (k1_h2 : k1_cond2 k1_t1 = 1#1), ∀ a, (k1_off5 i) a + S1x50x128.size a ≤ S4096x50x128.size a
  k1_off6_inb : ∀ (i : grid1.Coords) (k1_t1 : Fin k1_t1_loop.trips), ∀ (k1_h3 : k1_cond3 k1_t1 = 1#1), ∀ a, (k1_off6 i) a + S1x50x128.size a ≤ S4096x50x128.size a
  k1_off7_inb : ∀ (i : grid1.Coords) (k1_t1 : Fin k1_t1_loop.trips), ∀ (k1_h4 : k1_cond4 k1_t1 = 1#1), ∀ a, (k1_off7 i) a + S1x50x128.size a ≤ S4096x50x128.size a
  k1_off8_inb : ∀ (i : grid1.Coords) (k1_t1 : Fin k1_t1_loop.trips), ∀ (k1_h5 : k1_cond5 k1_t1 = 1#1), ∀ a, (k1_off8 i) a + S1x50x128.size a ≤ S4096x50x128.size a
  k1_off9_inb : ∀ (i : grid1.Coords) (k1_t1 : Fin k1_t1_loop.trips), ∀ (k1_h6 : k1_cond6 k1_t1 = 1#1), ∀ a, (k1_off9 i) a + S1x50x128.size a ≤ S4096x50x128.size a
  k1_off10_inb : ∀ (i : grid1.Coords) (k1_t1 : Fin k1_t1_loop.trips), ∀ (k1_h7 : k1_cond7 k1_t1 = 1#1), ∀ a, (k1_off10 i) a + S1x50x128.size a ≤ S4096x50x128.size a
  k1_off11_inb : ∀ (i : grid1.Coords) (k1_t1 : Fin k1_t1_loop.trips), ∀ (k1_h8 : k1_cond8 k1_t1 = 1#1), ∀ a, (k1_off11 i) a + S1x50x128.size a ≤ S4096x50x128.size a
  k1_off12_inb : ∀ (i : grid1.Coords) (k1_t1 : Fin k1_t1_loop.trips), ∀ (r : Fin 8), ∀ a, (k1_off12 i k1_t1 (BitVec.ofNat 32 r.val)) a + S1x50x128.size a ≤ S4096x50x128.size a
  k1_off13_inb : ∀ i : grid1.Coords, ∀ a, (k1_off13 i) a + S1x50x128.size a ≤ S4096x50x128.size a

variable [Facts₀]

abbrev cc1_scratch10 : DmaSems sig S_ := SemArray.consecutive 3 S_ hcc1_scratch10
abbrev cc1_scratch11 : DmaSems sig S_ := SemArray.consecutive 4 S_ hcc1_scratch11
abbrev cc1_scratch12 : DmaSems sig S_ := SemArray.consecutive 5 S_ hcc1_scratch12
abbrev cc1_scratch13 : DmaSems sig S_ := SemArray.consecutive 6 S_ hcc1_scratch13
abbrev cc1_scratch14 : DmaSems sig S_ := SemArray.consecutive 7 S_ hcc1_scratch14
abbrev cc1_scratch15 : DmaSems sig S_ := SemArray.consecutive 8 S_ hcc1_scratch15
abbrev cc1_scratch16 : DmaSems sig S_ := SemArray.consecutive 9 S_ hcc1_scratch16
abbrev cc1_scratch17 : DmaSems sig S_ := SemArray.consecutive 10 S_ hcc1_scratch17
abbrev cc1_scratch18 : DmaSems sig S_ := SemArray.consecutive 11 S_ hcc1_scratch18
abbrev cc1_scratch19 : DmaSems sig S_ := SemArray.consecutive 12 S_ hcc1_scratch19
abbrev cc1_scratch20 : DmaSems sig S_ := SemArray.consecutive 13 S_ hcc1_scratch20
abbrev cc1_scratch21 : DmaSems sig S_ := SemArray.consecutive 14 S_ hcc1_scratch21
abbrev cc1_scratch22 : DmaSems sig S_ := SemArray.consecutive 15 S_ hcc1_scratch22
abbrev cc1_scratch23 : DmaSems sig S_ := SemArray.consecutive 16 S_ hcc1_scratch23
abbrev cc1_scratch24 : DmaSems sig S_ := SemArray.consecutive 17 S_ hcc1_scratch24
abbrev cc1_scratch25 : DmaSems sig S_ := SemArray.consecutive 18 S_ hcc1_scratch25
abbrev cc1_scoped0 : DmaSems sig S_ := SemArray.consecutive 19 S_ hcc1_scoped0
abbrev cc1_scoped1 : DmaSems sig S_ := SemArray.consecutive 20 S_ hcc1_scoped1
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v9) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x50x2 : Shape := ⟨3, ![4096, 50, 2]⟩
abbrev S64x64 : Shape := ⟨2, ![64, 64]⟩
abbrev S4096x50x1 : Shape := ⟨3, ![4096, 50, 1]⟩
abbrev S4096x50 : Shape := ⟨2, ![4096, 50]⟩
abbrev S_ : Shape := ⟨0, ![]⟩
abbrev S1 : Shape := ⟨1, ![1]⟩
abbrev S1x1x1 : Shape := ⟨3, ![1, 1, 1]⟩
abbrev S4096x50x64 : Shape := ⟨3, ![4096, 50, 64]⟩
abbrev S4096x50x128 : Shape := ⟨3, ![4096, 50, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x50x2, .i32⟩
  | .hbm, ⟨1, _⟩ => ⟨S64x64, .f32⟩
  | .hbm, ⟨2, _⟩ => ⟨S64x64, .f32⟩
  | .hbm, ⟨3, _⟩ => ⟨S4096x50x1, .i32⟩
  | .hbm, ⟨4, _⟩ => ⟨S4096x50, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S_, .i32⟩
  | .hbm, ⟨11, _⟩ => ⟨S4096x50, .i32⟩
  | .hbm, ⟨12, _⟩ => ⟨S4096x50, .i32⟩
  | .hbm, ⟨13, _⟩ => ⟨S4096x50x1, .i32⟩
  | .hbm, ⟨14, _⟩ => ⟨S4096x50, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4096x50, .i32⟩
  | .hbm, ⟨19, _⟩ => ⟨S4096x50, .i32⟩
  | .hbm, ⟨20, _⟩ => ⟨S_, .i32⟩
  | .hbm, ⟨21, _⟩ => ⟨S4096x50, .i32⟩
  | .hbm, ⟨22, _⟩ => ⟨S4096x50, .i32⟩
  | .hbm, ⟨23, _⟩ => ⟨S_, .i32⟩
  | .hbm, ⟨24, _⟩ => ⟨S4096x50, .i32⟩
  | .hbm, ⟨25, _⟩ => ⟨S4096x50, .i1⟩
  | .hbm, ⟨26, _⟩ => ⟨S_, .i32⟩
  | .hbm, ⟨27, _⟩ => ⟨S4096x50, .i32⟩
  | .hbm, ⟨28, _⟩ => ⟨S4096x50, .i32⟩
  | .hbm, ⟨29, _⟩ => ⟨S4096x50, .i32⟩
  | .hbm, ⟨30, _⟩ => ⟨S4096x50x1, .i32⟩
  | .hbm, ⟨31, _⟩ => ⟨S1, .i32⟩
  | .hbm, ⟨32, _⟩ => ⟨S_, .i32⟩
  | .hbm, ⟨33, _⟩ => ⟨S4096x50x1, .i32⟩
  | .hbm, ⟨34, _⟩ => ⟨S4096x50x1, .i1⟩
  | .hbm, ⟨35, _⟩ => ⟨S1x1x1, .i32⟩
  | .hbm, ⟨36, _⟩ => ⟨S4096x50x1, .i32⟩
  | .hbm, ⟨37, _⟩ => ⟨S4096x50x1, .i1⟩
  | .hbm, ⟨38, _⟩ => ⟨S4096x50x1, .i1⟩
  | .hbm, ⟨39, _⟩ => ⟨S_, .i1⟩
  | .hbm, ⟨40, _⟩ => ⟨S4096x50, .i1⟩
  | .hbm, ⟨41, _⟩ => ⟨S4096x50x64, .f32⟩
  | .hbm, ⟨42, _⟩ => ⟨S4096x50x64, .i1⟩
  | .hbm, ⟨43, _⟩ => ⟨S_, .f32⟩
  | .hbm, ⟨44, _⟩ => ⟨S4096x50x64, .f32⟩
  | .hbm, ⟨45, _⟩ => ⟨S4096x50x64, .f32⟩
  | .hbm, ⟨46, _⟩ => ⟨S_, .i32⟩
  | .hbm, ⟨47, _⟩ => ⟨S4096x50, .i32⟩
  | .hbm, ⟨48, _⟩ => ⟨S4096x50, .i1⟩
  | .hbm, ⟨49, _⟩ => ⟨S_, .i32⟩
  | .hbm, ⟨50, _⟩ => ⟨S4096x50, .i32⟩
  | .hbm, ⟨51, _⟩ => ⟨S4096x50, .i32⟩
  | .hbm, ⟨52, _⟩ => ⟨S4096x50, .i32⟩
  | .hbm, ⟨53, _⟩ => ⟨S4096x50x1, .i32⟩
  | .hbm, ⟨54, _⟩ => ⟨S1, .i32⟩
  | .hbm, ⟨55, _⟩ => ⟨S_, .i32⟩
  | .hbm, ⟨56, _⟩ => ⟨S4096x50x1, .i32⟩
  | .hbm, ⟨57, _⟩ => ⟨S4096x50x1, .i1⟩
  | .hbm, ⟨58, _⟩ => ⟨S1x1x1, .i32⟩
  | .hbm, ⟨59, _⟩ => ⟨S4096x50x1, .i32⟩
  | .hbm, ⟨60, _⟩ => ⟨S4096x50x1, .i1⟩
  | .hbm, ⟨61, _⟩ => ⟨S4096x50x1, .i1⟩
  | .hbm, ⟨62, _⟩ => ⟨S_, .i1⟩
  | .hbm, ⟨63, _⟩ => ⟨S4096x50, .i1⟩
  | .hbm, ⟨64, _⟩ => ⟨S4096x50x64, .f32⟩
  | .hbm, ⟨65, _⟩ => ⟨S4096x50x64, .i1⟩
  | .hbm, ⟨66, _⟩ => ⟨S_, .f32⟩
  | .hbm, ⟨67, _⟩ => ⟨S4096x50x64, .f32⟩
  | .hbm, ⟨68, _⟩ => ⟨S4096x50x64, .f32⟩
  | .hbm, ⟨69, _⟩ => ⟨S4096x50x128, .f32⟩
  | _, _ => ⟨S4096x50x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_cst : Ref sig .tc := ⟨.hbm, 43, rfl⟩
abbrev main_call2_v15 : Ref sig .tc := ⟨.hbm, 44, rfl⟩
abbrev main_v6 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_call3_cst : Ref sig .tc := ⟨.hbm, 66, rfl⟩
abbrev main_call3_v15 : Ref sig .tc := ⟨.hbm, 67, rfl⟩
abbrev main_v7 : Ref sig .tc := ⟨.hbm, 68, rfl⟩
abbrev main_v8 : Ref sig .tc := ⟨.hbm, 69, rfl⟩

abbrev nD : Nat := 1
abbrev τ : Topo := Topo.v7x

variable {F : FTy → Type} [FloatOps F]

class Facts₀ : Prop where
  slices_S4096x50x2_S4096x50x1_0_0_0 : S4096x50x2.Slices ![0, 0, 0] S4096x50x1
  shapeCasts_S4096x50x1_S4096x50 : S4096x50x1.ShapeCasts S4096x50
  bcast_S_S4096x50 : S_.BroadcastsInDim S4096x50 (![] : Fin 0 → Fin S4096x50.rank)
  slices_S4096x50x2_S4096x50x1_0_0_1 : S4096x50x2.Slices ![0, 0, 1] S4096x50x1
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x64_0_1 : S4096x50.BroadcastsInDim S4096x50x64 (![0, 1] : Fin 2 → Fin S4096x50x64.rank)
  bcast_S_S4096x50x64 : S_.BroadcastsInDim S4096x50x64 (![] : Fin 0 → Fin S4096x50x64.rank)
  concatenates_S4096x50x64_S4096x50x64_S4096x50x128_d2 : Shape.Concatenates [S4096x50x64, S4096x50x64] S4096x50x128 2
  gather_S64x64_S4096x50x1_S4096x50x64_2_0_n_n_0_2_164_wf : GatherDims.WF S64x64 S4096x50x1 S4096x50x64 [2] [0] [] [0] [] 2 ![1, 64]

variable [Facts₀]

def gather_S64x64_S4096x50x1_S4096x50x64_2_0_n_n_0_2_164 : GatherDims S64x64 S4096x50x1 S4096x50x64 where
  offsetDims := [2]
  collapsedSliceDims := [0]
  operandBatchingDims := []
  startIndicesBatchingDims := []
  startIndexMap := [0]
  indexVectorDim := 2
  sliceSizes := ![1, 64]
  wf := gather_S64x64_S4096x50x1_S4096x50x64_2_0_n_n_0_2_164_wf

class Facts : Prop extends Facts₀ where

variable [Facts]
-- ==== Proof.Spec.lean ====
/-
  The function both programs compute, index by index, and the table the kernel builds on the way.

  From integer coordinates `coords[b, s, ·]` and two tables `rowT`, `colT` of 64 rows of 64 numbers each, entry
  `(b, s, j)` of the result is `rowT[clamp coords[b, s, 0], j]` for `j < 64` and `colT[clamp coords[b, s, 1], j - 64]`
  for `j ≥ 64`, where `clamp` brings a signed word into `[0, 63]`. The kernel reaches it through a combined table of
  `64 · 64` rows, row `v` holding row `v / 64` of `rowT` beside row `v % 64` of `colT`, looked up at `clamp c₀ · 64 + clamp c₁`.
-/
import Idealize.ShloMosaic.PureOps
import Idealize.ShloMosaic.Lib.ValueIdx

noncomputable section

namespace Cert.Spec

open Idealize.ShloMosaic Idealize.ShloMosaic.ValueIdx

abbrev S4096x50x2 : Shape := ⟨3, ![4096, 50, 2]⟩
abbrev S4096x50 : Shape := ⟨2, ![4096, 50]⟩
abbrev S64x64 : Shape := ⟨2, ![64, 64]⟩
abbrev S4096x128 : Shape := ⟨2, ![4096, 128]⟩
abbrev S4096x50x128 : Shape := ⟨3, ![4096, 50, 128]⟩

/-- A signed 32-bit word brought into `[0, 63]`: the larger of it and `0`, then the smaller of that and `63`. -/
def clampW (w : BitVec 32) : BitVec 32 := IntOp.minsi 63#32 (IntOp.maxsi 0#32 w)

/-- The clamped word, as a number, is below 64. -/
theorem clampW_lt (w : BitVec 32) : (clampW w).toNat < 64 := by
  unfold clampW IntOp.minsi IntOp.maxsi
  split <;> split <;> simp_all [BitVec.slt, BitVec.toInt] <;> omega

/-- The row of a 64-row table a coordinate word selects. -/
def rowOf (w : BitVec 32) : Fin 64 := ⟨(clampW w).toNat, clampW_lt w⟩

/-- The combined index `clamp c₀ · 64 + clamp c₁` of position `(b, s)`, as the kernel's host code computes it on words. -/
def idxW (coords : IVec S4096x50x2 32) (b : Fin 4096) (s : Fin 50) : BitVec 32 :=
  IntOp.addi (IntOp.muli (clampW (coords (ix3 b s (0 : Fin 2)))) 64#32) (clampW (coords (ix3 b s (1 : Fin 2))))

/-- The combined index as a number is `64 · row + col`, below 4096. -/
theorem idxW_toNat (coords : IVec S4096x50x2 32) (b : Fin 4096) (s : Fin 50) :
    (idxW coords b s).toNat = (rowOf (coords (ix3 b s (0 : Fin 2)))).val * 64 + (rowOf (coords (ix3 b s (1 : Fin 2)))).val := by
  have h0 := clampW_lt (coords (ix3 b s (0 : Fin 2)))
  have h1 := clampW_lt (coords (ix3 b s (1 : Fin 2)))
  unfold idxW IntOp.addi IntOp.muli rowOf
  simp only [BitVec.toNat_add, BitVec.toNat_mul, BitVec.toNat_ofNat]
  omega

theorem idxW_lt (coords : IVec S4096x50x2 32) (b : Fin 4096) (s : Fin 50) : (idxW coords b s).toNat < 4096 := by
  rw [idxW_toNat]; have := (rowOf (coords (ix3 b s (0 : Fin 2)))).isLt; have := (rowOf (coords (ix3 b s (1 : Fin 2)))).isLt; omega

variable {α : Type}

/-- Row `v` of the combined table at column `j`: row `v / 64` of `rowT` for `j < 64`, else row `v % 64` of `colT`. -/
def combAt (rowT colT : S64x64.Idx → α) (v : Fin 4096) (j : Fin 128) : α :=
  if h : j.val < 64 then rowT (ix2 (⟨v.val / 64, by omega⟩ : Fin 64) (⟨j.val, h⟩ : Fin 64))
  else colT (ix2 (⟨v.val % 64, Nat.mod_lt _ (by decide)⟩ : Fin 64) (⟨j.val - 64, by omega⟩ : Fin 64))

/-- The combined table: row `v` is row `v / 64` of `rowT` beside row `v % 64` of `colT`. -/
def comb (rowT colT : S64x64.Idx → α) : S4096x128.Idx → α := fun i => combAt rowT colT (i 0) (i 1)

/-- Entry `(b, s, j)` of the result: `rowT[clamp c₀, j]` for `j < 64`, else `colT[clamp c₁, j - 64]`. -/
def outAt (coords : IVec S4096x50x2 32) (rowT colT : S64x64.Idx → α) (b : Fin 4096) (s : Fin 50) (j : Fin 128) : α :=
  if h : j.val < 64 then rowT (ix2 (rowOf (coords (ix3 b s (0 : Fin 2)))) (⟨j.val, h⟩ : Fin 64))
  else colT (ix2 (rowOf (coords (ix3 b s (1 : Fin 2)))) (⟨j.val - 64, by omega⟩ : Fin 64))

/-- The result as one array. -/
def out (coords : IVec S4096x50x2 32) (rowT colT : S64x64.Idx → α) : S4096x50x128.Idx → α := fun i => outAt coords rowT colT (i 0) (i 1) (i 2)

/-- Looking the combined table up at the combined index gives the result: row `64 · r + c` of the combined table is row `r` of
    `rowT` beside row `c` of `colT`. -/
theorem comb_lookup (coords : IVec S4096x50x2 32) (rowT colT : S64x64.Idx → α) (b : Fin 4096) (s : Fin 50) (j : Fin 128) :
    combAt rowT colT (⟨(idxW coords b s).toNat, idxW_lt coords b s⟩ : Fin 4096) j = outAt coords rowT colT b s j := by
  have hr := (rowOf (coords (ix3 b s (0 : Fin 2)))).isLt
  have hc := (rowOf (coords (ix3 b s (1 : Fin 2)))).isLt
  have e := idxW_toNat coords b s
  unfold combAt outAt
  by_cases h : j.val < 64
  · rw [dif_pos h, dif_pos h]
    congr 1; funext a; match a with
    | ⟨0, _⟩ => exact Fin.ext (by show (idxW coords b s).toNat / 64 = (rowOf (coords (ix3 b s (0 : Fin 2)))).val; omega)
    | ⟨1, _⟩ => rfl
  · rw [dif_neg h, dif_neg h]
    congr 1; funext a; match a with
    | ⟨0, _⟩ => exact Fin.ext (by show (idxW coords b s).toNat % 64 = (rowOf (coords (ix3 b s (1 : Fin 2)))).val; omega)
    | ⟨1, _⟩ => rfl

end Cert.Spec

end
-- ==== Proof.KI.Terms.lean ====
/-
  The kernel's values as pure terms of its arguments, for any float instance: the index array its host code builds, the
  combined table its first call writes, and the result — the combined table looked up at the index array.
-/
import proofs.«205614_g54924041781483_cont_9to1_m_645_25_alg».proof.KernelIdeal
import proofs.«205614_g54924041781483_cont_9to1_m_645_25_alg».proof.Proof.Gen.KernelIdeal
import proofs.«205614_g54924041781483_cont_9to1_m_645_25_alg».proof.Proof.Gen.KernelIdeal.Skeleton
import proofs.«205614_g54924041781483_cont_9to1_m_645_25_alg».proof.Proof.Spec

noncomputable section

namespace Cert.KernelIdeal.Hand

open Idealize.ShloMosaic Idealize.ShloMosaic.ValueIdx Cert.KernelIdeal Cert.KernelIdeal.Gen

variable {F : FTy → Type} [FloatOps F]

/-- One clamp as the host code spells it: the larger of `x` and `lo` laid over the shape, then the smaller of that and `hi`. -/
def clipT (x : IVec S4096x50 32) (lo hi : IVec S_ 32) : IVec S4096x50 32 :=
  minsi (broadcastInDim S4096x50 ![] bcast_S_S4096x50 hi) (maxsi (broadcastInDim S4096x50 ![] bcast_S_S4096x50 lo) x)

/-- Column `k` of the coordinates as a [4096, 50] array. -/
def colOf0 (a0 : IVec S4096x50x2 32) : IVec S4096x50 32 :=
  shapeCast S4096x50 (extractStridedSlice S4096x50x1 ![0, 0, 0] a0 slices_S4096x50x2_S4096x50x1_0_0_0) shapeCasts_S4096x50x1_S4096x50
def colOf1 (a0 : IVec S4096x50x2 32) : IVec S4096x50 32 :=
  shapeCast S4096x50 (extractStridedSlice S4096x50x1 ![0, 0, 1] a0 slices_S4096x50x2_S4096x50x1_0_0_1) shapeCasts_S4096x50x1_S4096x50

/-- The index array the host code hands the lookup: `clamp c₀ · 64 + clamp c₁`, operation by operation. -/
def idxTerm (a0 : IVec S4096x50x2 32) : IVec S4096x50 32 :=
  addi (muli (clipT (colOf0 a0) (constantI S_ 32 0#32) (constantI S_ 32 63#32)) (broadcastInDim S4096x50 ![] bcast_S_S4096x50 (constantI S_ 32 64#32)))
    (clipT (colOf1 a0) (constantI S_ 32 0#32) (constantI S_ 32 63#32))

/-- The combined table as the first call's two stores leave it: columns `[0, 64)` the product of the row one-hot matrix with
    `rowT`, columns `[64, 128)` the product of the column one-hot matrix with `colT`. -/
def combF (rowT colT : FVec F S64x64 .f32) : FVec F S4096x128 .f32 := fun i =>
  if h : (i 1).val < 64 then k0_pay1 (k0_pay3 (F := F)) rowT (ix2 (⟨(i 0).val, (i 0).isLt⟩ : Fin 4096) (⟨(i 1).val, h⟩ : Fin 64))
  else k0_pay2 k0_pay4 colT (ix2 (⟨(i 0).val, (i 0).isLt⟩ : Fin 4096) (⟨(i 1).val - 64, by have := (i 1).isLt; simp at this; omega⟩ : Fin 64))

/-- The result: entry `(b, s, j)` is the combined table at row `idx[b, s]`, column `j`. -/
def KOut (a0 : IVec S4096x50x2 32) (rowT colT : FVec F S64x64 .f32) : FVec F S4096x50x128 .f32 := fun i =>
  combF rowT colT (ix2 (⟨(Cert.Spec.idxW a0 (i 0) (i 1)).toNat, Cert.Spec.idxW_lt a0 (i 0) (i 1)⟩ : Fin 4096) (i 2))

end Cert.KernelIdeal.Hand

end
-- ==== Proof.KI.Core.lean ====
/-
  The program as the launch of its threads sees it, and the ghost state of its proof: the handshakes' rounds, the
  subcore barrier's rounds, the first call's staging cells' rounds, and the transfers' counters.
-/
import proofs.«205614_g54924041781483_cont_9to1_m_645_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«205614_g54924041781483_cont_9to1_m_645_25_alg».proof.Proof.Gen.KernelIdeal
import proofs.«205614_g54924041781483_cont_9to1_m_645_25_alg».proof.Proof.Gen.KernelIdeal.Skeleton
import proofs.«205614_g54924041781483_cont_9to1_m_645_25_alg».proof.Proof.Gen.KernelIdeal.Launch
import proofs.«205614_g54924041781483_cont_9to1_m_645_25_alg».proof.Proof.Gen.KernelIdeal.Points
import proofs.«205614_g54924041781483_cont_9to1_m_645_25_alg».proof.Proof.KI.Terms

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The first call's staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.KernelIdeal.Hand

end
-- ==== Proof.KI.Geom.lean ====
/-
  The pieces of the arrays a tile touches, spelt as its program slices them: its 128 rows of the index array, its 256 rows of
  the combined table in HBM and in the SparseCore's shared memory, and its 128 slabs of the result.
-/
import proofs.«205614_g54924041781483_cont_9to1_m_645_25_alg».proof.Proof.KI.Core

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

/-! ## A tile's place -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev jL (L : grid1.Coords) : Fin 16 := Fin.cast bound_one (L 1)
abbrev cL (L : grid1.Coords) : Fin 2 := Fin.cast bound_zero (L 0)

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-! ## The arrays and their places in memory -/

abbrev v8Loc (d : Dev nD) : Loc nD τ sig := (SparseCore.T d).loc main_v8
abbrev v9Loc (d : Dev nD) : Loc nD τ sig := (SparseCore.T d).loc main_v9
abbrev v10Loc (d : Dev nD) : Loc nD τ sig := (SparseCore.T d).loc main_v10
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## A tile's pieces, as its program slices them -/

/-- Rows `[128 · (2s + c), + 128)` of the index array. -/
abbrev idxBlk (L : grid1.Coords) : Memref sig .scVector .hbm S128x50 .i32 :=
  (idxV).slice (Rect.unit (s := S4096x50) (k1_off2 L) S128x50.size (k1_off2_inb L)) (fun _ => rfl)
/-- Rows `[256 · s, + 256)` of the combined table in HBM, and of the shared scratch. -/
abbrev combBlk (L : grid1.Coords) : Memref sig .scVector .hbm S256x128 .f32 :=
  (combV).slice (Rect.unit (s := S4096x128) (k1_off1 L) S256x128.size (k1_off1_inb L)) (fun _ => rfl)
abbrev shBlk (L : grid1.Coords) : Memref sig .scVector .shared S256x128 .f32 :=
  (shV).slice (Rect.unit (s := S4096x128) (k1_off1 L) S256x128.size (k1_off1_inb L)) (fun _ => rfl)

abbrev S128x50x128 : Shape := ⟨3, ![128, 50, 128]⟩
theorem outBlk_inb : ∀ i : grid1.Coords, ∀ a, (k1_off13 i) a + S128x50x128.size a ≤ S4096x50x128.size a := by decide +kernel
/-- Slabs `[128 · (2s + c), + 128)` of the result: the tile's 128 positions `b`, each a `[50, 128]` slab. -/
abbrev outRect (L : grid1.Coords) : Rect S4096x50x128 := Rect.unit (s := S4096x50x128) (k1_off13 L) S128x50x128.size (outBlk_inb L)
abbrev outSet (L : grid1.Coords) : Finset S4096x50x128.Idx := (outV).view.setOn (outRect L).set
/-- The slab the tile writes at trip `k`, slot `r`: position `128 · (2s + c) + 8k + r`. -/
abbrev outWin (L : grid1.Coords) (k : Fin k1_t1_loop.trips) (r : BitVec 32) (h : ∀ a, (k1_off12 L k r) a + S1x50x128.size a ≤ S4096x50x128.size a) :
    Memref sig .scVector .hbm S50x128 .f32 :=
  ((outV).slice (Rect.unit (s := S4096x50x128) (k1_off12 L k r) S1x50x128.size h) (fun _ => rfl)).squeeze S50x128 squeezes_S1x50x128_S50x128

/-! ## Read shares -/

/-- SparseCore `c`'s share of the combined table in HBM: both SparseCores' tiles read the same rows. -/
abbrev qC (c : Fin 2) : PosShare TreeShare := Transfers.shareTok fullShare 2 c
/-- Tile `j`'s read share of the shared scratch, and what its writer keeps. -/
abbrev qT (j : Fin 16) : PosShare TreeShare := Transfers.shareTok fullShare 16 j
abbrev qKeep : PosShare TreeShare := Transfers.shareDrop fullShare 16

end Cert.KernelIdeal.Hand

end
-- ==== Proof.KI.Proto.lean ====
/-
  The tiles' protocol. Each tile copies its 256 rows of the combined table into the SparseCore's shared memory, meets the
  other fifteen at the subcore barrier, and then reads rows of ALL of it. So the barrier carries read shares: tile `n`'s
  arrival at tile `j`'s barrier cell hands `j` a read share of `n`'s rows, at the table's contents; after the barrier a
  tile holds a read share of the whole shared table.
-/
import proofs.«205614_g54924041781483_cont_9to1_m_645_25_alg».proof.Proof.KI.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

/-! ## The launch memory and the contents the protocol speaks of -/

variable (m : (ℓ : Loc nD τ sig) → Buf (Elt F) ℓ)
-- the index array's contents and the combined table's, per device, as @main leaves them before the lookup
variable (IX : (d : Dev nD) → Buf (Elt F) (v8Loc d)) (WC : (d : Dev nD) → Buf (Elt F) (v9Loc d))

theorem nSub_eq : τ.nSub = 16 := rfl
theorem nSC_eq : τ.nSC = 2 := rfl

/-- The grid point of the tile `(c, j)`. -/
abbrev tileOf (c : Fin τ.nSC) (j : Fin τ.nSub) : grid1.Coords := coordsV (Fin.cast nSC_eq c) (Fin.cast nSub_eq j)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `n`'s rows of SparseCore `c`'s shared table at read share `q`, at the table's contents. -/
abbrev shPiece (d : Dev nD) (c : Fin τ.nSC) (n : Fin τ.nSub) (q : PosShare TreeShare) : sProp 𝕄 :=
  shLoc d c ↦[(shBlk (tileOf c n)).view.set]{q} (WC d)

/-- What duty `n` in tile `j`'s round hands over: tile `n`'s rows of the shared table at `j`'s read share. -/
def bPay (g : GSem nD τ sig) (n : ℕ) : sProp 𝕄 :=
  match g with
  | ((d, .scVector c j), _) => if h : n < τ.nSub then shPiece WC d c ⟨n, h⟩ (qT (Fin.cast nSub_eq j)) else iprop(emp)
  | _ => iprop(emp)

/-- The barrier cells' schedule: one round on each, of one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay WC g n
  amount_pos _ _ _ _ := Nat.one_pos

instance bRd_payload_storable (g : GSem nD τ sig) (r n : ℕ) : BI.Storable (upEmb : UEmb _ 𝕄) ((bRd (F := F) WC).payload g r n) := by
  show BI.Storable upEmb (bPay WC g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) WC).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) WC).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) WC).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) WC) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- The grid point of tile `i` of SparseCore `c` of the call. -/
abbrev callL (c : Fin ((K (F := F)).nCore 0)) (i : Fin ((K (F := F)).nSub 0)) : grid1.Coords :=
  tileOf (coreOf c) ((K (F := F)).sub 0 i)

/-- A tile's pieces of the three HBM arrays: its rows of the index array, its rows of the combined table at its SparseCore's
    read share, its slabs of the result at contents `fo`. -/
abbrev hbmPieces (d : Dev nD) (L : grid1.Coords) (fo : Buf (Elt F) (v10Loc d)) : sProp 𝕄 :=
  iprop((v8Loc d ↦[(idxBlk L).view.set]{fullShare} IX d) ∗ (v9Loc d ↦[(combBlk L).view.set]{qC (cL L)} WC d) ∗ (v10Loc d ↦[outSet L]{fullShare} fo))

/-- The one SparseCore call: a SparseCore is handed every tile's pieces and hands them back with the result's slabs at what
    the tiles left; a tile is handed its pieces and its rows of the shared table (at contents not chosen), and hands back
    its pieces, its rows of the shared table at what it keeps of them, and its read share of the whole shared table; each
    tile's proof consumes its barrier kit and each tile owes its arrivals. -/
def P : (K (F := F)).Pay (nD := nD) (Val := Elt F) (Name := ℕ) (U := UU) where
  st := fun q d c => match q with
    | 0 => bigSep Finset.univ fun i : Fin ((K (F := F)).nSub 0) => hbmPieces IX WC d (callL c i) (m (v10Loc d))
  dn := fun q d c => match q with
    | 0 => bigSep Finset.univ fun i : Fin ((K (F := F)).nSub 0) => iprop(∃ fo, hbmPieces IX WC d (callL c i) fo)
  go := fun q d c i => match q with
    | 0 => iprop(hbmPieces IX WC d (callL c i) (m (v10Loc d)) ∗ ∃ f, shLoc d (coreOf c) ↦[(shBlk (callL c i)).view.set]{fullShare} f)
  td := fun q d c i => match q with
    | 0 => iprop((∃ fo, hbmPieces IX WC d (callL c i) fo) ∗ shPiece WC d (coreOf c) ((K (F := F)).sub 0 i) qKeep
        ∗ (shLoc d (coreOf c) ↦{qT (Fin.cast nSub_zero i)} WC d))
  x := fun _ thr => match thr with
    | (d, .scVector c i) => bkit WC d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m IX WC).IsStorable where
  st q d c := match q with
    | 0 => (inferInstance : BI.Storable (upEmb : UEmb _ 𝕄) (bigSep Finset.univ fun i : Fin ((K (F := F)).nSub 0) => hbmPieces IX WC d (callL c i) (m (v10Loc d))))
  dn q d c := match q with
    | 0 => (inferInstance : BI.Storable (upEmb : UEmb _ 𝕄) (bigSep Finset.univ fun i : Fin ((K (F := F)).nSub 0) => iprop(∃ fo, hbmPieces IX WC d (callL c i) fo)))
  go q d c i := match q with
    | 0 => (inferInstance : BI.Storable (upEmb : UEmb _ 𝕄)
      iprop(hbmPieces IX WC d (callL c i) (m (v10Loc d)) ∗ ∃ f, shLoc d (coreOf c) ↦[(shBlk (callL c i)).view.set]{fullShare} f))
  td q d c i := match q with
    | 0 => (inferInstance : BI.Storable (upEmb : UEmb _ 𝕄)
      iprop((∃ fo, hbmPieces IX WC d (callL c i) fo) ∗ shPiece WC d (coreOf c) ((K (F := F)).sub 0 i) qKeep
        ∗ (shLoc d (coreOf c) ↦{qT (Fin.cast nSub_zero i)} WC d)))

end Cert.KernelIdeal.Hand

end
-- ==== Proof.KI.Target.lean ====
/-
  The result the lookup is to leave: entry `(b, s, j)` is row `index[b, s]` of the combined table, column `j`.
-/
import proofs.«205614_g54924041781483_cont_9to1_m_645_25_alg».proof.Proof.KI.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

open Idealize.ShloMosaic.ValueIdx (ix1 ix2 ix3)

/-- The result as the lookup is to leave it, from the index array `IX` and the combined table `WC` of device `d`: entry
    `(b, s, j)` is the combined table at row `IX[b, s]` (read below 4096), column `j`. -/
def TGT (IX : (d : Dev nD) → Buf (Elt F) (v8Loc d)) (WC : (d : Dev nD) → Buf (Elt F) (v9Loc d)) (d : Dev nD) : Buf (Elt F) (v10Loc d) :=
  fun (i : S4096x50x128.Idx) =>
    WC d (ix2 (⟨(IX d (ix2 (⟨(i 0).val, (i 0).isLt⟩ : Fin 4096) (⟨(i 1).val, (i 1).isLt⟩ : Fin 50))).toNat % 4096, Nat.mod_lt _ (by decide)⟩ : Fin 4096)
      (⟨(i 2).val, (i 2).isLt⟩ : Fin 128))

/-- The target at coordinates `(b, s, j)`, the index word below 4096: no remainder left. -/
theorem TGT_apply (IX : (d : Dev nD) → Buf (Elt F) (v8Loc d)) (WC : (d : Dev nD) → Buf (Elt F) (v9Loc d)) (d : Dev nD)
    (b : Fin 4096) (s : Fin 50) (j : Fin 128) (h : (IX d (ix2 b s)).toNat < 4096) :
    TGT IX WC d (ix3 b s j) = WC d (ix2 (⟨(IX d (ix2 b s)).toNat, h⟩ : Fin 4096) j) := by
  unfold TGT
  show WC d (ix2 (⟨(IX d (ix2 b s)).toNat % 4096, _⟩ : Fin 4096) j) = _
  congr 2
  exact Fin.ext (Nat.mod_eq_of_lt h)

end Cert.KernelIdeal.Hand

end
-- ==== Proof.KI.ProtoV.lean ====
/-
  The tiles' protocol with the result named: what a SparseCore and a tile hand back holds the tile's slabs of the result at
  the rows of the combined table the index array names, instead of at contents not chosen.
-/
import proofs.«205614_g54924041781483_cont_9to1_m_645_25_alg».proof.Proof.KI.Proto
import proofs.«205614_g54924041781483_cont_9to1_m_645_25_alg».proof.Proof.KI.Target

noncomputable section

namespace Cert.KernelIdeal.HandV

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (IX : (d : Dev nD) → Buf (Elt F) (v8Loc d)) (WC : (d : Dev nD) → Buf (Elt F) (v9Loc d))
variable [FloatOps F]

/-- The one SparseCore call, with the result named: as the protocol of the frame, but what a SparseCore and a tile hand back
    holds the tile's slabs of the result at the looked-up rows — entry `(b, s, j)` row `idx[b, s]` of the combined table at
    column `j`. -/
def PV : (K (F := F)).Pay (nD := nD) (Val := Elt F) (Name := ℕ) (U := UU) where
  st := fun q d c => match q with
    | 0 => bigSep Finset.univ fun i : Fin ((K (F := F)).nSub 0) => hbmPieces IX WC d (callL c i) (m (v10Loc d))
  dn := fun q d c => match q with
    | 0 => bigSep Finset.univ fun i : Fin ((K (F := F)).nSub 0) => hbmPieces IX WC d (callL c i) (TGT IX WC d)
  go := fun q d c i => match q with
    | 0 => iprop(hbmPieces IX WC d (callL c i) (m (v10Loc d)) ∗ ∃ f, shLoc d (coreOf c) ↦[(shBlk (callL c i)).view.set]{fullShare} f)
  td := fun q d c i => match q with
    | 0 => iprop(hbmPieces IX WC d (callL c i) (TGT IX WC d) ∗ shPiece WC d (coreOf c) ((K (F := F)).sub 0 i) qKeep
        ∗ (shLoc d (coreOf c) ↦{qT (Fin.cast nSub_zero i)} WC d))
  x := fun _ thr => match thr with
    | (d, .scVector c i) => bkit WC d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance PV_storable : (PV (F := F) m IX WC).IsStorable where
  st q d c := match q with
    | 0 => (inferInstance : BI.Storable (upEmb : UEmb _ 𝕄) (bigSep Finset.univ fun i : Fin ((K (F := F)).nSub 0) => hbmPieces IX WC d (callL c i) (m (v10Loc d))))
  dn q d c := match q with
    | 0 => (inferInstance : BI.Storable (upEmb : UEmb _ 𝕄) (bigSep Finset.univ fun i : Fin ((K (F := F)).nSub 0) => hbmPieces IX WC d (callL c i) (TGT IX WC d)))
  go q d c i := match q with
    | 0 => (inferInstance : BI.Storable (upEmb : UEmb _ 𝕄)
      iprop(hbmPieces IX WC d (callL c i) (m (v10Loc d)) ∗ ∃ f, shLoc d (coreOf c) ↦[(shBlk (callL c i)).view.set]{fullShare} f))
  td q d c i := match q with
    | 0 => (inferInstance : BI.Storable (upEmb : UEmb _ 𝕄)
      iprop(hbmPieces IX WC d (callL c i) (TGT IX WC d) ∗ shPiece WC d (coreOf c) ((K (F := F)).sub 0 i) qKeep
        ∗ (shLoc d (coreOf c) ↦{qT (Fin.cast nSub_zero i)} WC d)))

end Cert.KernelIdeal.HandV

end
-- ==== Proof.KI.Launch.lean ====
/-
  The launch: the ghost state's first element and what the launch deals from it — every tile its barrier kit (every
  barrier cell's invariant, the tile's position, its duty tokens, the credit for its own round), the TensorCore the first
  call's staging cells.
-/
import proofs.«205614_g54924041781483_cont_9to1_m_645_25_alg».proof.Proof.KI.Proto

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable (m : (ℓ : Loc nD τ sig) → Buf (Elt F) ℓ) (ρ : Dev nD → PrngReg)
variable (IX : (d : Dev nD) → Buf (Elt F) (v8Loc d)) (WC : (d : Dev nD) → Buf (Elt F) (v9Loc d))
variable [FloatOps F]

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
def u₀ : UU := (initOf (K (F := F)).hsCells (K (F := F)).hsToks,
  (initOf bCells bToks, (initOf (Pipeline.cells cfgs cellOf_inj) (Pipeline.launchToks cfgs cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have e1 : (ownU ((a, (b, (p, 1))) : UU) : sProp 𝕄)
      ⊢ iprop(BI.own (EH a) ∗ BI.own ((uEmb (nD := nD) (τ := τ) (sig := sig) (Ix := HIx 1) (Val := Elt F) (Name := ℕ) (U := UU) (Lvl := ℕ)).toEmb (((1 : UH), (b, (p, (1 : Counters)))) : UU))) :=
    BI.own_op_elim ((uEmb (nD := nD) (τ := τ) (sig := sig) (Ix := HIx 1) (Val := Elt F) (Name := ℕ) (U := UU) (Lvl := ℕ)).toEmb.op_of_mem
      (Prod.mk_mem_op (URA.mem_op_one a) (URA.mem_one_op ((b, (p, (1 : Counters))) : UB × (UP × Counters)))))
  have e2 : (BI.own ((uEmb (nD := nD) (τ := τ) (sig := sig) (Ix := HIx 1) (Val := Elt F) (Name := ℕ) (U := UU) (Lvl := ℕ)).toEmb (((1 : UH), (b, (p, (1 : Counters)))) : UU)) : sProp 𝕄)
      ⊢ iprop(BI.own (EB b) ∗ BI.own (EP p)) :=
    BI.own_op_elim ((uEmb (nD := nD) (τ := τ) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((p, (1 : Counters)) : UP × Counters)))))
  iintro Hu
  ihave H := e1 $$ Hu
  icases H with ⟨HH, Hrest⟩
  ihave H2 := e2 $$ Hrest
  icases H2 with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) WC) g 0)
    ⊢ |={Set.univ}=> iprop(∃ κ : GSem nD τ sig → ℕ, bigSep bCells fun g => cellInv EB (bRd (F := F) WC) (κ g) g) := by
  refine (Rounds.bodies_intro EB (bRd (F := F) WC) bCells).trans ((inv_alloc_family bCells (Rounds.body EB (bRd (F := F) WC)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' debts, regrouped: each tile the sixteen units of its own cell. -/
theorem creds_b : ((P (F := F) m IX WC).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m IX WC).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m IX WC).oxFrom 0 (V d c i) = oxV d c := fun i => by
    rw [show (0 : ℕ) = (0 : Fin 1).val from rfl, (P m IX WC).oxFrom_step, (P m IX WC).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m IX WC).x q (SparseCore.T d)) = iprop(emp) :=
  bigSep_univ_of_subsingleton (0 : Fin 1)
theorem Px_S (d : Dev nD) (c : Fin τ.nSC) : (bigSep Finset.univ fun q : Fin 1 => (P (F := F) m IX WC).x q (S d c)) = iprop(emp) :=
  bigSep_univ_of_subsingleton (0 : Fin 1)
theorem Px_V (d : Dev nD) (c : Fin τ.nSC) (i : Fin τ.nSub) :
    (bigSep Finset.univ fun q : Fin 1 => (P (F := F) m IX WC).x q (V d c i)) = bkit WC d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) WC) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared (F := F) WC ∗ mine (F := F) dci) ⊢ (bkit (F := F) WC dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) WC) (κ (bcell₃ x)) (bcell₃ x)) fun j _ =>
        sep_elim_left.trans (bigSep_elim (Φ := fun x : DCI => (cellInv EB (bRd (F := F) WC) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared (F := F) WC ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m IX WC).x q thr : sProp 𝕄) := by
  rw [SparseCore.Cfg.bigSep_threads (fun thr : Thread nD τ => bigSep Finset.univ fun q : Fin 1 => (P m IX WC).x q thr)]
  simp only [Px_T, Px_S, Px_V, bigSep_emp']
  iintro ⟨#Hsh, Hat, Htok, Hcred⟩
  isplitr; · iempintro
  isplitr; · iempintro
  iapply (bigSep_mono_frame (R := shared (F := F) WC) (Φ := mine (F := F)) fun dci _ => kit_intro (F := F) WC dci)
  isplitr; · iexact Hsh
  unfold mine
  rw [bigSep_sep', bigSep_sep']
  isplitl [Hat]; · iexact Hat
  isplitl [Htok]; · iexact Htok
  iexact Hcred

/-- What the launch deals the TensorCore of `d` for @main: the first call's staging cells' ghost state. -/
abbrev G (d : Dev nD) : sProp 𝕄 := iprop(Pipeline.cellsGhost cfgs EP 0 d ∗ Pipeline.toksInit cfgs EP 0 d)

theorem hu₀ : iprop(ownU (u₀ (F := F)) ∗ (P (F := F) m IX WC).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m IX WC).x q thr) : sProp 𝕄) := by
  unfold u₀
  iintro ⟨Hu, Hcred, Hfree⟩
  ihave H := (ownU_split _ _ _) $$ Hu
  icases H with ⟨HH, HB, HP⟩
  imod (Rounds.fund EB (bRd (F := F) WC) bCells bToks) $$ HB with ⟨Hst, #Hr, Hat, Htok⟩
  imod (Pipeline.fund_ghost cfgs EP cellOf_inj) $$ HP with ⟨Hcg, Htk⟩
  ihave Hsems := (sems_b (F := F)) $$ Hfree
  imod (invs_b (F := F) WC) $$ [Hsems Hst] with ⟨%κ, #Hinv⟩
  · isplitl [Hsems] <;> iassumption
  ihave Hcred' := (creds_b m IX WC) $$ Hcred
  ihave Hinv' := (Entails.of_eq (bCells_eq (F := F) fun g => cellInv EB (bRd (F := F) WC) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Htk]
  · unfold G
    rw [bigSep_sep']
    isplitl [Hcg]
    · iapply (SparseCore.ent (bigSep_mono fun d _ => bigSep_elim (Φ := fun p : Fin 1 => (Pipeline.cellsGhost cfgs EP p d : sProp 𝕄)) (Finset.mem_univ (0 : Fin 1)))); iexact Hcg
    · iapply (SparseCore.ent (bigSep_mono fun d _ => bigSep_elim (Φ := fun p : Fin 1 => (Pipeline.toksInit cfgs EP p d : sProp 𝕄)) (Finset.mem_univ (0 : Fin 1)))); iexact Htk
  iapply (kits_deal m IX WC)
  isplitr
  · isplitl; · iexists κ; iexact Hinv'
    iexact Hr'
  isplitl [Hat']; · iexact Hat'
  isplitl [Htok']; · iexact Htok'
  iexact Hcred'

end Cert.KernelIdeal.Hand

end
-- ==== Proof.KI.LaunchV.lean ====
/-
  The launch for the protocol with the result named. It differs from the frame's protocol only in what is handed back, so
  what the launch deals every thread's proof, and what every tile owes, are the frame's: its launch element serves.
-/
import proofs.«205614_g54924041781483_cont_9to1_m_645_25_alg».proof.Proof.KI.ProtoV
import proofs.«205614_g54924041781483_cont_9to1_m_645_25_alg».proof.Proof.KI.Launch

noncomputable section

namespace Cert.KernelIdeal.HandV

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (IX : (d : Dev nD) → Buf (Elt F) (v8Loc d)) (WC : (d : Dev nD) → Buf (Elt F) (v9Loc d))
variable [FloatOps F]

/-! ## The launch element for the protocol with the result named

The named protocol differs from the frame's only in what a SparseCore and a tile hand back: what the launch deals each
thread's proof and what each tile owes are the same, so the frame's launch element serves. -/

theorem oxCred_eq : ((PV (F := F) m IX WC).oxCred : sProp 𝕄) = (P (F := F) m IX WC).oxCred := rfl

theorem hu₀V : iprop(ownU (u₀ (F := F)) ∗ (PV (F := F) m IX WC).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (PV m IX WC).x q thr) : sProp 𝕄) :=
  hu₀ m IX WC

end Cert.KernelIdeal.HandV

end
-- ==== Proof.KI.Parts.lean ====
/-
  The arrays cut into the tiles' pieces. The 4096 rows of the combined table — in HBM and in a SparseCore's shared
  memory — are the 16 blocks of 256 rows the tiles of one SparseCore address, block `s` at row `256 · s`. The 4096 rows of
  the index array and the 4096 slabs of the result are the 32 blocks of 128 the tiles of both SparseCores address, tile
  `(c, s)` at `256 · s + 128 · c = 128 · (2s + c)`: the pairs `(c, s)` number the 32 blocks by `2s + c`. Blocks of one
  cut are pairwise disjoint and cover the array, so the array held whole is its blocks held side by side, and blocks
  held at contents of their own join to the array at some contents.
-/
import proofs.«205614_g54924041781483_cont_9to1_m_645_25_alg».proof.Proof.KI.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

theorem coordsV_zero (c : Fin (grid1.bound 0)) (s : Fin (grid1.bound 1)) : coordsV c s 0 = c := rfl
theorem coordsV_one (c : Fin (grid1.bound 0)) (s : Fin (grid1.bound 1)) : coordsV c s 1 = s := rfl

/-! ## The combined table's rows: 16 blocks of 256 -/

theorem rows_div16 : 16 ∣ S4096x128.size 0 := ⟨256, rfl⟩
/-- Rows `[256 · s, + 256)` of a `[4096, 128]` array. -/
abbrev rows256 (s : Fin 16) : Rect S4096x128 := Rect.part (s := S4096x128) (a₀ := 0) rows_div16 s

/-- The rectangle a tile's program slices the combined table by is block `s` of the cut into 16. -/
theorem combRect_eq (c' : Fin (grid1.bound 0)) (s : Fin (grid1.bound 1)) :
    Rect.unit (s := S4096x128) (k1_off1 (coordsV c' s)) S256x128.size (k1_off1_inb (coordsV c' s)) = rows256 (Fin.cast bound_one s) := by
  unfold rows256 Rect.part Rect.block
  congr 1 <;> funext a
  · rw [k1_off1_eq]
    match a with
    | 0 => show 256 * s.val = s.val * (4096 / 16); omega
    | 1 => show 0 = 0 * 128; rfl
  · match a with
    | 0 => simp [Shape.partSize]
    | 1 => simp [Shape.partSize]

theorem set_shBlk (c' : Fin (grid1.bound 0)) (s : Fin (grid1.bound 1)) :
    (shBlk (coordsV c' s)).view.set = (rows256 (Fin.cast bound_one s)).set := by
  show ((shV).view.slice (Rect.unit (s := S4096x128) (k1_off1 (coordsV c' s)) S256x128.size (k1_off1_inb (coordsV c' s)))).set = _
  rw [combRect_eq]
  exact View.set_slice_whole _ _

theorem set_combBlk (c' : Fin (grid1.bound 0)) (s : Fin (grid1.bound 1)) :
    (combBlk (coordsV c' s)).view.set = (rows256 (Fin.cast bound_one s)).set := by
  show ((combV).view.slice (Rect.unit (s := S4096x128) (k1_off1 (coordsV c' s)) S256x128.size (k1_off1_inb (coordsV c' s)))).set = _
  rw [combRect_eq]
  exact View.set_slice_whole _ _

theorem rows256_disjoint : ∀ s ∈ (Finset.univ : Finset (Fin (grid1.bound 1))), ∀ s' ∈ (Finset.univ : Finset (Fin (grid1.bound 1))), s ≠ s' →
    Disjoint (rows256 (Fin.cast bound_one s)).set (rows256 (Fin.cast bound_one s')).set :=
  fun s _ s' _ h => Rect.part_disjoint rows_div16 (fun e => h (Fin.ext (congrArg Fin.val e)))

theorem rows256_cover : (Finset.univ : Finset (Fin (grid1.bound 1))).biUnion (fun s => (rows256 (Fin.cast bound_one s)).set) = Finset.univ :=
  Rect.biUnion_part rows_div16

/-- A SparseCore's shared scratch is the 16 blocks its tiles address. -/
theorem sh_blocks (d : Dev nD) (c : Fin τ.nSC) (c' : Fin (grid1.bound 0)) (q : PosShare TreeShare) (f : Buf (Elt F) (shLoc d c)) :
    (shLoc d c ↦{q} f : sProp 𝕄) = bigSep Finset.univ fun s : Fin (grid1.bound 1) => shLoc d c ↦[(shBlk (coordsV c' s)).view.set]{q} f := by
  have e : (bigSep Finset.univ fun s : Fin (grid1.bound 1) => shLoc d c ↦[(shBlk (coordsV c' s)).view.set]{q} f : sProp 𝕄)
      = bigSep Finset.univ fun s : Fin (grid1.bound 1) => shLoc d c ↦[(rows256 (Fin.cast bound_one s)).set]{q} f :=
    bigSep_congr fun s _ => congrArg (fun I => (shLoc d c ↦[I]{q} f : sProp 𝕄)) (set_shBlk c' s)
  rw [e, ← pointsTo_biUnion Finset.univ (ℓ := shLoc d c) (fun s : Fin (grid1.bound 1) => (rows256 (Fin.cast bound_one s)).set) rows256_disjoint, rows256_cover]; try rfl

/-- The combined table in HBM is the 16 blocks a SparseCore's tiles address. -/
theorem comb_blocks (d : Dev nD) (c' : Fin (grid1.bound 0)) (q : PosShare TreeShare) (f : Buf (Elt F) (v9Loc d)) :
    (v9Loc d ↦{q} f : sProp 𝕄) = bigSep Finset.univ fun s : Fin (grid1.bound 1) => v9Loc d ↦[(combBlk (coordsV c' s)).view.set]{q} f := by
  have e : (bigSep Finset.univ fun s : Fin (grid1.bound 1) => v9Loc d ↦[(combBlk (coordsV c' s)).view.set]{q} f : sProp 𝕄)
      = bigSep Finset.univ fun s : Fin (grid1.bound 1) => v9Loc d ↦[(rows256 (Fin.cast bound_one s)).set]{q} f :=
    bigSep_congr fun s _ => congrArg (fun I => (v9Loc d ↦[I]{q} f : sProp 𝕄)) (set_combBlk c' s)
  rw [e, ← pointsTo_biUnion Finset.univ (ℓ := v9Loc d) (fun s : Fin (grid1.bound 1) => (rows256 (Fin.cast bound_one s)).set) rows256_disjoint, rows256_cover]; try rfl

/-! ## Pieces indexed by pairs -/

section Pieces
variable {ℓ : Loc nD τ sig}

/-- An element set cut into pairwise disjoint pieces indexed by pairs: held, it is its pieces held side by side. -/
theorem pointsTo_pieces {A B : Type} [Fintype A] [Fintype B] (K : A × B → Finset (Idx ℓ)) (U : Finset (Idx ℓ))
    (hd : ∀ p p', p ≠ p' → Disjoint (K p) (K p')) (hc : (Finset.univ : Finset (A × B)).biUnion K = U)
    (q : PosShare TreeShare) (f : Buf (Elt F) ℓ) :
    (ℓ ↦[U]{q} f : sProp 𝕄) = bigSep Finset.univ fun a : A => bigSep Finset.univ fun b : B => ℓ ↦[K (a, b)]{q} f := by
  rw [← hc, pointsTo_biUnion Finset.univ K (fun p _ p' _ h => hd p p' h)]
  exact bigSep_univ_prod _

/-- The pieces, each held whole at contents of its own, join to the set held at some contents. -/
theorem pointsTo_pieces_join [FloatOps F] {A B : Type} [Fintype A] [Fintype B] [DecidableEq A] [DecidableEq B] (K : A × B → Finset (Idx ℓ)) (U : Finset (Idx ℓ))
    (hd : ∀ p p', p ≠ p' → Disjoint (K p) (K p')) (hc : (Finset.univ : Finset (A × B)).biUnion K = U) :
    (bigSep Finset.univ fun a : A => bigSep Finset.univ fun b : B => iprop(∃ f, ℓ ↦[K (a, b)]{fullShare} f))
      ⊢ (iprop(∃ f, ℓ ↦[U]{fullShare} f) : sProp 𝕄) := by
  rw [← bigSep_univ_prod (fun p : A × B => (iprop(∃ f, ℓ ↦[K p]{fullShare} f) : sProp 𝕄))]
  refine (bigSep_exists_pi Finset.univ (fun p (f : Buf (Elt F) ℓ) => (ℓ ↦[K p]{fullShare} f : sProp 𝕄))).trans ?_
  iintro ⟨%fs, H⟩
  ihave H' := (pointsTo_biUnion_join Finset.univ K fs (Classical.arbitrary _) (fun p _ p' _ h => hd p p' h)) $$ H
  icases H' with ⟨%g, -, Hg⟩
  rw [hc]
  iexists g; iexact Hg

end Pieces

/-! ## A tile's slabs of the result, one per trip and slot: 16 · 8 slabs in its 128 -/

theorem trips_sixteen : k1_t1_loop.trips = 16 := by decide

theorem set_outSet (L : grid1.Coords) : outSet L = (outRect L).set := by
  show (outRect L).set.map (outV).view.emb = _
  exact Finset.map_refl

theorem set_outWin (L : grid1.Coords) (k : Fin k1_t1_loop.trips) (r : Fin 8) :
    (outWin L k (BitVec.ofNat 32 r.val) (k1_off12_inb L k r)).view.set
      = (Rect.unit (s := S4096x50x128) (k1_off12 L k (BitVec.ofNat 32 r.val)) S1x50x128.size (k1_off12_inb L k r)).set := by
  show (((outV).view.slice (Rect.unit (s := S4096x50x128) (k1_off12 L k (BitVec.ofNat 32 r.val)) S1x50x128.size (k1_off12_inb L k r))).reshape S50x128
      squeezes_S1x50x128_S50x128.numel_eq).set = _
  rw [View.set_reshape]
  exact View.set_slice_whole _ _

/-- The slab of trip `k`, slot `r` is position `256 · s + 128 · c + 8k + r`. -/
theorem mem_outWin (L : grid1.Coords) (k : Fin k1_t1_loop.trips) (r : Fin 8) (i : S4096x50x128.Idx) :
    i ∈ (outWin L k (BitVec.ofNat 32 r.val) (k1_off12_inb L k r)).view.set
      ↔ (i 0).val = 256 * (L 1).val + 128 * (L 0).val + 8 * k.val + r.val := by
  rw [set_outWin, Rect.mem_set_unit, k1_off12_eq]
  constructor
  · intro h
    have h0 : 256 * (L 1).val + 128 * (L 0).val + 8 * k.val + r.val ≤ (i 0).val ∧ (i 0).val < 256 * (L 1).val + 128 * (L 0).val + 8 * k.val + r.val + 1 := h 0
    omega
  · intro h a
    match a with
    | 0 => show 256 * (L 1).val + 128 * (L 0).val + 8 * k.val + r.val ≤ (i 0).val ∧ (i 0).val < 256 * (L 1).val + 128 * (L 0).val + 8 * k.val + r.val + 1; omega
    | 1 => have h1 : (i 1).val < 50 := (i 1).isLt; show 0 ≤ (i 1).val ∧ (i 1).val < 0 + 50; omega
    | 2 => have h2 : (i 2).val < 128 := (i 2).isLt; show 0 ≤ (i 2).val ∧ (i 2).val < 0 + 128; omega

/-- The tile's slabs are positions `[256 · s + 128 · c, + 128)`. -/
theorem mem_outSet (L : grid1.Coords) (i : S4096x50x128.Idx) :
    i ∈ outSet L ↔ 256 * (L 1).val + 128 * (L 0).val ≤ (i 0).val ∧ (i 0).val < 256 * (L 1).val + 128 * (L 0).val + 128 := by
  rw [set_outSet, Rect.mem_set_unit, k1_off13_eq]
  constructor
  · intro h; exact h 0
  · intro h a
    match a with
    | 0 => exact h
    | 1 => have h1 : (i 1).val < 50 := (i 1).isLt; show 0 ≤ (i 1).val ∧ (i 1).val < 0 + 50; omega
    | 2 => have h2 : (i 2).val < 128 := (i 2).isLt; show 0 ≤ (i 2).val ∧ (i 2).val < 0 + 128; omega

theorem outWin_disjoint (L : grid1.Coords) (p p' : Fin k1_t1_loop.trips × Fin 8) (h : p ≠ p') :
    Disjoint (outWin L p.1 (BitVec.ofNat 32 p.2.val) (k1_off12_inb L p.1 p.2)).view.set
      (outWin L p'.1 (BitVec.ofNat 32 p'.2.val) (k1_off12_inb L p'.1 p'.2)).view.set := by
  refine Finset.disjoint_left.2 fun i h1 h2 => h ?_
  have e1 := (mem_outWin L p.1 p.2 i).1 h1
  have e2 := (mem_outWin L p'.1 p'.2 i).1 h2
  have hr := p.2.isLt; have hr' := p'.2.isLt
  exact Prod.ext (Fin.ext (by omega)) (Fin.ext (by omega))

theorem outWin_cover (L : grid1.Coords) :
    (Finset.univ : Finset (Fin k1_t1_loop.trips × Fin 8)).biUnion
      (fun p => (outWin L p.1 (BitVec.ofNat 32 p.2.val) (k1_off12_inb L p.1 p.2)).view.set) = outSet L := by
  ext i
  rw [mem_outSet, Finset.mem_biUnion]
  constructor
  · rintro ⟨p, -, hp⟩
    have hp' := (mem_outWin L p.1 p.2 i).1 hp
    have hk : p.1.val < 16 := trips_sixteen ▸ p.1.isLt
    have hr := p.2.isLt
    omega
  · intro h
    have hk : ((i 0).val - (256 * (L 1).val + 128 * (L 0).val)) / 8 < k1_t1_loop.trips := by rw [trips_sixteen]; omega
    have hr : ((i 0).val - (256 * (L 1).val + 128 * (L 0).val)) % 8 < 8 := by omega
    refine ⟨(⟨_, hk⟩, ⟨_, hr⟩), Finset.mem_univ _, (mem_outWin L ⟨_, hk⟩ ⟨_, hr⟩ i).2 ?_⟩
    show (i 0).val = 256 * (L 1).val + 128 * (L 0).val + 8 * (((i 0).val - (256 * (L 1).val + 128 * (L 0).val)) / 8)
      + ((i 0).val - (256 * (L 1).val + 128 * (L 0).val)) % 8
    omega

/-- A tile's slabs of the result are its 16 · 8 single slabs, one per trip and slot. -/
theorem out_windows (d : Dev nD) (L : grid1.Coords) (q : PosShare TreeShare) (f : Buf (Elt F) (v10Loc d)) :
    (v10Loc d ↦[outSet L]{q} f : sProp 𝕄) = bigSep Finset.univ fun k : Fin k1_t1_loop.trips => bigSep Finset.univ fun r : Fin 8 =>
      v10Loc d ↦[(outWin L k (BitVec.ofNat 32 r.val) (k1_off12_inb L k r)).view.set]{q} f :=
  pointsTo_pieces (ℓ := v10Loc d) (fun p : Fin k1_t1_loop.trips × Fin 8 => (outWin L p.1 (BitVec.ofNat 32 p.2.val) (k1_off12_inb L p.1 p.2)).view.set)
    (outSet L) (outWin_disjoint L) (outWin_cover L) q f

/-- The single slabs, each at contents of its own, join to the tile's slabs at some contents. -/
theorem out_windows_join [FloatOps F] (d : Dev nD) (L : grid1.Coords) :
    (bigSep Finset.univ fun k : Fin k1_t1_loop.trips => bigSep Finset.univ fun r : Fin 8 =>
        iprop(∃ f, v10Loc d ↦[(outWin L k (BitVec.ofNat 32 r.val) (k1_off12_inb L k r)).view.set]{fullShare} f))
      ⊢ (iprop(∃ f, v10Loc d ↦[outSet L]{fullShare} f) : sProp 𝕄) :=
  pointsTo_pieces_join (ℓ := v10Loc d) (fun p : Fin k1_t1_loop.trips × Fin 8 => (outWin L p.1 (BitVec.ofNat 32 p.2.val) (k1_off12_inb L p.1 p.2)).view.set)
    (outSet L) (outWin_disjoint L) (outWin_cover L)

/-! ## The index array's rows and the result's slabs: 32 blocks of 128, tile `(c, s)` at `128 · (2s + c)` -/

theorem set_idxBlk (L : grid1.Coords) :
    (idxBlk L).view.set = (Rect.unit (s := S4096x50) (k1_off2 L) S128x50.size (k1_off2_inb L)).set := by
  show ((idxV).view.slice (Rect.unit (s := S4096x50) (k1_off2 L) S128x50.size (k1_off2_inb L))).set = _
  exact View.set_slice_whole _ _

/-- A tile's rows of the index array are rows `[256 · s + 128 · c, + 128)`. -/
theorem mem_idxBlk (L : grid1.Coords) (i : S4096x50.Idx) :
    i ∈ (idxBlk L).view.set ↔ 256 * (L 1).val + 128 * (L 0).val ≤ (i 0).val ∧ (i 0).val < 256 * (L 1).val + 128 * (L 0).val + 128 := by
  rw [set_idxBlk, Rect.mem_set_unit, k1_off2_eq]
  constructor
  · intro h; exact h 0
  · intro h a
    match a with
    | 0 => exact h
    | 1 => have h1 : (i 1).val < 50 := (i 1).isLt; show 0 ≤ (i 1).val ∧ (i 1).val < 0 + 50; omega

theorem idxBlk_disjoint (p p' : Fin (grid1.bound 0) × Fin (grid1.bound 1)) (h : p ≠ p') :
    Disjoint (idxBlk (coordsV p.1 p.2)).view.set (idxBlk (coordsV p'.1 p'.2)).view.set := by
  refine Finset.disjoint_left.2 fun i h1 h2 => h ?_
  have e1 : 256 * p.2.val + 128 * p.1.val ≤ (i 0).val ∧ (i 0).val < 256 * p.2.val + 128 * p.1.val + 128 := (mem_idxBlk (coordsV p.1 p.2) i).1 h1
  have e2 : 256 * p'.2.val + 128 * p'.1.val ≤ (i 0).val ∧ (i 0).val < 256 * p'.2.val + 128 * p'.1.val + 128 := (mem_idxBlk (coordsV p'.1 p'.2) i).1 h2
  have hc : p.1.val < 2 := p.1.isLt
  have hc' : p'.1.val < 2 := p'.1.isLt
  exact Prod.ext (Fin.ext (by omega)) (Fin.ext (by omega))

theorem idxBlk_cover :
    (Finset.univ : Finset (Fin (grid1.bound 0) × Fin (grid1.bound 1))).biUnion (fun p => (idxBlk (coordsV p.1 p.2)).view.set)
      = (Finset.univ : Finset S4096x50.Idx) := by
  ext i
  simp only [Finset.mem_univ, iff_true]
  rw [Finset.mem_biUnion]
  have hi : (i 0).val < 4096 := (i 0).isLt
  have hc : ((i 0).val / 128) % 2 < grid1.bound 0 := by show _ < 2; omega
  have hs : (i 0).val / 256 < grid1.bound 1 := by show _ < 16; omega
  refine ⟨(⟨_, hc⟩, ⟨_, hs⟩), Finset.mem_univ _, (mem_idxBlk (coordsV ⟨_, hc⟩ ⟨_, hs⟩) i).2 ?_⟩
  show 256 * ((i 0).val / 256) + 128 * (((i 0).val / 128) % 2) ≤ (i 0).val
    ∧ (i 0).val < 256 * ((i 0).val / 256) + 128 * (((i 0).val / 128) % 2) + 128
  omega

/-- The index array is the 32 blocks of rows the tiles address. -/
theorem idx_blocks (d : Dev nD) (q : PosShare TreeShare) (f : Buf (Elt F) (v8Loc d)) :
    (v8Loc d ↦{q} f : sProp 𝕄) = bigSep Finset.univ fun c : Fin (grid1.bound 0) => bigSep Finset.univ fun s : Fin (grid1.bound 1) =>
      v8Loc d ↦[(idxBlk (coordsV c s)).view.set]{q} f :=
  pointsTo_pieces (ℓ := v8Loc d) (fun p : Fin (grid1.bound 0) × Fin (grid1.bound 1) => (idxBlk (coordsV p.1 p.2)).view.set)
    Finset.univ idxBlk_disjoint idxBlk_cover q f

theorem outSet_disjoint (p p' : Fin (grid1.bound 0) × Fin (grid1.bound 1)) (h : p ≠ p') :
    Disjoint (outSet (coordsV p.1 p.2)) (outSet (coordsV p'.1 p'.2)) := by
  refine Finset.disjoint_left.2 fun i h1 h2 => h ?_
  have e1 : 256 * p.2.val + 128 * p.1.val ≤ (i 0).val ∧ (i 0).val < 256 * p.2.val + 128 * p.1.val + 128 := (mem_outSet (coordsV p.1 p.2) i).1 h1
  have e2 : 256 * p'.2.val + 128 * p'.1.val ≤ (i 0).val ∧ (i 0).val < 256 * p'.2.val + 128 * p'.1.val + 128 := (mem_outSet (coordsV p'.1 p'.2) i).1 h2
  have hc : p.1.val < 2 := p.1.isLt
  have hc' : p'.1.val < 2 := p'.1.isLt
  exact Prod.ext (Fin.ext (by omega)) (Fin.ext (by omega))

theorem outSet_cover :
    (Finset.univ : Finset (Fin (grid1.bound 0) × Fin (grid1.bound 1))).biUnion (fun p => outSet (coordsV p.1 p.2))
      = (Finset.univ : Finset S4096x50x128.Idx) := by
  ext i
  simp only [Finset.mem_univ, iff_true]
  rw [Finset.mem_biUnion]
  have hi : (i 0).val < 4096 := (i 0).isLt
  have hc : ((i 0).val / 128) % 2 < grid1.bound 0 := by show _ < 2; omega
  have hs : (i 0).val / 256 < grid1.bound 1 := by show _ < 16; omega
  refine ⟨(⟨_, hc⟩, ⟨_, hs⟩), Finset.mem_univ _, (mem_outSet (coordsV ⟨_, hc⟩ ⟨_, hs⟩) i).2 ?_⟩
  show 256 * ((i 0).val / 256) + 128 * (((i 0).val / 128) % 2) ≤ (i 0).val
    ∧ (i 0).val < 256 * ((i 0).val / 256) + 128 * (((i 0).val / 128) % 2) + 128
  omega

/-- The result is the 32 blocks of slabs the tiles address. -/
theorem out_blocks (d : Dev nD) (q : PosShare TreeShare) (f : Buf (Elt F) (v10Loc d)) :
    (v10Loc d ↦{q} f : sProp 𝕄) = bigSep Finset.univ fun c : Fin (grid1.bound 0) => bigSep Finset.univ fun s : Fin (grid1.bound 1) =>
      v10Loc d ↦[outSet (coordsV c s)]{q} f :=
  pointsTo_pieces (ℓ := v10Loc d) (fun p : Fin (grid1.bound 0) × Fin (grid1.bound 1) => outSet (coordsV p.1 p.2))
    Finset.univ outSet_disjoint outSet_cover q f

/-- The tiles' blocks of the result, each at contents of its own, join to the result at some contents. -/
theorem out_blocks_join [FloatOps F] (d : Dev nD) :
    (bigSep Finset.univ fun c : Fin (grid1.bound 0) => bigSep Finset.univ fun s : Fin (grid1.bound 1) =>
        iprop(∃ f, v10Loc d ↦[outSet (coordsV c s)]{fullShare} f))
      ⊢ (iprop(∃ f, v10Loc d ↦{fullShare} f) : sProp 𝕄) :=
  pointsTo_pieces_join (ℓ := v10Loc d) (fun p : Fin (grid1.bound 0) × Fin (grid1.bound 1) => outSet (coordsV p.1 p.2))
    Finset.univ outSet_disjoint outSet_cover

end Cert.KernelIdeal.Hand

end
-- ==== Proof.KI.Host.lean ====
/-
  The host lines of @main inside a weakest precondition. @main's fourteen lines before its two calls are twenty-four
  operations on whole buffers of the TensorCore (the two clamps are six operations each): run from the boundary and the
  TensorCore's unscoped buffers held whole at contents `V`, they end with the same buffers held at the operations'
  results composed over `V`. That composition leaves the index array `clamp c₀ · 64 + clamp c₁` of the coordinates and
  keeps the arguments, the combined table and the result untouched.
-/
import proofs.«205614_g54924041781483_cont_9to1_m_645_25_alg».proof.Proof.KI.Core
import proofs.«205614_g54924041781483_cont_9to1_m_645_25_alg».proof.Proof.KI.Terms

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The lines as one list of operations -/

/-- @main's lines before its two calls, operation by operation: column 0 of the coordinates, the bounds `0` and `63`, the
    clamp (six operations), the factor `64` laid over the shape, the product; column 1, the bounds, the clamp; the sum. -/
abbrev hostOps : List (HloOp τ sig (Elt F)) :=
  [ StableHlo.unary main_arg0 main_v0 ((extractStridedSlice S4096x50x1 ![0, 0, 0] · slices_S4096x50x2_S4096x50x1_0_0_0) : (⟨S4096x50x2, .i32⟩ : BufTy).Contents (Elt F) → (⟨S4096x50x1, .i32⟩ : BufTy).Contents (Elt F)),
    StableHlo.reshape main_v0 main_v1 rfl shapeCasts_S4096x50x1_S4096x50,
    StableHlo.nullary main_c (constantI S_ 32 0#32),
    StableHlo.nullary main_c_0 (constantI S_ 32 63#32),
    StableHlo.TRef.unary (.of main_c) main_call0.v0 id,
    StableHlo.TRef.unary main_call0.v0 main_call0.v1 (broadcastInDim S4096x50 ![] bcast_S_S4096x50),
    StableHlo.TRef.binary main_call0.v1 (.of main_v1) main_call0.v2 maxsi,
    StableHlo.TRef.unary (.of main_c_0) main_call0.v3 id,
    StableHlo.TRef.unary main_call0.v3 main_call0.v4 (broadcastInDim S4096x50 ![] bcast_S_S4096x50),
    StableHlo.TRef.binary main_call0.v4 main_call0.v2 main_call0.v5 minsi,
    StableHlo.nullary main_c_1 (constantI S_ 32 64#32),
    StableHlo.unary main_c_1 main_v3 (broadcastInDim S4096x50 ![] bcast_S_S4096x50 : (⟨S_, .i32⟩ : BufTy).Contents (Elt F) → (⟨S4096x50, .i32⟩ : BufTy).Contents (Elt F)),
    StableHlo.binary main_v2 main_v3 main_v4 (muli : (⟨S4096x50, .i32⟩ : BufTy).Contents (Elt F) → (⟨S4096x50, .i32⟩ : BufTy).Contents (Elt F) → (⟨S4096x50, .i32⟩ : BufTy).Contents (Elt F)),
    StableHlo.unary main_arg0 main_v5 ((extractStridedSlice S4096x50x1 ![0, 0, 1] · slices_S4096x50x2_S4096x50x1_0_0_1) : (⟨S4096x50x2, .i32⟩ : BufTy).Contents (Elt F) → (⟨S4096x50x1, .i32⟩ : BufTy).Contents (Elt F)),
    StableHlo.reshape main_v5 main_v6 rfl shapeCasts_S4096x50x1_S4096x50,
    StableHlo.nullary main_c_2 (constantI S_ 32 0#32),
    StableHlo.nullary main_c_3 (constantI S_ 32 63#32),
    StableHlo.TRef.unary (.of main_c_2) main_call1.v0 id,
    StableHlo.TRef.unary main_call1.v0 main_call1.v1 (broadcastInDim S4096x50 ![] bcast_S_S4096x50),
    StableHlo.TRef.binary main_call1.v1 (.of main_v6) main_call1.v2 maxsi,
    StableHlo.TRef.unary (.of main_c_3) main_call1.v3 id,
    StableHlo.TRef.unary main_call1.v3 main_call1.v4 (broadcastInDim S4096x50 ![] bcast_S_S4096x50),
    StableHlo.TRef.binary main_call1.v4 main_call1.v2 main_call1.v5 minsi,
    StableHlo.binary main_v4 main_v7 main_v8 (addi : (⟨S4096x50, .i32⟩ : BufTy).Contents (Elt F) → (⟨S4096x50, .i32⟩ : BufTy).Contents (Elt F) → (⟨S4096x50, .i32⟩ : BufTy).Contents (Elt F)) ]

/-- What follows the lines: the first call, the SparseCore call started, run and waited for, and the return. -/
def mainTail (d : Dev nD) : Prog (TpuEff nD τ sig (Elt F) (SparseCore.Sig (Pipeline.Sig Λ₀ (Fin 1) fun p => (pcfgs (F := F) p).Adm) 1) .tc) PUnit := do
  Prog.lift (.customCall (SparseCore.inner (Pipeline.entry 0)) ())
  sc.run d 0
  pure ⟨⟩

/-- @main is that line of operations, then the two calls: the clamps unfolded at their calls, the sequencing
    reassociated. -/
theorem main_eq (d : Dev nD) : main (F := F) d = (StableHlo.seq hostOps >>= fun _ => mainTail d) := by
  simp only [main, fn_clip.body, mainTail, StableHlo.seq, bind_assoc, pure_bind]

/-! ## The buffers held -/

/-- The TensorCore's unscoped buffers, as device buffers: @main's tensor values. -/
def hostS : Finset (DevRef τ sig) :=
  (Finset.univ.filter fun b : Ref sig .tc => ¬ b.isScoped).map ⟨Proc.devRef (sig := sig) (.tc : Proc τ), Proc.devRef_injective _⟩

theorem devRef_mem_hostS {r : Ref sig .tc} (h : r.isScoped = false) : Proc.devRef (τ := τ) .tc r ∈ hostS :=
  Finset.mem_map_of_mem _ (Finset.mem_filter.2 ⟨Finset.mem_univ _, by simp [h]⟩)

/-- An operation on TensorCore references touches only buffers of that set: it touches no scoped buffer. -/
theorem bufs_sub_hostS {op : HloOp τ sig (Elt F)} (h : op.bufs ⊆ StableHlo.tcRefs τ sig) : op.bufs ⊆ hostS := by
  intro b hb
  obtain ⟨r, -, rfl⟩ := Finset.mem_map.1 (h hb)
  exact devRef_mem_hostS (show r.isScoped = false from op.no_scoped _ hb)

/-- What the launch deals the TensorCore of its unscoped buffers is that set held at the launch's contents. -/
theorem unscopedBufs_held (d : Dev nD) (m : (ℓ : Loc nD τ sig) → Buf (Elt F) ℓ) :
    (unscopedBufs d (fun b => m ((SparseCore.T d).loc b)) : sProp 𝕄)
      = StableHlo.held (SparseCore.T d) hostS (StableHlo.launchContents m d) := by
  unfold unscopedBufs StableHlo.held hostS
  rw [bigSep_map]; rfl

theorem hostOps_tc : (hostOps : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.reshape_bufs_sub ..,
    StableHlo.nullary_bufs_sub .., StableHlo.nullary_bufs_sub ..,
    StableHlo.unary_bufs_sub .., StableHlo.unary_bufs_sub .., StableHlo.binary_bufs_sub .., StableHlo.unary_bufs_sub .., StableHlo.unary_bufs_sub .., StableHlo.binary_bufs_sub ..,
    StableHlo.binary_bufs_sub ..⟩

theorem hostOps_sub : ∀ op ∈ (hostOps : List (HloOp τ sig (Elt F))), op.bufs ⊆ hostS :=
  fun op hop => bufs_sub_hostS (List.forall_iff_forall_mem.1 hostOps_tc op hop)

theorem hostOps_fresh : ∀ op ∈ (hostOps : List (HloOp τ sig (Elt F))), op.fresh = ∅ := by
  intro _ h; (repeat (cases h with | head => rfl | tail _ h => ?_)); exact nomatch h

/-- The contents after the lines: the operations' results composed, in order. -/
def hostAfter (V : Valuation τ sig (Elt F)) : Valuation τ sig (Elt F) := StableHlo.after hostOps V

/-! ## The lines inside a weakest precondition -/

set_option backward.isDefEq.respectTransparency.types false in
/-- From the boundary and the unscoped buffers held at `V`, @main runs its lines and then what follows them with the
    boundary back and the buffers held at the results composed over `V`. -/
theorem wp_host_block (d : Dev nD) (V : Valuation τ sig (Elt F)) (Φ : PUnit → sProp 𝕄) :
    iprop(boundary (SparseCore.T d) ∗ StableHlo.held (SparseCore.T d) hostS V
        ∗ ((boundary (SparseCore.T d) ∗ StableHlo.held (SparseCore.T d) hostS (hostAfter V)) -∗
            wp frame (wpE ((K (F := F)).defs (D (F := F))) 𝒱 (SparseCore.T d) none) Set.univ (mainTail d) Φ))
      ⊢ wp frame (wpE ((K (F := F)).defs (D (F := F))) 𝒱 (SparseCore.T d) none) Set.univ (main d) Φ := by
  rw [main_eq]
  iintro ⟨Hb, Hh, Hk⟩
  iapply (StableHlo.wp_seq 𝒱 none Set.univ d hostS (fun _ => mainTail d) hostOps hostOps_sub hostOps_fresh V) $$ [Hb Hh]
  · isplitl [Hb]; · iexact Hb
    iexact Hh
  iexact Hk

/-! ## What the lines leave -/

set_option maxRecDepth 8192 in
/-- The lines leave in the index array's buffer the index array of the coordinates: the fold unrolled, each operation's
    result read at its own buffer, the typed references' casts the identity at these literal references. -/
theorem hostAfter_v8 (V : Valuation τ sig (Elt F)) :
    hostAfter V (Proc.devRef .tc main_v8) = idxTerm (V (Proc.devRef .tc main_arg0)) := by
  unfold hostAfter
  simp only [StableHlo.after_cons, StableHlo.after_nil]
  rfl

theorem hostAfter_arg0 (V : Valuation τ sig (Elt F)) : hostAfter V (Proc.devRef .tc main_arg0) = V (Proc.devRef .tc main_arg0) := by
  unfold hostAfter
  simp only [StableHlo.after_cons, StableHlo.after_nil]
  rfl
theorem hostAfter_arg1 (V : Valuation τ sig (Elt F)) : hostAfter V (Proc.devRef .tc main_arg1) = V (Proc.devRef .tc main_arg1) := by
  unfold hostAfter
  simp only [StableHlo.after_cons, StableHlo.after_nil]
  rfl
theorem hostAfter_arg2 (V : Valuation τ sig (Elt F)) : hostAfter V (Proc.devRef .tc main_arg2) = V (Proc.devRef .tc main_arg2) := by
  unfold hostAfter
  simp only [StableHlo.after_cons, StableHlo.after_nil]
  rfl
theorem hostAfter_v9 (V : Valuation τ sig (Elt F)) : hostAfter V (Proc.devRef .tc main_v9) = V (Proc.devRef .tc main_v9) := by
  unfold hostAfter
  simp only [StableHlo.after_cons, StableHlo.after_nil]
  rfl
theorem hostAfter_v10 (V : Valuation τ sig (Elt F)) : hostAfter V (Proc.devRef .tc main_v10) = V (Proc.devRef .tc main_v10) := by
  unfold hostAfter
  simp only [StableHlo.after_cons, StableHlo.after_nil]
  rfl

/-! ## The held set opened at the buffers used afterwards -/

/-- The arguments, the index array, the combined table and the result. -/
abbrev keptRefs : Finset (Ref sig .tc) := {main_arg0, main_arg1, main_arg2, main_v8, main_v9, main_v10}
/-- The same, as device buffers. -/
def hostKept : Finset (DevRef τ sig) := keptRefs.map ⟨Proc.devRef (sig := sig) (.tc : Proc τ), Proc.devRef_injective _⟩

theorem hostKept_sub : (hostKept : Finset (DevRef τ sig)) ⊆ hostS :=
  Finset.map_subset_map.2 (by decide)

theorem sep_assoc_eq (P Q R : sProp 𝕄) : (iprop((P ∗ Q) ∗ R) : sProp 𝕄) = iprop(P ∗ Q ∗ R) :=
  Entails.antisymm Idealize.SL.BI.sep_assoc Idealize.SL.BI.sep_assoc'

/-- The six buffers held are each held. -/
theorem held_kept (d : Dev nD) (V : Valuation τ sig (Elt F)) :
    (StableHlo.held (SparseCore.T d) hostKept V : sProp 𝕄)
      = iprop(((SparseCore.T d).loc main_arg0 ↦{fullShare} V (Proc.devRef .tc main_arg0))
          ∗ ((SparseCore.T d).loc main_arg1 ↦{fullShare} V (Proc.devRef .tc main_arg1))
          ∗ ((SparseCore.T d).loc main_arg2 ↦{fullShare} V (Proc.devRef .tc main_arg2))
          ∗ ((SparseCore.T d).loc main_v8 ↦{fullShare} V (Proc.devRef .tc main_v8))
          ∗ ((SparseCore.T d).loc main_v9 ↦{fullShare} V (Proc.devRef .tc main_v9))
          ∗ ((SparseCore.T d).loc main_v10 ↦{fullShare} V (Proc.devRef .tc main_v10))) := by
  unfold StableHlo.held hostKept keptRefs
  rw [bigSep_map, SparseCore.bigSep_insert' (by decide), SparseCore.bigSep_insert' (by decide), SparseCore.bigSep_insert' (by decide),
    SparseCore.bigSep_insert' (by decide), SparseCore.bigSep_insert' (by decide), bigSep_singleton]
  rfl

/-- The unscoped buffers held are the six used afterwards, each held, and the rest. -/
theorem held_open (d : Dev nD) (V : Valuation τ sig (Elt F)) :
    (StableHlo.held (SparseCore.T d) hostS V : sProp 𝕄)
      = iprop(((SparseCore.T d).loc main_arg0 ↦{fullShare} V (Proc.devRef .tc main_arg0))
          ∗ ((SparseCore.T d).loc main_arg1 ↦{fullShare} V (Proc.devRef .tc main_arg1))
          ∗ ((SparseCore.T d).loc main_arg2 ↦{fullShare} V (Proc.devRef .tc main_arg2))
          ∗ ((SparseCore.T d).loc main_v8 ↦{fullShare} V (Proc.devRef .tc main_v8))
          ∗ ((SparseCore.T d).loc main_v9 ↦{fullShare} V (Proc.devRef .tc main_v9))
          ∗ ((SparseCore.T d).loc main_v10 ↦{fullShare} V (Proc.devRef .tc main_v10))
          ∗ StableHlo.held (SparseCore.T d) (hostS \ hostKept) V) := by
  rw [StableHlo.held_sub_split (SparseCore.T d) hostKept_sub V, held_kept]
  simp only [sep_assoc_eq]

end Cert.KernelIdeal.Hand

end
-- ==== Proof.KI.RegionBody.lean ====
/-
  The first call's body, run once on whole staging buffers: it loads the two tables, forms the two one-hot products and
  stores them side by side, so the result buffer ends at the two stores' payloads laid over one another.
-/
import proofs.«205614_g54924041781483_cont_9to1_m_645_25_alg».proof.Proof.KI.Core
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses -/

/-- A whole table. -/
abbrev rTab : Rect S64x64 := Rect.unit (s := S64x64) ![0, 0] S64x64.size inb_S64x64_S64x64_0_0
/-- Columns `[0, 64)` of the result buffer: the first store's rectangle. -/
abbrev rLeft : Rect S4096x128 := Rect.unit (s := S4096x128) ![0, 0] S4096x64.size inb_S4096x128_S4096x64_0_0
/-- Columns `[64, 128)`: the second store's. -/
abbrev rRight : Rect S4096x128 := Rect.unit (s := S4096x128) ![0, 64] S4096x64.size inb_S4096x128_S4096x64_0_64

/-! ## What the body leaves in the result buffer -/

/-- The result buffer after the body, from the two tables as loaded: its two stores as pieces, last first. -/
def combBuf (x0 x1 : Vec F S64x64 .f32) : Vec F S4096x128 .f32 :=
  View.canon [⟨rRight, k0_pay2 k0_pay4 (View.ld x1 rTab)⟩, ⟨rLeft, k0_pay1 (k0_pay3 (F := F)) (View.ld x0 rTab)⟩]

/-- The two halves tile the buffer, so they cover it. -/
theorem combCover (p1 p0 : Vec F S4096x64 .f32) (y : S4096x128.Idx) :
    ∃ pc ∈ ([⟨rRight, p1⟩, ⟨rLeft, p0⟩] : List (View.Piece (Elt F) S4096x128 .f32)), y ∈ pc.1.set :=
  View.cover_of_tiled [⟨rRight, p1⟩, ⟨rLeft, p0⟩] S4096x64.size (by rfl) y

/-! ## The body's triple -/

set_option maxHeartbeats 1000000 in
/-- The body on whole staging memrefs, the tables' at read contents `x0`, `x1` and the result's at anything, runs to the
    continuation holding the tables' as they were and the result's at `combBuf x0 x1`. -/
theorem sound_comb (c : Dev nD) (E : Set ℕ) (arg0 : Memref sig .tc .vmem S64x64 .f32) (harg0 : arg0.IsWhole)
    (arg1 : Memref sig .tc .vmem S64x64 .f32) (harg1 : arg1.IsWhole) (arg2 : Memref sig .tc .vmem S4096x128 .f32) (harg2 : arg2.IsWhole)
    (x0 x1 : Vec F S64x64 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (combBuf x0 x1)) -∗ Kc ⟨⟩))
      ⊢ wp frame (wpE (defs₀ (F := F)) Variants.none c none) E (cc0__comb_body arg0 harg0 arg1 harg1 arg2 harg2) Kc := by
  simp only [cc0__comb_body_eq_skeleton]; unfold cc0__comb_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combCover _ _)

end Cert.KernelIdeal.Hand

end
-- ==== Proof.KI.RegionData.lean ====
/-
  The first call's proof data: both tables and the result's array behind whole windows, each table's staging buffer at the
  table when the body runs, the result's at the two stores' canon after it — which is the combined table, index by index —,
  the core owing the same tallies throughout; the body obligation from the body's triple; the arrays after the region.
-/
import proofs.«205614_g54924041781483_cont_9to1_m_645_25_alg».proof.Proof.KI.RegionBody
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's proof data -/

/-- No prefetched table. -/
abbrev adm : (p : Fin 1) → (pcfgs (F := F) p).Adm := fun p => (cfgs p).toPCfg_adm

section Data

variable (a1 a2 : FVec F S64x64 .f32) (f : FVec F S4096x128 .f32) (O : CellTallies nD τ sig (HIx 1)) (b : ℕ)

/-- The windows' arrays as the region finds them: the two tables and the result's buffer. -/
def arr (c : Dev nD) (w : Fin cfg0.W) : Buf (Elt F) ((cfg0.win w).arr.view.loc (c : Thread nD τ)) :=
  match w with
  | ⟨0, _⟩ => a1
  | ⟨1, _⟩ => a2
  | ⟨2, _⟩ => f

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (arr a1 a2 f c w)

/-- The proof data on core `c`: the arrays as found; after the body each table's buffer at its block and the result's at
    the two stores' canon; no invariant (the core has no scoped buffer but the staging buffers); the core owing `O` throughout, its recorded pairs at level at
    most `b`; full shares. -/
def dats (_ : Fin 1) (c : Dev nD) : Dat τ (Elt F) (HIx 1) ℕ UU ℕ cfg0 c where
  A w := arr a1 a2 f c w
  after w t := match w with
    | ⟨0, _⟩ => iblk a1 a2 f c 0 t
    | ⟨1, _⟩ => iblk a1 a2 f c 1 t
    | ⟨2, _⟩ => combBuf (iblk a1 a2 f c 0 t) (iblk a1 a2 f c 1 t)
  Φ _ := iprop(emp)
  q _ := fullShare
  owed _ := O
  recorded _ := {p | (K (F := F)).lev ((c : Thread nD τ), p.1) p.2 ≤ b}

theorem A_eq (c : Dev nD) (w : Fin cfg0.W) : (dats a1 a2 f O b 0 c).A w = arr a1 a2 f c w := by dsimp only [dats]
theorem after0_0 (c : Dev nD) (t : Fin cfg0.N) : (dats a1 a2 f O b 0 c).after 0 t = iblk a1 a2 f c 0 t := by dsimp only [dats]
theorem after0_1 (c : Dev nD) (t : Fin cfg0.N) : (dats a1 a2 f O b 0 c).after 1 t = iblk a1 a2 f c 1 t := by dsimp only [dats]
theorem after0_2 (c : Dev nD) (t : Fin cfg0.N) :
    (dats a1 a2 f O b 0 c).after 2 t = combBuf (iblk a1 a2 f c 0 t) (iblk a1 a2 f c 1 t) := by dsimp only [dats]

/-- Each table's staging buffer holds its block when the body runs. -/
theorem before0_0 (c : Dev nD) (t : Fin cfg0.N) (d) : (dats a1 a2 f O b 0 c).before 0 t d = iblk a1 a2 f c 0 t :=
  ((dats a1 a2 f O b 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats a1 a2 f O b 0 c).before 1 t d = iblk a1 a2 f c 1 t :=
  ((dats a1 a2 f O b 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats a1 a2 f O b 0 c).Φ t.castSucc ∗ (dats a1 a2 f O b 0 c).owesAt none t.castSucc
    ∗ (∃ d, owns (c : Thread nD τ) (st0_0 t) fullShare ((dats a1 a2 f O b 0 c).before 0 t d))
    ∗ (∃ d, owns (c : Thread nD τ) (st0_1 t) fullShare ((dats a1 a2 f O b 0 c).before 1 t d))
    ∗ (∃ d, owns (c : Thread nD τ) (st0_2 t) fullShare ((dats a1 a2 f O b 0 c).before 2 t d)))

def bodyPost (c : Dev nD) (t : Fin cfg0.N) : sProp 𝕄 :=
  iprop((dats a1 a2 f O b 0 c).Φ t.succ ∗ (dats a1 a2 f O b 0 c).owesAt none t.succ
    ∗ owns (c : Thread nD τ) (st0_0 t) fullShare ((dats a1 a2 f O b 0 c).after 0 t)
    ∗ owns (c : Thread nD τ) (st0_1 t) fullShare ((dats a1 a2 f O b 0 c).after 1 t)
    ∗ owns (c : Thread nD τ) (st0_2 t) fullShare ((dats a1 a2 f O b 0 c).after 2 t))

/-- The body at the point: the tables' buffers hold their blocks, so the body's triple applies; the invariant and what the
    core owes pass through unread. -/
theorem sound_body (c : Dev nD) (t : Fin cfg0.N) :
    bodyPre a1 a2 f O b c t ⊢ wp frame (wpE (defs₀ (F := F)) Variants.none c none) Set.univ (bodyAt0 t) (fun _ => bodyPost a1 a2 f O b c t) := by
  unfold bodyPre bodyPost bodyAt0
  simp only [before0_0, before0_1]
  rw [show (dats a1 a2 f O b 0 c).Φ t.succ = (dats a1 a2 f O b 0 c).Φ t.castSucc from rfl,
    show (dats a1 a2 f O b 0 c).owesAt none t.succ = (dats a1 a2 f O b 0 c).owesAt none t.castSucc from rfl,
    after0_0, after0_1, after0_2]
  iintro ⟨HΦ, Ho, ⟨%d0, H0⟩, ⟨%d1, H1⟩, ⟨%d2, H2⟩⟩
  iapply (sound_comb c Set.univ _ _ _ _ _ _ (iblk a1 a2 f c 0 t) (iblk a1 a2 f c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats a1 a2 f O b 0 c) (defs₀ (F := F)) Variants.none none Set.univ := fun t => by
  rw [bigSep_W0, bigSep_W0]
  exact sound_body a1 a2 f O b c t

end Data

section Value

variable (a1 a2 : FVec F S64x64 .f32) (f : FVec F S4096x128 .f32) (O : CellTallies nD τ sig (HIx 1)) (b : ℕ)

theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- A whole window's block is its array. -/
theorem iblk0 (c : Dev nD) (t : Fin cfg0.N) : iblk a1 a2 f c 0 t = a1 := by
  obtain ⟨e0, e1, -⟩ := idx_facts t
  funext y
  show a1 (((cfg0.win 0).blk t).view.emb y) = a1 y
  congr 1
  funext a; apply Fin.ext
  match a with
  | ⟨0, _⟩ => show win0_0.index t (0 : Fin 2) * 64 + 1 * (y 0).val = (y 0).val; omega
  | ⟨1, _⟩ => show win0_0.index t (1 : Fin 2) * 64 + 1 * (y 1).val = (y 1).val; omega

theorem iblk1 (c : Dev nD) (t : Fin cfg0.N) : iblk a1 a2 f c 1 t = a2 := by
  obtain ⟨-, -, e0, e1, -⟩ := idx_facts t
  funext y
  show a2 (((cfg0.win 1).blk t).view.emb y) = a2 y
  congr 1
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem hzTab : (![0, 0] : Fin 2 → Nat) = fun _ => 0 := funext fun a => by fin_cases a <;> rfl

/-- The two stores' canon is the combined table: the first store's payload on columns `[0, 64)`, the second's beyond. -/
theorem combBuf_eq (x0 x1 : Vec F S64x64 .f32) : combBuf x0 x1 = combF x0 x1 := by
  funext i
  unfold combBuf
  simp only [View.ld_unit_zero (S := S64x64) hzTab]
  refine View.canon_apply_of_pieces (combF x0 x1) _ ?_ i (combCover _ _ i)
  intro p hp x
  simp only [List.mem_cons, List.mem_nil_iff, or_false] at hp
  rcases hp with rfl | rfl
  · show k0_pay2 k0_pay4 x1 x = combF x0 x1 (rRight.emb x)
    unfold combF
    have h0 : ((rRight.emb x) 0 : Nat) = 0 + 1 * (x 0).val := rfl
    have h1 : ((rRight.emb x) 1 : Nat) = 64 + 1 * (x 1).val := rfl
    rw [dif_neg (by omega)]
    congr 1
    funext a
    match a with
    | ⟨0, _⟩ => exact Fin.ext (by show (x 0).val = ((rRight.emb x) 0 : Nat); omega)
    | ⟨1, _⟩ => exact Fin.ext (by show (x 1).val = ((rRight.emb x) 1 : Nat) - 64; omega)
  · show k0_pay1 (k0_pay3 (F := F)) x0 x = combF x0 x1 (rLeft.emb x)
    unfold combF
    have h0 : ((rLeft.emb x) 0 : Nat) = 0 + 1 * (x 0).val := rfl
    have h1 : ((rLeft.emb x) 1 : Nat) = 0 + 1 * (x 1).val := rfl
    have hx : (x 1).val < 64 := (x 1).isLt
    rw [dif_pos (by omega)]
    congr 1
    funext a
    match a with
    | ⟨0, _⟩ => exact Fin.ext (by show (x 0).val = ((rLeft.emb x) 0 : Nat); omega)
    | ⟨1, _⟩ => exact Fin.ext (by show (x 1).val = ((rLeft.emb x) 1 : Nat); omega)

end Value

section Final

variable (a1 a2 : FVec F S64x64 .f32) (f : FVec F S4096x128 .f32) (O : CellTallies nD τ sig (HIx 1)) (b : ℕ)

theorem share_full (c : Dev nD) (w : Fin cfg0.W) : (dats a1 a2 f O b 0 c).share w = fullShare :=
  (dats a1 a2 f O b 0 c).share_full (fun _ => rfl) w

/-- What the one point writes back is the combined table, read through the whole window. -/
theorem flushed2_eq (c : Dev nD) (t : Fin cfg0.N) :
    (dats a1 a2 f O b 0 c).flushed 2 t = ((cfg0.win 2).blk t).view.read (Elt F) (combF a1 a2) := by
  show (cfg0.win 2).cut (grid0.coords t) ((dats a1 a2 f O b 0 c).after 2 t) = _
  rw [after0_2, iblk0, iblk1, combBuf_eq]
  obtain ⟨-, -, -, -, e0, e1⟩ := idx_facts t
  funext j
  show combF a1 a2 j = combF a1 a2 (((cfg0.win 2).blk t).view.emb j)
  congr 1
  funext a; apply Fin.ext
  match a with
  | ⟨0, _⟩ => show (j 0).val = win0_2.index t (0 : Fin 2) * 4096 + 1 * (j 0).val; omega
  | ⟨1, _⟩ => show (j 1).val = win0_2.index t (1 : Fin 2) * 128 + 1 * (j 1).val; omega

theorem mem_blk2 (t : Fin cfg0.N) (i : S4096x128.Idx) : i ∈ ((cfg0.win 2).blk t).view.set := by
  obtain ⟨-, -, -, -, e0, e1⟩ := idx_facts t
  show i ∈ ((View.whole main_v9).slice (win0_2.rect t)).set
  rw [View.set_slice_whole, Rect.mem_set_unit]
  intro a
  have h0 : (i 0).val < 4096 := (i 0).isLt
  have h1 : (i 1).val < 128 := (i 1).isLt
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The result's array after the region: the combined table. -/
theorem final2 (c : Dev nD) : (dats a1 a2 f O b 0 c).arrAt 2 cfg0.N = combF a1 a2 :=
  (dats a1 a2 f O b 0 c).arrAt_eq_of_cover 2 _ (fun t _ => flushed2_eq a1 a2 f O b c t) (fun i => ⟨t0_0, flush0_2 t0_0, mem_blk2 t0_0 i⟩)
theorem final0 (c : Dev nD) : (dats a1 a2 f O b 0 c).arrAt 0 cfg0.N = a1 := (dats a1 a2 f O b 0 c).arrAt_in 0 rfl _
theorem final1 (c : Dev nD) : (dats a1 a2 f O b 0 c).arrAt 1 cfg0.N = a2 := (dats a1 a2 f O b 0 c).arrAt_in 1 rfl _

end Final

end Cert.KernelIdeal.Hand

end
-- ==== Proof.KI.Region.lean ====
/-
  The first call's region, entered and left: the library's record of a region over the call's proof data — the launch's
  layout, no semaphore of its own, the waits' evidence from the level facts —, the call in the pipeline's own program, and
  the same call lifted into the whole program, the core owing what it owes throughout.
-/
import proofs.«205614_g54924041781483_cont_9to1_m_645_25_alg».proof.Proof.KI.RegionData
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region, entered and left -/

/-- What the TensorCore owes, as it holds it between two calls: the tallies `O`, every recorded pair at level at
    most `b`. -/
abbrev owesBelow (d : Dev nD) (O : CellTallies nD τ sig (HIx 1)) (b : ℕ) : sProp 𝕄 :=
  iprop(∃ W, ⌜(K (F := F)).WBelow (SparseCore.T d) W b⌝ ∗ owes (SparseCore.T d) O W)

/-- The two tables and the result's array at contents. -/
abbrev arrsAt (c : Dev nD) (x1 x2 : FVec F S64x64 .f32) (y : FVec F S4096x128 .f32) : sProp 𝕄 :=
  iprop(((c : Thread nD τ).loc main_arg1 ↦{fullShare} x1) ∗ ((c : Thread nD τ).loc main_arg2 ↦{fullShare} x2)
    ∗ ((c : Thread nD τ).loc main_v9 ↦{fullShare} y))

section Region

variable (lv : GSem nD τ sig → HIx 1 → ℕ) (hlv : (K (F := F)).Refines lv)
  (a1 a2 : FVec F S64x64 .f32) (f : FVec F S4096x128 .f32) (O : CellTallies nD τ sig (HIx 1)) (hO : ∀ g, O g none = 0) (b : ℕ)

set_option backward.isDefEq.respectTransparency.types false in
/-- The region as the library's record: the launch's layout, no semaphore of its own, the body obligation, the waits'
    evidence from the level facts (the core owes nothing at the staging cells' index); entered from the three arrays and
    what the core owes, left with the result's array at the combined table. -/
def reg0 : Pipeline.RegionSeg (pcfgs (F := F)) adm (dats a1 a2 f O b) none defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation a1 a2 f O b c).loose
  hwaits c := Pipeline.cellsWaits_intro cfgs (dats a1 a2 f O b) none 0 c fun w s t => (K (F := F)).mayWait_none _ hO lv hlv
  pre c := iprop(arrsAt c a1 a2 f ∗ owesBelow c O b)
  post c := iprop(arrsAt c a1 a2 (combF a1 a2) ∗ owesBelow c O b)
  X _ := iprop(emp)
  Y _ := iprop(emp)
  Z _ := iprop(emp)
  hentry c := by
    rw [Pipeline.arrays_eq cfgs (dats a1 a2 f O b) 0 c launch0.arr_whole (share_full a1 a2 f O b c), bigSep_W0]
    iintro ⟨⟨⟨H1, H2, H9⟩, HO⟩, -, -⟩
    imodintro
    isplitl [H1 H2 H9]
    · isplitl [H1]; · iexact H1
      isplitl [H2]; · iexact H2
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr <;> iempintro
  hin c := by
    rw [show (dats a1 a2 f O b 0 c).Φ 0 = iprop(emp) from rfl]
    iintro -; iempintro
  hout c := by
    rw [Pipeline.ownSems0_none,
      show (Pipeline.scopedRest (Ix := HIx 1) (Name := ℕ) (U := UU) (Lvl := ℕ) (Val := Elt F) (Pipeline.pin (pcfgs (F := F)) adm 0).spec c : sProp 𝕄)
        = BI.emp from scopedRest0_eq c]
    iintro -
    isplitr; · iempintro
    isplitr <;> iempintro
  hexit c := by
    rw [Pipeline.arrays_eq cfgs (dats a1 a2 f O b) 0 c launch0.arr_whole (share_full a1 a2 f O b c), bigSep_W0,
      final0, final1, final2]
    iintro ⟨⟨H1, H2, H9⟩, HO, -, -⟩
    imodintro
    isplitl [H1 H2 H9]
    · isplitl [H1]; · iexact H1
      isplitl [H2]; · iexact H2
      iexact H9
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · show (K (F := F)).lev _ none ≤ b
        rw [SparseCore.Cfg.lev_none]; exact Nat.zero_le _
    iexact HO

include hlv hO in
set_option maxHeartbeats 1000000 in
set_option backward.isDefEq.respectTransparency.types false in
/-- The call in the pipeline's own program: from the level facts, the staging cells' launch ghost state and duty tokens,
    the region boundary, the two tables, the result's array at anything and what the core owes, it runs to the boundary,
    the tables unchanged, the result's array at the combined table, the core owing what it owed. -/
theorem wp_entry (d : Dev nD) (Φ : PUnit → sProp 𝕄) :
    iprop(levAts (K (F := F)).L lv
        ∗ Pipeline.cellsGhost cfgs EP 0 d ∗ Pipeline.toksInit cfgs EP 0 d
        ∗ boundary (SparseCore.T d)
        ∗ ((SparseCore.T d : Thread nD τ).loc main_arg1 ↦{fullShare} a1)
        ∗ ((SparseCore.T d : Thread nD τ).loc main_arg2 ↦{fullShare} a2)
        ∗ ((SparseCore.T d : Thread nD τ).loc main_v9 ↦{fullShare} f)
        ∗ owesBelow d O b
        ∗ (iprop(boundary (SparseCore.T d)
            ∗ ((SparseCore.T d : Thread nD τ).loc main_arg1 ↦{fullShare} a1)
            ∗ ((SparseCore.T d : Thread nD τ).loc main_arg2 ↦{fullShare} a2)
            ∗ ((SparseCore.T d : Thread nD τ).loc main_v9 ↦{fullShare} combF a1 a2)
            ∗ owesBelow d O b) -∗ Φ ⟨⟩))
      ⊢ wp frame (wpE (D (F := F)) 𝒱 (SparseCore.T d) none) Set.univ
          (Prog.lift (.customCall (Pipeline.entry 0) ()) : Prog (TpuEff nD τ sig (Elt F) (ΛP (F := F)) .tc) PUnit) Φ := by
  have hR := Pipeline.RegionSeg.wp (pcfgs (F := F)) adm (dats a1 a2 f O b) none cellOf_inj EP defs₀ 𝒱₀ (K (F := F)).L lv
    (reg0 lv hlv a1 a2 f O hO b) d none (fun u hu => nomatch hu) (fun _ => .ret ⟨⟩) Φ
  rw [show (reg0 lv hlv a1 a2 f O hO b).pre d = iprop(arrsAt d a1 a2 f ∗ owesBelow d O b) from rfl,
    show (reg0 lv hlv a1 a2 f O hO b).post d = iprop(arrsAt d a1 a2 (combF a1 a2) ∗ owesBelow d O b) from rfl] at hR
  refine BIBase.Entails.trans ?_ hR
  iintro ⟨Hlev, Hg, Ht, Hb, H1, H2, H9, HO, Hk⟩
  isplitl [Hk]
  · iintro ⟨Hb, ⟨H1, H2, H9⟩, HO⟩
    rw [wp_ret]
    imodintro
    iapply Hk
    isplitl [Hb]; · iexact Hb
    isplitl [H1]; · iexact H1
    isplitl [H2]; · iexact H2
    isplitl [H9]; · iexact H9
    iexact HO
  isplitl [Hb]; · iexact Hb
  isplitl [H1 H2 H9 HO]
  · isplitr [HO]
    · isplitl [H1]; · iexact H1
      isplitl [H2]; · iexact H2
      iexact H9
    iexact HO
  isplitl [Hlev]; · iexact Hlev
  isplitl [Hg]; · iexact Hg
  iexact Ht

end Region

/-- The first call inside the whole program: the call in the pipeline's own program, lifted to the program's extended
    body table. -/
theorem wp_region (lv : GSem nD τ sig → HIx 1 → ℕ) (hlv : (K (F := F)).Refines lv) (d : Dev nD)
    (a1 a2 : FVec F S64x64 .f32) (f : FVec F S4096x128 .f32)
    (O : CellTallies nD τ sig (HIx 1)) (hO : ∀ g, O g none = 0) (b : ℕ) (Φ : PUnit → sProp 𝕄) :
    iprop(levAts (K (F := F)).L lv
        ∗ Pipeline.cellsGhost cfgs EP 0 d ∗ Pipeline.toksInit cfgs EP 0 d
        ∗ boundary (SparseCore.T d)
        ∗ ((SparseCore.T d : Thread nD τ).loc main_arg1 ↦{fullShare} a1)
        ∗ ((SparseCore.T d : Thread nD τ).loc main_arg2 ↦{fullShare} a2)
        ∗ ((SparseCore.T d : Thread nD τ).loc main_v9 ↦{fullShare} f)
        ∗ owesBelow d O b
        ∗ (iprop(boundary (SparseCore.T d)
            ∗ ((SparseCore.T d : Thread nD τ).loc main_arg1 ↦{fullShare} a1)
            ∗ ((SparseCore.T d : Thread nD τ).loc main_arg2 ↦{fullShare} a2)
            ∗ ((SparseCore.T d : Thread nD τ).loc main_v9 ↦{fullShare} combF a1 a2)
            ∗ owesBelow d O b) -∗ Φ ⟨⟩))
      ⊢ wp frame (wpE ((K (F := F)).defs (D (F := F))) 𝒱 (SparseCore.T d) none) Set.univ
          (Prog.lift (.customCall (SparseCore.inner (Pipeline.entry 0)) ())) Φ := by
  have hL : wp frame (wpE (D (F := F)) 𝒱 (SparseCore.T d) none) Set.univ
        (Prog.lift (.customCall (Pipeline.entry 0) ()) : Prog (TpuEff nD τ sig (Elt F) (ΛP (F := F)) .tc) PUnit) Φ
      ⊢ wp frame (wpE ((K (F := F)).defs (D (F := F))) 𝒱 (SparseCore.T d) none) Set.univ
        (Prog.lift (.customCall (SparseCore.inner (Pipeline.entry 0)) ())) Φ :=
    (K (F := F)).wp_liftProg (D (F := F)) 𝒱 (SparseCore.T d) Set.univ none _ Φ
  exact BIBase.Entails.trans (wp_entry lv hlv a1 a2 f O hO b d Φ) hL

end Cert.KernelIdeal.Hand

end
-- ==== Proof.KI.RegionOwes.lean ====
/-
  What the TensorCore owes sits at the calls' indices: nothing at the index of a call's own waits.
-/
import proofs.«205614_g54924041781483_cont_9to1_m_645_25_alg».proof.Proof.KI.Core

noncomputable section

namespace Cert.KernelIdeal.Hand

open Cert.KernelIdeal Cert.KernelIdeal.Gen
open Idealize.ShloMosaic
open Idealize.ShloMosaic.SparseCore.Cfg (HIx)

variable {F : FTy → Type} [FloatOps F]

/-- Every unit the TensorCore owes from call `n` on is a start signal of some call: none sits at the index `none`. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

end Cert.KernelIdeal.Hand

end
-- ==== Proof.IdxValue.lean ====
/-
  The index array the host code builds, read at a position: column `k` of the coordinates at `(b, s)` is
  `coords[b, s, k]`, a scalar laid over the shape is that scalar everywhere, and the clamps, the product by 64 and
  the sum act position by position — so entry `(b, s)` is `clamp c₀ · 64 + clamp c₁` on words.
-/
import proofs.«205614_g54924041781483_cont_9to1_m_645_25_alg».proof.Proof.KI.Terms
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen

/-- A scalar laid over the `[4096, 50]` shape reads as the scalar at every position. -/
theorem bcast_scalar_apply (x : IVec S_ 32) (j : S4096x50.Idx) :
    broadcastInDim S4096x50 ![] Facts₀.bcast_S_S4096x50 x j = x ix0 :=
  broadcastInDim_apply _ _ x j ix0 (fun a => a.elim0)

/-- Column 0 of the coordinates at `(b, s)`. -/
theorem colOf0_apply (a0 : IVec S4096x50x2 32) (b : Fin 4096) (s : Fin 50) :
    Hand.colOf0 a0 (ix2 b s) = a0 (ix3 b s (0 : Fin 2)) := by
  unfold Hand.colOf0
  refine (shapeCast_apply _ _ (ix2 b s) (ix3 b s (0 : Fin 1)) ?_).trans ?_
  · rw [Shape.rowMajor_val_three, Shape.rowMajor_val_two]
    show ((b.val * 50 + s.val) * 1 + 0) = b.val * 50 + s.val
    omega
  · refine extractStridedSlice_apply _ a0 _ _ (ix3 b s (0 : Fin 2)) (fun a => ?_)
    match a with
    | ⟨0, _⟩ => show b.val = 0 + b.val; omega
    | ⟨1, _⟩ => show s.val = 0 + s.val; omega
    | ⟨2, _⟩ => show 0 = 0 + 0; omega

/-- Column 1 of the coordinates at `(b, s)`. -/
theorem colOf1_apply (a0 : IVec S4096x50x2 32) (b : Fin 4096) (s : Fin 50) :
    Hand.colOf1 a0 (ix2 b s) = a0 (ix3 b s (1 : Fin 2)) := by
  unfold Hand.colOf1
  refine (shapeCast_apply _ _ (ix2 b s) (ix3 b s (0 : Fin 1)) ?_).trans ?_
  · rw [Shape.rowMajor_val_three, Shape.rowMajor_val_two]
    show ((b.val * 50 + s.val) * 1 + 0) = b.val * 50 + s.val
    omega
  · refine extractStridedSlice_apply _ a0 _ _ (ix3 b s (1 : Fin 2)) (fun a => ?_)
    match a with
    | ⟨0, _⟩ => show b.val = 0 + b.val; omega
    | ⟨1, _⟩ => show s.val = 0 + s.val; omega
    | ⟨2, _⟩ => show 1 = 1 + 0; omega

/-- One clamp at a position: the clamp of the word there. -/
theorem clipT_apply (x : IVec S4096x50 32) (j : S4096x50.Idx) :
    Hand.clipT x (constantI S_ 32 0#32) (constantI S_ 32 63#32) j = Cert.Spec.clampW (x j) := by
  unfold Hand.clipT Cert.Spec.clampW
  show IntOp.minsi (broadcastInDim S4096x50 ![] Facts₀.bcast_S_S4096x50 (constantI S_ 32 63#32) j)
      (IntOp.maxsi (broadcastInDim S4096x50 ![] Facts₀.bcast_S_S4096x50 (constantI S_ 32 0#32) j) (x j)) = _
  rw [bcast_scalar_apply, bcast_scalar_apply]
  rfl

/-- The index array at `(b, s)` is the combined index `clamp c₀ · 64 + clamp c₁` of the specification. -/
theorem idxTerm_apply (a0 : IVec Cert.KernelIdeal.S4096x50x2 32) (b : Fin 4096) (s : Fin 50) :
    Cert.KernelIdeal.Hand.idxTerm a0 (ix2 b s) = Cert.Spec.idxW a0 b s := by
  unfold Hand.idxTerm Cert.Spec.idxW
  show IntOp.addi (IntOp.muli (Hand.clipT (Hand.colOf0 a0) (constantI S_ 32 0#32) (constantI S_ 32 63#32) (ix2 b s))
        (broadcastInDim S4096x50 ![] Facts₀.bcast_S_S4096x50 (constantI S_ 32 64#32) (ix2 b s)))
      (Hand.clipT (Hand.colOf1 a0) (constantI S_ 32 0#32) (constantI S_ 32 63#32) (ix2 b s)) = _
  rw [clipT_apply, clipT_apply, bcast_scalar_apply, colOf0_apply, colOf1_apply]
  rfl

end Cert.KernelIdeal.HandValue

end
-- ==== Proof.KI.Main.lean ====
/-
  @main on the TensorCore and the program's run: the host lines leave the index array, the first call the combined table;
  the SparseCore call is handed every tile's pieces of the three arrays and hands the result's slabs back; the final memory
  holds the three arguments as launched.
-/
import proofs.«205614_g54924041781483_cont_9to1_m_645_25_alg».proof.Proof.KI.Launch
import proofs.«205614_g54924041781483_cont_9to1_m_645_25_alg».proof.Proof.KI.Parts
import proofs.«205614_g54924041781483_cont_9to1_m_645_25_alg».proof.Proof.KI.Host
import proofs.«205614_g54924041781483_cont_9to1_m_645_25_alg».proof.Proof.KI.Region
import proofs.«205614_g54924041781483_cont_9to1_m_645_25_alg».proof.Proof.KI.RegionOwes
import proofs.«205614_g54924041781483_cont_9to1_m_645_25_alg».proof.Proof.IdxValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The TensorCore's state opened at what it owes; the call's tiles as the grid's points -/

omit [FloatOps F] in
theorem tcSt_open (d : Dev nD) (n : ℕ) :
    ((K (F := F)).tcSt EH d n : sProp 𝕄)
      ⊢ iprop(owesBelow d ((K (F := F)).Otc d n) (8 * n) ∗ (owesBelow d ((K (F := F)).Otc d n) (8 * n) -∗ (K (F := F)).tcSt EH d n)) := by
  unfold SparseCore.Cfg.tcSt
  iintro ⟨HO, Hrest⟩
  isplitl [HO]; · iexact HO
  iintro HO
  isplitl [HO]; · iexact HO
  iexact Hrest

omit [FloatOps F] in
/-- A family over the call's SparseCores and their tiles is the family over the grid's points. -/
theorem bigSep_grid (Φ : grid1.Coords → sProp 𝕄) :
    (bigSep Finset.univ fun c : Fin ((K (F := F)).nCore 0) => bigSep Finset.univ fun i : Fin ((K (F := F)).nSub 0) => Φ (callL c i))
      = bigSep Finset.univ fun c : Fin (grid1.bound 0) => bigSep Finset.univ fun s : Fin (grid1.bound 1) => Φ (coordsV c s) :=
  bigSep_congr fun c _ => bigSep_congr fun i _ => congrArg Φ (by unfold callL tileOf; congr 1)

/-! ## What the SparseCore call is handed, and what it hands back -/

variable (IX : (d : Dev nD) → Buf (Elt F) (v8Loc d)) (WC : (d : Dev nD) → Buf (Elt F) (v9Loc d))

/-- The three arrays whole are what every SparseCore of the call is handed: the index array and the result cut into the
    32 tiles' blocks, the combined table split into the two SparseCores' read shares, each cut into its 16 tiles' blocks
    (what remains of its share stays behind). -/
theorem st_intro (d : Dev nD) :
    iprop((v8Loc d ↦{fullShare} IX d) ∗ (v9Loc d ↦{fullShare} WC d) ∗ (v10Loc d ↦{fullShare} m (v10Loc d)))
      ⊢ (bigSep Finset.univ fun c : Fin ((K (F := F)).nCore 0) => (P m IX WC).st 0 d c : sProp 𝕄) := by
  show _ ⊢ bigSep Finset.univ fun c : Fin ((K (F := F)).nCore 0) => bigSep Finset.univ fun i : Fin ((K (F := F)).nSub 0) =>
    hbmPieces IX WC d (callL c i) (m (v10Loc d))
  rw [bigSep_grid (fun L => hbmPieces IX WC d L (m (v10Loc d)))]
  simp only [bigSep_sep']
  rw [← idx_blocks d fullShare (IX d), ← out_blocks d fullShare (m (v10Loc d))]
  iintro ⟨H8, H9, H10⟩
  isplitl [H8]; · iexact H8
  isplitr [H10]
  swap; · iexact H10
  ihave H := (Transfers.pointsTo_toks_split fullShare 2) $$ H9
  icases H with ⟨-, Htoks⟩
  have hb : (bigSep Finset.univ fun c' : Fin (grid1.bound 0) => (v9Loc d ↦{qC (Fin.cast bound_zero c')} WC d : sProp 𝕄))
      = bigSep Finset.univ fun c' : Fin (grid1.bound 0) => bigSep Finset.univ fun s : Fin (grid1.bound 1) =>
          v9Loc d ↦[(combBlk (coordsV c' s)).view.set]{qC (cL (coordsV c' s))} WC d :=
    bigSep_congr fun c' _ => comb_blocks d c' (qC (Fin.cast bound_zero c')) (WC d)
  iapply (Entails.of_eq hb)
  iexact Htoks

omit [FloatOps F] in
theorem dn_piece (d : Dev nD) (L : grid1.Coords) :
    (iprop(∃ fo, hbmPieces IX WC d L fo) : sProp 𝕄) ⊢ iprop(∃ f, v10Loc d ↦[outSet L]{fullShare} f) := by
  iintro ⟨%fo, -, -, H⟩
  iexists fo; iexact H

/-- What the SparseCores hand back holds the result's array whole, at some contents. -/
theorem dn_elim (d : Dev nD) :
    (bigSep Finset.univ fun c : Fin ((K (F := F)).nCore 0) => (P m IX WC).dn 0 d c : sProp 𝕄) ⊢ iprop(∃ f, v10Loc d ↦{fullShare} f) := by
  show (bigSep Finset.univ fun c : Fin ((K (F := F)).nCore 0) => bigSep Finset.univ fun i : Fin ((K (F := F)).nSub 0) =>
    iprop(∃ fo, hbmPieces IX WC d (callL c i) fo)) ⊢ _
  rw [bigSep_grid (fun L => iprop(∃ fo, hbmPieces IX WC d L fo))]
  exact BIBase.Entails.trans (bigSep_mono fun c _ => bigSep_mono fun s _ => dn_piece IX WC d (coordsV c s)) (out_blocks_join d)

/-! ## The contents the protocol speaks of -/

/-- The index array as the host lines leave it. -/
def IXm (d : Dev nD) : Buf (Elt F) (v8Loc d) := idxTerm (m ((SparseCore.T d).loc main_arg0))
/-- The combined table as the first call leaves it. -/
def WCm (d : Dev nD) : Buf (Elt F) (v9Loc d) := combF (m ((SparseCore.T d).loc main_arg1)) (m ((SparseCore.T d).loc main_arg2))

omit [FloatOps F] in
/-- Every entry of the index array is a row number of the combined table. -/
theorem IXm_lt (d : Dev nD) (j : S4096x50.Idx) : (IXm m d j).toNat < 4096 := by
  obtain ⟨p, q, rfl⟩ : ∃ (p : Fin 4096) (q : Fin 50), j = ValueIdx.ix2 p q := ⟨j 0, j 1, ValueIdx.eq_ix2 j⟩
  show (idxTerm (m ((SparseCore.T d).loc main_arg0)) (ValueIdx.ix2 p q)).toNat < 4096
  rw [HandValue.idxTerm_apply]
  exact Cert.Spec.idxW_lt _ _ _

/-- What @main leaves: the three arguments as launched, the result's array at some contents. -/
abbrev FIN (d : Dev nD) : sProp 𝕄 :=
  iprop(((SparseCore.T d : Thread nD τ).loc main_arg0 ↦{fullShare} m ((SparseCore.T d).loc main_arg0))
    ∗ ((SparseCore.T d : Thread nD τ).loc main_arg1 ↦{fullShare} m ((SparseCore.T d).loc main_arg1))
    ∗ ((SparseCore.T d : Thread nD τ).loc main_arg2 ↦{fullShare} m ((SparseCore.T d).loc main_arg2))
    ∗ ∃ f, v10Loc d ↦{fullShare} f)

theorem hmain (κ : GSem nD τ sig → ℕ) (d : Dev nD) :
    iprop((K (F := F)).ctx EH (P m (IXm m) (WCm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_held]
  iintro ⟨#Hctx, Hst, ⟨Hb, Hh, -, -⟩, ⟨Hcg, Htk⟩⟩
  iapply (wp_host_block d (StableHlo.launchContents m d) _)
  isplitl [Hb]; · iexact Hb
  isplitl [Hh]; · iexact Hh
  iintro ⟨Hb, Hh⟩
  ihave Hh' := (Entails.of_eq (held_open d (hostAfter (StableHlo.launchContents m d)))) $$ Hh
  rw [hostAfter_arg0, hostAfter_arg1, hostAfter_arg2, hostAfter_v8, hostAfter_v9, hostAfter_v10]
  icases Hh' with ⟨H0, H1, H2, H8, H9, H10, -⟩
  ihave Ho := (tcSt_open d 0) $$ Hst
  icases Ho with ⟨HO, Hclose⟩
  ihave Hlev := (SparseCore.Cfg.ctx_levAts κ) $$ Hctx
  unfold mainTail
  simp only [wp_bind]
  iapply (wp_region (F := F) (K (F := F)).lev (by sl_refines_lev) d (m ((SparseCore.T d).loc main_arg1)) (m ((SparseCore.T d).loc main_arg2))
    (m ((SparseCore.T d).loc main_v9)) ((K (F := F)).Otc d 0) (fun g => Otc_none d 0 g) (8 * 0) _)
  isplitl [Hlev]; · iexact Hlev
  isplitl [Hcg]; · iexact Hcg
  isplitl [Htk]; · iexact Htk
  isplitl [Hb]; · iexact Hb
  isplitl [H1]; · iexact H1
  isplitl [H2]; · iexact H2
  isplitl [H9]; · iexact H9
  isplitl [HO]; · iexact HO
  iintro ⟨Hb, H1, H2, H9, HO⟩
  ihave Hst := Hclose $$ HO
  iapply ((K (F := F)).wp_run (D (F := F)) 𝒱 (EH := EH) (P := P m (IXm m) (WCm m)) κ d 0)
  isplitr; · iexact Hctx
  isplitl [Hst]; · iexact Hst
  isplitl [H8 H9 H10]
  · iapply (st_intro m (IXm m) (WCm m) d)
    isplitl [H8]; · iexact H8
    isplitl [H9]; · iexact H9
    iexact H10
  iintro ⟨Hst, Hdn⟩
  ihave Hf := (dn_elim m (IXm m) (WCm m) d) $$ Hdn
  rw [wp_pure]
  imodintro
  isplitl [Hst]; · iexact Hst
  isplitl [H0]; · iexact H0
  isplitl [H1]; · iexact H1
  isplitl [H2]; · iexact H2
  iexact Hf

/-- The final memory holds the three arguments as launched. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  iintro ⟨⟨H0, H1, H2, -⟩, HSI⟩
  icombine HSI H0 gives %h0
  icombine HSI H1 gives %h1
  icombine HSI H2 gives %h2
  ipureintro
  exact ⟨Buf.eq_of_forall_mem_univ h0, Buf.eq_of_forall_mem_univ h1, Buf.eq_of_forall_mem_univ h2⟩

/-! ## The program's run -/

/-- Every weakly fair execution of the program from the launch memory, its semaphores at zero, terminates without a
    fault, and its final memory holds the three arguments as launched — given one tile's task proved and a SparseCore's
    operands split among its tiles. -/
theorem run_main [∀ e, Nonempty (Elt F e)]
    (htile : (K (F := F)).TileObl (D (F := F)) 𝒱 (P m (IXm m) (WCm m)) v₀ 0)
    (hvec : (K (F := F)).VecSplit (P m (IXm m) (WCm m)) 0) :
    θ_run (Cert.KernelIdeal.defs (F := F)) (Cert.KernelIdeal.threads (F := F)) ⟨m, fun _ => 0, ρ⟩
      (fun r => ∀ c : Dev nD, r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) :=
  SparseCore.Cfg.θ_run_sc (K := K (F := F)) (D := D (F := F)) (𝒱 := 𝒱) (EH := EH) (P := P m (IXm m) (WCm m)) facts v₀
    (fun q hq => match q with | 0 => nomatch hq)
    (fun q _ => match q with | 0 => htile)
    (fun q _ => match q with | 0 => hvec)
    m ρ main (G (F := F)) (FIN m) (u₀ (F := F)) (hu₀ m (IXm m) (WCm m)) (hmain m ρ) (fq m) (hfin m) _ (fun _ h => h)

end Cert.KernelIdeal.Hand
end
-- ==== Proof.KI.MainV.lean ====
/-
  @main on the TensorCore and the program's run, the result named: as the frame's, but the SparseCores hand the result's
  slabs back at the looked-up rows, the 32 tiles' blocks at the one contents are the array at it, and the final memory
  holds it; that contents is the result of the program's own terms.
-/
import proofs.«205614_g54924041781483_cont_9to1_m_645_25_alg».proof.Proof.KI.LaunchV
import proofs.«205614_g54924041781483_cont_9to1_m_645_25_alg».proof.Proof.KI.Main

noncomputable section

namespace Cert.KernelIdeal.HandV

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (IX : (d : Dev nD) → Buf (Elt F) (v8Loc d)) (WC : (d : Dev nD) → Buf (Elt F) (v9Loc d))
variable [FloatOps F]

/-! ## What the SparseCore call is handed, and what it hands back -/

/-- A SparseCore's operands are the frame protocol's. -/
theorem st_introV (d : Dev nD) :
    iprop((v8Loc d ↦{fullShare} IX d) ∗ (v9Loc d ↦{fullShare} WC d) ∗ (v10Loc d ↦{fullShare} m (v10Loc d)))
      ⊢ (bigSep Finset.univ fun c : Fin ((K (F := F)).nCore 0) => (PV m IX WC).st 0 d c : sProp 𝕄) :=
  st_intro m IX WC d

omit [FloatOps F] in
theorem dn_pieceV (d : Dev nD) (L : grid1.Coords) (fo : Buf (Elt F) (v10Loc d)) :
    (hbmPieces IX WC d L fo : sProp 𝕄) ⊢ (v10Loc d ↦[outSet L]{fullShare} fo) := by
  iintro ⟨-, -, H⟩
  iexact H

/-- What the SparseCores hand back holds the result's array whole, at the looked-up rows: the 32 tiles' blocks of slabs
    at the one contents are the array at it. -/
theorem dn_elimV (d : Dev nD) :
    (bigSep Finset.univ fun c : Fin ((K (F := F)).nCore 0) => (PV m IX WC).dn 0 d c : sProp 𝕄) ⊢ (v10Loc d ↦{fullShare} TGT IX WC d) := by
  show (bigSep Finset.univ fun c : Fin ((K (F := F)).nCore 0) => bigSep Finset.univ fun i : Fin ((K (F := F)).nSub 0) =>
    hbmPieces IX WC d (callL c i) (TGT IX WC d)) ⊢ _
  rw [bigSep_grid (fun L => hbmPieces IX WC d L (TGT IX WC d)), out_blocks d fullShare (TGT IX WC d)]
  exact bigSep_mono fun c _ => bigSep_mono fun s _ => dn_pieceV IX WC d (coordsV c s) (TGT IX WC d)

/-! ## @main on the TensorCore, the result named -/

/-- What @main leaves: the three arguments as launched, the result's array at the looked-up rows of the combined table. -/
abbrev FINV (d : Dev nD) : sProp 𝕄 :=
  iprop(((SparseCore.T d : Thread nD τ).loc main_arg0 ↦{fullShare} m ((SparseCore.T d).loc main_arg0))
    ∗ ((SparseCore.T d : Thread nD τ).loc main_arg1 ↦{fullShare} m ((SparseCore.T d).loc main_arg1))
    ∗ ((SparseCore.T d : Thread nD τ).loc main_arg2 ↦{fullShare} m ((SparseCore.T d).loc main_arg2))
    ∗ (v10Loc d ↦{fullShare} TGT (IXm m) (WCm m) d))

variable (ρ : Dev nD → PrngReg)

theorem hmainV (κ : GSem nD τ sig → ℕ) (d : Dev nD) :
    iprop((K (F := F)).ctx EH (PV m (IXm m) (WCm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscopedBufs_held]
  iintro ⟨#Hctx, Hst, ⟨Hb, Hh, -, -⟩, ⟨Hcg, Htk⟩⟩
  iapply (wp_host_block d (StableHlo.launchContents m d) _)
  isplitl [Hb]; · iexact Hb
  isplitl [Hh]; · iexact Hh
  iintro ⟨Hb, Hh⟩
  ihave Hh' := (Entails.of_eq (held_open d (hostAfter (StableHlo.launchContents m d)))) $$ Hh
  rw [hostAfter_arg0, hostAfter_arg1, hostAfter_arg2, hostAfter_v8, hostAfter_v9, hostAfter_v10]
  icases Hh' with ⟨H0, H1, H2, H8, H9, H10, -⟩
  ihave Ho := (tcSt_open d 0) $$ Hst
  icases Ho with ⟨HO, Hclose⟩
  ihave Hlev := (SparseCore.Cfg.ctx_levAts κ) $$ Hctx
  unfold mainTail
  simp only [wp_bind]
  iapply (wp_region (F := F) (K (F := F)).lev (by sl_refines_lev) d (m ((SparseCore.T d).loc main_arg1)) (m ((SparseCore.T d).loc main_arg2))
    (m ((SparseCore.T d).loc main_v9)) ((K (F := F)).Otc d 0) (fun g => Otc_none d 0 g) (8 * 0) _)
  isplitl [Hlev]; · iexact Hlev
  isplitl [Hcg]; · iexact Hcg
  isplitl [Htk]; · iexact Htk
  isplitl [Hb]; · iexact Hb
  isplitl [H1]; · iexact H1
  isplitl [H2]; · iexact H2
  isplitl [H9]; · iexact H9
  isplitl [HO]; · iexact HO
  iintro ⟨Hb, H1, H2, H9, HO⟩
  ihave Hst := Hclose $$ HO
  iapply ((K (F := F)).wp_run (D (F := F)) 𝒱 (EH := EH) (P := PV m (IXm m) (WCm m)) κ d 0)
  isplitr; · iexact Hctx
  isplitl [Hst]; · iexact Hst
  isplitl [H8 H9 H10]
  · iapply (st_introV m (IXm m) (WCm m) d)
    isplitl [H8]; · iexact H8
    isplitl [H9]; · iexact H9
    iexact H10
  iintro ⟨Hst, Hdn⟩
  ihave Hf := (dn_elimV m (IXm m) (WCm m) d) $$ Hdn
  rw [wp_pure]
  imodintro
  isplitl [Hst]; · iexact Hst
  isplitl [H0]; · iexact H0
  isplitl [H1]; · iexact H1
  isplitl [H2]; · iexact H2
  iexact Hf

/-- The final memory holds the result at the looked-up rows and the three arguments as launched. -/
def fqV (d : Dev nD) (s' : Phys nD τ sig (Elt F)) : Prop :=
  s'.mem.mem (v10Loc d) = TGT (IXm m) (WCm m) d ∧ fq m d s'

theorem hfinV (d : Dev nD) (s' : Phys nD τ sig (Elt F)) : iprop(FINV m d ∗ SI s') ⊢ (⌜fqV m d s'⌝ : sProp 𝕄) := by
  iintro ⟨⟨H0, H1, H2, H10⟩, HSI⟩
  icombine HSI H0 gives %h0
  icombine HSI H1 gives %h1
  icombine HSI H2 gives %h2
  icombine HSI H10 gives %h10
  ipureintro
  exact ⟨Buf.eq_of_forall_mem_univ h10, Buf.eq_of_forall_mem_univ h0, Buf.eq_of_forall_mem_univ h1, Buf.eq_of_forall_mem_univ h2⟩

/-! ## The program's run, the result named -/

/-- Every weakly fair execution of the program from the launch memory, its semaphores at zero, terminates without a
    fault, and its final memory holds the result at the looked-up rows of the combined table and the three arguments as
    launched — given one tile's task proved and a SparseCore's operands split among its tiles. -/
theorem run_mainV [∀ e, Nonempty (Elt F e)]
    (htile : (K (F := F)).TileObl (D (F := F)) 𝒱 (PV m (IXm m) (WCm m)) v₀ 0)
    (hvec : (K (F := F)).VecSplit (PV m (IXm m) (WCm m)) 0) :
    θ_run (Cert.KernelIdeal.defs (F := F)) (Cert.KernelIdeal.threads (F := F)) ⟨m, fun _ => 0, ρ⟩
      (fun r => ∀ c : Dev nD, r.2.mem ((SparseCore.T c).loc main_v10) = TGT (IXm m) (WCm m) c
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) :=
  SparseCore.Cfg.θ_run_sc (K := K (F := F)) (D := D (F := F)) (𝒱 := 𝒱) (EH := EH) (P := PV m (IXm m) (WCm m)) facts v₀
    (fun q hq => match q with | 0 => nomatch hq)
    (fun q _ => match q with | 0 => htile)
    (fun q _ => match q with | 0 => hvec)
    m ρ main (G (F := F)) (FINV m) (u₀ (F := F)) (hu₀V m (IXm m) (WCm m)) (hmainV m ρ) (fqV m) (hfinV m) _ (fun _ h => h)

/-! ## The named result is the result of the program's terms -/

omit [FloatOps F] in
theorem TGT_eq_KOut [FloatOps F] (d : Dev nD) :
    TGT (IXm m) (WCm m) d
      = KOut (m ((SparseCore.T d).loc main_arg0)) (m ((SparseCore.T d).loc main_arg1)) (m ((SparseCore.T d).loc main_arg2)) := by
  funext i
  obtain ⟨b, s, j, rfl⟩ : ∃ (b : Fin 4096) (s : Fin 50) (j : Fin 128), i = ValueIdx.ix3 b s j := ⟨i 0, i 1, i 2, ValueIdx.eq_ix3 i⟩
  rw [TGT_apply (IXm m) (WCm m) d b s j (IXm_lt m d _)]
  unfold KOut WCm IXm
  congr 1
  funext a
  match a with
  | ⟨0, _⟩ =>
    refine Fin.ext ?_
    show (idxTerm (m ((SparseCore.T d).loc main_arg0)) (ValueIdx.ix2 b s)).toNat = (Cert.Spec.idxW (m ((SparseCore.T d).loc main_arg0)) b s).toNat
    rw [HandValue.idxTerm_apply]
  | ⟨1, _⟩ => rfl

end Cert.KernelIdeal.HandV

end
-- ==== Proof.KI.Own.lean ====
/-
  A tile's own scoped storage, spelt out: its twenty-one DMA semaphores at rest and its nine scratch buffers, each at some
  contents, beside whatever else it owns.
-/
import proofs.«205614_g54924041781483_cont_9to1_m_645_25_alg».proof.Proof.KI.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable (d : Dev nD) (c : Fin τ.nSC) (i : Fin τ.nSub)

/-- The tile's DMA semaphores, as its program names them. -/
def dmaCells : List (DmaSem sig) := [cc0_sem0_0, cc0_sem1_0, cc0_sem2_0, cc1_scratch10.sem, cc1_scratch11.sem, cc1_scratch12.sem, cc1_scratch13.sem, cc1_scratch14.sem, cc1_scratch15.sem, cc1_scratch16.sem, cc1_scratch17.sem, cc1_scratch18.sem, cc1_scratch19.sem, cc1_scratch20.sem, cc1_scratch21.sem, cc1_scratch22.sem, cc1_scratch23.sem, cc1_scratch24.sem, cc1_scratch25.sem, cc1_scoped0.sem, cc1_scoped1.sem]
/-- The tile's scratch buffers, as its program names them. -/
def scratchRefs : List (Ref sig .scVector) := [cc1_scratch0, cc1_scratch2, cc1_scratch3, cc1_scratch4, cc1_scratch5, cc1_scratch6, cc1_scratch7, cc1_scratch8, cc1_scratch9]

theorem dmaCells_nodup : dmaCells.Nodup := by decide
theorem scratchRefs_nodup : scratchRefs.Nodup := by decide
theorem dma_scoped : ∀ s : DmaSem sig, (SemLoc.dma s : SemLoc sig).isScoped .scVector = true := by decide

/-- The semaphores' cells. -/
abbrev cellOfDma (s : DmaSem sig) : GSem nD τ sig := (V d c i, SemLoc.dma s)

theorem cells_sub : dmaCells.toFinset.image (cellOfDma d c i) ⊆ ownCells (sig := sig) (V d c i) := by
  intro g hg
  obtain ⟨s, -, rfl⟩ := Finset.mem_image.mp hg
  exact mem_ownCells.mpr ⟨rfl, dma_scoped s⟩

/-- The tile's scoped semaphores at rest are its DMA semaphores at rest, one by one, and the rest. -/
theorem ownSems0_V :
    (ownSems0 (V d c i) : sProp 𝕄)
      = iprop((semVal (cellOfDma d c i cc0_sem0_0) 0
          ∗ semVal (cellOfDma d c i cc0_sem1_0) 0
          ∗ semVal (cellOfDma d c i cc0_sem2_0) 0
          ∗ semVal (cellOfDma d c i (cc1_scratch10.sem)) 0
          ∗ semVal (cellOfDma d c i (cc1_scratch11.sem)) 0
          ∗ semVal (cellOfDma d c i (cc1_scratch12.sem)) 0
          ∗ semVal (cellOfDma d c i (cc1_scratch13.sem)) 0
          ∗ semVal (cellOfDma d c i (cc1_scratch14.sem)) 0
          ∗ semVal (cellOfDma d c i (cc1_scratch15.sem)) 0
          ∗ semVal (cellOfDma d c i (cc1_scratch16.sem)) 0
          ∗ semVal (cellOfDma d c i (cc1_scratch17.sem)) 0
          ∗ semVal (cellOfDma d c i (cc1_scratch18.sem)) 0
          ∗ semVal (cellOfDma d c i (cc1_scratch19.sem)) 0
          ∗ semVal (cellOfDma d c i (cc1_scratch20.sem)) 0
          ∗ semVal (cellOfDma d c i (cc1_scratch21.sem)) 0
          ∗ semVal (cellOfDma d c i (cc1_scratch22.sem)) 0
          ∗ semVal (cellOfDma d c i (cc1_scratch23.sem)) 0
          ∗ semVal (cellOfDma d c i (cc1_scratch24.sem)) 0
          ∗ semVal (cellOfDma d c i (cc1_scratch25.sem)) 0
          ∗ semVal (cellOfDma d c i (cc1_scoped0.sem)) 0
          ∗ semVal (cellOfDma d c i (cc1_scoped1.sem)) 0)
          ∗ bigSep (ownCells (sig := sig) (V d c i) \ dmaCells.toFinset.image (cellOfDma d c i)) fun g => semVal g 0) := by
  unfold SparseCore.Cfg.ownSems0
  rw [SparseCore.bigSep_sdiff_split' (cells_sub d c i),
    SparseCore.bigSep_image_of_injOn (fun a _ b _ e => by cases e; rfl),
    bigSep_eq_bigSepL dmaCells dmaCells_nodup]
  rfl

theorem refs_sub : scratchRefs.toFinset.image (fun r => (Proc.scVector c i).devRef r) ⊆ ownRefs (τ := τ) (sig := sig) (.scVector c i) := by
  intro b hb
  obtain ⟨r, hr, rfl⟩ := Finset.mem_image.mp hb
  simp only [scratchRefs, List.toFinset_cons, List.toFinset_nil, Finset.mem_insert, Finset.mem_singleton, insert_empty_eq] at hr
  rcases hr with rfl | rfl | rfl | rfl | rfl | rfl | rfl | rfl | rfl <;> exact SparseCore.Cfg.mem_ownRefs_of_owner rfl

/-- The tile's own buffers are its nine scratch buffers, each at some contents, and the rest. -/
theorem ownBufs_V :
    (ownBufs (V d c i) : sProp 𝕄)
      = iprop(((∃ f, (Memref.whole cc1_scratch0 : Memref sig .scVector .vmem S128x50 .i32).view.loc (V d c i) ↦{fullShare} f)
          ∗ (∃ f, (Memref.whole cc1_scratch2 : Memref sig .scVector .vmem S50x128 .f32).view.loc (V d c i) ↦{fullShare} f)
          ∗ (∃ f, (Memref.whole cc1_scratch3 : Memref sig .scVector .vmem S50x128 .f32).view.loc (V d c i) ↦{fullShare} f)
          ∗ (∃ f, (Memref.whole cc1_scratch4 : Memref sig .scVector .vmem S50x128 .f32).view.loc (V d c i) ↦{fullShare} f)
          ∗ (∃ f, (Memref.whole cc1_scratch5 : Memref sig .scVector .vmem S50x128 .f32).view.loc (V d c i) ↦{fullShare} f)
          ∗ (∃ f, (Memref.whole cc1_scratch6 : Memref sig .scVector .vmem S50x128 .f32).view.loc (V d c i) ↦{fullShare} f)
          ∗ (∃ f, (Memref.whole cc1_scratch7 : Memref sig .scVector .vmem S50x128 .f32).view.loc (V d c i) ↦{fullShare} f)
          ∗ (∃ f, (Memref.whole cc1_scratch8 : Memref sig .scVector .vmem S50x128 .f32).view.loc (V d c i) ↦{fullShare} f)
          ∗ (∃ f, (Memref.whole cc1_scratch9 : Memref sig .scVector .vmem S50x128 .f32).view.loc (V d c i) ↦{fullShare} f))
          ∗ bigSep (ownRefs (τ := τ) (sig := sig) (.scVector c i) \ scratchRefs.toFinset.image (fun r => (Proc.scVector c i).devRef r))
              fun b => iprop(∃ f, ((d, b) : Loc nD τ sig) ↦{fullShare} f)) := by
  unfold SparseCore.Cfg.ownBufs
  rw [SparseCore.bigSep_sdiff_split' (refs_sub c i),
    SparseCore.bigSep_image_of_injOn (fun a _ b _ e => Proc.devRef_injective _ e),
    bigSep_eq_bigSepL scratchRefs scratchRefs_nodup]
  rfl

end Cert.KernelIdeal.Hand

end
-- ==== Proof.KI.Trip.lean ====
/-
  One trip of a tile's loop, and the loop's invariant. A trip handles eight positions: for each, it waits for the slot's
  previous copy-out (from the second trip on), gathers the position's fifty rows of the shared table into the slot, waits for
  them, and starts copying the slot out to the position's slab of the result. The invariant holds the tile's slabs one by
  one: those of later trips at their old contents, those of the previous trip inside the copies in flight, the earlier
  ones written.
-/
import proofs.«205614_g54924041781483_cont_9to1_m_645_25_alg».proof.Proof.KI.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable [FloatOps F] (d : Dev nD) (L : grid1.Coords)

abbrev Kt : Type := Fin k1_t1_loop.trips
theorem trips_eq : k1_t1_loop.trips = 16 := by decide

theorem c1z : ∀ k : Fin k1_t1_loop.trips, k.val = 0 → ¬ k1_cond1 k = 1#1 := by decide +kernel
theorem c1p : ∀ k : Fin k1_t1_loop.trips, 0 < k.val → k1_cond1 k = 1#1 := by decide +kernel
theorem c2z : ∀ k : Fin k1_t1_loop.trips, k.val = 0 → ¬ k1_cond2 k = 1#1 := by decide +kernel
theorem c2p : ∀ k : Fin k1_t1_loop.trips, 0 < k.val → k1_cond2 k = 1#1 := by decide +kernel
theorem c3z : ∀ k : Fin k1_t1_loop.trips, k.val = 0 → ¬ k1_cond3 k = 1#1 := by decide +kernel
theorem c3p : ∀ k : Fin k1_t1_loop.trips, 0 < k.val → k1_cond3 k = 1#1 := by decide +kernel
theorem c4z : ∀ k : Fin k1_t1_loop.trips, k.val = 0 → ¬ k1_cond4 k = 1#1 := by decide +kernel
theorem c4p : ∀ k : Fin k1_t1_loop.trips, 0 < k.val → k1_cond4 k = 1#1 := by decide +kernel
theorem c5z : ∀ k : Fin k1_t1_loop.trips, k.val = 0 → ¬ k1_cond5 k = 1#1 := by decide +kernel
theorem c5p : ∀ k : Fin k1_t1_loop.trips, 0 < k.val → k1_cond5 k = 1#1 := by decide +kernel
theorem c6z : ∀ k : Fin k1_t1_loop.trips, k.val = 0 → ¬ k1_cond6 k = 1#1 := by decide +kernel
theorem c6p : ∀ k : Fin k1_t1_loop.trips, 0 < k.val → k1_cond6 k = 1#1 := by decide +kernel
theorem c7z : ∀ k : Fin k1_t1_loop.trips, k.val = 0 → ¬ k1_cond7 k = 1#1 := by decide +kernel
theorem c7p : ∀ k : Fin k1_t1_loop.trips, 0 < k.val → k1_cond7 k = 1#1 := by decide +kernel
theorem c8z : ∀ k : Fin k1_t1_loop.trips, k.val = 0 → ¬ k1_cond8 k = 1#1 := by decide +kernel
theorem c8p : ∀ k : Fin k1_t1_loop.trips, 0 < k.val → k1_cond8 k = 1#1 := by decide +kernel

/-! ## The slabs of one trip -/

/-- The eight slabs trip `k` writes, each at contents of its own. -/
abbrev rowPts (k : Kt) (f0 f1 f2 f3 f4 f5 f6 f7 : Buf (Elt F) (v10Loc d)) : sProp 𝕄 :=
  iprop(((outWin L k 0#32 (k1_off12_inb L k 0)).view.loc (V d (cV L) (jV L)) ↦[(outWin L k 0#32 (k1_off12_inb L k 0)).view.set]{fullShare} f0)
    ∗ ((outWin L k 1#32 (k1_off12_inb L k 1)).view.loc (V d (cV L) (jV L)) ↦[(outWin L k 1#32 (k1_off12_inb L k 1)).view.set]{fullShare} f1)
    ∗ ((outWin L k 2#32 (k1_off12_inb L k 2)).view.loc (V d (cV L) (jV L)) ↦[(outWin L k 2#32 (k1_off12_inb L k 2)).view.set]{fullShare} f2)
    ∗ ((outWin L k 3#32 (k1_off12_inb L k 3)).view.loc (V d (cV L) (jV L)) ↦[(outWin L k 3#32 (k1_off12_inb L k 3)).view.set]{fullShare} f3)
    ∗ ((outWin L k 4#32 (k1_off12_inb L k 4)).view.loc (V d (cV L) (jV L)) ↦[(outWin L k 4#32 (k1_off12_inb L k 4)).view.set]{fullShare} f4)
    ∗ ((outWin L k 5#32 (k1_off12_inb L k 5)).view.loc (V d (cV L) (jV L)) ↦[(outWin L k 5#32 (k1_off12_inb L k 5)).view.set]{fullShare} f5)
    ∗ ((outWin L k 6#32 (k1_off12_inb L k 6)).view.loc (V d (cV L) (jV L)) ↦[(outWin L k 6#32 (k1_off12_inb L k 6)).view.set]{fullShare} f6)
    ∗ ((outWin L k 7#32 (k1_off12_inb L k 7)).view.loc (V d (cV L) (jV L)) ↦[(outWin L k 7#32 (k1_off12_inb L k 7)).view.set]{fullShare} f7))

/-- The same slabs as a finished copy-out hands them back: at the whole array's place. -/
abbrev rowDone (k : Kt) (f0 f1 f2 f3 f4 f5 f6 f7 : Buf (Elt F) (v10Loc d)) : sProp 𝕄 :=
  iprop(((outV).view.loc (V d (cV L) (jV L)) ↦[(outWin L k 0#32 (k1_off12_inb L k 0)).view.set]{fullShare} f0)
    ∗ ((outV).view.loc (V d (cV L) (jV L)) ↦[(outWin L k 1#32 (k1_off12_inb L k 1)).view.set]{fullShare} f1)
    ∗ ((outV).view.loc (V d (cV L) (jV L)) ↦[(outWin L k 2#32 (k1_off12_inb L k 2)).view.set]{fullShare} f2)
    ∗ ((outV).view.loc (V d (cV L) (jV L)) ↦[(outWin L k 3#32 (k1_off12_inb L k 3)).view.set]{fullShare} f3)
    ∗ ((outV).view.loc (V d (cV L) (jV L)) ↦[(outWin L k 4#32 (k1_off12_inb L k 4)).view.set]{fullShare} f4)
    ∗ ((outV).view.loc (V d (cV L) (jV L)) ↦[(outWin L k 5#32 (k1_off12_inb L k 5)).view.set]{fullShare} f5)
    ∗ ((outV).view.loc (V d (cV L) (jV L)) ↦[(outWin L k 6#32 (k1_off12_inb L k 6)).view.set]{fullShare} f6)
    ∗ ((outV).view.loc (V d (cV L) (jV L)) ↦[(outWin L k 7#32 (k1_off12_inb L k 7)).view.set]{fullShare} f7))

/-- The slabs of the trips from `n` on, at the contents `m0` the tile was handed them with. -/
def todo (n : ℕ) (m0 : Buf (Elt F) (v10Loc d)) : sProp 𝕄 :=
  bigSep (Finset.univ.filter fun k : Kt => n ≤ k.val) fun k => rowPts d L k m0 m0 m0 m0 m0 m0 m0 m0
/-- The slabs of the trips before `n - 1`: written. -/
def done (n : ℕ) : sProp 𝕄 :=
  bigSep (Finset.univ.filter fun k : Kt => k.val + 1 < n) fun k => iprop(∃ f0 f1 f2 f3 f4 f5 f6 f7, rowDone d L k f0 f1 f2 f3 f4 f5 f6 f7)

omit [FloatOps F] in
theorem todo_step (n : ℕ) (k : Kt) (hk : k.val = n) (m0 : Buf (Elt F) (v10Loc d)) :
    todo (F := F) d L n m0 = iprop(rowPts d L k m0 m0 m0 m0 m0 m0 m0 m0 ∗ todo d L (n + 1) m0) := by
  unfold todo
  rw [show (Finset.univ.filter fun k' : Kt => n ≤ k'.val) = insert k (Finset.univ.filter fun k' : Kt => n + 1 ≤ k'.val) from by
    ext k'; simp only [Finset.mem_filter, Finset.mem_univ, true_and, Finset.mem_insert]
    constructor
    · intro h; by_cases e : k' = k
      · exact Or.inl e
      · exact Or.inr (by have : k'.val ≠ k.val := fun h' => e (Fin.ext h'); omega)
    · rintro (rfl | h) <;> omega]
  exact SparseCore.bigSep_insert' (by simp; omega)

omit [FloatOps F] in
theorem todo_end (n : ℕ) (hn : k1_t1_loop.trips ≤ n) (m0 : Buf (Elt F) (v10Loc d)) : todo (F := F) d L n m0 = iprop(emp) := by
  unfold todo
  rw [show (Finset.univ.filter fun k' : Kt => n ≤ k'.val) = ∅ from Finset.filter_eq_empty_iff.mpr fun k' _ => by have := k'.isLt; omega]
  exact bigSep_empty

omit [FloatOps F] in
theorem done_start (n : ℕ) (hn : n ≤ 1) : done (F := F) d L n = iprop(emp) := by
  unfold done
  rw [show (Finset.univ.filter fun k' : Kt => k'.val + 1 < n) = ∅ from Finset.filter_eq_empty_iff.mpr fun k' _ => by omega]
  exact bigSep_empty

omit [FloatOps F] in
theorem done_step (n : ℕ) (kp : Kt) (hkp : kp.val + 1 = n) :
    done (F := F) d L (n + 1) = iprop((∃ f0 f1 f2 f3 f4 f5 f6 f7, rowDone d L kp f0 f1 f2 f3 f4 f5 f6 f7) ∗ done d L n) := by
  unfold done
  rw [show (Finset.univ.filter fun k' : Kt => k'.val + 1 < n + 1) = insert kp (Finset.univ.filter fun k' : Kt => k'.val + 1 < n) from by
    ext k'; simp only [Finset.mem_filter, Finset.mem_univ, true_and, Finset.mem_insert]
    constructor
    · intro h; by_cases e : k' = kp
      · exact Or.inl e
      · exact Or.inr (by have : k'.val ≠ kp.val := fun h' => e (Fin.ext h'); omega)
    · rintro (rfl | h) <;> omega]
  exact SparseCore.bigSep_insert' (by simp; omega)

/-! ## What a trip finds and leaves -/

variable (O : CellTallies nD τ sig (HIx 1)) (W : Waits sig (HIx 1))
variable (Wsh : Buf (Elt F) ((V d (cV L) (jV L)).loc cc1_scratch1)) (fiv : Buf (Elt F) ((V d (cV L) (jV L)).loc cc1_scratch0))
variable (qs0 qs1 qs2 qs3 qs4 qs5 qs6 qs7 : PosShare TreeShare) (m0 : Buf (Elt F) (v10Loc d))

/-- What every trip holds unchanged: the right to wait, the tile's index rows, its eight read shares of the shared table,
    the gather semaphores at rest. -/
abbrev common : sProp 𝕄 :=
  iprop(Transfers.MayWaits (V d (cV L) (jV L)) (default : HIx 1) O
    ∗ ((ivV).view.loc (V d (cV L) (jV L)) ↦{fullShare} fiv)
    ∗ ((shV).view.loc (V d (cV L) (jV L)) ↦{qs0} Wsh)
    ∗ ((shV).view.loc (V d (cV L) (jV L)) ↦{qs1} Wsh)
    ∗ ((shV).view.loc (V d (cV L) (jV L)) ↦{qs2} Wsh)
    ∗ ((shV).view.loc (V d (cV L) (jV L)) ↦{qs3} Wsh)
    ∗ ((shV).view.loc (V d (cV L) (jV L)) ↦{qs4} Wsh)
    ∗ ((shV).view.loc (V d (cV L) (jV L)) ↦{qs5} Wsh)
    ∗ ((shV).view.loc (V d (cV L) (jV L)) ↦{qs6} Wsh)
    ∗ ((shV).view.loc (V d (cV L) (jV L)) ↦{qs7} Wsh)
    ∗ semVal ((V d (cV L) (jV L), .dma cc1_scratch10.sem) : GSem nD τ sig) 0
    ∗ semVal ((V d (cV L) (jV L), .dma cc1_scratch11.sem) : GSem nD τ sig) 0
    ∗ semVal ((V d (cV L) (jV L), .dma cc1_scratch12.sem) : GSem nD τ sig) 0
    ∗ semVal ((V d (cV L) (jV L), .dma cc1_scratch13.sem) : GSem nD τ sig) 0
    ∗ semVal ((V d (cV L) (jV L), .dma cc1_scratch14.sem) : GSem nD τ sig) 0
    ∗ semVal ((V d (cV L) (jV L), .dma cc1_scratch15.sem) : GSem nD τ sig) 0
    ∗ semVal ((V d (cV L) (jV L), .dma cc1_scratch16.sem) : GSem nD τ sig) 0
    ∗ semVal ((V d (cV L) (jV L), .dma cc1_scratch17.sem) : GSem nD τ sig) 0)

/-- The tile's debt, with the waits recorded so far all its own. -/
abbrev owesK : sProp 𝕄 := iprop(∃ W', ⌜∀ p ∈ W', p ∈ W ∨ p.2 = none ∨ p.2 = some (0 : Fin 1)⌝ ∗ owes (V d (cV L) (jV L)) O W')

/-- Before the first trip: the slots whole, the copy-out semaphores at rest, every slab still to do. -/
def inv0 : sProp 𝕄 :=
  iprop(owesK d L O W ∗ common d L O Wsh fiv qs0 qs1 qs2 qs3 qs4 qs5 qs6 qs7
    ∗ (∃ fb, (Memref.whole cc1_scratch2 : Memref sig .scVector .vmem S50x128 .f32).view.loc (V d (cV L) (jV L)) ↦{fullShare} fb)
    ∗ (∃ fb, (Memref.whole cc1_scratch3 : Memref sig .scVector .vmem S50x128 .f32).view.loc (V d (cV L) (jV L)) ↦{fullShare} fb)
    ∗ (∃ fb, (Memref.whole cc1_scratch4 : Memref sig .scVector .vmem S50x128 .f32).view.loc (V d (cV L) (jV L)) ↦{fullShare} fb)
    ∗ (∃ fb, (Memref.whole cc1_scratch5 : Memref sig .scVector .vmem S50x128 .f32).view.loc (V d (cV L) (jV L)) ↦{fullShare} fb)
    ∗ (∃ fb, (Memref.whole cc1_scratch6 : Memref sig .scVector .vmem S50x128 .f32).view.loc (V d (cV L) (jV L)) ↦{fullShare} fb)
    ∗ (∃ fb, (Memref.whole cc1_scratch7 : Memref sig .scVector .vmem S50x128 .f32).view.loc (V d (cV L) (jV L)) ↦{fullShare} fb)
    ∗ (∃ fb, (Memref.whole cc1_scratch8 : Memref sig .scVector .vmem S50x128 .f32).view.loc (V d (cV L) (jV L)) ↦{fullShare} fb)
    ∗ (∃ fb, (Memref.whole cc1_scratch9 : Memref sig .scVector .vmem S50x128 .f32).view.loc (V d (cV L) (jV L)) ↦{fullShare} fb)
    ∗ semVal ((V d (cV L) (jV L), .dma cc1_scratch18.sem) : GSem nD τ sig) 0
    ∗ semVal ((V d (cV L) (jV L), .dma cc1_scratch19.sem) : GSem nD τ sig) 0
    ∗ semVal ((V d (cV L) (jV L), .dma cc1_scratch20.sem) : GSem nD τ sig) 0
    ∗ semVal ((V d (cV L) (jV L), .dma cc1_scratch21.sem) : GSem nD τ sig) 0
    ∗ semVal ((V d (cV L) (jV L), .dma cc1_scratch22.sem) : GSem nD τ sig) 0
    ∗ semVal ((V d (cV L) (jV L), .dma cc1_scratch23.sem) : GSem nD τ sig) 0
    ∗ semVal ((V d (cV L) (jV L), .dma cc1_scratch24.sem) : GSem nD τ sig) 0
    ∗ semVal ((V d (cV L) (jV L), .dma cc1_scratch25.sem) : GSem nD τ sig) 0
    ∗ todo d L 0 m0)

/-- The copies-out of trip `kp` in flight: each holds its slab and its slot. -/
abbrev flights (kp : Kt) (fd0 fd1 fd2 fd3 fd4 fd5 fd6 fd7 : Buf (Elt F) (v10Loc d)) (fb0 fb1 fb2 fb3 fb4 fb5 fb6 fb7 : Buf (Elt F) ((V d (cV L) (jV L)).loc cc1_scratch2)) : sProp 𝕄 :=
  iprop(Transfers.Flight countersEmb (V d (cV L) (jV L)) (SemLoc.dma cc1_scratch18.sem) (default : HIx 1) 204800
        iprop(((outV).view.loc (V d (cV L) (jV L)) ↦[(outWin L kp 0#32 (k1_off12_inb L kp 0)).view.set]{fullShare} fd0)
          ∗ ((Memref.whole cc1_scratch2 : Memref sig .scVector .vmem S50x128 .f32).view.loc (V d (cV L) (jV L)) ↦[(Memref.whole cc1_scratch2 : Memref sig .scVector .vmem S50x128 .f32).view.set]{fullShare} fb0))
    ∗ ((Memref.whole cc1_scratch2 : Memref sig .scVector .vmem S50x128 .f32).view.loc (V d (cV L) (jV L)) ↦[Finset.univ \ (Memref.whole cc1_scratch2 : Memref sig .scVector .vmem S50x128 .f32).view.set]{fullShare} fb0)
    ∗ Transfers.Flight countersEmb (V d (cV L) (jV L)) (SemLoc.dma cc1_scratch19.sem) (default : HIx 1) 204800
        iprop(((outV).view.loc (V d (cV L) (jV L)) ↦[(outWin L kp 1#32 (k1_off12_inb L kp 1)).view.set]{fullShare} fd1)
          ∗ ((Memref.whole cc1_scratch3 : Memref sig .scVector .vmem S50x128 .f32).view.loc (V d (cV L) (jV L)) ↦[(Memref.whole cc1_scratch3 : Memref sig .scVector .vmem S50x128 .f32).view.set]{fullShare} fb1))
    ∗ ((Memref.whole cc1_scratch3 : Memref sig .scVector .vmem S50x128 .f32).view.loc (V d (cV L) (jV L)) ↦[Finset.univ \ (Memref.whole cc1_scratch3 : Memref sig .scVector .vmem S50x128 .f32).view.set]{fullShare} fb1)
    ∗ Transfers.Flight countersEmb (V d (cV L) (jV L)) (SemLoc.dma cc1_scratch20.sem) (default : HIx 1) 204800
        iprop(((outV).view.loc (V d (cV L) (jV L)) ↦[(outWin L kp 2#32 (k1_off12_inb L kp 2)).view.set]{fullShare} fd2)
          ∗ ((Memref.whole cc1_scratch4 : Memref sig .scVector .vmem S50x128 .f32).view.loc (V d (cV L) (jV L)) ↦[(Memref.whole cc1_scratch4 : Memref sig .scVector .vmem S50x128 .f32).view.set]{fullShare} fb2))
    ∗ ((Memref.whole cc1_scratch4 : Memref sig .scVector .vmem S50x128 .f32).view.loc (V d (cV L) (jV L)) ↦[Finset.univ \ (Memref.whole cc1_scratch4 : Memref sig .scVector .vmem S50x128 .f32).view.set]{fullShare} fb2)
    ∗ Transfers.Flight countersEmb (V d (cV L) (jV L)) (SemLoc.dma cc1_scratch21.sem) (default : HIx 1) 204800
        iprop(((outV).view.loc (V d (cV L) (jV L)) ↦[(outWin L kp 3#32 (k1_off12_inb L kp 3)).view.set]{fullShare} fd3)
          ∗ ((Memref.whole cc1_scratch5 : Memref sig .scVector .vmem S50x128 .f32).view.loc (V d (cV L) (jV L)) ↦[(Memref.whole cc1_scratch5 : Memref sig .scVector .vmem S50x128 .f32).view.set]{fullShare} fb3))
    ∗ ((Memref.whole cc1_scratch5 : Memref sig .scVector .vmem S50x128 .f32).view.loc (V d (cV L) (jV L)) ↦[Finset.univ \ (Memref.whole cc1_scratch5 : Memref sig .scVector .vmem S50x128 .f32).view.set]{fullShare} fb3)
    ∗ Transfers.Flight countersEmb (V d (cV L) (jV L)) (SemLoc.dma cc1_scratch22.sem) (default : HIx 1) 204800
        iprop(((outV).view.loc (V d (cV L) (jV L)) ↦[(outWin L kp 4#32 (k1_off12_inb L kp 4)).view.set]{fullShare} fd4)
          ∗ ((Memref.whole cc1_scratch6 : Memref sig .scVector .vmem S50x128 .f32).view.loc (V d (cV L) (jV L)) ↦[(Memref.whole cc1_scratch6 : Memref sig .scVector .vmem S50x128 .f32).view.set]{fullShare} fb4))
    ∗ ((Memref.whole cc1_scratch6 : Memref sig .scVector .vmem S50x128 .f32).view.loc (V d (cV L) (jV L)) ↦[Finset.univ \ (Memref.whole cc1_scratch6 : Memref sig .scVector .vmem S50x128 .f32).view.set]{fullShare} fb4)
    ∗ Transfers.Flight countersEmb (V d (cV L) (jV L)) (SemLoc.dma cc1_scratch23.sem) (default : HIx 1) 204800
        iprop(((outV).view.loc (V d (cV L) (jV L)) ↦[(outWin L kp 5#32 (k1_off12_inb L kp 5)).view.set]{fullShare} fd5)
          ∗ ((Memref.whole cc1_scratch7 : Memref sig .scVector .vmem S50x128 .f32).view.loc (V d (cV L) (jV L)) ↦[(Memref.whole cc1_scratch7 : Memref sig .scVector .vmem S50x128 .f32).view.set]{fullShare} fb5))
    ∗ ((Memref.whole cc1_scratch7 : Memref sig .scVector .vmem S50x128 .f32).view.loc (V d (cV L) (jV L)) ↦[Finset.univ \ (Memref.whole cc1_scratch7 : Memref sig .scVector .vmem S50x128 .f32).view.set]{fullShare} fb5)
    ∗ Transfers.Flight countersEmb (V d (cV L) (jV L)) (SemLoc.dma cc1_scratch24.sem) (default : HIx 1) 204800
        iprop(((outV).view.loc (V d (cV L) (jV L)) ↦[(outWin L kp 6#32 (k1_off12_inb L kp 6)).view.set]{fullShare} fd6)
          ∗ ((Memref.whole cc1_scratch8 : Memref sig .scVector .vmem S50x128 .f32).view.loc (V d (cV L) (jV L)) ↦[(Memref.whole cc1_scratch8 : Memref sig .scVector .vmem S50x128 .f32).view.set]{fullShare} fb6))
    ∗ ((Memref.whole cc1_scratch8 : Memref sig .scVector .vmem S50x128 .f32).view.loc (V d (cV L) (jV L)) ↦[Finset.univ \ (Memref.whole cc1_scratch8 : Memref sig .scVector .vmem S50x128 .f32).view.set]{fullShare} fb6)
    ∗ Transfers.Flight countersEmb (V d (cV L) (jV L)) (SemLoc.dma cc1_scratch25.sem) (default : HIx 1) 204800
        iprop(((outV).view.loc (V d (cV L) (jV L)) ↦[(outWin L kp 7#32 (k1_off12_inb L kp 7)).view.set]{fullShare} fd7)
          ∗ ((Memref.whole cc1_scratch9 : Memref sig .scVector .vmem S50x128 .f32).view.loc (V d (cV L) (jV L)) ↦[(Memref.whole cc1_scratch9 : Memref sig .scVector .vmem S50x128 .f32).view.set]{fullShare} fb7))
    ∗ ((Memref.whole cc1_scratch9 : Memref sig .scVector .vmem S50x128 .f32).view.loc (V d (cV L) (jV L)) ↦[Finset.univ \ (Memref.whole cc1_scratch9 : Memref sig .scVector .vmem S50x128 .f32).view.set]{fullShare} fb7))

/-- Before trip `n ≥ 1`: the previous trip's copies-out in flight, the later slabs to do, the earlier ones written. -/
def invPos (n : ℕ) : sProp 𝕄 :=
  if h : n - 1 < k1_t1_loop.trips then
    iprop(owesK d L O W ∗ common d L O Wsh fiv qs0 qs1 qs2 qs3 qs4 qs5 qs6 qs7
      ∗ (∃ fd0 fd1 fd2 fd3 fd4 fd5 fd6 fd7 fb0 fb1 fb2 fb3 fb4 fb5 fb6 fb7, flights d L ⟨n - 1, h⟩ fd0 fd1 fd2 fd3 fd4 fd5 fd6 fd7 fb0 fb1 fb2 fb3 fb4 fb5 fb6 fb7)
      ∗ todo d L n m0 ∗ done d L n)
  else iprop(False)

omit [FloatOps F] in
/-- Before trip `k + 1`, spelt at trip `k`'s own index. -/
theorem invPos_succ (k : Kt) :
    invPos (F := F) d L O W Wsh fiv qs0 qs1 qs2 qs3 qs4 qs5 qs6 qs7 m0 (k.val + 1)
      = iprop(owesK d L O W ∗ common d L O Wsh fiv qs0 qs1 qs2 qs3 qs4 qs5 qs6 qs7
          ∗ (∃ fd0 fd1 fd2 fd3 fd4 fd5 fd6 fd7 fb0 fb1 fb2 fb3 fb4 fb5 fb6 fb7, flights d L k fd0 fd1 fd2 fd3 fd4 fd5 fd6 fd7 fb0 fb1 fb2 fb3 fb4 fb5 fb6 fb7)
          ∗ todo d L (k.val + 1) m0 ∗ done d L (k.val + 1)) := by
  unfold invPos
  rw [dif_pos (show k.val + 1 - 1 < k1_t1_loop.trips from by have := k.isLt; omega)]
  have e : (⟨k.val + 1 - 1, (show k.val + 1 - 1 < k1_t1_loop.trips from by have := k.isLt; omega)⟩ : Kt) = k :=
    Fin.ext (show k.val + 1 - 1 = k.val by omega)
  simp only [e]

omit [FloatOps F] in
/-- A wait recorded at no call's index keeps the record the tile's own. -/
theorem bound_insert {W W' : Waits sig (HIx 1)} {x : SemLoc sig × HIx 1} (hx : x.2 = none ∨ x.2 = some (0 : Fin 1))
    (h : ∀ p ∈ W', p ∈ W ∨ p.2 = none ∨ p.2 = some (0 : Fin 1)) :
    ∀ p ∈ insert x W', p ∈ W ∨ p.2 = none ∨ p.2 = some (0 : Fin 1) := by
  intro p hp
  rcases Finset.mem_insert.mp hp with rfl | hp
  · exact .inr hx
  · exact h p hp

/-- The loop's invariant. -/
def inv (n : ℕ) (_ : Unit) : sProp 𝕄 := if n = 0 then inv0 d L O W Wsh fiv qs0 qs1 qs2 qs3 qs4 qs5 qs6 qs7 m0 else invPos d L O W Wsh fiv qs0 qs1 qs2 qs3 qs4 qs5 qs6 qs7 m0 n

end Cert.KernelIdeal.Hand

end
-- ==== Proof.KI.Values.lean ====
/-
  What a tile's copies and its gathers leave, as values. The tile's copy of its rows of the index array leaves its index
  scratch holding those rows; its copy of its block of the combined table leaves that block of the shared scratch
  holding the table's block (the two blocks are one rectangle of two arrays of one shape). A gather through a row of
  the index scratch reads, at position `(p, j)`, the shared scratch at row `index[p]`, column `j`. A slab written whole
  holds the payload on the slab and what it held off it.
-/
import proofs.«205614_g54924041781483_cont_9to1_m_645_25_alg».proof.Proof.KI.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

/-! ## The tile's two copies -/

/-- The tile's rows of the index array, as contents of its index scratch. -/
def ivContents (IX : (d : Dev nD) → Buf (Elt F) (v8Loc d)) (d : Dev nD) (L : grid1.Coords) : Buf (Elt F) ((V d (cV L) (jV L)).loc cc1_scratch0) :=
  fun j => IX d ((idxBlk L).view.emb j)

/-- The index scratch written whole with what its block of the index array reads holds that block. -/
theorem idxv_written (IX : (d : Dev nD) → Buf (Elt F) (v8Loc d)) (d : Dev nD) (L : grid1.Coords)
    (fiv0 : Buf (Elt F) ((V d (cV L) (jV L)).loc cc1_scratch0)) (pay : S128x50.Idx → Elt F .i32)
    (hpay : pay = (idxBlk L).view.read (Elt F) (IX d)) :
    View.write (Elt F) (ivV).view fiv0 pay Finset.univ = ivContents IX d L := by
  subst hpay
  rw [View.write_whole_univ]
  funext j
  exact (View.read_apply _ _).trans (cast_eq _ _)

/-- The tile's block of the shared scratch written whole with what the same block of the combined table reads holds the
    combined table there. -/
theorem shBlk_written (WC : (d : Dev nD) → Buf (Elt F) (v9Loc d)) (d : Dev nD) (L : grid1.Coords)
    (fsh : Buf (Elt F) (shLoc d (cV L))) (pay : S256x128.Idx → Elt F .f32)
    (hpay : pay = (combBlk L).view.read (Elt F) (WC d)) :
    ∀ i ∈ (shBlk L).view.set, (shBlk L).view.writes (Elt F) fsh [⟨Rect.whole S256x128, pay⟩] i = (WC d : Buf (Elt F) (shLoc d (cV L))) i := by
  subst hpay
  intro i hi
  obtain ⟨x, -, rfl⟩ := Finset.mem_map.1 hi
  have h := View.read_writes_cons_emb (shBlk L).view fsh (Rect.whole S256x128) ((combBlk L).view.read (Elt F) (WC d)) [] x
  rw [Rect.emb_whole_apply, View.read_apply, cast_eq] at h
  rw [h]
  exact (View.read_apply _ _).trans (cast_eq _ _)

/-! ## A slab written whole -/

/-- On the slab a write of the whole slab leaves the payload; -/
theorem slab_written (L : grid1.Coords) (k : Fin k1_t1_loop.trips) (r : BitVec 32)
    (h : ∀ a, (k1_off12 L k r) a + S1x50x128.size a ≤ S4096x50x128.size a)
    (fo : (outWin L k r h).view.ty.Contents (Elt F)) (w : S50x128.Idx → Elt F .f32) (y : S50x128.Idx) :
    View.write (Elt F) (outWin L k r h).view fo w Finset.univ ((outWin L k r h).view.emb y) = w y :=
  (View.write_emb_of_mem fo w (Finset.mem_univ y)).trans (cast_eq _ _)

/-- off it, what was there. -/
theorem slab_written_off (L : grid1.Coords) (k : Fin k1_t1_loop.trips) (r : BitVec 32)
    (h : ∀ a, (k1_off12 L k r) a + S1x50x128.size a ≤ S4096x50x128.size a)
    (fo : (outWin L k r h).view.ty.Contents (Elt F)) (w : S50x128.Idx → Elt F .f32) (i : (outWin L k r h).view.ty.Idx)
    (hi : i ∉ (outWin L k r h).view.set) :
    View.write (Elt F) (outWin L k r h).view fo w Finset.univ i = fo i :=
  View.write_of_not_mem fo w Finset.univ hi

/-! ## A gather through a row of the index scratch -/

open Idealize.ShloMosaic.ValueIdx (ix1 ix2)

/-- Row `k` of the rows an offset list of 50 words names is the word at position `k`. -/
theorem rows_apply {z : ℕ} (idx : S50.Idx → Elt F .i32) (hn : S50.numel = 50) (hz : ∀ x, (idx x).toNat < z) (p : Fin 50) :
    (SparseCore.rows idx hn hz p).val = (idx (ix1 p)).toNat := by
  unfold SparseCore.rows
  show (idx (S50.rowMajor.symm (p.cast hn.symm))).toNat = _
  congr 2
  rw [Equiv.symm_apply_eq]
  exact Fin.ext (Shape.rowMajor_val_one (ix1 p)).symm

/-- Position `p` of a row of the index scratch, addressed as the tile's program slices and squeezes it, is entry
    `(row, p)` of the scratch. -/
theorem rowView_emb (k : Fin k1_t1_loop.trips) (c : BitVec 32) (h : ∀ a, (k1_off4 k c) a + S1x50.size a ≤ S128x50.size a) (p : Fin 50) :
    (((ivV).slice (Rect.unit (s := S128x50) (k1_off4 k c) S1x50.size h) (fun _ => rfl)).squeeze S50 squeezes_S1x50_S50).view.emb (ix1 p)
      = ix2 (⟨k1_off4 k c 0, by have := h 0; show _ < 128; simp at this; omega⟩ : Fin 128) p := by
  show (Rect.unit (s := S128x50) (k1_off4 k c) S1x50.size h).emb (Shape.reshapeEquiv squeezes_S1x50_S50.numel_eq (ix1 p)) = _
  rw [Shape.reshapeEquiv_eq_of_rowMajor (y := (ix2 (0 : Fin 1) p : S1x50.Idx)) squeezes_S1x50_S50.numel_eq
    (by rw [Shape.rowMajor_val_two, Shape.rowMajor_val_one]; show 0 * 50 + p.val = p.val; omega)]
  funext a
  refine Fin.ext ?_
  rw [Rect.emb_apply]
  match a with
  | ⟨0, _⟩ => show k1_off4 k c 0 + 1 * 0 = k1_off4 k c 0; omega
  | ⟨1, _⟩ => show 0 + 1 * p.val = p.val; omega

/-- The gather through the row of the index scratch the tile's program addresses at trip `k`, slot word `c`: at position
    `(p, j)` it is the shared scratch at row `index[row, p]`, column `j`. -/
theorem gather_apply (d : Dev nD) (L : grid1.Coords)
    (Wsh : Buf (Elt F) ((V d (cV L) (jV L)).loc cc1_scratch1)) (fiv : Buf (Elt F) ((V d (cV L) (jV L)).loc cc1_scratch0))
    (hfiv : ∀ j, (fiv j).toNat < 4096)
    (k : Fin k1_t1_loop.trips) (c : BitVec 32) (h : ∀ a, (k1_off4 k c) a + S1x50.size a ≤ S128x50.size a)
    (hn : S50.numel = S50x128.size gathers_S4096x128_S50x128.axis')
    (hin : ∀ x, (View.read (Elt F) (((ivV).slice (Rect.unit (s := S128x50) (k1_off4 k c) S1x50.size h) (fun _ => rfl)).squeeze S50 squeezes_S1x50_S50).view fiv x).toNat
        < S4096x128.size gathers_S4096x128_S50x128.axis)
    (p : Fin 50) (j : Fin 128) :
    SparseCore.gatherPayload gathers_S4096x128_S50x128
        (View.read (Elt F) ((shV).slice (Rect.unit (s := S4096x128) ![0, 0] S4096x128.size inb_S4096x128_S4096x128_0_0) (fun _ => rfl)).view Wsh)
        (SparseCore.rows (View.read (Elt F) (((ivV).slice (Rect.unit (s := S128x50) (k1_off4 k c) S1x50.size h) (fun _ => rfl)).squeeze S50 squeezes_S1x50_S50).view fiv) hn hin)
        (ix2 p j)
      = Wsh (ix2 (⟨(fiv (ix2 (⟨k1_off4 k c 0, by have := h 0; show _ < 128; simp at this; omega⟩ : Fin 128) p)).toNat, hfiv _⟩ : Fin 4096) j) := by
  unfold SparseCore.gatherPayload
  rw [View.read_apply, cast_eq]
  congr 1
  funext a
  refine Fin.ext ?_
  show ((Rect.unit (s := S4096x128) ![0, 0] S4096x128.size inb_S4096x128_S4096x128_0_0).emb
      (gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j)) a).val = _
  rw [Rect.emb_apply]
  match a with
  | ⟨0, h0⟩ =>
    have e1 : gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j) ⟨0, h0⟩
        = SparseCore.rows (View.read (Elt F) (((ivV).slice (Rect.unit (s := S128x50) (k1_off4 k c) S1x50.size h) (fun _ => rfl)).squeeze S50 squeezes_S1x50_S50).view fiv) hn hin p :=
      gathers_S4096x128_S50x128.idx_axis _ (ix2 p j)
    have e2 : (SparseCore.rows (View.read (Elt F) (((ivV).slice (Rect.unit (s := S128x50) (k1_off4 k c) S1x50.size h) (fun _ => rfl)).squeeze S50 squeezes_S1x50_S50).view fiv) hn hin p).val
        = (View.read (Elt F) (((ivV).slice (Rect.unit (s := S128x50) (k1_off4 k c) S1x50.size h) (fun _ => rfl)).squeeze S50 squeezes_S1x50_S50).view fiv (ix1 p)).toNat :=
      rows_apply _ hn hin p
    have e3 : View.read (Elt F) (((ivV).slice (Rect.unit (s := S128x50) (k1_off4 k c) S1x50.size h) (fun _ => rfl)).squeeze S50 squeezes_S1x50_S50).view fiv (ix1 p)
        = fiv (ix2 (⟨k1_off4 k c 0, by have := h 0; show _ < 128; simp at this; omega⟩ : Fin 128) p) := by
      rw [View.read_apply, cast_eq, rowView_emb]
    show 0 + 1 * (gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j) ⟨0, h0⟩).val
      = (fiv (ix2 (⟨k1_off4 k c 0, by have := h 0; show _ < 128; simp at this; omega⟩ : Fin 128) p)).toNat
    rw [e1, e2, e3]
    omega
  | ⟨1, h1⟩ =>
    have e1 := gathers_S4096x128_S50x128.idx_of_ne (SparseCore.rows (View.read (Elt F) (((ivV).slice (Rect.unit (s := S128x50) (k1_off4 k c) S1x50.size h) (fun _ => rfl)).squeeze S50 squeezes_S1x50_S50).view fiv) hn hin) (ix2 p j) ⟨1, h1⟩ (by show (1 : ℕ) ≠ 0; omega)
    show 0 + 1 * (gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j) ⟨1, h1⟩).val = j.val
    rw [e1]
    show 0 + 1 * j.val = j.val
    omega

/-- The row of the index scratch the tile's program addresses at trip `k`, slot `r`, is row `8k + r`. -/
theorem row_off (k : Fin k1_t1_loop.trips) (r : Fin 8) : k1_off4 k (BitVec.ofNat 32 r.val) 0 = 8 * k.val + r.val := by
  rw [k1_off4_eq]; rfl

theorem row_lt (k : Fin k1_t1_loop.trips) (r : Fin 8) : 8 * k.val + r.val < 128 := by
  have h0 : k1_off4 k (BitVec.ofNat 32 r.val) 0 + 1 ≤ 128 := k1_off4_inb k r 0
  rw [row_off] at h0
  omega

/-- The same at slot `r`: the gather reads row `index[8k + r, p]` of the shared scratch. -/
theorem gather_apply_slot (d : Dev nD) (L : grid1.Coords)
    (Wsh : Buf (Elt F) ((V d (cV L) (jV L)).loc cc1_scratch1)) (fiv : Buf (Elt F) ((V d (cV L) (jV L)).loc cc1_scratch0))
    (hfiv : ∀ j, (fiv j).toNat < 4096) (k : Fin k1_t1_loop.trips) (r : Fin 8)
    (hn : S50.numel = S50x128.size gathers_S4096x128_S50x128.axis')
    (hin : ∀ x, (View.read (Elt F) (((ivV).slice (Rect.unit (s := S128x50) (k1_off4 k (BitVec.ofNat 32 r.val)) S1x50.size (k1_off4_inb k r)) (fun _ => rfl)).squeeze S50 squeezes_S1x50_S50).view fiv x).toNat
        < S4096x128.size gathers_S4096x128_S50x128.axis)
    (p : Fin 50) (j : Fin 128) :
    SparseCore.gatherPayload gathers_S4096x128_S50x128
        (View.read (Elt F) ((shV).slice (Rect.unit (s := S4096x128) ![0, 0] S4096x128.size inb_S4096x128_S4096x128_0_0) (fun _ => rfl)).view Wsh)
        (SparseCore.rows (View.read (Elt F) (((ivV).slice (Rect.unit (s := S128x50) (k1_off4 k (BitVec.ofNat 32 r.val)) S1x50.size (k1_off4_inb k r)) (fun _ => rfl)).squeeze S50 squeezes_S1x50_S50).view fiv) hn hin)
        (ix2 p j)
      = Wsh (ix2 (⟨(fiv (ix2 (⟨8 * k.val + r.val, row_lt k r⟩ : Fin 128) p)).toNat, hfiv _⟩ : Fin 4096) j) := by
  rw [gather_apply d L Wsh fiv hfiv k (BitVec.ofNat 32 r.val) (k1_off4_inb k r) hn hin p j]
  have e : (ix2 (⟨k1_off4 k (BitVec.ofNat 32 r.val) 0, by have := k1_off4_inb k r 0; show _ < 128; simp at this; omega⟩ : Fin 128) p : S128x50.Idx)
      = ix2 (⟨8 * k.val + r.val, row_lt k r⟩ : Fin 128) p := by
    congr 1
    exact Fin.ext (row_off k r)
  congr 2
  exact Fin.ext (congrArg (fun x => (fiv x).toNat) e)

end Cert.KernelIdeal.Hand

end
-- ==== Proof.KI.Tile.lean ====
/-
  Lemmas for a tile's task: the pieces of the arrays at their slices' places, the barrier's payloads — a tile's rows of
  the shared table shared out to every tile's round, and a read share of the whole table collected from its own —, and the
  tile's slabs of the result as its to-do list before the first trip.
-/
import proofs.«205614_g54924041781483_cont_9to1_m_645_25_alg».proof.Proof.KI.Proto
import proofs.«205614_g54924041781483_cont_9to1_m_645_25_alg».proof.Proof.KI.Own
import proofs.«205614_g54924041781483_cont_9to1_m_645_25_alg».proof.Proof.KI.Trip
import proofs.«205614_g54924041781483_cont_9to1_m_645_25_alg».proof.Proof.KI.Parts
import proofs.«205614_g54924041781483_cont_9to1_m_645_25_alg».proof.Proof.KI.Values

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable (m : (ℓ : Loc nD τ sig) → Buf (Elt F) ℓ)
variable (IX : (d : Dev nD) → Buf (Elt F) (v8Loc d)) (WC : (d : Dev nD) → Buf (Elt F) (v9Loc d))
variable [FloatOps F] (d : Dev nD) (L : grid1.Coords)

omit [FloatOps F] in
theorem tileOf_self : tileOf (cV L) (jV L) = L := by
  funext a
  match a with
  | ⟨0, _⟩ => rfl
  | ⟨1, _⟩ => rfl

/-! ## The barrier's payloads: a tile's rows, shared out and collected -/

/-- Before the barrier a tile's rows of the shared table, written, go out as read shares: one to every tile's round, what
    remains kept. -/
theorem pays_intro : (shLoc d (cV L) ↦[(shBlk L).view.set]{fullShare} WC d : sProp 𝕄)
    ⊢ iprop((shLoc d (cV L) ↦[(shBlk L).view.set]{qKeep} WC d)
        ∗ bigSep Finset.univ fun j : Fin (grid1.bound 1) => (bRd (F := F) WC).payload (bcell d (cV L) (j.castLE hsub1)) 0 (jV L).val) := by
  refine (Transfers.pointsTo_toks_split fullShare 16).trans (sep_mono_right ?_)
  refine Entails.of_eq (bigSep_congr fun j _ => ?_)
  show _ = bPay WC (bcell d (cV L) (j.castLE hsub1)) (jV L).val
  unfold bPay; dsimp only
  rw [dif_pos (jV L).isLt]
  show _ = (shLoc d (cV L) ↦[(shBlk (tileOf (cV L) ⟨(jV L).val, (jV L).isLt⟩)).view.set]{_} WC d : sProp 𝕄)
  rw [show (⟨(jV L).val, (jV L).isLt⟩ : Fin τ.nSub) = jV L from rfl, tileOf_self]
  rfl

/-- After it, what a tile's own round collected is a read share of the whole shared table. -/
theorem pays_elim : (bigSep ((bRd (F := F) WC).duties (bcell d (cV L) (jV L)) 0 \ ∅) fun n => (bRd (F := F) WC).payload (bcell d (cV L) (jV L)) 0 n)
    ⊢ (shLoc d (cV L) ↦{qT (jL L)} WC d : sProp 𝕄) := by
  rw [Finset.sdiff_empty, bRd_duties₀, SparseCore.bigSep_image_of_injOn (fun a _ b _ e => Fin.val_injective e),
    sh_blocks d (cV L) (L 0) (qT (jL L)) (WC d)]
  refine Entails.of_eq (bigSep_congr fun n _ => ?_)
  show bPay WC (bcell d (cV L) (jV L)) n.val = _
  unfold bPay; dsimp only
  rw [dif_pos n.isLt]
  rfl

/-! ## Spellings: a piece at its array's place is the piece at its slice's place -/

omit [FloatOps F] in
theorem pts_idx (f : Buf (Elt F) (v8Loc d)) :
    (v8Loc d ↦[(idxBlk L).view.set]{fullShare} f : sProp 𝕄) = ((idxBlk L).view.loc (V d (cV L) (jV L)) ↦[(idxBlk L).view.set]{fullShare} f) := rfl
omit [FloatOps F] in
theorem pts_comb (q : PosShare TreeShare) (f : Buf (Elt F) (v9Loc d)) :
    (v9Loc d ↦[(combBlk L).view.set]{q} f : sProp 𝕄) = ((combBlk L).view.loc (V d (cV L) (jV L)) ↦[(combBlk L).view.set]{q} f) := rfl
omit [FloatOps F] in
theorem pts_sh (q : PosShare TreeShare) (f : Buf (Elt F) (shLoc d (cV L))) :
    (shLoc d (cV L) ↦[(shBlk L).view.set]{q} f : sProp 𝕄) = ((shBlk L).view.loc (V d (cV L) (jV L)) ↦[(shBlk L).view.set]{q} f) := rfl
omit [FloatOps F] in
theorem pts_shAll (q : PosShare TreeShare) (f : Buf (Elt F) (shLoc d (cV L))) :
    (shLoc d (cV L) ↦{q} f : sProp 𝕄) = ((shV).view.loc (V d (cV L) (jV L)) ↦{q} f) := rfl

/-- The tile's to-do list before the first trip is its slabs of the result as it was handed them. -/
theorem todo_intro (m0 : Buf (Elt F) (v10Loc d)) : (v10Loc d ↦[outSet L]{fullShare} m0 : sProp 𝕄) ⊢ todo d L 0 m0 := by
  rw [out_windows d L fullShare m0]
  unfold todo
  rw [show (Finset.univ.filter fun k : Kt => 0 ≤ k.val) = Finset.univ from Finset.filter_true_of_mem fun _ _ => Nat.zero_le _]
  refine Entails.of_eq (bigSep_congr fun k _ => ?_)
  exact bigSep_univ_eq_bigSepL [(0 : Fin 8), 1, 2, 3, 4, 5, 6, 7] (by decide) (by decide) _

omit [FloatOps F] in
theorem ivContents_lt (hIX : ∀ j, (IX d j).toNat < 4096) : ∀ j, (ivContents IX d L j).toNat < 4096 := fun j => hIX _

end Cert.KernelIdeal.Hand

end
-- ==== Proof.KI.TripV.lean ====
/-
  The loop's invariant with the slabs' contents named: the slabs the earlier trips wrote, and the ones the previous
  trip's copies-out hold in flight, are at the target — entry `(b, s, j)` of the result row `IX[b, s]` of the combined
  table, column `j` —, the shared table being the combined table and the tile's index rows its rows of the index array.
-/
import proofs.«205614_g54924041781483_cont_9to1_m_645_25_alg».proof.Proof.KI.Trip
import proofs.«205614_g54924041781483_cont_9to1_m_645_25_alg».proof.Proof.KI.Values
import proofs.«205614_g54924041781483_cont_9to1_m_645_25_alg».proof.Proof.KI.Target

noncomputable section

namespace Cert.KernelIdeal.HandV

open Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable [FloatOps F] (IX : (d : Dev nD) → Buf (Elt F) (v8Loc d)) (WC : (d : Dev nD) → Buf (Elt F) (v9Loc d)) (d : Dev nD) (L : grid1.Coords)

/-! ## The slabs written, at the target -/

/-- The eight slabs of trip `k`, handed back by their copies-out, at the target. -/
abbrev rowDoneV (k : Kt) : sProp 𝕄 := rowDone d L k (TGT IX WC d) (TGT IX WC d) (TGT IX WC d) (TGT IX WC d) (TGT IX WC d) (TGT IX WC d) (TGT IX WC d) (TGT IX WC d)

/-- The slabs of the trips before `n - 1`: written, at the target. -/
def doneV (n : ℕ) : sProp 𝕄 :=
  bigSep (Finset.univ.filter fun k : Kt => k.val + 1 < n) fun k => rowDoneV IX WC d L k

omit [FloatOps F] in
theorem doneV_start (n : ℕ) (hn : n ≤ 1) : doneV (F := F) IX WC d L n = iprop(emp) := by
  unfold doneV
  rw [show (Finset.univ.filter fun k' : Kt => k'.val + 1 < n) = ∅ from Finset.filter_eq_empty_iff.mpr fun k' _ => by omega]
  exact bigSep_empty

omit [FloatOps F] in
theorem done_stepV (n : ℕ) (kp : Kt) (hkp : kp.val + 1 = n) :
    doneV (F := F) IX WC d L (n + 1) = iprop(rowDoneV IX WC d L kp ∗ doneV IX WC d L n) := by
  unfold doneV
  rw [show (Finset.univ.filter fun k' : Kt => k'.val + 1 < n + 1) = insert kp (Finset.univ.filter fun k' : Kt => k'.val + 1 < n) from by
    ext k'; simp only [Finset.mem_filter, Finset.mem_univ, true_and, Finset.mem_insert]
    constructor
    · intro h; by_cases e : k' = kp
      · exact Or.inl e
      · exact Or.inr (by have : k'.val ≠ kp.val := fun h' => e (Fin.ext h'); omega)
    · rintro (rfl | h) <;> omega]
  exact SparseCore.bigSep_insert' (by simp; omega)

/-! ## What a trip finds and leaves -/

variable (O : CellTallies nD τ sig (HIx 1)) (W : Waits sig (HIx 1))
variable (qs0 qs1 qs2 qs3 qs4 qs5 qs6 qs7 : PosShare TreeShare) (m0 : Buf (Elt F) (v10Loc d))

/-- The copies-out of trip `kp` in flight, their slabs at the target. -/
abbrev flightsV (kp : Kt) (fb0 fb1 fb2 fb3 fb4 fb5 fb6 fb7 : Buf (Elt F) ((V d (cV L) (jV L)).loc cc1_scratch2)) : sProp 𝕄 :=
  flights d L kp (TGT IX WC d) (TGT IX WC d) (TGT IX WC d) (TGT IX WC d) (TGT IX WC d) (TGT IX WC d) (TGT IX WC d) (TGT IX WC d) fb0 fb1 fb2 fb3 fb4 fb5 fb6 fb7

/-- Before trip `n ≥ 1`: the previous trip's copies-out in flight with their slabs at the target, the later slabs to do,
    the earlier ones written at the target; the shared table is the combined table, the index rows the tile's rows of the
    index array. -/
def invPosV (n : ℕ) : sProp 𝕄 :=
  if h : n - 1 < k1_t1_loop.trips then
    iprop(owesK d L O W ∗ common d L O (WC d : Buf (Elt F) ((V d (cV L) (jV L)).loc cc1_scratch1)) (ivContents IX d L) qs0 qs1 qs2 qs3 qs4 qs5 qs6 qs7
      ∗ (∃ fb0 fb1 fb2 fb3 fb4 fb5 fb6 fb7, flightsV IX WC d L ⟨n - 1, h⟩ fb0 fb1 fb2 fb3 fb4 fb5 fb6 fb7)
      ∗ todo d L n m0 ∗ doneV IX WC d L n)
  else iprop(False)

omit [FloatOps F] in
/-- Before trip `k + 1`, spelt at trip `k`'s own index. -/
theorem invPosV_succ (k : Kt) :
    invPosV (F := F) IX WC d L O W qs0 qs1 qs2 qs3 qs4 qs5 qs6 qs7 m0 (k.val + 1)
      = iprop(owesK d L O W ∗ common d L O (WC d : Buf (Elt F) ((V d (cV L) (jV L)).loc cc1_scratch1)) (ivContents IX d L) qs0 qs1 qs2 qs3 qs4 qs5 qs6 qs7
          ∗ (∃ fb0 fb1 fb2 fb3 fb4 fb5 fb6 fb7, flightsV IX WC d L k fb0 fb1 fb2 fb3 fb4 fb5 fb6 fb7)
          ∗ todo d L (k.val + 1) m0 ∗ doneV IX WC d L (k.val + 1)) := by
  unfold invPosV
  rw [dif_pos (show k.val + 1 - 1 < k1_t1_loop.trips from by have := k.isLt; omega)]
  have e : (⟨k.val + 1 - 1, (show k.val + 1 - 1 < k1_t1_loop.trips from by have := k.isLt; omega)⟩ : Kt) = k :=
    Fin.ext (show k.val + 1 - 1 = k.val by omega)
  simp only [e]

/-- The loop's invariant, with values. -/
def invV (n : ℕ) (_ : Unit) : sProp 𝕄 :=
  if n = 0 then inv0 d L O W (WC d : Buf (Elt F) ((V d (cV L) (jV L)).loc cc1_scratch1)) (ivContents IX d L) qs0 qs1 qs2 qs3 qs4 qs5 qs6 qs7 m0
  else invPosV IX WC d L O W qs0 qs1 qs2 qs3 qs4 qs5 qs6 qs7 m0 n

end Cert.KernelIdeal.HandV

end
-- ==== Proof.KI.SlabV.lean ====
/-
  A slab's value. The copy-out of trip `k`, slot `r` writes into slab `256 · s + 128 · c + 8k + r` of the result what
  the slot holds: the rows the gather brought, row `p` of which is row `index[8k + r, p]` of the shared table — and the
  tile's index rows are rows `256 · s + 128 · c + ·` of the index array, the shared table the combined table. So the slab
  holds, at `(p, j)`, the combined table at row `IX[256 · s + 128 · c + 8k + r, p]`, column `j`: the target.
-/
import proofs.«205614_g54924041781483_cont_9to1_m_645_25_alg».proof.Proof.KI.Trip
import proofs.«205614_g54924041781483_cont_9to1_m_645_25_alg».proof.Proof.KI.Values
import proofs.«205614_g54924041781483_cont_9to1_m_645_25_alg».proof.Proof.KI.Target

noncomputable section

namespace Cert.KernelIdeal.HandV

open Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

open Idealize.ShloMosaic.ValueIdx (ix1 ix2 ix3)

variable (IX : (d : Dev nD) → Buf (Elt F) (v8Loc d)) (WC : (d : Dev nD) → Buf (Elt F) (v9Loc d))

/-- The first coordinate of slab `(k, r)` is a position of the result. -/
theorem slab_lt (L : grid1.Coords) (k : Kt) (r : Fin 8) : 256 * (L 1).val + 128 * (L 0).val + 8 * k.val + r.val < 4096 := by
  have h0 : k1_off12 L k (BitVec.ofNat 32 r.val) 0 + 1 ≤ 4096 := k1_off12_inb L k r 0
  rw [k1_off12_eq] at h0
  have e : (![256 * (L 1).val + 128 * (L 0).val + 8 * k.val + r.val, 0, 0] : Fin 3 → ℕ) 0 = 256 * (L 1).val + 128 * (L 0).val + 8 * k.val + r.val := rfl
  omega

/-- Entry `(p, j)` of slab `(k, r)`, as the tile's program slices and squeezes it, is entry
    `(256 · s + 128 · c + 8k + r, p, j)` of the result. -/
theorem outWin_emb (L : grid1.Coords) (k : Kt) (r : Fin 8) (p : Fin 50) (j : Fin 128) :
    (outWin L k (BitVec.ofNat 32 r.val) (k1_off12_inb L k r)).view.emb (ix2 p j)
      = ix3 (⟨256 * (L 1).val + 128 * (L 0).val + 8 * k.val + r.val, slab_lt L k r⟩ : Fin 4096) p j := by
  show (Rect.unit (s := S4096x50x128) (k1_off12 L k (BitVec.ofNat 32 r.val)) S1x50x128.size (k1_off12_inb L k r)).emb
      (Shape.reshapeEquiv squeezes_S1x50x128_S50x128.numel_eq (ix2 p j)) = _
  rw [Shape.reshapeEquiv_eq_of_rowMajor (y := (ix3 (0 : Fin 1) p j : S1x50x128.Idx)) squeezes_S1x50x128_S50x128.numel_eq
    (by rw [Shape.rowMajor_val_three, Shape.rowMajor_val_two]; show (0 * 50 + p.val) * 128 + j.val = p.val * 128 + j.val; omega)]
  funext a
  refine Fin.ext ?_
  rw [Rect.emb_apply]
  show k1_off12 L k (BitVec.ofNat 32 r.val) a + 1 * ((ix3 (0 : Fin 1) p j : S1x50x128.Idx) a).val = _
  rw [k1_off12_eq]
  match a with
  | ⟨0, _⟩ => show 256 * (L 1).val + 128 * (L 0).val + 8 * k.val + r.val + 1 * 0 = 256 * (L 1).val + 128 * (L 0).val + 8 * k.val + r.val; omega
  | ⟨1, _⟩ => show 0 + 1 * p.val = p.val; omega
  | ⟨2, _⟩ => show 0 + 1 * j.val = j.val; omega

/-- Row `a` of the tile's rows of the index array is row `256 · s + 128 · c + a` of the index array. -/
theorem idxBlk_emb (L : grid1.Coords) (a : Fin 128) (p : Fin 50) (hlt : 256 * (L 1).val + 128 * (L 0).val + a.val < 4096) :
    (idxBlk L).view.emb (ix2 a p) = ix2 (⟨256 * (L 1).val + 128 * (L 0).val + a.val, hlt⟩ : Fin 4096) p := by
  show (Rect.unit (s := S4096x50) (k1_off2 L) S128x50.size (k1_off2_inb L)).emb (ix2 a p) = _
  funext b
  refine Fin.ext ?_
  rw [Rect.emb_apply]
  show k1_off2 L b + 1 * ((ix2 a p : S128x50.Idx) b).val = _
  rw [k1_off2_eq]
  match b with
  | ⟨0, _⟩ => show 256 * (L 1).val + 128 * (L 0).val + 1 * a.val = 256 * (L 1).val + 128 * (L 0).val + a.val; omega
  | ⟨1, _⟩ => show 0 + 1 * p.val = p.val; omega

/-- A whole buffer written whole reads as what was written. -/
theorem read_whole_written {κ : Kind} (b : Ref sig κ) (fb : b.ty.Contents (Elt F)) (G : (Rect.whole b.ty.shape).shape.Idx → Elt F b.ty.elt) :
    (View.whole b).read (Elt F) ((View.whole b).writes (Elt F) fb [⟨Rect.whole b.ty.shape, G⟩]) = G := by
  funext x
  have h := View.read_writes_cons_emb (View.whole b) fb (Rect.whole b.ty.shape) G [] x
  rw [Rect.emb_whole_apply] at h
  exact h

/-- Slab `(k, r)` written whole with a payload that is, entry by entry, row `index[8k + r, p]` of the combined table,
    the index rows being the tile's rows of the index array: on the slab, the target. -/
theorem slab_value (d : Dev nD) (L : grid1.Coords) (hIX : ∀ j, (IX d j).toNat < 4096) (m0 : Buf (Elt F) (v10Loc d)) (k : Kt) (r : Fin 8)
    (w : S50x128.Idx → Elt F .f32)
    (hw : ∀ (p : Fin 50) (j : Fin 128), w (ix2 p j)
        = WC d (ix2 (⟨(ivContents IX d L (ix2 (⟨8 * k.val + r.val, row_lt k r⟩ : Fin 128) p)).toNat, hIX _⟩ : Fin 4096) j)) :
    ∀ i ∈ (outWin L k (BitVec.ofNat 32 r.val) (k1_off12_inb L k r)).view.set,
      (outWin L k (BitVec.ofNat 32 r.val) (k1_off12_inb L k r)).view.writes (Elt F) m0 [⟨Rect.whole S50x128, w⟩] i = TGT IX WC d i := by
  intro i hi
  obtain ⟨y, -, rfl⟩ := Finset.mem_map.1 hi
  obtain ⟨p, j, rfl⟩ : ∃ (p : Fin 50) (j : Fin 128), y = ix2 p j := ⟨y 0, y 1, ValueIdx.eq_ix2 y⟩
  have h := View.read_writes_cons_emb (outWin L k (BitVec.ofNat 32 r.val) (k1_off12_inb L k r)).view m0 (Rect.whole S50x128) w [] (ix2 p j)
  rw [Rect.emb_whole_apply, View.read_apply, cast_eq] at h
  have hb : 256 * (L 1).val + 128 * (L 0).val + (8 * k.val + r.val) < 4096 := by have := slab_lt L k r; omega
  have e : ivContents IX d L (ix2 (⟨8 * k.val + r.val, row_lt k r⟩ : Fin 128) p)
      = IX d (ix2 (⟨256 * (L 1).val + 128 * (L 0).val + 8 * k.val + r.val, slab_lt L k r⟩ : Fin 4096) p) := by
    unfold ivContents
    rw [idxBlk_emb L (⟨8 * k.val + r.val, row_lt k r⟩ : Fin 128) p hb]
    congr 2
    exact Fin.ext (by show 256 * (L 1).val + 128 * (L 0).val + (8 * k.val + r.val) = 256 * (L 1).val + 128 * (L 0).val + 8 * k.val + r.val; omega)
  rw [h, hw p j, outWin_emb, TGT_apply IX WC d _ p j (hIX _)]
  congr 2
  exact Fin.ext (congrArg BitVec.toNat e)

end Cert.KernelIdeal.HandV

end
-- ==== Proof.KI.TripRunV.lean ====
/-
  One trip of a tile's loop, run, with the slabs' contents named: from the valued invariant before it to the valued
  invariant after it. The run is the frame's; what is added is that each slab a trip's copies-out take in flight holds
  the target — the slot holds the gathered rows, row `p` of which is row `index[8k + r, p]` of the shared table.
-/
import proofs.«205614_g54924041781483_cont_9to1_m_645_25_alg».proof.Proof.KI.TripV
import proofs.«205614_g54924041781483_cont_9to1_m_645_25_alg».proof.Proof.KI.SlabV

noncomputable section

namespace Cert.KernelIdeal.HandV

open Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

open Idealize.ShloMosaic.ValueIdx (ix1 ix2 ix3)

variable [FloatOps F] (IX : (d : Dev nD) → Buf (Elt F) (v8Loc d)) (WC : (d : Dev nD) → Buf (Elt F) (v9Loc d)) (d : Dev nD) (L : grid1.Coords)
variable (O : CellTallies nD τ sig (HIx 1)) (W : Waits sig (HIx 1))
variable (qs0 qs1 qs2 qs3 qs4 qs5 qs6 qs7 : PosShare TreeShare) (m0 : Buf (Elt F) (v10Loc d))

omit [FloatOps F] in
/-- A copy-out in flight holding a slab: the slab's contents may be replaced by any that agree with them on the slab. -/
theorem flight_slab_congr (thr : Thread nD τ) (sem : SemLoc sig) (N : ℕ) (ℓ : Loc nD τ sig) (I : Finset (Idx ℓ)) (f g : Buf (Elt F) ℓ) (B : sProp 𝕄)
    (h : ∀ i ∈ I, f i = g i) :
    (Transfers.Flight countersEmb thr sem (default : HIx 1) N iprop((ℓ ↦[I]{fullShare} f) ∗ B) : sProp 𝕄)
      ⊢ Transfers.Flight countersEmb thr sem (default : HIx 1) N iprop((ℓ ↦[I]{fullShare} g) ∗ B) :=
  Entails.of_eq (by rw [pointsTo_congr h])

set_option maxHeartbeats 8000000 in
/-- The first trip. -/
theorem step0V (k : Kt) (hk : k.val = 0) (hIX : ∀ j, (IX d j).toNat < 4096) (v2 : BitVec 32) :
    inv0 d L O W (WC d : Buf (Elt F) ((V d (cV L) (jV L)).loc cc1_scratch1)) (ivContents IX d L) qs0 qs1 qs2 qs3 qs4 qs5 qs6 qs7 m0
      ⊢ wp frame (wpE (defs₀ (F := F)) 𝒱₀ (V d (cV L) (jV L)) none) Set.univ (k1_t1_body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1 v2 k ⟨⟩)
          (fun _ => invPosV IX WC d L O W qs0 qs1 qs2 qs3 qs4 qs5 qs6 qs7 m0 (k.val + 1)) := by
  have hfiv : ∀ j, (ivContents IX d L j).toNat < 4096 := fun j => hIX _
  have hin : ∀ (k : Fin k1_t1_loop.trips) (c : BitVec 32) (h : ∀ a, (k1_off4 k c) a + S1x50.size a ≤ S128x50.size a) (x : S50.Idx),
      (View.read (Elt F) (((ivV).slice (Rect.unit (s := S128x50) (k1_off4 k c) S1x50.size h) (fun _ => rfl)).squeeze S50 squeezes_S1x50_S50).view (ivContents IX d L) x).toNat < 4096 := by
    intro k c h x
    rw [(View.read_apply _ _).trans (cast_eq _ _)]
    exact hfiv _
  rw [invPosV_succ, doneV_start IX WC d L (k.val + 1) (by omega)]
  unfold inv0
  rw [todo_step d L 0 k hk m0, show (0 : ℕ) + 1 = k.val + 1 by omega]
  unfold owesK common flightsV flights rowPts
  iintro ⟨⟨%W', %hW', HO⟩, ⟨#Hmw, Hiv, Hsh0, Hsh1, Hsh2, Hsh3, Hsh4, Hsh5, Hsh6, Hsh7, Hg0, Hg1, Hg2, Hg3, Hg4, Hg5, Hg6, Hg7⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, Ho0, Ho1, Ho2, Ho3, Ho4, Ho5, Ho6, Ho7, ⟨Hw0, Hw1, Hw2, Hw3, Hw4, Hw5, Hw6, Hw7⟩, Htodo⟩
  unfold k1_t1_body
  rw [k1_part1_eq_skeleton, k1_part2_eq_skeleton, k1_part3_eq_skeleton, k1_part4_eq_skeleton, k1_part5_eq_skeleton]
  unfold k1_part1_skel k1_part2_skel k1_part3_skel k1_part4_skel k1_part5_skel
  sl_exec (disch := first | sl_exact (c1z k hk) | sl_exact (c2z k hk) | sl_exact (c3z k hk) | sl_exact (c4z k hk) | sl_exact (c5z k hk) | sl_exact (c6z k hk) | sl_exact (c7z k hk) | sl_exact (c8z k hk))
  sl_step
  isplitl [HO]
  · iexists _; isplitr
    swap; · iexact HO
    ipureintro
    repeat' (first | exact hW' | refine bound_insert (.inl rfl) ?_)
  ihave Ho0 := (flight_slab_congr _ _ _ _ _ _ (TGT IX WC d) _
      (show ∀ i ∈ (outWin L k 0#32 (k1_off12_inb L k 0)).view.set,
          (outWin L k 0#32 (k1_off12_inb L k 0)).view.writes (Elt F) m0 [⟨Rect.whole S50x128, step0V.sl.dma0 IX WC d L k hin fb0⟩] i = TGT IX WC d i from
        slab_value IX WC d L hIX m0 k 0 (step0V.sl.dma0 IX WC d L k hin fb0)
          (fun p j => (congrFun (read_whole_written cc1_scratch2 fb0 (step0V.sl.gather0 IX WC d L k hin)) (ix2 p j)).trans
            (gather_apply_slot d L (WC d) (ivContents IX d L) hfiv k 0 _ _ p j)))) $$ Ho0
  ihave Ho1 := (flight_slab_congr _ _ _ _ _ _ (TGT IX WC d) _
      (show ∀ i ∈ (outWin L k 1#32 (k1_off12_inb L k 1)).view.set,
          (outWin L k 1#32 (k1_off12_inb L k 1)).view.writes (Elt F) m0 [⟨Rect.whole S50x128, step0V.sl.dma0_1 IX WC d L k hin fb1⟩] i = TGT IX WC d i from
        slab_value IX WC d L hIX m0 k 1 (step0V.sl.dma0_1 IX WC d L k hin fb1)
          (fun p j => (congrFun (read_whole_written cc1_scratch3 fb1 (step0V.sl.gather1 IX WC d L k hin)) (ix2 p j)).trans
            (gather_apply_slot d L (WC d) (ivContents IX d L) hfiv k 1 _ _ p j)))) $$ Ho1
  ihave Ho2 := (flight_slab_congr _ _ _ _ _ _ (TGT IX WC d) _
      (show ∀ i ∈ (outWin L k 2#32 (k1_off12_inb L k 2)).view.set,
          (outWin L k 2#32 (k1_off12_inb L k 2)).view.writes (Elt F) m0 [⟨Rect.whole S50x128, step0V.sl.dma0_2 IX WC d L k hin fb2⟩] i = TGT IX WC d i from
        slab_value IX WC d L hIX m0 k 2 (step0V.sl.dma0_2 IX WC d L k hin fb2)
          (fun p j => (congrFun (read_whole_written cc1_scratch4 fb2 (step0V.sl.gather2 IX WC d L k hin)) (ix2 p j)).trans
            (gather_apply_slot d L (WC d) (ivContents IX d L) hfiv k 2 _ _ p j)))) $$ Ho2
  ihave Ho3 := (flight_slab_congr _ _ _ _ _ _ (TGT IX WC d) _
      (show ∀ i ∈ (outWin L k 3#32 (k1_off12_inb L k 3)).view.set,
          (outWin L k 3#32 (k1_off12_inb L k 3)).view.writes (Elt F) m0 [⟨Rect.whole S50x128, step0V.sl.dma0_3 IX WC d L k hin fb3⟩] i = TGT IX WC d i from
        slab_value IX WC d L hIX m0 k 3 (step0V.sl.dma0_3 IX WC d L k hin fb3)
          (fun p j => (congrFun (read_whole_written cc1_scratch5 fb3 (step0V.sl.gather3 IX WC d L k hin)) (ix2 p j)).trans
            (gather_apply_slot d L (WC d) (ivContents IX d L) hfiv k 3 _ _ p j)))) $$ Ho3
  ihave Ho4 := (flight_slab_congr _ _ _ _ _ _ (TGT IX WC d) _
      (show ∀ i ∈ (outWin L k 4#32 (k1_off12_inb L k 4)).view.set,
          (outWin L k 4#32 (k1_off12_inb L k 4)).view.writes (Elt F) m0 [⟨Rect.whole S50x128, step0V.sl.dma0_4 IX WC d L k hin fb4⟩] i = TGT IX WC d i from
        slab_value IX WC d L hIX m0 k 4 (step0V.sl.dma0_4 IX WC d L k hin fb4)
          (fun p j => (congrFun (read_whole_written cc1_scratch6 fb4 (step0V.sl.gather4 IX WC d L k hin)) (ix2 p j)).trans
            (gather_apply_slot d L (WC d) (ivContents IX d L) hfiv k 4 _ _ p j)))) $$ Ho4
  ihave Ho5 := (flight_slab_congr _ _ _ _ _ _ (TGT IX WC d) _
      (show ∀ i ∈ (outWin L k 5#32 (k1_off12_inb L k 5)).view.set,
          (outWin L k 5#32 (k1_off12_inb L k 5)).view.writes (Elt F) m0 [⟨Rect.whole S50x128, step0V.sl.dma0_5 IX WC d L k hin fb5⟩] i = TGT IX WC d i from
        slab_value IX WC d L hIX m0 k 5 (step0V.sl.dma0_5 IX WC d L k hin fb5)
          (fun p j => (congrFun (read_whole_written cc1_scratch7 fb5 (step0V.sl.gather5 IX WC d L k hin)) (ix2 p j)).trans
            (gather_apply_slot d L (WC d) (ivContents IX d L) hfiv k 5 _ _ p j)))) $$ Ho5
  ihave Ho6 := (flight_slab_congr _ _ _ _ _ _ (TGT IX WC d) _
      (show ∀ i ∈ (outWin L k 6#32 (k1_off12_inb L k 6)).view.set,
          (outWin L k 6#32 (k1_off12_inb L k 6)).view.writes (Elt F) m0 [⟨Rect.whole S50x128, step0V.sl.dma0_6 IX WC d L k hin fb6⟩] i = TGT IX WC d i from
        slab_value IX WC d L hIX m0 k 6 (step0V.sl.dma0_6 IX WC d L k hin fb6)
          (fun p j => (congrFun (read_whole_written cc1_scratch8 fb6 (step0V.sl.gather6 IX WC d L k hin)) (ix2 p j)).trans
            (gather_apply_slot d L (WC d) (ivContents IX d L) hfiv k 6 _ _ p j)))) $$ Ho6
  ihave Ho7 := (flight_slab_congr _ _ _ _ _ _ (TGT IX WC d) _
      (show ∀ i ∈ (outWin L k 7#32 (k1_off12_inb L k 7)).view.set,
          (outWin L k 7#32 (k1_off12_inb L k 7)).view.writes (Elt F) m0 [⟨Rect.whole S50x128, step0V.sl.dma0_7 IX WC d L k hin fb7⟩] i = TGT IX WC d i from
        slab_value IX WC d L hIX m0 k 7 (step0V.sl.dma0_7 IX WC d L k hin fb7)
          (fun p j => (congrFun (read_whole_written cc1_scratch9 fb7 (step0V.sl.gather7 IX WC d L k hin)) (ix2 p j)).trans
            (gather_apply_slot d L (WC d) (ivContents IX d L) hfiv k 7 _ _ p j)))) $$ Ho7
  sl_close

set_option maxHeartbeats 8000000 in
/-- A later trip. -/
theorem stepPosV (k : Kt) (hk : 0 < k.val) (hIX : ∀ j, (IX d j).toNat < 4096) (v2 : BitVec 32) :
    invPosV IX WC d L O W qs0 qs1 qs2 qs3 qs4 qs5 qs6 qs7 m0 k.val
      ⊢ wp frame (wpE (defs₀ (F := F)) 𝒱₀ (V d (cV L) (jV L)) none) Set.univ (k1_t1_body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1 v2 k ⟨⟩)
          (fun _ => invPosV IX WC d L O W qs0 qs1 qs2 qs3 qs4 qs5 qs6 qs7 m0 (k.val + 1)) := by
  have hkp : k.val - 1 < k1_t1_loop.trips := by have := k.isLt; omega
  have hfiv : ∀ j, (ivContents IX d L j).toNat < 4096 := fun j => hIX _
  have hin : ∀ (k : Fin k1_t1_loop.trips) (c : BitVec 32) (h : ∀ a, (k1_off4 k c) a + S1x50.size a ≤ S128x50.size a) (x : S50.Idx),
      (View.read (Elt F) (((ivV).slice (Rect.unit (s := S128x50) (k1_off4 k c) S1x50.size h) (fun _ => rfl)).squeeze S50 squeezes_S1x50_S50).view (ivContents IX d L) x).toNat < 4096 := by
    intro k c h x
    rw [(View.read_apply _ _).trans (cast_eq _ _)]
    exact hfiv _
  rw [invPosV_succ]
  unfold invPosV
  rw [dif_pos hkp, todo_step d L k.val k rfl m0, done_stepV IX WC d L k.val ⟨k.val - 1, hkp⟩ (show k.val - 1 + 1 = k.val by omega)]
  unfold owesK common flightsV flights rowPts rowDoneV rowDone
  iintro ⟨⟨%W', %hW', HO⟩, ⟨#Hmw, Hiv, Hsh0, Hsh1, Hsh2, Hsh3, Hsh4, Hsh5, Hsh6, Hsh7, Hg0, Hg1, Hg2, Hg3, Hg4, Hg5, Hg6, Hg7⟩, ⟨%fb0, %fb1, %fb2, %fb3, %fb4, %fb5, %fb6, %fb7, Ho0, Hb0, Ho1, Hb1, Ho2, Hb2, Ho3, Hb3, Ho4, Hb4, Ho5, Hb5, Ho6, Hb6, Ho7, Hb7⟩, ⟨⟨Hw0, Hw1, Hw2, Hw3, Hw4, Hw5, Hw6, Hw7⟩, Htodo⟩, Hdone⟩
  unfold k1_t1_body
  rw [k1_part1_eq_skeleton, k1_part2_eq_skeleton, k1_part3_eq_skeleton, k1_part4_eq_skeleton, k1_part5_eq_skeleton]
  unfold k1_part1_skel k1_part2_skel k1_part3_skel k1_part4_skel k1_part5_skel
  sl_exec (disch := first | sl_exact (c1p k hk) | sl_exact (c2p k hk) | sl_exact (c3p k hk) | sl_exact (c4p k hk) | sl_exact (c5p k hk) | sl_exact (c6p k hk) | sl_exact (c7p k hk) | sl_exact (c8p k hk))
  sl_step
  isplitl [HO]
  · iexists _; isplitr
    swap; · iexact HO
    ipureintro
    repeat' (first | exact hW' | refine bound_insert (.inl rfl) ?_)
  ihave Ho0 := (flight_slab_congr _ _ _ _ _ _ (TGT IX WC d) _
      (show ∀ i ∈ (outWin L k 0#32 (k1_off12_inb L k 0)).view.set,
          (outWin L k 0#32 (k1_off12_inb L k 0)).view.writes (Elt F) m0 [⟨Rect.whole S50x128, stepPosV.sl.dma0 IX WC d L k hin fb0⟩] i = TGT IX WC d i from
        slab_value IX WC d L hIX m0 k 0 (stepPosV.sl.dma0 IX WC d L k hin fb0)
          (fun p j => (congrFun (read_whole_written cc1_scratch2 fb0 (stepPosV.sl.gather0 IX WC d L k hin)) (ix2 p j)).trans
            (gather_apply_slot d L (WC d) (ivContents IX d L) hfiv k 0 _ _ p j)))) $$ Ho0
  ihave Ho1 := (flight_slab_congr _ _ _ _ _ _ (TGT IX WC d) _
      (show ∀ i ∈ (outWin L k 1#32 (k1_off12_inb L k 1)).view.set,
          (outWin L k 1#32 (k1_off12_inb L k 1)).view.writes (Elt F) m0 [⟨Rect.whole S50x128, stepPosV.sl.dma0_1 IX WC d L k hin fb1⟩] i = TGT IX WC d i from
        slab_value IX WC d L hIX m0 k 1 (stepPosV.sl.dma0_1 IX WC d L k hin fb1)
          (fun p j => (congrFun (read_whole_written cc1_scratch3 fb1 (stepPosV.sl.gather1 IX WC d L k hin)) (ix2 p j)).trans
            (gather_apply_slot d L (WC d) (ivContents IX d L) hfiv k 1 _ _ p j)))) $$ Ho1
  ihave Ho2 := (flight_slab_congr _ _ _ _ _ _ (TGT IX WC d) _
      (show ∀ i ∈ (outWin L k 2#32 (k1_off12_inb L k 2)).view.set,
          (outWin L k 2#32 (k1_off12_inb L k 2)).view.writes (Elt F) m0 [⟨Rect.whole S50x128, stepPosV.sl.dma0_2 IX WC d L k hin fb2⟩] i = TGT IX WC d i from
        slab_value IX WC d L hIX m0 k 2 (stepPosV.sl.dma0_2 IX WC d L k hin fb2)
          (fun p j => (congrFun (read_whole_written cc1_scratch4 fb2 (stepPosV.sl.gather2 IX WC d L k hin)) (ix2 p j)).trans
            (gather_apply_slot d L (WC d) (ivContents IX d L) hfiv k 2 _ _ p j)))) $$ Ho2
  ihave Ho3 := (flight_slab_congr _ _ _ _ _ _ (TGT IX WC d) _
      (show ∀ i ∈ (outWin L k 3#32 (k1_off12_inb L k 3)).view.set,
          (outWin L k 3#32 (k1_off12_inb L k 3)).view.writes (Elt F) m0 [⟨Rect.whole S50x128, stepPosV.sl.dma0_3 IX WC d L k hin fb3⟩] i = TGT IX WC d i from
        slab_value IX WC d L hIX m0 k 3 (stepPosV.sl.dma0_3 IX WC d L k hin fb3)
          (fun p j => (congrFun (read_whole_written cc1_scratch5 fb3 (stepPosV.sl.gather3 IX WC d L k hin)) (ix2 p j)).trans
            (gather_apply_slot d L (WC d) (ivContents IX d L) hfiv k 3 _ _ p j)))) $$ Ho3
  ihave Ho4 := (flight_slab_congr _ _ _ _ _ _ (TGT IX WC d) _
      (show ∀ i ∈ (outWin L k 4#32 (k1_off12_inb L k 4)).view.set,
          (outWin L k 4#32 (k1_off12_inb L k 4)).view.writes (Elt F) m0 [⟨Rect.whole S50x128, stepPosV.sl.dma0_4 IX WC d L k hin fb4⟩] i = TGT IX WC d i from
        slab_value IX WC d L hIX m0 k 4 (stepPosV.sl.dma0_4 IX WC d L k hin fb4)
          (fun p j => (congrFun (read_whole_written cc1_scratch6 fb4 (stepPosV.sl.gather4 IX WC d L k hin)) (ix2 p j)).trans
            (gather_apply_slot d L (WC d) (ivContents IX d L) hfiv k 4 _ _ p j)))) $$ Ho4
  ihave Ho5 := (flight_slab_congr _ _ _ _ _ _ (TGT IX WC d) _
      (show ∀ i ∈ (outWin L k 5#32 (k1_off12_inb L k 5)).view.set,
          (outWin L k 5#32 (k1_off12_inb L k 5)).view.writes (Elt F) m0 [⟨Rect.whole S50x128, stepPosV.sl.dma0_5 IX WC d L k hin fb5⟩] i = TGT IX WC d i from
        slab_value IX WC d L hIX m0 k 5 (stepPosV.sl.dma0_5 IX WC d L k hin fb5)
          (fun p j => (congrFun (read_whole_written cc1_scratch7 fb5 (stepPosV.sl.gather5 IX WC d L k hin)) (ix2 p j)).trans
            (gather_apply_slot d L (WC d) (ivContents IX d L) hfiv k 5 _ _ p j)))) $$ Ho5
  ihave Ho6 := (flight_slab_congr _ _ _ _ _ _ (TGT IX WC d) _
      (show ∀ i ∈ (outWin L k 6#32 (k1_off12_inb L k 6)).view.set,
          (outWin L k 6#32 (k1_off12_inb L k 6)).view.writes (Elt F) m0 [⟨Rect.whole S50x128, stepPosV.sl.dma0_6 IX WC d L k hin fb6⟩] i = TGT IX WC d i from
        slab_value IX WC d L hIX m0 k 6 (stepPosV.sl.dma0_6 IX WC d L k hin fb6)
          (fun p j => (congrFun (read_whole_written cc1_scratch8 fb6 (stepPosV.sl.gather6 IX WC d L k hin)) (ix2 p j)).trans
            (gather_apply_slot d L (WC d) (ivContents IX d L) hfiv k 6 _ _ p j)))) $$ Ho6
  ihave Ho7 := (flight_slab_congr _ _ _ _ _ _ (TGT IX WC d) _
      (show ∀ i ∈ (outWin L k 7#32 (k1_off12_inb L k 7)).view.set,
          (outWin L k 7#32 (k1_off12_inb L k 7)).view.writes (Elt F) m0 [⟨Rect.whole S50x128, stepPosV.sl.dma0_7 IX WC d L k hin fb7⟩] i = TGT IX WC d i from
        slab_value IX WC d L hIX m0 k 7 (stepPosV.sl.dma0_7 IX WC d L k hin fb7)
          (fun p j => (congrFun (read_whole_written cc1_scratch9 fb7 (stepPosV.sl.gather7 IX WC d L k hin)) (ix2 p j)).trans
            (gather_apply_slot d L (WC d) (ivContents IX d L) hfiv k 7 _ _ p j)))) $$ Ho7
  sl_close

/-- Every trip keeps the valued invariant. -/
theorem stepV (k : Kt) (acc : Unit) (hIX : ∀ j, (IX d j).toNat < 4096) (v2 : BitVec 32) :
    invV IX WC d L O W qs0 qs1 qs2 qs3 qs4 qs5 qs6 qs7 m0 k.val acc
      ⊢ wp frame (wpE (defs₀ (F := F)) 𝒱₀ (V d (cV L) (jV L)) none) Set.univ (k1_t1_body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1 v2 k acc)
          (invV IX WC d L O W qs0 qs1 qs2 qs3 qs4 qs5 qs6 qs7 m0 (k.val + 1)) := by
  have e : (invV IX WC d L O W qs0 qs1 qs2 qs3 qs4 qs5 qs6 qs7 m0 (k.val + 1) : Unit → sProp 𝕄) = fun _ => invPosV IX WC d L O W qs0 qs1 qs2 qs3 qs4 qs5 qs6 qs7 m0 (k.val + 1) := by
    funext _; unfold invV; rw [if_neg (by omega)]
  rw [e]
  unfold invV
  by_cases hk : k.val = 0
  · rw [if_pos hk]; exact step0V IX WC d L O W qs0 qs1 qs2 qs3 qs4 qs5 qs6 qs7 m0 k hk hIX v2
  · rw [if_neg hk]; exact stepPosV IX WC d L O W qs0 qs1 qs2 qs3 qs4 qs5 qs6 qs7 m0 k (Nat.pos_of_ne_zero hk) hIX v2

end Cert.KernelIdeal.HandV

end
-- ==== Proof.KI.TileV.lean ====
/-
  A tile's whole task, with what it leaves in the result: its rows of the combined table into the shared memory and its
  rows of the index array into its own memory; the barrier, at which it hands every tile a read share of its rows and
  receives one of every tile's; the sixteen trips of the lookup loop; the last trip's copies-out collected. Every slab
  the tile owns ends at the target: entry `(b, s, j)` is row `idx[b, s]` of the combined table, column `j`.
-/
import proofs.«205614_g54924041781483_cont_9to1_m_645_25_alg».proof.Proof.KI.Tile
import proofs.«205614_g54924041781483_cont_9to1_m_645_25_alg».proof.Proof.KI.TripRunV
import proofs.«205614_g54924041781483_cont_9to1_m_645_25_alg».proof.Proof.KI.ProtoV

noncomputable section

namespace Cert.KernelIdeal.HandV

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable (m : (ℓ : Loc nD τ sig) → Buf (Elt F) ℓ)
variable (IX : (d : Dev nD) → Buf (Elt F) (v8Loc d)) (WC : (d : Dev nD) → Buf (Elt F) (v9Loc d))
variable [FloatOps F] (d : Dev nD) (L : grid1.Coords)

/-- The last trip. -/
abbrev kLast : Kt := ⟨k1_t1_loop.trips - 1, by decide⟩

/-- After the last trip: its copies-out in flight, nothing to do, the earlier slabs written. -/
theorem invV_end (O : CellTallies nD τ sig (HIx 1)) (W : Waits sig (HIx 1)) (qs0 qs1 qs2 qs3 qs4 qs5 qs6 qs7 : PosShare TreeShare) (m0 : Buf (Elt F) (v10Loc d)) (acc : Unit) :
    invV IX WC d L O W qs0 qs1 qs2 qs3 qs4 qs5 qs6 qs7 m0 k1_t1_loop.trips acc
      = iprop(owesK d L O W ∗ common d L O (WC d : Buf (Elt F) ((V d (cV L) (jV L)).loc cc1_scratch1)) (ivContents IX d L) qs0 qs1 qs2 qs3 qs4 qs5 qs6 qs7
          ∗ (∃ fb0 fb1 fb2 fb3 fb4 fb5 fb6 fb7, flightsV IX WC d L kLast fb0 fb1 fb2 fb3 fb4 fb5 fb6 fb7) ∗ emp ∗ doneV IX WC d L k1_t1_loop.trips) := by
  unfold invV
  rw [if_neg (by decide)]
  unfold invPosV
  rw [dif_pos (by decide), todo_end d L k1_t1_loop.trips le_rfl m0]

/-- Every slab written is the tile's slabs of the result at the target. -/
theorem doneV_all : (doneV IX WC d L (k1_t1_loop.trips + 1) : sProp 𝕄) ⊢ (v10Loc d ↦[outSet L]{fullShare} TGT IX WC d) := by
  rw [out_windows d L fullShare (TGT IX WC d)]
  unfold doneV
  rw [show (Finset.univ.filter fun k : Kt => k.val + 1 < k1_t1_loop.trips + 1) = Finset.univ from Finset.filter_true_of_mem fun k _ => by have := k.isLt; omega]
  refine Entails.of_eq (bigSep_congr fun k _ => ?_)
  exact (show (bigSep Finset.univ fun r : Fin 8 => (v10Loc d ↦[(outWin L k (BitVec.ofNat 32 r.val) (k1_off12_inb L k r)).view.set]{fullShare} TGT IX WC d : sProp 𝕄))
      = rowDoneV IX WC d L k from bigSep_univ_eq_bigSepL [(0 : Fin 8), 1, 2, 3, 4, 5, 6, 7] (by decide) (by decide) _).symm

set_option maxHeartbeats 8000000 in
theorem tile_bodyV (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hIX : ∀ j, (IX d j).toNat < 4096) :
    iprop(levAts (K (F := F)).L (K (F := F)).lev ∗ bkit WC d (cV L) (jV L)
        ∗ (hbmPieces IX WC d L (m (v10Loc d)) ∗ ∃ f, shLoc d (cV L) ↦[(shBlk L).view.set]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (cc1__body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1)
          fun _ => iprop((hbmPieces IX WC d L (TGT IX WC d) ∗ (shLoc d (cV L) ↦[(shBlk L).view.set]{qKeep} WC d) ∗ (shLoc d (cV L) ↦{qT (jL L)} WC d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold bkit hbmPieces
  iintro ⟨#Hlv, ⟨⟨%κ, #Hinv⟩, Htoks, #Hrch, Hat, Hcred⟩, ⟨⟨Hi, Hc, Hout⟩, %fsh, Hsh⟩, ⟨⟨⟨%fiv0, Hiv⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩⟩, Hbrest⟩, ⟨⟨Hd0, Hd1, Hd2, Hg0, Hg1, Hg2, Hg3, Hg4, Hg5, Hg6, Hg7, Ho0, Ho1, Ho2, Ho3, Ho4, Ho5, Ho6, Ho7, Hs0, Hs1⟩, Hsrest⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (pts_idx d L _)) $$ Hi
  ihave Hc' := (Entails.of_eq (pts_comb d L _ _)) $$ Hc
  ihave Hsh' := (Entails.of_eq (pts_sh d L _ _)) $$ Hsh
  rw [cc1__body_eq_skeleton]; unfold cc1__body_skel
  rw [k1_part6_eq_skeleton]; unfold k1_part6_skel
  -- the two copies, each waited for
  sl_exec
  -- the tile's rows of the shared table, written, at the table's contents; the index rows, landed
  ihave Hsh2 := (Entails.of_eq (pointsTo_congr (shBlk_written WC d L fsh (tile_bodyV.sl.dma0 WC d L) rfl))) $$ Hsh'
  ihave Hsh3 := (Entails.of_eq (pts_sh d L fullShare (WC d)).symm) $$ Hsh2
  ihave Hpays := (pays_intro WC d L) $$ Hsh3
  icases Hpays with ⟨Hkeep, Hpays⟩
  ihave Hiv2 := (Entails.of_eq (congrArg (fun f => ((ivV).view.loc (V d (cV L) (jV L)) ↦{fullShare} f : sProp 𝕄)) (idxv_written IX d L fiv0 (tile_bodyV.sl.dma0_1 IX d L) rfl))) $$ Hiv
  -- the barrier: a read share of the rows to every tile's round, one of every tile's rows from the tile's own
  rw [wp_bind]
  iapply (SparseCore.wp_subcoreBarrier 𝒱₀ none EB (bRd (F := F) WC) d (sc := cV L) (i := jV L) sc_bar0 (grid1.bound 1) hsub1 (L 1) rfl κ (fun _ => 0) (jV L).val
      (fun j => bRd_mem₀ WC d _ _ _) (fun _ => rfl) (bRd_expect WC d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim WC d L) $$ Hgot
  ihave Hall' := (Entails.of_eq (pts_shAll d L (qT (jL L)) (WC d))) $$ Hall
  -- eight read shares of the whole table, one per slot
  ihave Hspl := (Transfers.pointsTo_toks_split (qT (jL L)) 8) $$ Hall'
  icases Hspl with ⟨Hshrest, Hshs⟩
  ihave Hshs' := (Entails.of_eq (show (bigSep Finset.univ fun r : Fin 8 => ((shV).view.loc (V d (cV L) (jV L)) ↦{Transfers.shareTok (qT (jL L)) 8 r} (WC d : Buf (Elt F) (shLoc d (cV L))) : sProp 𝕄))
      = iprop(((shV).view.loc (V d (cV L) (jV L)) ↦{(Transfers.shareTok (qT (jL L)) 8 (0 : Fin 8))} (WC d : Buf (Elt F) (shLoc d (cV L)))) ∗ ((shV).view.loc (V d (cV L) (jV L)) ↦{(Transfers.shareTok (qT (jL L)) 8 (1 : Fin 8))} (WC d : Buf (Elt F) (shLoc d (cV L)))) ∗ ((shV).view.loc (V d (cV L) (jV L)) ↦{(Transfers.shareTok (qT (jL L)) 8 (2 : Fin 8))} (WC d : Buf (Elt F) (shLoc d (cV L)))) ∗ ((shV).view.loc (V d (cV L) (jV L)) ↦{(Transfers.shareTok (qT (jL L)) 8 (3 : Fin 8))} (WC d : Buf (Elt F) (shLoc d (cV L)))) ∗ ((shV).view.loc (V d (cV L) (jV L)) ↦{(Transfers.shareTok (qT (jL L)) 8 (4 : Fin 8))} (WC d : Buf (Elt F) (shLoc d (cV L)))) ∗ ((shV).view.loc (V d (cV L) (jV L)) ↦{(Transfers.shareTok (qT (jL L)) 8 (5 : Fin 8))} (WC d : Buf (Elt F) (shLoc d (cV L)))) ∗ ((shV).view.loc (V d (cV L) (jV L)) ↦{(Transfers.shareTok (qT (jL L)) 8 (6 : Fin 8))} (WC d : Buf (Elt F) (shLoc d (cV L)))) ∗ ((shV).view.loc (V d (cV L) (jV L)) ↦{(Transfers.shareTok (qT (jL L)) 8 (7 : Fin 8))} (WC d : Buf (Elt F) (shLoc d (cV L)))))
      from bigSep_univ_eq_bigSepL [(0 : Fin 8), 1, 2, 3, 4, 5, 6, 7] (by decide) (by decide) _)) $$ Hshs
  icases Hshs' with ⟨Hsh0, Hsh1, Hsh2, Hsh3, Hsh4, Hsh5, Hsh6, Hsh7⟩
  ihave Htodo := (todo_intro d L (m (v10Loc d))) $$ Hout
  -- the loop
  sl_for (invV IX WC d L O W (Transfers.shareTok (qT (jL L)) 8 (0 : Fin 8)) (Transfers.shareTok (qT (jL L)) 8 (1 : Fin 8)) (Transfers.shareTok (qT (jL L)) 8 (2 : Fin 8)) (Transfers.shareTok (qT (jL L)) 8 (3 : Fin 8)) (Transfers.shareTok (qT (jL L)) 8 (4 : Fin 8)) (Transfers.shareTok (qT (jL L)) 8 (5 : Fin 8)) (Transfers.shareTok (qT (jL L)) 8 (6 : Fin 8)) (Transfers.shareTok (qT (jL L)) 8 (7 : Fin 8)) (m (v10Loc d))) $$ [HO Hiv2 Hsh0 Hsh1 Hsh2 Hsh3 Hsh4 Hsh5 Hsh6 Hsh7 Hg0 Hg1 Hg2 Hg3 Hg4 Hg5 Hg6 Hg7 Hb0 Hb1 Hb2 Hb3 Hb4 Hb5 Hb6 Hb7 Ho0 Ho1 Ho2 Ho3 Ho4 Ho5 Ho6 Ho7 Htodo]
  · intro k acc
    exact stepV IX WC d L O W (Transfers.shareTok (qT (jL L)) 8 (0 : Fin 8)) (Transfers.shareTok (qT (jL L)) 8 (1 : Fin 8)) (Transfers.shareTok (qT (jL L)) 8 (2 : Fin 8)) (Transfers.shareTok (qT (jL L)) 8 (3 : Fin 8)) (Transfers.shareTok (qT (jL L)) 8 (4 : Fin 8)) (Transfers.shareTok (qT (jL L)) 8 (5 : Fin 8)) (Transfers.shareTok (qT (jL L)) 8 (6 : Fin 8)) (Transfers.shareTok (qT (jL L)) 8 (7 : Fin 8)) (m (v10Loc d)) k acc hIX _
  · unfold invV; rw [if_pos rfl]; unfold inv0 owesK common
    isplitl [HO]
    · iexists _; isplitr
      swap; · iexact HO
      ipureintro
      refine bound_insert (.inr rfl) (bound_insert (.inl rfl) (bound_insert (.inl rfl) fun p hp => .inl hp))
    sl_close
  iintro %acc HI
  ihave HI' := (Entails.of_eq (invV_end IX WC d L O W (Transfers.shareTok (qT (jL L)) 8 (0 : Fin 8)) (Transfers.shareTok (qT (jL L)) 8 (1 : Fin 8)) (Transfers.shareTok (qT (jL L)) 8 (2 : Fin 8)) (Transfers.shareTok (qT (jL L)) 8 (3 : Fin 8)) (Transfers.shareTok (qT (jL L)) 8 (4 : Fin 8)) (Transfers.shareTok (qT (jL L)) 8 (5 : Fin 8)) (Transfers.shareTok (qT (jL L)) 8 (6 : Fin 8)) (Transfers.shareTok (qT (jL L)) 8 (7 : Fin 8)) (m (v10Loc d)) acc)) $$ HI
  unfold owesK common flightsV flights
  icases HI' with ⟨⟨%W', %hW', HO⟩, ⟨-, Hiv, Hsh0, Hsh1, Hsh2, Hsh3, Hsh4, Hsh5, Hsh6, Hsh7, Hg0, Hg1, Hg2, Hg3, Hg4, Hg5, Hg6, Hg7⟩, ⟨%gb0, %gb1, %gb2, %gb3, %gb4, %gb5, %gb6, %gb7, Ho0, Hb0, Ho1, Hb1, Ho2, Hb2, Ho3, Hb3, Ho4, Hb4, Ho5, Hb5, Ho6, Hb6, Ho7, Hb7⟩, -, Hdone⟩
  -- the last trip's copies-out, collected
  sl_exec
  sl_step
  -- the last trip's slabs join the written ones: every slab of the tile at the target
  ihave Hdone' := (Entails.of_eq (done_stepV IX WC d L k1_t1_loop.trips kLast (by decide)).symm) $$ [Ho0_dst Ho1_dst Ho2_dst Ho3_dst Ho4_dst Ho5_dst Ho6_dst Ho7_dst Hdone]
  · isplitr [Hdone]
    swap; · iexact Hdone
    isplitl [Ho0_dst]; · iexact Ho0_dst
    isplitl [Ho1_dst]; · iexact Ho1_dst
    isplitl [Ho2_dst]; · iexact Ho2_dst
    isplitl [Ho3_dst]; · iexact Ho3_dst
    isplitl [Ho4_dst]; · iexact Ho4_dst
    isplitl [Ho5_dst]; · iexact Ho5_dst
    isplitl [Ho6_dst]; · iexact Ho6_dst
    iexact Ho7_dst
  ihave Hout' := (doneV_all IX WC d L) $$ Hdone'
  -- the eight read shares of the shared table and what was left of the tile's share: its share again
  ihave Hshs := (Entails.of_eq (show (bigSep Finset.univ fun r : Fin 8 => ((shV).view.loc (V d (cV L) (jV L)) ↦{Transfers.shareTok (qT (jL L)) 8 r} (WC d : Buf (Elt F) (shLoc d (cV L))) : sProp 𝕄))
      = iprop(((shV).view.loc (V d (cV L) (jV L)) ↦{(Transfers.shareTok (qT (jL L)) 8 (0 : Fin 8))} (WC d : Buf (Elt F) (shLoc d (cV L)))) ∗ ((shV).view.loc (V d (cV L) (jV L)) ↦{(Transfers.shareTok (qT (jL L)) 8 (1 : Fin 8))} (WC d : Buf (Elt F) (shLoc d (cV L)))) ∗ ((shV).view.loc (V d (cV L) (jV L)) ↦{(Transfers.shareTok (qT (jL L)) 8 (2 : Fin 8))} (WC d : Buf (Elt F) (shLoc d (cV L)))) ∗ ((shV).view.loc (V d (cV L) (jV L)) ↦{(Transfers.shareTok (qT (jL L)) 8 (3 : Fin 8))} (WC d : Buf (Elt F) (shLoc d (cV L)))) ∗ ((shV).view.loc (V d (cV L) (jV L)) ↦{(Transfers.shareTok (qT (jL L)) 8 (4 : Fin 8))} (WC d : Buf (Elt F) (shLoc d (cV L)))) ∗ ((shV).view.loc (V d (cV L) (jV L)) ↦{(Transfers.shareTok (qT (jL L)) 8 (5 : Fin 8))} (WC d : Buf (Elt F) (shLoc d (cV L)))) ∗ ((shV).view.loc (V d (cV L) (jV L)) ↦{(Transfers.shareTok (qT (jL L)) 8 (6 : Fin 8))} (WC d : Buf (Elt F) (shLoc d (cV L)))) ∗ ((shV).view.loc (V d (cV L) (jV L)) ↦{(Transfers.shareTok (qT (jL L)) 8 (7 : Fin 8))} (WC d : Buf (Elt F) (shLoc d (cV L)))))
      from bigSep_univ_eq_bigSepL [(0 : Fin 8), 1, 2, 3, 4, 5, 6, 7] (by decide) (by decide) _).symm) $$ [Hsh0 Hsh1 Hsh2 Hsh3 Hsh4 Hsh5 Hsh6 Hsh7]
  · isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    isplitl [Hsh6]; · iexact Hsh6
    iexact Hsh7
  ihave Hall2 := (Transfers.pointsTo_toks_join (qT (jL L)) 8) $$ [Hshrest Hshs]
  · isplitl [Hshrest]; · iexact Hshrest
    iexact Hshs
  ihave Hall3 := (Entails.of_eq (pts_shAll d L (qT (jL L)) (WC d)).symm) $$ Hall2
  ihave Hi2 := (Entails.of_eq (pts_idx d L (IX d)).symm) $$ Hi'
  ihave Hc2 := (Entails.of_eq (pts_comb d L (qC (cL L)) (WC d)).symm) $$ Hc'
  isplitl [Hi2 Hc2 Hout' Hkeep Hall3]
  · isplitl [Hi2 Hc2 Hout']
    · isplitl [Hi2]; · iexact Hi2
      isplitl [Hc2]; · iexact Hc2
      iexact Hout'
    isplitl [Hkeep]; · iexact Hkeep
    iexact Hall3
  isplitl [Hiv Hb0 Hb1 Hb2 Hb3 Hb4 Hb5 Hb6 Hb7 Hbrest]
  · isplitl [Hiv Hb0 Hb1 Hb2 Hb3 Hb4 Hb5 Hb6 Hb7]
    · isplitl [Hiv]; · iexists _; iexact Hiv
      isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    iexact Hbrest
  isplitl [Hd0 Hd1 Hd2 Hg0 Hg1 Hg2 Hg3 Hg4 Hg5 Hg6 Hg7 Ho0 Ho1 Ho2 Ho3 Ho4 Ho5 Ho6 Ho7 Hs0 Hs1 Hsrest]
  · isplitl [Hd0 Hd1 Hd2 Hg0 Hg1 Hg2 Hg3 Hg4 Hg5 Hg6 Hg7 Ho0 Ho1 Ho2 Ho3 Ho4 Ho5 Ho6 Ho7 Hs0 Hs1]
    · isplitl [Hd0]; · iexact Hd0
      isplitl [Hd1]; · iexact Hd1
      isplitl [Hd2]; · iexact Hd2
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Hs0]; · iexact Hs0
      iexact Hs1
    iexact Hsrest
  iexists _; isplitr
  swap; · iexact HO
  ipureintro
  repeat' (first | exact hW' | refine bound_insert (.inl rfl) ?_)

end Cert.KernelIdeal.HandV

end
-- ==== Proof.KI.SplitV.lean ====
/-
  How a SparseCore's operands split among its sixteen tiles and gather again, with the result's slabs at the target, and
  a tile's task as the obligation the launch asks.
-/
import proofs.«205614_g54924041781483_cont_9to1_m_645_25_alg».proof.Proof.KI.TileV

noncomputable section

namespace Cert.KernelIdeal.HandV

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.KernelIdeal.main_v8_scv : Memref Cert.KernelIdeal.sig Kind.scVector Space.hbm Cert.KernelIdeal.S4096x50 EltTy.i32)
local notation "combV" => (Memref.whole Cert.KernelIdeal.main_v9_scv : Memref Cert.KernelIdeal.sig Kind.scVector Space.hbm Cert.KernelIdeal.S4096x128 EltTy.f32)
local notation "outV" => (Memref.whole Cert.KernelIdeal.main_v10_scv : Memref Cert.KernelIdeal.sig Kind.scVector Space.hbm Cert.KernelIdeal.S4096x50x128 EltTy.f32)
local notation "shV" => (Memref.whole Cert.KernelIdeal.cc1_scratch1 : Memref Cert.KernelIdeal.sig Kind.scVector Space.shared Cert.KernelIdeal.S4096x128 EltTy.f32)
local notation "ivV" => (Memref.whole Cert.KernelIdeal.cc1_scratch0 : Memref Cert.KernelIdeal.sig Kind.scVector Space.vmem Cert.KernelIdeal.S128x50 EltTy.i32)

variable (m : (ℓ : Loc nD τ sig) → Buf (Elt F) ℓ)
variable (IX : (d : Dev nD) → Buf (Elt F) (v8Loc d)) (WC : (d : Dev nD) → Buf (Elt F) (v9Loc d))
variable [FloatOps F]

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The call's tiles of SparseCore `c` are the sixteen grid points of its row. -/
theorem bigSep_tiles (c : Fin ((K (F := F)).nCore 0)) (Φ : grid1.Coords → sProp 𝕄) :
    (bigSep Finset.univ fun i : Fin ((K (F := F)).nSub 0) => Φ (callL c i))
      = bigSep Finset.univ fun s : Fin (grid1.bound 1) => Φ (coordsV (Fin.cast nSC_eq (coreOf c)) s) :=
  bigSep_congr fun _ _ => congrArg Φ (by unfold callL tileOf; congr 1)

omit [FloatOps F] in
theorem bigSep_tasks16 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplitV : (K (F := F)).VecSplit (PV m IX WC) 0 := by
  intro d c
  show iprop((bigSep Finset.univ fun i : Fin ((K (F := F)).nSub 0) => hbmPieces IX WC d (callL c i) (m (v10Loc d))) ∗ ownBufs (S d (coreOf c)))
    ⊢ |={Set.univ}=> iprop(
      (bigSep Finset.univ fun i : Fin ((K (F := F)).nSub 0) =>
        iprop(hbmPieces IX WC d (callL c i) (m (v10Loc d)) ∗ ∃ f, shLoc d (coreOf c) ↦[(shBlk (callL c i)).view.set]{fullShare} f))
      ∗ ((bigSep Finset.univ fun i : Fin ((K (F := F)).nSub 0) =>
            iprop(hbmPieces IX WC d (callL c i) (TGT IX WC d) ∗ shPiece WC d (coreOf c) ((K (F := F)).sub 0 i) qKeep
              ∗ (shLoc d (coreOf c) ↦{qT (Fin.cast nSub_zero i)} WC d)))
          -∗ iprop((bigSep Finset.univ fun i : Fin ((K (F := F)).nSub 0) => hbmPieces IX WC d (callL c i) (TGT IX WC d)) ∗ ownBufs (S d (coreOf c)))))
  rw [ownBufs_S]
  iintro ⟨Hst, ⟨%fsh, Hsh⟩, Hrest⟩; imodintro
  isplitl [Hst Hsh]
  · rw [bigSep_sep' (Φ := fun i : Fin ((K (F := F)).nSub 0) => hbmPieces IX WC d (callL c i) (m (v10Loc d)))
      (Ψ := fun i : Fin ((K (F := F)).nSub 0) => iprop(∃ f, shLoc d (coreOf c) ↦[(shBlk (callL c i)).view.set]{fullShare} f))]
    isplitl [Hst]; · iexact Hst
    rw [bigSep_tiles (F := F) c (fun L => iprop(∃ f, shLoc d (coreOf c) ↦[(shBlk L).view.set]{fullShare} f))]
    ihave Hsh' := (Entails.of_eq (sh_blocks d (coreOf c) (Fin.cast nSC_eq (coreOf c)) fullShare fsh)) $$ Hsh
    iapply (SparseCore.ent (bigSep_mono (Φ := fun s : Fin (grid1.bound 1) => (shLoc d (coreOf c) ↦[(shBlk (coordsV (Fin.cast nSC_eq (coreOf c)) s)).view.set]{fullShare} fsh : sProp 𝕄))
      (Ψ := fun s => iprop(∃ f, shLoc d (coreOf c) ↦[(shBlk (coordsV (Fin.cast nSC_eq (coreOf c)) s)).view.set]{fullShare} f))
      fun s _ => BI.BIClass.exists_intro (Φ := fun f => (shLoc d (coreOf c) ↦[(shBlk (coordsV (Fin.cast nSC_eq (coreOf c)) s)).view.set]{fullShare} f : sProp 𝕄)) fsh))
    iexact Hsh'
  iintro Htd
  ihave Htd' := (Entails.of_eq (bigSep_sep' (s := Finset.univ) (Φ := fun i : Fin ((K (F := F)).nSub 0) => hbmPieces IX WC d (callL c i) (TGT IX WC d))
      (Ψ := fun i : Fin ((K (F := F)).nSub 0) => iprop(shPiece WC d (coreOf c) ((K (F := F)).sub 0 i) qKeep ∗ (shLoc d (coreOf c) ↦{qT (Fin.cast nSub_zero i)} WC d))))) $$ Htd
  icases Htd' with ⟨Hdn, Hsh2⟩
  ihave Hsh3 := (Entails.of_eq (bigSep_sep' (s := Finset.univ) (Φ := fun i : Fin ((K (F := F)).nSub 0) => shPiece WC d (coreOf c) ((K (F := F)).sub 0 i) qKeep)
      (Ψ := fun i : Fin ((K (F := F)).nSub 0) => (shLoc d (coreOf c) ↦{qT (Fin.cast nSub_zero i)} WC d : sProp 𝕄)))) $$ Hsh2
  icases Hsh3 with ⟨Hkeep, Htoks⟩
  isplitl [Hdn]; · iexact Hdn
  isplitr [Hrest]
  swap; · iexact Hrest
  iexists (WC d)
  -- what the writers kept of their rows is the table at what they kept; with every tile's read share, the table whole
  ihave Hkeep' := (Entails.of_eq ((bigSep_tiles (F := F) c (fun L => (shLoc d (coreOf c) ↦[(shBlk L).view.set]{qKeep} WC d : sProp 𝕄))).trans
    (sh_blocks d (coreOf c) (Fin.cast nSC_eq (coreOf c)) qKeep (WC d)).symm)) $$ Hkeep
  ihave Htoks' := (Entails.of_eq (bigSep_tasks16 (F := F) (fun j : Fin 16 => (shLoc d (coreOf c) ↦{qT j} WC d : sProp 𝕄)))) $$ Htoks
  iapply (Transfers.pointsTo_toks_join fullShare 16)
  isplitl [Hkeep']; · iexact Hkeep'
  iexact Htoks'

/-! ## The obligation -/

theorem defs₀_vector (c : Fin τ.nSC) (s : Fin τ.nSub) :
    defs₀ (F := F) (.scVector c s) 1 ()
      = SparseCore.onTile hcore1 hsub1 (fun c s => cc1__body (coordsV c s) (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1) ⟨⟩ c s := rfl

set_option maxRecDepth 16384 in
set_option maxHeartbeats 4000000 in
theorem tileOblV (hF : (K (F := F)).Facts) (hIX : ∀ d j, (IX d j).toNat < 4096) : (K (F := F)).TileObl (D (F := F)) 𝒱 (PV m IX WC) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_bodyV m IX WC d (coordsV ⟨_, hci.1⟩ ⟨_, hci.2⟩) hF O W hO hOlev (hIX d)

end Cert.KernelIdeal.HandV

end
-- ==== Proof.K.Terms.lean ====
/-
  The kernel's values as pure terms of its arguments, for any float instance: the index array its host code builds, the
  combined table its first call writes, and the result — the combined table looked up at the index array.
-/
import proofs.«205614_g54924041781483_cont_9to1_m_645_25_alg».proof.Kernel
import proofs.«205614_g54924041781483_cont_9to1_m_645_25_alg».proof.Proof.Gen.Kernel
import proofs.«205614_g54924041781483_cont_9to1_m_645_25_alg».proof.Proof.Gen.Kernel.Skeleton
import proofs.«205614_g54924041781483_cont_9to1_m_645_25_alg».proof.Proof.Spec

noncomputable section

namespace Cert.Kernel.Hand

open Idealize.ShloMosaic Idealize.ShloMosaic.ValueIdx Cert.Kernel Cert.Kernel.Gen

variable {F : FTy → Type} [FloatOps F]

/-- One clamp as the host code spells it: the larger of `x` and `lo` laid over the shape, then the smaller of that and `hi`. -/
def clipT (x : IVec S4096x50 32) (lo hi : IVec S_ 32) : IVec S4096x50 32 :=
  minsi (broadcastInDim S4096x50 ![] bcast_S_S4096x50 hi) (maxsi (broadcastInDim S4096x50 ![] bcast_S_S4096x50 lo) x)

/-- Column `k` of the coordinates as a [4096, 50] array. -/
def colOf0 (a0 : IVec S4096x50x2 32) : IVec S4096x50 32 :=
  shapeCast S4096x50 (extractStridedSlice S4096x50x1 ![0, 0, 0] a0 slices_S4096x50x2_S4096x50x1_0_0_0) shapeCasts_S4096x50x1_S4096x50
def colOf1 (a0 : IVec S4096x50x2 32) : IVec S4096x50 32 :=
  shapeCast S4096x50 (extractStridedSlice S4096x50x1 ![0, 0, 1] a0 slices_S4096x50x2_S4096x50x1_0_0_1) shapeCasts_S4096x50x1_S4096x50

/-- The index array the host code hands the lookup: `clamp c₀ · 64 + clamp c₁`, operation by operation. -/
def idxTerm (a0 : IVec S4096x50x2 32) : IVec S4096x50 32 :=
  addi (muli (clipT (colOf0 a0) (constantI S_ 32 0#32) (constantI S_ 32 63#32)) (broadcastInDim S4096x50 ![] bcast_S_S4096x50 (constantI S_ 32 64#32)))
    (clipT (colOf1 a0) (constantI S_ 32 0#32) (constantI S_ 32 63#32))

/-- The combined table as the first call's two stores leave it: columns `[0, 64)` the product of the row one-hot matrix with
    `rowT`, columns `[64, 128)` the product of the column one-hot matrix with `colT`. -/
def combF (rowT colT : FVec F S64x64 .f32) : FVec F S4096x128 .f32 := fun i =>
  if h : (i 1).val < 64 then k0_pay1 (k0_pay3 (F := F)) rowT (ix2 (⟨(i 0).val, (i 0).isLt⟩ : Fin 4096) (⟨(i 1).val, h⟩ : Fin 64))
  else k0_pay2 k0_pay4 colT (ix2 (⟨(i 0).val, (i 0).isLt⟩ : Fin 4096) (⟨(i 1).val - 64, by have := (i 1).isLt; simp at this; omega⟩ : Fin 64))

/-- The result: entry `(b, s, j)` is the combined table at row `idx[b, s]`, column `j`. -/
def KOut (a0 : IVec S4096x50x2 32) (rowT colT : FVec F S64x64 .f32) : FVec F S4096x50x128 .f32 := fun i =>
  combF rowT colT (ix2 (⟨(Cert.Spec.idxW a0 (i 0) (i 1)).toNat, Cert.Spec.idxW_lt a0 (i 0) (i 1)⟩ : Fin 4096) (i 2))

end Cert.Kernel.Hand

end
-- ==== Proof.K.Core.lean ====
/-
  The program as the launch of its threads sees it, and the ghost state of its proof: the handshakes' rounds, the
  subcore barrier's rounds, the first call's staging cells' rounds, and the transfers' counters.
-/
import proofs.«205614_g54924041781483_cont_9to1_m_645_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«205614_g54924041781483_cont_9to1_m_645_25_alg».proof.Proof.Gen.Kernel
import proofs.«205614_g54924041781483_cont_9to1_m_645_25_alg».proof.Proof.Gen.Kernel.Skeleton
import proofs.«205614_g54924041781483_cont_9to1_m_645_25_alg».proof.Proof.Gen.Kernel.Launch
import proofs.«205614_g54924041781483_cont_9to1_m_645_25_alg».proof.Proof.Gen.Kernel.Points
import proofs.«205614_g54924041781483_cont_9to1_m_645_25_alg».proof.Proof.K.Terms

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The first call's staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Kernel.Hand

end
-- ==== Proof.K.Geom.lean ====
/-
  The pieces of the arrays a tile touches, spelt as its program slices them: its 128 rows of the index array, its 256 rows of
  the combined table in HBM and in the SparseCore's shared memory, and its 128 slabs of the result.
-/
import proofs.«205614_g54924041781483_cont_9to1_m_645_25_alg».proof.Proof.K.Core

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

/-! ## A tile's place -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev jL (L : grid1.Coords) : Fin 16 := Fin.cast bound_one (L 1)
abbrev cL (L : grid1.Coords) : Fin 2 := Fin.cast bound_zero (L 0)

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-! ## The arrays and their places in memory -/

abbrev v8Loc (d : Dev nD) : Loc nD τ sig := (SparseCore.T d).loc main_v8
abbrev v9Loc (d : Dev nD) : Loc nD τ sig := (SparseCore.T d).loc main_v9
abbrev v10Loc (d : Dev nD) : Loc nD τ sig := (SparseCore.T d).loc main_v10
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## A tile's pieces, as its program slices them -/

/-- Rows `[128 · (2s + c), + 128)` of the index array. -/
abbrev idxBlk (L : grid1.Coords) : Memref sig .scVector .hbm S128x50 .i32 :=
  (idxV).slice (Rect.unit (s := S4096x50) (k1_off2 L) S128x50.size (k1_off2_inb L)) (fun _ => rfl)
/-- Rows `[256 · s, + 256)` of the combined table in HBM, and of the shared scratch. -/
abbrev combBlk (L : grid1.Coords) : Memref sig .scVector .hbm S256x128 .f32 :=
  (combV).slice (Rect.unit (s := S4096x128) (k1_off1 L) S256x128.size (k1_off1_inb L)) (fun _ => rfl)
abbrev shBlk (L : grid1.Coords) : Memref sig .scVector .shared S256x128 .f32 :=
  (shV).slice (Rect.unit (s := S4096x128) (k1_off1 L) S256x128.size (k1_off1_inb L)) (fun _ => rfl)

abbrev S128x50x128 : Shape := ⟨3, ![128, 50, 128]⟩
theorem outBlk_inb : ∀ i : grid1.Coords, ∀ a, (k1_off13 i) a + S128x50x128.size a ≤ S4096x50x128.size a := by decide +kernel
/-- Slabs `[128 · (2s + c), + 128)` of the result: the tile's 128 positions `b`, each a `[50, 128]` slab. -/
abbrev outRect (L : grid1.Coords) : Rect S4096x50x128 := Rect.unit (s := S4096x50x128) (k1_off13 L) S128x50x128.size (outBlk_inb L)
abbrev outSet (L : grid1.Coords) : Finset S4096x50x128.Idx := (outV).view.setOn (outRect L).set
/-- The slab the tile writes at trip `k`, slot `r`: position `128 · (2s + c) + 8k + r`. -/
abbrev outWin (L : grid1.Coords) (k : Fin k1_t1_loop.trips) (r : BitVec 32) (h : ∀ a, (k1_off12 L k r) a + S1x50x128.size a ≤ S4096x50x128.size a) :
    Memref sig .scVector .hbm S50x128 .f32 :=
  ((outV).slice (Rect.unit (s := S4096x50x128) (k1_off12 L k r) S1x50x128.size h) (fun _ => rfl)).squeeze S50x128 squeezes_S1x50x128_S50x128

/-! ## Read shares -/

/-- SparseCore `c`'s share of the combined table in HBM: both SparseCores' tiles read the same rows. -/
abbrev qC (c : Fin 2) : PosShare TreeShare := Transfers.shareTok fullShare 2 c
/-- Tile `j`'s read share of the shared scratch, and what its writer keeps. -/
abbrev qT (j : Fin 16) : PosShare TreeShare := Transfers.shareTok fullShare 16 j
abbrev qKeep : PosShare TreeShare := Transfers.shareDrop fullShare 16

end Cert.Kernel.Hand

end
-- ==== Proof.K.Proto.lean ====
/-
  The tiles' protocol. Each tile copies its 256 rows of the combined table into the SparseCore's shared memory, meets the
  other fifteen at the subcore barrier, and then reads rows of ALL of it. So the barrier carries read shares: tile `n`'s
  arrival at tile `j`'s barrier cell hands `j` a read share of `n`'s rows, at the table's contents; after the barrier a
  tile holds a read share of the whole shared table.
-/
import proofs.«205614_g54924041781483_cont_9to1_m_645_25_alg».proof.Proof.K.Geom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

/-! ## The launch memory and the contents the protocol speaks of -/

variable (m : (ℓ : Loc nD τ sig) → Buf (Elt F) ℓ)
-- the index array's contents and the combined table's, per device, as @main leaves them before the lookup
variable (IX : (d : Dev nD) → Buf (Elt F) (v8Loc d)) (WC : (d : Dev nD) → Buf (Elt F) (v9Loc d))

theorem nSub_eq : τ.nSub = 16 := rfl
theorem nSC_eq : τ.nSC = 2 := rfl

/-- The grid point of the tile `(c, j)`. -/
abbrev tileOf (c : Fin τ.nSC) (j : Fin τ.nSub) : grid1.Coords := coordsV (Fin.cast nSC_eq c) (Fin.cast nSub_eq j)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `n`'s rows of SparseCore `c`'s shared table at read share `q`, at the table's contents. -/
abbrev shPiece (d : Dev nD) (c : Fin τ.nSC) (n : Fin τ.nSub) (q : PosShare TreeShare) : sProp 𝕄 :=
  shLoc d c ↦[(shBlk (tileOf c n)).view.set]{q} (WC d)

/-- What duty `n` in tile `j`'s round hands over: tile `n`'s rows of the shared table at `j`'s read share. -/
def bPay (g : GSem nD τ sig) (n : ℕ) : sProp 𝕄 :=
  match g with
  | ((d, .scVector c j), _) => if h : n < τ.nSub then shPiece WC d c ⟨n, h⟩ (qT (Fin.cast nSub_eq j)) else iprop(emp)
  | _ => iprop(emp)

/-- The barrier cells' schedule: one round on each, of one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay WC g n
  amount_pos _ _ _ _ := Nat.one_pos

instance bRd_payload_storable (g : GSem nD τ sig) (r n : ℕ) : BI.Storable (upEmb : UEmb _ 𝕄) ((bRd (F := F) WC).payload g r n) := by
  show BI.Storable upEmb (bPay WC g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) WC).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) WC).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) WC).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) WC) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- The grid point of tile `i` of SparseCore `c` of the call. -/
abbrev callL (c : Fin ((K (F := F)).nCore 0)) (i : Fin ((K (F := F)).nSub 0)) : grid1.Coords :=
  tileOf (coreOf c) ((K (F := F)).sub 0 i)

/-- A tile's pieces of the three HBM arrays: its rows of the index array, its rows of the combined table at its SparseCore's
    read share, its slabs of the result at contents `fo`. -/
abbrev hbmPieces (d : Dev nD) (L : grid1.Coords) (fo : Buf (Elt F) (v10Loc d)) : sProp 𝕄 :=
  iprop((v8Loc d ↦[(idxBlk L).view.set]{fullShare} IX d) ∗ (v9Loc d ↦[(combBlk L).view.set]{qC (cL L)} WC d) ∗ (v10Loc d ↦[outSet L]{fullShare} fo))

/-- The one SparseCore call: a SparseCore is handed every tile's pieces and hands them back with the result's slabs at what
    the tiles left; a tile is handed its pieces and its rows of the shared table (at contents not chosen), and hands back
    its pieces, its rows of the shared table at what it keeps of them, and its read share of the whole shared table; each
    tile's proof consumes its barrier kit and each tile owes its arrivals. -/
def P : (K (F := F)).Pay (nD := nD) (Val := Elt F) (Name := ℕ) (U := UU) where
  st := fun q d c => match q with
    | 0 => bigSep Finset.univ fun i : Fin ((K (F := F)).nSub 0) => hbmPieces IX WC d (callL c i) (m (v10Loc d))
  dn := fun q d c => match q with
    | 0 => bigSep Finset.univ fun i : Fin ((K (F := F)).nSub 0) => iprop(∃ fo, hbmPieces IX WC d (callL c i) fo)
  go := fun q d c i => match q with
    | 0 => iprop(hbmPieces IX WC d (callL c i) (m (v10Loc d)) ∗ ∃ f, shLoc d (coreOf c) ↦[(shBlk (callL c i)).view.set]{fullShare} f)
  td := fun q d c i => match q with
    | 0 => iprop((∃ fo, hbmPieces IX WC d (callL c i) fo) ∗ shPiece WC d (coreOf c) ((K (F := F)).sub 0 i) qKeep
        ∗ (shLoc d (coreOf c) ↦{qT (Fin.cast nSub_zero i)} WC d))
  x := fun _ thr => match thr with
    | (d, .scVector c i) => bkit WC d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m IX WC).IsStorable where
  st q d c := match q with
    | 0 => (inferInstance : BI.Storable (upEmb : UEmb _ 𝕄) (bigSep Finset.univ fun i : Fin ((K (F := F)).nSub 0) => hbmPieces IX WC d (callL c i) (m (v10Loc d))))
  dn q d c := match q with
    | 0 => (inferInstance : BI.Storable (upEmb : UEmb _ 𝕄) (bigSep Finset.univ fun i : Fin ((K (F := F)).nSub 0) => iprop(∃ fo, hbmPieces IX WC d (callL c i) fo)))
  go q d c i := match q with
    | 0 => (inferInstance : BI.Storable (upEmb : UEmb _ 𝕄)
      iprop(hbmPieces IX WC d (callL c i) (m (v10Loc d)) ∗ ∃ f, shLoc d (coreOf c) ↦[(shBlk (callL c i)).view.set]{fullShare} f))
  td q d c i := match q with
    | 0 => (inferInstance : BI.Storable (upEmb : UEmb _ 𝕄)
      iprop((∃ fo, hbmPieces IX WC d (callL c i) fo) ∗ shPiece WC d (coreOf c) ((K (F := F)).sub 0 i) qKeep
        ∗ (shLoc d (coreOf c) ↦{qT (Fin.cast nSub_zero i)} WC d)))

end Cert.Kernel.Hand

end
-- ==== Proof.K.Target.lean ====
/-
  The result the lookup is to leave: entry `(b, s, j)` is row `index[b, s]` of the combined table, column `j`.
-/
import proofs.«205614_g54924041781483_cont_9to1_m_645_25_alg».proof.Proof.K.Geom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

open Idealize.ShloMosaic.ValueIdx (ix1 ix2 ix3)

/-- The result as the lookup is to leave it, from the index array `IX` and the combined table `WC` of device `d`: entry
    `(b, s, j)` is the combined table at row `IX[b, s]` (read below 4096), column `j`. -/
def TGT (IX : (d : Dev nD) → Buf (Elt F) (v8Loc d)) (WC : (d : Dev nD) → Buf (Elt F) (v9Loc d)) (d : Dev nD) : Buf (Elt F) (v10Loc d) :=
  fun (i : S4096x50x128.Idx) =>
    WC d (ix2 (⟨(IX d (ix2 (⟨(i 0).val, (i 0).isLt⟩ : Fin 4096) (⟨(i 1).val, (i 1).isLt⟩ : Fin 50))).toNat % 4096, Nat.mod_lt _ (by decide)⟩ : Fin 4096)
      (⟨(i 2).val, (i 2).isLt⟩ : Fin 128))

/-- The target at coordinates `(b, s, j)`, the index word below 4096: no remainder left. -/
theorem TGT_apply (IX : (d : Dev nD) → Buf (Elt F) (v8Loc d)) (WC : (d : Dev nD) → Buf (Elt F) (v9Loc d)) (d : Dev nD)
    (b : Fin 4096) (s : Fin 50) (j : Fin 128) (h : (IX d (ix2 b s)).toNat < 4096) :
    TGT IX WC d (ix3 b s j) = WC d (ix2 (⟨(IX d (ix2 b s)).toNat, h⟩ : Fin 4096) j) := by
  unfold TGT
  show WC d (ix2 (⟨(IX d (ix2 b s)).toNat % 4096, _⟩ : Fin 4096) j) = _
  congr 2
  exact Fin.ext (Nat.mod_eq_of_lt h)

end Cert.Kernel.Hand

end
-- ==== Proof.K.ProtoV.lean ====
/-
  The tiles' protocol with the result named: what a SparseCore and a tile hand back holds the tile's slabs of the result at
  the rows of the combined table the index array names, instead of at contents not chosen.
-/
import proofs.«205614_g54924041781483_cont_9to1_m_645_25_alg».proof.Proof.K.Proto
import proofs.«205614_g54924041781483_cont_9to1_m_645_25_alg».proof.Proof.K.Target

noncomputable section

namespace Cert.Kernel.HandV

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (IX : (d : Dev nD) → Buf (Elt F) (v8Loc d)) (WC : (d : Dev nD) → Buf (Elt F) (v9Loc d))
variable [FloatOps F]

/-- The one SparseCore call, with the result named: as the protocol of the frame, but what a SparseCore and a tile hand back
    holds the tile's slabs of the result at the looked-up rows — entry `(b, s, j)` row `idx[b, s]` of the combined table at
    column `j`. -/
def PV : (K (F := F)).Pay (nD := nD) (Val := Elt F) (Name := ℕ) (U := UU) where
  st := fun q d c => match q with
    | 0 => bigSep Finset.univ fun i : Fin ((K (F := F)).nSub 0) => hbmPieces IX WC d (callL c i) (m (v10Loc d))
  dn := fun q d c => match q with
    | 0 => bigSep Finset.univ fun i : Fin ((K (F := F)).nSub 0) => hbmPieces IX WC d (callL c i) (TGT IX WC d)
  go := fun q d c i => match q with
    | 0 => iprop(hbmPieces IX WC d (callL c i) (m (v10Loc d)) ∗ ∃ f, shLoc d (coreOf c) ↦[(shBlk (callL c i)).view.set]{fullShare} f)
  td := fun q d c i => match q with
    | 0 => iprop(hbmPieces IX WC d (callL c i) (TGT IX WC d) ∗ shPiece WC d (coreOf c) ((K (F := F)).sub 0 i) qKeep
        ∗ (shLoc d (coreOf c) ↦{qT (Fin.cast nSub_zero i)} WC d))
  x := fun _ thr => match thr with
    | (d, .scVector c i) => bkit WC d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance PV_storable : (PV (F := F) m IX WC).IsStorable where
  st q d c := match q with
    | 0 => (inferInstance : BI.Storable (upEmb : UEmb _ 𝕄) (bigSep Finset.univ fun i : Fin ((K (F := F)).nSub 0) => hbmPieces IX WC d (callL c i) (m (v10Loc d))))
  dn q d c := match q with
    | 0 => (inferInstance : BI.Storable (upEmb : UEmb _ 𝕄) (bigSep Finset.univ fun i : Fin ((K (F := F)).nSub 0) => hbmPieces IX WC d (callL c i) (TGT IX WC d)))
  go q d c i := match q with
    | 0 => (inferInstance : BI.Storable (upEmb : UEmb _ 𝕄)
      iprop(hbmPieces IX WC d (callL c i) (m (v10Loc d)) ∗ ∃ f, shLoc d (coreOf c) ↦[(shBlk (callL c i)).view.set]{fullShare} f))
  td q d c i := match q with
    | 0 => (inferInstance : BI.Storable (upEmb : UEmb _ 𝕄)
      iprop(hbmPieces IX WC d (callL c i) (TGT IX WC d) ∗ shPiece WC d (coreOf c) ((K (F := F)).sub 0 i) qKeep
        ∗ (shLoc d (coreOf c) ↦{qT (Fin.cast nSub_zero i)} WC d)))

end Cert.Kernel.HandV

end
-- ==== Proof.K.Launch.lean ====
/-
  The launch: the ghost state's first element and what the launch deals from it — every tile its barrier kit (every
  barrier cell's invariant, the tile's position, its duty tokens, the credit for its own round), the TensorCore the first
  call's staging cells.
-/
import proofs.«205614_g54924041781483_cont_9to1_m_645_25_alg».proof.Proof.K.Proto

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable (m : (ℓ : Loc nD τ sig) → Buf (Elt F) ℓ) (ρ : Dev nD → PrngReg)
variable (IX : (d : Dev nD) → Buf (Elt F) (v8Loc d)) (WC : (d : Dev nD) → Buf (Elt F) (v9Loc d))
variable [FloatOps F]

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
def u₀ : UU := (initOf (K (F := F)).hsCells (K (F := F)).hsToks,
  (initOf bCells bToks, (initOf (Pipeline.cells cfgs cellOf_inj) (Pipeline.launchToks cfgs cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have e1 : (ownU ((a, (b, (p, 1))) : UU) : sProp 𝕄)
      ⊢ iprop(BI.own (EH a) ∗ BI.own ((uEmb (nD := nD) (τ := τ) (sig := sig) (Ix := HIx 1) (Val := Elt F) (Name := ℕ) (U := UU) (Lvl := ℕ)).toEmb (((1 : UH), (b, (p, (1 : Counters)))) : UU))) :=
    BI.own_op_elim ((uEmb (nD := nD) (τ := τ) (sig := sig) (Ix := HIx 1) (Val := Elt F) (Name := ℕ) (U := UU) (Lvl := ℕ)).toEmb.op_of_mem
      (Prod.mk_mem_op (URA.mem_op_one a) (URA.mem_one_op ((b, (p, (1 : Counters))) : UB × (UP × Counters)))))
  have e2 : (BI.own ((uEmb (nD := nD) (τ := τ) (sig := sig) (Ix := HIx 1) (Val := Elt F) (Name := ℕ) (U := UU) (Lvl := ℕ)).toEmb (((1 : UH), (b, (p, (1 : Counters)))) : UU)) : sProp 𝕄)
      ⊢ iprop(BI.own (EB b) ∗ BI.own (EP p)) :=
    BI.own_op_elim ((uEmb (nD := nD) (τ := τ) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((p, (1 : Counters)) : UP × Counters)))))
  iintro Hu
  ihave H := e1 $$ Hu
  icases H with ⟨HH, Hrest⟩
  ihave H2 := e2 $$ Hrest
  icases H2 with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) WC) g 0)
    ⊢ |={Set.univ}=> iprop(∃ κ : GSem nD τ sig → ℕ, bigSep bCells fun g => cellInv EB (bRd (F := F) WC) (κ g) g) := by
  refine (Rounds.bodies_intro EB (bRd (F := F) WC) bCells).trans ((inv_alloc_family bCells (Rounds.body EB (bRd (F := F) WC)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' debts, regrouped: each tile the sixteen units of its own cell. -/
theorem creds_b : ((P (F := F) m IX WC).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m IX WC).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m IX WC).oxFrom 0 (V d c i) = oxV d c := fun i => by
    rw [show (0 : ℕ) = (0 : Fin 1).val from rfl, (P m IX WC).oxFrom_step, (P m IX WC).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m IX WC).x q (SparseCore.T d)) = iprop(emp) :=
  bigSep_univ_of_subsingleton (0 : Fin 1)
theorem Px_S (d : Dev nD) (c : Fin τ.nSC) : (bigSep Finset.univ fun q : Fin 1 => (P (F := F) m IX WC).x q (S d c)) = iprop(emp) :=
  bigSep_univ_of_subsingleton (0 : Fin 1)
theorem Px_V (d : Dev nD) (c : Fin τ.nSC) (i : Fin τ.nSub) :
    (bigSep Finset.univ fun q : Fin 1 => (P (F := F) m IX WC).x q (V d c i)) = bkit WC d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) WC) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared (F := F) WC ∗ mine (F := F) dci) ⊢ (bkit (F := F) WC dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) WC) (κ (bcell₃ x)) (bcell₃ x)) fun j _ =>
        sep_elim_left.trans (bigSep_elim (Φ := fun x : DCI => (cellInv EB (bRd (F := F) WC) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared (F := F) WC ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m IX WC).x q thr : sProp 𝕄) := by
  rw [SparseCore.Cfg.bigSep_threads (fun thr : Thread nD τ => bigSep Finset.univ fun q : Fin 1 => (P m IX WC).x q thr)]
  simp only [Px_T, Px_S, Px_V, bigSep_emp']
  iintro ⟨#Hsh, Hat, Htok, Hcred⟩
  isplitr; · iempintro
  isplitr; · iempintro
  iapply (bigSep_mono_frame (R := shared (F := F) WC) (Φ := mine (F := F)) fun dci _ => kit_intro (F := F) WC dci)
  isplitr; · iexact Hsh
  unfold mine
  rw [bigSep_sep', bigSep_sep']
  isplitl [Hat]; · iexact Hat
  isplitl [Htok]; · iexact Htok
  iexact Hcred

/-- What the launch deals the TensorCore of `d` for @main: the first call's staging cells' ghost state. -/
abbrev G (d : Dev nD) : sProp 𝕄 := iprop(Pipeline.cellsGhost cfgs EP 0 d ∗ Pipeline.toksInit cfgs EP 0 d)

theorem hu₀ : iprop(ownU (u₀ (F := F)) ∗ (P (F := F) m IX WC).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m IX WC).x q thr) : sProp 𝕄) := by
  unfold u₀
  iintro ⟨Hu, Hcred, Hfree⟩
  ihave H := (ownU_split _ _ _) $$ Hu
  icases H with ⟨HH, HB, HP⟩
  imod (Rounds.fund EB (bRd (F := F) WC) bCells bToks) $$ HB with ⟨Hst, #Hr, Hat, Htok⟩
  imod (Pipeline.fund_ghost cfgs EP cellOf_inj) $$ HP with ⟨Hcg, Htk⟩
  ihave Hsems := (sems_b (F := F)) $$ Hfree
  imod (invs_b (F := F) WC) $$ [Hsems Hst] with ⟨%κ, #Hinv⟩
  · isplitl [Hsems] <;> iassumption
  ihave Hcred' := (creds_b m IX WC) $$ Hcred
  ihave Hinv' := (Entails.of_eq (bCells_eq (F := F) fun g => cellInv EB (bRd (F := F) WC) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Htk]
  · unfold G
    rw [bigSep_sep']
    isplitl [Hcg]
    · iapply (SparseCore.ent (bigSep_mono fun d _ => bigSep_elim (Φ := fun p : Fin 1 => (Pipeline.cellsGhost cfgs EP p d : sProp 𝕄)) (Finset.mem_univ (0 : Fin 1)))); iexact Hcg
    · iapply (SparseCore.ent (bigSep_mono fun d _ => bigSep_elim (Φ := fun p : Fin 1 => (Pipeline.toksInit cfgs EP p d : sProp 𝕄)) (Finset.mem_univ (0 : Fin 1)))); iexact Htk
  iapply (kits_deal m IX WC)
  isplitr
  · isplitl; · iexists κ; iexact Hinv'
    iexact Hr'
  isplitl [Hat']; · iexact Hat'
  isplitl [Htok']; · iexact Htok'
  iexact Hcred'

end Cert.Kernel.Hand

end
-- ==== Proof.K.LaunchV.lean ====
/-
  The launch for the protocol with the result named. It differs from the frame's protocol only in what is handed back, so
  what the launch deals every thread's proof, and what every tile owes, are the frame's: its launch element serves.
-/
import proofs.«205614_g54924041781483_cont_9to1_m_645_25_alg».proof.Proof.K.ProtoV
import proofs.«205614_g54924041781483_cont_9to1_m_645_25_alg».proof.Proof.K.Launch

noncomputable section

namespace Cert.Kernel.HandV

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (IX : (d : Dev nD) → Buf (Elt F) (v8Loc d)) (WC : (d : Dev nD) → Buf (Elt F) (v9Loc d))
variable [FloatOps F]

/-! ## The launch element for the protocol with the result named

The named protocol differs from the frame's only in what a SparseCore and a tile hand back: what the launch deals each
thread's proof and what each tile owes are the same, so the frame's launch element serves. -/

theorem oxCred_eq : ((PV (F := F) m IX WC).oxCred : sProp 𝕄) = (P (F := F) m IX WC).oxCred := rfl

theorem hu₀V : iprop(ownU (u₀ (F := F)) ∗ (PV (F := F) m IX WC).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (PV m IX WC).x q thr) : sProp 𝕄) :=
  hu₀ m IX WC

end Cert.Kernel.HandV

end
-- ==== Proof.K.Parts.lean ====
/-
  The arrays cut into the tiles' pieces. The 4096 rows of the combined table — in HBM and in a SparseCore's shared
  memory — are the 16 blocks of 256 rows the tiles of one SparseCore address, block `s` at row `256 · s`. The 4096 rows of
  the index array and the 4096 slabs of the result are the 32 blocks of 128 the tiles of both SparseCores address, tile
  `(c, s)` at `256 · s + 128 · c = 128 · (2s + c)`: the pairs `(c, s)` number the 32 blocks by `2s + c`. Blocks of one
  cut are pairwise disjoint and cover the array, so the array held whole is its blocks held side by side, and blocks
  held at contents of their own join to the array at some contents.
-/
import proofs.«205614_g54924041781483_cont_9to1_m_645_25_alg».proof.Proof.K.Geom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

theorem coordsV_zero (c : Fin (grid1.bound 0)) (s : Fin (grid1.bound 1)) : coordsV c s 0 = c := rfl
theorem coordsV_one (c : Fin (grid1.bound 0)) (s : Fin (grid1.bound 1)) : coordsV c s 1 = s := rfl

/-! ## The combined table's rows: 16 blocks of 256 -/

theorem rows_div16 : 16 ∣ S4096x128.size 0 := ⟨256, rfl⟩
/-- Rows `[256 · s, + 256)` of a `[4096, 128]` array. -/
abbrev rows256 (s : Fin 16) : Rect S4096x128 := Rect.part (s := S4096x128) (a₀ := 0) rows_div16 s

/-- The rectangle a tile's program slices the combined table by is block `s` of the cut into 16. -/
theorem combRect_eq (c' : Fin (grid1.bound 0)) (s : Fin (grid1.bound 1)) :
    Rect.unit (s := S4096x128) (k1_off1 (coordsV c' s)) S256x128.size (k1_off1_inb (coordsV c' s)) = rows256 (Fin.cast bound_one s) := by
  unfold rows256 Rect.part Rect.block
  congr 1 <;> funext a
  · rw [k1_off1_eq]
    match a with
    | 0 => show 256 * s.val = s.val * (4096 / 16); omega
    | 1 => show 0 = 0 * 128; rfl
  · match a with
    | 0 => simp [Shape.partSize]
    | 1 => simp [Shape.partSize]

theorem set_shBlk (c' : Fin (grid1.bound 0)) (s : Fin (grid1.bound 1)) :
    (shBlk (coordsV c' s)).view.set = (rows256 (Fin.cast bound_one s)).set := by
  show ((shV).view.slice (Rect.unit (s := S4096x128) (k1_off1 (coordsV c' s)) S256x128.size (k1_off1_inb (coordsV c' s)))).set = _
  rw [combRect_eq]
  exact View.set_slice_whole _ _

theorem set_combBlk (c' : Fin (grid1.bound 0)) (s : Fin (grid1.bound 1)) :
    (combBlk (coordsV c' s)).view.set = (rows256 (Fin.cast bound_one s)).set := by
  show ((combV).view.slice (Rect.unit (s := S4096x128) (k1_off1 (coordsV c' s)) S256x128.size (k1_off1_inb (coordsV c' s)))).set = _
  rw [combRect_eq]
  exact View.set_slice_whole _ _

theorem rows256_disjoint : ∀ s ∈ (Finset.univ : Finset (Fin (grid1.bound 1))), ∀ s' ∈ (Finset.univ : Finset (Fin (grid1.bound 1))), s ≠ s' →
    Disjoint (rows256 (Fin.cast bound_one s)).set (rows256 (Fin.cast bound_one s')).set :=
  fun s _ s' _ h => Rect.part_disjoint rows_div16 (fun e => h (Fin.ext (congrArg Fin.val e)))

theorem rows256_cover : (Finset.univ : Finset (Fin (grid1.bound 1))).biUnion (fun s => (rows256 (Fin.cast bound_one s)).set) = Finset.univ :=
  Rect.biUnion_part rows_div16

/-- A SparseCore's shared scratch is the 16 blocks its tiles address. -/
theorem sh_blocks (d : Dev nD) (c : Fin τ.nSC) (c' : Fin (grid1.bound 0)) (q : PosShare TreeShare) (f : Buf (Elt F) (shLoc d c)) :
    (shLoc d c ↦{q} f : sProp 𝕄) = bigSep Finset.univ fun s : Fin (grid1.bound 1) => shLoc d c ↦[(shBlk (coordsV c' s)).view.set]{q} f := by
  have e : (bigSep Finset.univ fun s : Fin (grid1.bound 1) => shLoc d c ↦[(shBlk (coordsV c' s)).view.set]{q} f : sProp 𝕄)
      = bigSep Finset.univ fun s : Fin (grid1.bound 1) => shLoc d c ↦[(rows256 (Fin.cast bound_one s)).set]{q} f :=
    bigSep_congr fun s _ => congrArg (fun I => (shLoc d c ↦[I]{q} f : sProp 𝕄)) (set_shBlk c' s)
  rw [e, ← pointsTo_biUnion Finset.univ (ℓ := shLoc d c) (fun s : Fin (grid1.bound 1) => (rows256 (Fin.cast bound_one s)).set) rows256_disjoint, rows256_cover]; try rfl

/-- The combined table in HBM is the 16 blocks a SparseCore's tiles address. -/
theorem comb_blocks (d : Dev nD) (c' : Fin (grid1.bound 0)) (q : PosShare TreeShare) (f : Buf (Elt F) (v9Loc d)) :
    (v9Loc d ↦{q} f : sProp 𝕄) = bigSep Finset.univ fun s : Fin (grid1.bound 1) => v9Loc d ↦[(combBlk (coordsV c' s)).view.set]{q} f := by
  have e : (bigSep Finset.univ fun s : Fin (grid1.bound 1) => v9Loc d ↦[(combBlk (coordsV c' s)).view.set]{q} f : sProp 𝕄)
      = bigSep Finset.univ fun s : Fin (grid1.bound 1) => v9Loc d ↦[(rows256 (Fin.cast bound_one s)).set]{q} f :=
    bigSep_congr fun s _ => congrArg (fun I => (v9Loc d ↦[I]{q} f : sProp 𝕄)) (set_combBlk c' s)
  rw [e, ← pointsTo_biUnion Finset.univ (ℓ := v9Loc d) (fun s : Fin (grid1.bound 1) => (rows256 (Fin.cast bound_one s)).set) rows256_disjoint, rows256_cover]; try rfl

/-! ## Pieces indexed by pairs -/

section Pieces
variable {ℓ : Loc nD τ sig}

/-- An element set cut into pairwise disjoint pieces indexed by pairs: held, it is its pieces held side by side. -/
theorem pointsTo_pieces {A B : Type} [Fintype A] [Fintype B] (K : A × B → Finset (Idx ℓ)) (U : Finset (Idx ℓ))
    (hd : ∀ p p', p ≠ p' → Disjoint (K p) (K p')) (hc : (Finset.univ : Finset (A × B)).biUnion K = U)
    (q : PosShare TreeShare) (f : Buf (Elt F) ℓ) :
    (ℓ ↦[U]{q} f : sProp 𝕄) = bigSep Finset.univ fun a : A => bigSep Finset.univ fun b : B => ℓ ↦[K (a, b)]{q} f := by
  rw [← hc, pointsTo_biUnion Finset.univ K (fun p _ p' _ h => hd p p' h)]
  exact bigSep_univ_prod _

/-- The pieces, each held whole at contents of its own, join to the set held at some contents. -/
theorem pointsTo_pieces_join [FloatOps F] {A B : Type} [Fintype A] [Fintype B] [DecidableEq A] [DecidableEq B] (K : A × B → Finset (Idx ℓ)) (U : Finset (Idx ℓ))
    (hd : ∀ p p', p ≠ p' → Disjoint (K p) (K p')) (hc : (Finset.univ : Finset (A × B)).biUnion K = U) :
    (bigSep Finset.univ fun a : A => bigSep Finset.univ fun b : B => iprop(∃ f, ℓ ↦[K (a, b)]{fullShare} f))
      ⊢ (iprop(∃ f, ℓ ↦[U]{fullShare} f) : sProp 𝕄) := by
  rw [← bigSep_univ_prod (fun p : A × B => (iprop(∃ f, ℓ ↦[K p]{fullShare} f) : sProp 𝕄))]
  refine (bigSep_exists_pi Finset.univ (fun p (f : Buf (Elt F) ℓ) => (ℓ ↦[K p]{fullShare} f : sProp 𝕄))).trans ?_
  iintro ⟨%fs, H⟩
  ihave H' := (pointsTo_biUnion_join Finset.univ K fs (Classical.arbitrary _) (fun p _ p' _ h => hd p p' h)) $$ H
  icases H' with ⟨%g, -, Hg⟩
  rw [hc]
  iexists g; iexact Hg

end Pieces

/-! ## A tile's slabs of the result, one per trip and slot: 16 · 8 slabs in its 128 -/

theorem trips_sixteen : k1_t1_loop.trips = 16 := by decide

theorem set_outSet (L : grid1.Coords) : outSet L = (outRect L).set := by
  show (outRect L).set.map (outV).view.emb = _
  exact Finset.map_refl

theorem set_outWin (L : grid1.Coords) (k : Fin k1_t1_loop.trips) (r : Fin 8) :
    (outWin L k (BitVec.ofNat 32 r.val) (k1_off12_inb L k r)).view.set
      = (Rect.unit (s := S4096x50x128) (k1_off12 L k (BitVec.ofNat 32 r.val)) S1x50x128.size (k1_off12_inb L k r)).set := by
  show (((outV).view.slice (Rect.unit (s := S4096x50x128) (k1_off12 L k (BitVec.ofNat 32 r.val)) S1x50x128.size (k1_off12_inb L k r))).reshape S50x128
      squeezes_S1x50x128_S50x128.numel_eq).set = _
  rw [View.set_reshape]
  exact View.set_slice_whole _ _

/-- The slab of trip `k`, slot `r` is position `256 · s + 128 · c + 8k + r`. -/
theorem mem_outWin (L : grid1.Coords) (k : Fin k1_t1_loop.trips) (r : Fin 8) (i : S4096x50x128.Idx) :
    i ∈ (outWin L k (BitVec.ofNat 32 r.val) (k1_off12_inb L k r)).view.set
      ↔ (i 0).val = 256 * (L 1).val + 128 * (L 0).val + 8 * k.val + r.val := by
  rw [set_outWin, Rect.mem_set_unit, k1_off12_eq]
  constructor
  · intro h
    have h0 : 256 * (L 1).val + 128 * (L 0).val + 8 * k.val + r.val ≤ (i 0).val ∧ (i 0).val < 256 * (L 1).val + 128 * (L 0).val + 8 * k.val + r.val + 1 := h 0
    omega
  · intro h a
    match a with
    | 0 => show 256 * (L 1).val + 128 * (L 0).val + 8 * k.val + r.val ≤ (i 0).val ∧ (i 0).val < 256 * (L 1).val + 128 * (L 0).val + 8 * k.val + r.val + 1; omega
    | 1 => have h1 : (i 1).val < 50 := (i 1).isLt; show 0 ≤ (i 1).val ∧ (i 1).val < 0 + 50; omega
    | 2 => have h2 : (i 2).val < 128 := (i 2).isLt; show 0 ≤ (i 2).val ∧ (i 2).val < 0 + 128; omega

/-- The tile's slabs are positions `[256 · s + 128 · c, + 128)`. -/
theorem mem_outSet (L : grid1.Coords) (i : S4096x50x128.Idx) :
    i ∈ outSet L ↔ 256 * (L 1).val + 128 * (L 0).val ≤ (i 0).val ∧ (i 0).val < 256 * (L 1).val + 128 * (L 0).val + 128 := by
  rw [set_outSet, Rect.mem_set_unit, k1_off13_eq]
  constructor
  · intro h; exact h 0
  · intro h a
    match a with
    | 0 => exact h
    | 1 => have h1 : (i 1).val < 50 := (i 1).isLt; show 0 ≤ (i 1).val ∧ (i 1).val < 0 + 50; omega
    | 2 => have h2 : (i 2).val < 128 := (i 2).isLt; show 0 ≤ (i 2).val ∧ (i 2).val < 0 + 128; omega

theorem outWin_disjoint (L : grid1.Coords) (p p' : Fin k1_t1_loop.trips × Fin 8) (h : p ≠ p') :
    Disjoint (outWin L p.1 (BitVec.ofNat 32 p.2.val) (k1_off12_inb L p.1 p.2)).view.set
      (outWin L p'.1 (BitVec.ofNat 32 p'.2.val) (k1_off12_inb L p'.1 p'.2)).view.set := by
  refine Finset.disjoint_left.2 fun i h1 h2 => h ?_
  have e1 := (mem_outWin L p.1 p.2 i).1 h1
  have e2 := (mem_outWin L p'.1 p'.2 i).1 h2
  have hr := p.2.isLt; have hr' := p'.2.isLt
  exact Prod.ext (Fin.ext (by omega)) (Fin.ext (by omega))

theorem outWin_cover (L : grid1.Coords) :
    (Finset.univ : Finset (Fin k1_t1_loop.trips × Fin 8)).biUnion
      (fun p => (outWin L p.1 (BitVec.ofNat 32 p.2.val) (k1_off12_inb L p.1 p.2)).view.set) = outSet L := by
  ext i
  rw [mem_outSet, Finset.mem_biUnion]
  constructor
  · rintro ⟨p, -, hp⟩
    have hp' := (mem_outWin L p.1 p.2 i).1 hp
    have hk : p.1.val < 16 := trips_sixteen ▸ p.1.isLt
    have hr := p.2.isLt
    omega
  · intro h
    have hk : ((i 0).val - (256 * (L 1).val + 128 * (L 0).val)) / 8 < k1_t1_loop.trips := by rw [trips_sixteen]; omega
    have hr : ((i 0).val - (256 * (L 1).val + 128 * (L 0).val)) % 8 < 8 := by omega
    refine ⟨(⟨_, hk⟩, ⟨_, hr⟩), Finset.mem_univ _, (mem_outWin L ⟨_, hk⟩ ⟨_, hr⟩ i).2 ?_⟩
    show (i 0).val = 256 * (L 1).val + 128 * (L 0).val + 8 * (((i 0).val - (256 * (L 1).val + 128 * (L 0).val)) / 8)
      + ((i 0).val - (256 * (L 1).val + 128 * (L 0).val)) % 8
    omega

/-- A tile's slabs of the result are its 16 · 8 single slabs, one per trip and slot. -/
theorem out_windows (d : Dev nD) (L : grid1.Coords) (q : PosShare TreeShare) (f : Buf (Elt F) (v10Loc d)) :
    (v10Loc d ↦[outSet L]{q} f : sProp 𝕄) = bigSep Finset.univ fun k : Fin k1_t1_loop.trips => bigSep Finset.univ fun r : Fin 8 =>
      v10Loc d ↦[(outWin L k (BitVec.ofNat 32 r.val) (k1_off12_inb L k r)).view.set]{q} f :=
  pointsTo_pieces (ℓ := v10Loc d) (fun p : Fin k1_t1_loop.trips × Fin 8 => (outWin L p.1 (BitVec.ofNat 32 p.2.val) (k1_off12_inb L p.1 p.2)).view.set)
    (outSet L) (outWin_disjoint L) (outWin_cover L) q f

/-- The single slabs, each at contents of its own, join to the tile's slabs at some contents. -/
theorem out_windows_join [FloatOps F] (d : Dev nD) (L : grid1.Coords) :
    (bigSep Finset.univ fun k : Fin k1_t1_loop.trips => bigSep Finset.univ fun r : Fin 8 =>
        iprop(∃ f, v10Loc d ↦[(outWin L k (BitVec.ofNat 32 r.val) (k1_off12_inb L k r)).view.set]{fullShare} f))
      ⊢ (iprop(∃ f, v10Loc d ↦[outSet L]{fullShare} f) : sProp 𝕄) :=
  pointsTo_pieces_join (ℓ := v10Loc d) (fun p : Fin k1_t1_loop.trips × Fin 8 => (outWin L p.1 (BitVec.ofNat 32 p.2.val) (k1_off12_inb L p.1 p.2)).view.set)
    (outSet L) (outWin_disjoint L) (outWin_cover L)

/-! ## The index array's rows and the result's slabs: 32 blocks of 128, tile `(c, s)` at `128 · (2s + c)` -/

theorem set_idxBlk (L : grid1.Coords) :
    (idxBlk L).view.set = (Rect.unit (s := S4096x50) (k1_off2 L) S128x50.size (k1_off2_inb L)).set := by
  show ((idxV).view.slice (Rect.unit (s := S4096x50) (k1_off2 L) S128x50.size (k1_off2_inb L))).set = _
  exact View.set_slice_whole _ _

/-- A tile's rows of the index array are rows `[256 · s + 128 · c, + 128)`. -/
theorem mem_idxBlk (L : grid1.Coords) (i : S4096x50.Idx) :
    i ∈ (idxBlk L).view.set ↔ 256 * (L 1).val + 128 * (L 0).val ≤ (i 0).val ∧ (i 0).val < 256 * (L 1).val + 128 * (L 0).val + 128 := by
  rw [set_idxBlk, Rect.mem_set_unit, k1_off2_eq]
  constructor
  · intro h; exact h 0
  · intro h a
    match a with
    | 0 => exact h
    | 1 => have h1 : (i 1).val < 50 := (i 1).isLt; show 0 ≤ (i 1).val ∧ (i 1).val < 0 + 50; omega

theorem idxBlk_disjoint (p p' : Fin (grid1.bound 0) × Fin (grid1.bound 1)) (h : p ≠ p') :
    Disjoint (idxBlk (coordsV p.1 p.2)).view.set (idxBlk (coordsV p'.1 p'.2)).view.set := by
  refine Finset.disjoint_left.2 fun i h1 h2 => h ?_
  have e1 : 256 * p.2.val + 128 * p.1.val ≤ (i 0).val ∧ (i 0).val < 256 * p.2.val + 128 * p.1.val + 128 := (mem_idxBlk (coordsV p.1 p.2) i).1 h1
  have e2 : 256 * p'.2.val + 128 * p'.1.val ≤ (i 0).val ∧ (i 0).val < 256 * p'.2.val + 128 * p'.1.val + 128 := (mem_idxBlk (coordsV p'.1 p'.2) i).1 h2
  have hc : p.1.val < 2 := p.1.isLt
  have hc' : p'.1.val < 2 := p'.1.isLt
  exact Prod.ext (Fin.ext (by omega)) (Fin.ext (by omega))

theorem idxBlk_cover :
    (Finset.univ : Finset (Fin (grid1.bound 0) × Fin (grid1.bound 1))).biUnion (fun p => (idxBlk (coordsV p.1 p.2)).view.set)
      = (Finset.univ : Finset S4096x50.Idx) := by
  ext i
  simp only [Finset.mem_univ, iff_true]
  rw [Finset.mem_biUnion]
  have hi : (i 0).val < 4096 := (i 0).isLt
  have hc : ((i 0).val / 128) % 2 < grid1.bound 0 := by show _ < 2; omega
  have hs : (i 0).val / 256 < grid1.bound 1 := by show _ < 16; omega
  refine ⟨(⟨_, hc⟩, ⟨_, hs⟩), Finset.mem_univ _, (mem_idxBlk (coordsV ⟨_, hc⟩ ⟨_, hs⟩) i).2 ?_⟩
  show 256 * ((i 0).val / 256) + 128 * (((i 0).val / 128) % 2) ≤ (i 0).val
    ∧ (i 0).val < 256 * ((i 0).val / 256) + 128 * (((i 0).val / 128) % 2) + 128
  omega

/-- The index array is the 32 blocks of rows the tiles address. -/
theorem idx_blocks (d : Dev nD) (q : PosShare TreeShare) (f : Buf (Elt F) (v8Loc d)) :
    (v8Loc d ↦{q} f : sProp 𝕄) = bigSep Finset.univ fun c : Fin (grid1.bound 0) => bigSep Finset.univ fun s : Fin (grid1.bound 1) =>
      v8Loc d ↦[(idxBlk (coordsV c s)).view.set]{q} f :=
  pointsTo_pieces (ℓ := v8Loc d) (fun p : Fin (grid1.bound 0) × Fin (grid1.bound 1) => (idxBlk (coordsV p.1 p.2)).view.set)
    Finset.univ idxBlk_disjoint idxBlk_cover q f

theorem outSet_disjoint (p p' : Fin (grid1.bound 0) × Fin (grid1.bound 1)) (h : p ≠ p') :
    Disjoint (outSet (coordsV p.1 p.2)) (outSet (coordsV p'.1 p'.2)) := by
  refine Finset.disjoint_left.2 fun i h1 h2 => h ?_
  have e1 : 256 * p.2.val + 128 * p.1.val ≤ (i 0).val ∧ (i 0).val < 256 * p.2.val + 128 * p.1.val + 128 := (mem_outSet (coordsV p.1 p.2) i).1 h1
  have e2 : 256 * p'.2.val + 128 * p'.1.val ≤ (i 0).val ∧ (i 0).val < 256 * p'.2.val + 128 * p'.1.val + 128 := (mem_outSet (coordsV p'.1 p'.2) i).1 h2
  have hc : p.1.val < 2 := p.1.isLt
  have hc' : p'.1.val < 2 := p'.1.isLt
  exact Prod.ext (Fin.ext (by omega)) (Fin.ext (by omega))

theorem outSet_cover :
    (Finset.univ : Finset (Fin (grid1.bound 0) × Fin (grid1.bound 1))).biUnion (fun p => outSet (coordsV p.1 p.2))
      = (Finset.univ : Finset S4096x50x128.Idx) := by
  ext i
  simp only [Finset.mem_univ, iff_true]
  rw [Finset.mem_biUnion]
  have hi : (i 0).val < 4096 := (i 0).isLt
  have hc : ((i 0).val / 128) % 2 < grid1.bound 0 := by show _ < 2; omega
  have hs : (i 0).val / 256 < grid1.bound 1 := by show _ < 16; omega
  refine ⟨(⟨_, hc⟩, ⟨_, hs⟩), Finset.mem_univ _, (mem_outSet (coordsV ⟨_, hc⟩ ⟨_, hs⟩) i).2 ?_⟩
  show 256 * ((i 0).val / 256) + 128 * (((i 0).val / 128) % 2) ≤ (i 0).val
    ∧ (i 0).val < 256 * ((i 0).val / 256) + 128 * (((i 0).val / 128) % 2) + 128
  omega

/-- The result is the 32 blocks of slabs the tiles address. -/
theorem out_blocks (d : Dev nD) (q : PosShare TreeShare) (f : Buf (Elt F) (v10Loc d)) :
    (v10Loc d ↦{q} f : sProp 𝕄) = bigSep Finset.univ fun c : Fin (grid1.bound 0) => bigSep Finset.univ fun s : Fin (grid1.bound 1) =>
      v10Loc d ↦[outSet (coordsV c s)]{q} f :=
  pointsTo_pieces (ℓ := v10Loc d) (fun p : Fin (grid1.bound 0) × Fin (grid1.bound 1) => outSet (coordsV p.1 p.2))
    Finset.univ outSet_disjoint outSet_cover q f

/-- The tiles' blocks of the result, each at contents of its own, join to the result at some contents. -/
theorem out_blocks_join [FloatOps F] (d : Dev nD) :
    (bigSep Finset.univ fun c : Fin (grid1.bound 0) => bigSep Finset.univ fun s : Fin (grid1.bound 1) =>
        iprop(∃ f, v10Loc d ↦[outSet (coordsV c s)]{fullShare} f))
      ⊢ (iprop(∃ f, v10Loc d ↦{fullShare} f) : sProp 𝕄) :=
  pointsTo_pieces_join (ℓ := v10Loc d) (fun p : Fin (grid1.bound 0) × Fin (grid1.bound 1) => outSet (coordsV p.1 p.2))
    Finset.univ outSet_disjoint outSet_cover

end Cert.Kernel.Hand

end
-- ==== Proof.K.Host.lean ====
/-
  The host lines of @main inside a weakest precondition. @main's fourteen lines before its two calls are twenty-four
  operations on whole buffers of the TensorCore (the two clamps are six operations each): run from the boundary and the
  TensorCore's unscoped buffers held whole at contents `V`, they end with the same buffers held at the operations'
  results composed over `V`. That composition leaves the index array `clamp c₀ · 64 + clamp c₁` of the coordinates and
  keeps the arguments, the combined table and the result untouched.
-/
import proofs.«205614_g54924041781483_cont_9to1_m_645_25_alg».proof.Proof.K.Core
import proofs.«205614_g54924041781483_cont_9to1_m_645_25_alg».proof.Proof.K.Terms

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The lines as one list of operations -/

/-- @main's lines before its two calls, operation by operation: column 0 of the coordinates, the bounds `0` and `63`, the
    clamp (six operations), the factor `64` laid over the shape, the product; column 1, the bounds, the clamp; the sum. -/
abbrev hostOps : List (HloOp τ sig (Elt F)) :=
  [ StableHlo.unary main_arg0 main_v0 ((extractStridedSlice S4096x50x1 ![0, 0, 0] · slices_S4096x50x2_S4096x50x1_0_0_0) : (⟨S4096x50x2, .i32⟩ : BufTy).Contents (Elt F) → (⟨S4096x50x1, .i32⟩ : BufTy).Contents (Elt F)),
    StableHlo.reshape main_v0 main_v1 rfl shapeCasts_S4096x50x1_S4096x50,
    StableHlo.nullary main_c (constantI S_ 32 0#32),
    StableHlo.nullary main_c_0 (constantI S_ 32 63#32),
    StableHlo.TRef.unary (.of main_c) main_call0.v0 id,
    StableHlo.TRef.unary main_call0.v0 main_call0.v1 (broadcastInDim S4096x50 ![] bcast_S_S4096x50),
    StableHlo.TRef.binary main_call0.v1 (.of main_v1) main_call0.v2 maxsi,
    StableHlo.TRef.unary (.of main_c_0) main_call0.v3 id,
    StableHlo.TRef.unary main_call0.v3 main_call0.v4 (broadcastInDim S4096x50 ![] bcast_S_S4096x50),
    StableHlo.TRef.binary main_call0.v4 main_call0.v2 main_call0.v5 minsi,
    StableHlo.nullary main_c_1 (constantI S_ 32 64#32),
    StableHlo.unary main_c_1 main_v3 (broadcastInDim S4096x50 ![] bcast_S_S4096x50 : (⟨S_, .i32⟩ : BufTy).Contents (Elt F) → (⟨S4096x50, .i32⟩ : BufTy).Contents (Elt F)),
    StableHlo.binary main_v2 main_v3 main_v4 (muli : (⟨S4096x50, .i32⟩ : BufTy).Contents (Elt F) → (⟨S4096x50, .i32⟩ : BufTy).Contents (Elt F) → (⟨S4096x50, .i32⟩ : BufTy).Contents (Elt F)),
    StableHlo.unary main_arg0 main_v5 ((extractStridedSlice S4096x50x1 ![0, 0, 1] · slices_S4096x50x2_S4096x50x1_0_0_1) : (⟨S4096x50x2, .i32⟩ : BufTy).Contents (Elt F) → (⟨S4096x50x1, .i32⟩ : BufTy).Contents (Elt F)),
    StableHlo.reshape main_v5 main_v6 rfl shapeCasts_S4096x50x1_S4096x50,
    StableHlo.nullary main_c_2 (constantI S_ 32 0#32),
    StableHlo.nullary main_c_3 (constantI S_ 32 63#32),
    StableHlo.TRef.unary (.of main_c_2) main_call1.v0 id,
    StableHlo.TRef.unary main_call1.v0 main_call1.v1 (broadcastInDim S4096x50 ![] bcast_S_S4096x50),
    StableHlo.TRef.binary main_call1.v1 (.of main_v6) main_call1.v2 maxsi,
    StableHlo.TRef.unary (.of main_c_3) main_call1.v3 id,
    StableHlo.TRef.unary main_call1.v3 main_call1.v4 (broadcastInDim S4096x50 ![] bcast_S_S4096x50),
    StableHlo.TRef.binary main_call1.v4 main_call1.v2 main_call1.v5 minsi,
    StableHlo.binary main_v4 main_v7 main_v8 (addi : (⟨S4096x50, .i32⟩ : BufTy).Contents (Elt F) → (⟨S4096x50, .i32⟩ : BufTy).Contents (Elt F) → (⟨S4096x50, .i32⟩ : BufTy).Contents (Elt F)) ]

/-- What follows the lines: the first call, the SparseCore call started, run and waited for, and the return. -/
def mainTail (d : Dev nD) : Prog (TpuEff nD τ sig (Elt F) (SparseCore.Sig (Pipeline.Sig Λ₀ (Fin 1) fun p => (pcfgs (F := F) p).Adm) 1) .tc) PUnit := do
  Prog.lift (.customCall (SparseCore.inner (Pipeline.entry 0)) ())
  sc.run d 0
  pure ⟨⟩

/-- @main is that line of operations, then the two calls: the clamps unfolded at their calls, the sequencing
    reassociated. -/
theorem main_eq (d : Dev nD) : main (F := F) d = (StableHlo.seq hostOps >>= fun _ => mainTail d) := by
  simp only [main, fn_clip.body, mainTail, StableHlo.seq, bind_assoc, pure_bind]

/-! ## The buffers held -/

/-- The TensorCore's unscoped buffers, as device buffers: @main's tensor values. -/
def hostS : Finset (DevRef τ sig) :=
  (Finset.univ.filter fun b : Ref sig .tc => ¬ b.isScoped).map ⟨Proc.devRef (sig := sig) (.tc : Proc τ), Proc.devRef_injective _⟩

theorem devRef_mem_hostS {r : Ref sig .tc} (h : r.isScoped = false) : Proc.devRef (τ := τ) .tc r ∈ hostS :=
  Finset.mem_map_of_mem _ (Finset.mem_filter.2 ⟨Finset.mem_univ _, by simp [h]⟩)

/-- An operation on TensorCore references touches only buffers of that set: it touches no scoped buffer. -/
theorem bufs_sub_hostS {op : HloOp τ sig (Elt F)} (h : op.bufs ⊆ StableHlo.tcRefs τ sig) : op.bufs ⊆ hostS := by
  intro b hb
  obtain ⟨r, -, rfl⟩ := Finset.mem_map.1 (h hb)
  exact devRef_mem_hostS (show r.isScoped = false from op.no_scoped _ hb)

/-- What the launch deals the TensorCore of its unscoped buffers is that set held at the launch's contents. -/
theorem unscopedBufs_held (d : Dev nD) (m : (ℓ : Loc nD τ sig) → Buf (Elt F) ℓ) :
    (unscopedBufs d (fun b => m ((SparseCore.T d).loc b)) : sProp 𝕄)
      = StableHlo.held (SparseCore.T d) hostS (StableHlo.launchContents m d) := by
  unfold unscopedBufs StableHlo.held hostS
  rw [bigSep_map]; rfl

theorem hostOps_tc : (hostOps : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.reshape_bufs_sub ..,
    StableHlo.nullary_bufs_sub .., StableHlo.nullary_bufs_sub ..,
    StableHlo.unary_bufs_sub .., StableHlo.unary_bufs_sub .., StableHlo.binary_bufs_sub .., StableHlo.unary_bufs_sub .., StableHlo.unary_bufs_sub .., StableHlo.binary_bufs_sub ..,
    StableHlo.binary_bufs_sub ..⟩

theorem hostOps_sub : ∀ op ∈ (hostOps : List (HloOp τ sig (Elt F))), op.bufs ⊆ hostS :=
  fun op hop => bufs_sub_hostS (List.forall_iff_forall_mem.1 hostOps_tc op hop)

theorem hostOps_fresh : ∀ op ∈ (hostOps : List (HloOp τ sig (Elt F))), op.fresh = ∅ := by
  intro _ h; (repeat (cases h with | head => rfl | tail _ h => ?_)); exact nomatch h

/-- The contents after the lines: the operations' results composed, in order. -/
def hostAfter (V : Valuation τ sig (Elt F)) : Valuation τ sig (Elt F) := StableHlo.after hostOps V

/-! ## The lines inside a weakest precondition -/

set_option backward.isDefEq.respectTransparency.types false in
/-- From the boundary and the unscoped buffers held at `V`, @main runs its lines and then what follows them with the
    boundary back and the buffers held at the results composed over `V`. -/
theorem wp_host_block (d : Dev nD) (V : Valuation τ sig (Elt F)) (Φ : PUnit → sProp 𝕄) :
    iprop(boundary (SparseCore.T d) ∗ StableHlo.held (SparseCore.T d) hostS V
        ∗ ((boundary (SparseCore.T d) ∗ StableHlo.held (SparseCore.T d) hostS (hostAfter V)) -∗
            wp frame (wpE ((K (F := F)).defs (D (F := F))) 𝒱 (SparseCore.T d) none) Set.univ (mainTail d) Φ))
      ⊢ wp frame (wpE ((K (F := F)).defs (D (F := F))) 𝒱 (SparseCore.T d) none) Set.univ (main d) Φ := by
  rw [main_eq]
  iintro ⟨Hb, Hh, Hk⟩
  iapply (StableHlo.wp_seq 𝒱 none Set.univ d hostS (fun _ => mainTail d) hostOps hostOps_sub hostOps_fresh V) $$ [Hb Hh]
  · isplitl [Hb]; · iexact Hb
    iexact Hh
  iexact Hk

/-! ## What the lines leave -/

set_option maxRecDepth 8192 in
/-- The lines leave in the index array's buffer the index array of the coordinates: the fold unrolled, each operation's
    result read at its own buffer, the typed references' casts the identity at these literal references. -/
theorem hostAfter_v8 (V : Valuation τ sig (Elt F)) :
    hostAfter V (Proc.devRef .tc main_v8) = idxTerm (V (Proc.devRef .tc main_arg0)) := by
  unfold hostAfter
  simp only [StableHlo.after_cons, StableHlo.after_nil]
  rfl

theorem hostAfter_arg0 (V : Valuation τ sig (Elt F)) : hostAfter V (Proc.devRef .tc main_arg0) = V (Proc.devRef .tc main_arg0) := by
  unfold hostAfter
  simp only [StableHlo.after_cons, StableHlo.after_nil]
  rfl
theorem hostAfter_arg1 (V : Valuation τ sig (Elt F)) : hostAfter V (Proc.devRef .tc main_arg1) = V (Proc.devRef .tc main_arg1) := by
  unfold hostAfter
  simp only [StableHlo.after_cons, StableHlo.after_nil]
  rfl
theorem hostAfter_arg2 (V : Valuation τ sig (Elt F)) : hostAfter V (Proc.devRef .tc main_arg2) = V (Proc.devRef .tc main_arg2) := by
  unfold hostAfter
  simp only [StableHlo.after_cons, StableHlo.after_nil]
  rfl
theorem hostAfter_v9 (V : Valuation τ sig (Elt F)) : hostAfter V (Proc.devRef .tc main_v9) = V (Proc.devRef .tc main_v9) := by
  unfold hostAfter
  simp only [StableHlo.after_cons, StableHlo.after_nil]
  rfl
theorem hostAfter_v10 (V : Valuation τ sig (Elt F)) : hostAfter V (Proc.devRef .tc main_v10) = V (Proc.devRef .tc main_v10) := by
  unfold hostAfter
  simp only [StableHlo.after_cons, StableHlo.after_nil]
  rfl

/-! ## The held set opened at the buffers used afterwards -/

/-- The arguments, the index array, the combined table and the result. -/
abbrev keptRefs : Finset (Ref sig .tc) := {main_arg0, main_arg1, main_arg2, main_v8, main_v9, main_v10}
/-- The same, as device buffers. -/
def hostKept : Finset (DevRef τ sig) := keptRefs.map ⟨Proc.devRef (sig := sig) (.tc : Proc τ), Proc.devRef_injective _⟩

theorem hostKept_sub : (hostKept : Finset (DevRef τ sig)) ⊆ hostS :=
  Finset.map_subset_map.2 (by decide)

theorem sep_assoc_eq (P Q R : sProp 𝕄) : (iprop((P ∗ Q) ∗ R) : sProp 𝕄) = iprop(P ∗ Q ∗ R) :=
  Entails.antisymm Idealize.SL.BI.sep_assoc Idealize.SL.BI.sep_assoc'

/-- The six buffers held are each held. -/
theorem held_kept (d : Dev nD) (V : Valuation τ sig (Elt F)) :
    (StableHlo.held (SparseCore.T d) hostKept V : sProp 𝕄)
      = iprop(((SparseCore.T d).loc main_arg0 ↦{fullShare} V (Proc.devRef .tc main_arg0))
          ∗ ((SparseCore.T d).loc main_arg1 ↦{fullShare} V (Proc.devRef .tc main_arg1))
          ∗ ((SparseCore.T d).loc main_arg2 ↦{fullShare} V (Proc.devRef .tc main_arg2))
          ∗ ((SparseCore.T d).loc main_v8 ↦{fullShare} V (Proc.devRef .tc main_v8))
          ∗ ((SparseCore.T d).loc main_v9 ↦{fullShare} V (Proc.devRef .tc main_v9))
          ∗ ((SparseCore.T d).loc main_v10 ↦{fullShare} V (Proc.devRef .tc main_v10))) := by
  unfold StableHlo.held hostKept keptRefs
  rw [bigSep_map, SparseCore.bigSep_insert' (by decide), SparseCore.bigSep_insert' (by decide), SparseCore.bigSep_insert' (by decide),
    SparseCore.bigSep_insert' (by decide), SparseCore.bigSep_insert' (by decide), bigSep_singleton]
  rfl

/-- The unscoped buffers held are the six used afterwards, each held, and the rest. -/
theorem held_open (d : Dev nD) (V : Valuation τ sig (Elt F)) :
    (StableHlo.held (SparseCore.T d) hostS V : sProp 𝕄)
      = iprop(((SparseCore.T d).loc main_arg0 ↦{fullShare} V (Proc.devRef .tc main_arg0))
          ∗ ((SparseCore.T d).loc main_arg1 ↦{fullShare} V (Proc.devRef .tc main_arg1))
          ∗ ((SparseCore.T d).loc main_arg2 ↦{fullShare} V (Proc.devRef .tc main_arg2))
          ∗ ((SparseCore.T d).loc main_v8 ↦{fullShare} V (Proc.devRef .tc main_v8))
          ∗ ((SparseCore.T d).loc main_v9 ↦{fullShare} V (Proc.devRef .tc main_v9))
          ∗ ((SparseCore.T d).loc main_v10 ↦{fullShare} V (Proc.devRef .tc main_v10))
          ∗ StableHlo.held (SparseCore.T d) (hostS \ hostKept) V) := by
  rw [StableHlo.held_sub_split (SparseCore.T d) hostKept_sub V, held_kept]
  simp only [sep_assoc_eq]

end Cert.Kernel.Hand

end
-- ==== Proof.K.RegionBody.lean ====
/-
  The first call's body, run once on whole staging buffers: it loads the two tables, forms the two one-hot products and
  stores them side by side, so the result buffer ends at the two stores' payloads laid over one another.
-/
import proofs.«205614_g54924041781483_cont_9to1_m_645_25_alg».proof.Proof.K.Core
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses -/

/-- A whole table. -/
abbrev rTab : Rect S64x64 := Rect.unit (s := S64x64) ![0, 0] S64x64.size inb_S64x64_S64x64_0_0
/-- Columns `[0, 64)` of the result buffer: the first store's rectangle. -/
abbrev rLeft : Rect S4096x128 := Rect.unit (s := S4096x128) ![0, 0] S4096x64.size inb_S4096x128_S4096x64_0_0
/-- Columns `[64, 128)`: the second store's. -/
abbrev rRight : Rect S4096x128 := Rect.unit (s := S4096x128) ![0, 64] S4096x64.size inb_S4096x128_S4096x64_0_64

/-! ## What the body leaves in the result buffer -/

/-- The result buffer after the body, from the two tables as loaded: its two stores as pieces, last first. -/
def combBuf (x0 x1 : Vec F S64x64 .f32) : Vec F S4096x128 .f32 :=
  View.canon [⟨rRight, k0_pay2 k0_pay4 (View.ld x1 rTab)⟩, ⟨rLeft, k0_pay1 (k0_pay3 (F := F)) (View.ld x0 rTab)⟩]

/-- The two halves tile the buffer, so they cover it. -/
theorem combCover (p1 p0 : Vec F S4096x64 .f32) (y : S4096x128.Idx) :
    ∃ pc ∈ ([⟨rRight, p1⟩, ⟨rLeft, p0⟩] : List (View.Piece (Elt F) S4096x128 .f32)), y ∈ pc.1.set :=
  View.cover_of_tiled [⟨rRight, p1⟩, ⟨rLeft, p0⟩] S4096x64.size (by rfl) y

/-! ## The body's triple -/

set_option maxHeartbeats 1000000 in
/-- The body on whole staging memrefs, the tables' at read contents `x0`, `x1` and the result's at anything, runs to the
    continuation holding the tables' as they were and the result's at `combBuf x0 x1`. -/
theorem sound_comb (c : Dev nD) (E : Set ℕ) (arg0 : Memref sig .tc .vmem S64x64 .f32) (harg0 : arg0.IsWhole)
    (arg1 : Memref sig .tc .vmem S64x64 .f32) (harg1 : arg1.IsWhole) (arg2 : Memref sig .tc .vmem S4096x128 .f32) (harg2 : arg2.IsWhole)
    (x0 x1 : Vec F S64x64 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (combBuf x0 x1)) -∗ Kc ⟨⟩))
      ⊢ wp frame (wpE (defs₀ (F := F)) Variants.none c none) E (cc0__comb_body arg0 harg0 arg1 harg1 arg2 harg2) Kc := by
  simp only [cc0__comb_body_eq_skeleton]; unfold cc0__comb_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combCover _ _)

end Cert.Kernel.Hand

end
-- ==== Proof.K.RegionData.lean ====
/-
  The first call's proof data: both tables and the result's array behind whole windows, each table's staging buffer at the
  table when the body runs, the result's at the two stores' canon after it — which is the combined table, index by index —,
  the core owing the same tallies throughout; the body obligation from the body's triple; the arrays after the region.
-/
import proofs.«205614_g54924041781483_cont_9to1_m_645_25_alg».proof.Proof.K.RegionBody
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's proof data -/

/-- No prefetched table. -/
abbrev adm : (p : Fin 1) → (pcfgs (F := F) p).Adm := fun p => (cfgs p).toPCfg_adm

section Data

variable (a1 a2 : FVec F S64x64 .f32) (f : FVec F S4096x128 .f32) (O : CellTallies nD τ sig (HIx 1)) (b : ℕ)

/-- The windows' arrays as the region finds them: the two tables and the result's buffer. -/
def arr (c : Dev nD) (w : Fin cfg0.W) : Buf (Elt F) ((cfg0.win w).arr.view.loc (c : Thread nD τ)) :=
  match w with
  | ⟨0, _⟩ => a1
  | ⟨1, _⟩ => a2
  | ⟨2, _⟩ => f

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (arr a1 a2 f c w)

/-- The proof data on core `c`: the arrays as found; after the body each table's buffer at its block and the result's at
    the two stores' canon; no invariant (the core has no scoped buffer but the staging buffers); the core owing `O` throughout, its recorded pairs at level at
    most `b`; full shares. -/
def dats (_ : Fin 1) (c : Dev nD) : Dat τ (Elt F) (HIx 1) ℕ UU ℕ cfg0 c where
  A w := arr a1 a2 f c w
  after w t := match w with
    | ⟨0, _⟩ => iblk a1 a2 f c 0 t
    | ⟨1, _⟩ => iblk a1 a2 f c 1 t
    | ⟨2, _⟩ => combBuf (iblk a1 a2 f c 0 t) (iblk a1 a2 f c 1 t)
  Φ _ := iprop(emp)
  q _ := fullShare
  owed _ := O
  recorded _ := {p | (K (F := F)).lev ((c : Thread nD τ), p.1) p.2 ≤ b}

theorem A_eq (c : Dev nD) (w : Fin cfg0.W) : (dats a1 a2 f O b 0 c).A w = arr a1 a2 f c w := by dsimp only [dats]
theorem after0_0 (c : Dev nD) (t : Fin cfg0.N) : (dats a1 a2 f O b 0 c).after 0 t = iblk a1 a2 f c 0 t := by dsimp only [dats]
theorem after0_1 (c : Dev nD) (t : Fin cfg0.N) : (dats a1 a2 f O b 0 c).after 1 t = iblk a1 a2 f c 1 t := by dsimp only [dats]
theorem after0_2 (c : Dev nD) (t : Fin cfg0.N) :
    (dats a1 a2 f O b 0 c).after 2 t = combBuf (iblk a1 a2 f c 0 t) (iblk a1 a2 f c 1 t) := by dsimp only [dats]

/-- Each table's staging buffer holds its block when the body runs. -/
theorem before0_0 (c : Dev nD) (t : Fin cfg0.N) (d) : (dats a1 a2 f O b 0 c).before 0 t d = iblk a1 a2 f c 0 t :=
  ((dats a1 a2 f O b 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats a1 a2 f O b 0 c).before 1 t d = iblk a1 a2 f c 1 t :=
  ((dats a1 a2 f O b 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats a1 a2 f O b 0 c).Φ t.castSucc ∗ (dats a1 a2 f O b 0 c).owesAt none t.castSucc
    ∗ (∃ d, owns (c : Thread nD τ) (st0_0 t) fullShare ((dats a1 a2 f O b 0 c).before 0 t d))
    ∗ (∃ d, owns (c : Thread nD τ) (st0_1 t) fullShare ((dats a1 a2 f O b 0 c).before 1 t d))
    ∗ (∃ d, owns (c : Thread nD τ) (st0_2 t) fullShare ((dats a1 a2 f O b 0 c).before 2 t d)))

def bodyPost (c : Dev nD) (t : Fin cfg0.N) : sProp 𝕄 :=
  iprop((dats a1 a2 f O b 0 c).Φ t.succ ∗ (dats a1 a2 f O b 0 c).owesAt none t.succ
    ∗ owns (c : Thread nD τ) (st0_0 t) fullShare ((dats a1 a2 f O b 0 c).after 0 t)
    ∗ owns (c : Thread nD τ) (st0_1 t) fullShare ((dats a1 a2 f O b 0 c).after 1 t)
    ∗ owns (c : Thread nD τ) (st0_2 t) fullShare ((dats a1 a2 f O b 0 c).after 2 t))

/-- The body at the point: the tables' buffers hold their blocks, so the body's triple applies; the invariant and what the
    core owes pass through unread. -/
theorem sound_body (c : Dev nD) (t : Fin cfg0.N) :
    bodyPre a1 a2 f O b c t ⊢ wp frame (wpE (defs₀ (F := F)) Variants.none c none) Set.univ (bodyAt0 t) (fun _ => bodyPost a1 a2 f O b c t) := by
  unfold bodyPre bodyPost bodyAt0
  simp only [before0_0, before0_1]
  rw [show (dats a1 a2 f O b 0 c).Φ t.succ = (dats a1 a2 f O b 0 c).Φ t.castSucc from rfl,
    show (dats a1 a2 f O b 0 c).owesAt none t.succ = (dats a1 a2 f O b 0 c).owesAt none t.castSucc from rfl,
    after0_0, after0_1, after0_2]
  iintro ⟨HΦ, Ho, ⟨%d0, H0⟩, ⟨%d1, H1⟩, ⟨%d2, H2⟩⟩
  iapply (sound_comb c Set.univ _ _ _ _ _ _ (iblk a1 a2 f c 0 t) (iblk a1 a2 f c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats a1 a2 f O b 0 c) (defs₀ (F := F)) Variants.none none Set.univ := fun t => by
  rw [bigSep_W0, bigSep_W0]
  exact sound_body a1 a2 f O b c t

end Data

section Value

variable (a1 a2 : FVec F S64x64 .f32) (f : FVec F S4096x128 .f32) (O : CellTallies nD τ sig (HIx 1)) (b : ℕ)

theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- A whole window's block is its array. -/
theorem iblk0 (c : Dev nD) (t : Fin cfg0.N) : iblk a1 a2 f c 0 t = a1 := by
  obtain ⟨e0, e1, -⟩ := idx_facts t
  funext y
  show a1 (((cfg0.win 0).blk t).view.emb y) = a1 y
  congr 1
  funext a; apply Fin.ext
  match a with
  | ⟨0, _⟩ => show win0_0.index t (0 : Fin 2) * 64 + 1 * (y 0).val = (y 0).val; omega
  | ⟨1, _⟩ => show win0_0.index t (1 : Fin 2) * 64 + 1 * (y 1).val = (y 1).val; omega

theorem iblk1 (c : Dev nD) (t : Fin cfg0.N) : iblk a1 a2 f c 1 t = a2 := by
  obtain ⟨-, -, e0, e1, -⟩ := idx_facts t
  funext y
  show a2 (((cfg0.win 1).blk t).view.emb y) = a2 y
  congr 1
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem hzTab : (![0, 0] : Fin 2 → Nat) = fun _ => 0 := funext fun a => by fin_cases a <;> rfl

/-- The two stores' canon is the combined table: the first store's payload on columns `[0, 64)`, the second's beyond. -/
theorem combBuf_eq (x0 x1 : Vec F S64x64 .f32) : combBuf x0 x1 = combF x0 x1 := by
  funext i
  unfold combBuf
  simp only [View.ld_unit_zero (S := S64x64) hzTab]
  refine View.canon_apply_of_pieces (combF x0 x1) _ ?_ i (combCover _ _ i)
  intro p hp x
  simp only [List.mem_cons, List.mem_nil_iff, or_false] at hp
  rcases hp with rfl | rfl
  · show k0_pay2 k0_pay4 x1 x = combF x0 x1 (rRight.emb x)
    unfold combF
    have h0 : ((rRight.emb x) 0 : Nat) = 0 + 1 * (x 0).val := rfl
    have h1 : ((rRight.emb x) 1 : Nat) = 64 + 1 * (x 1).val := rfl
    rw [dif_neg (by omega)]
    congr 1
    funext a
    match a with
    | ⟨0, _⟩ => exact Fin.ext (by show (x 0).val = ((rRight.emb x) 0 : Nat); omega)
    | ⟨1, _⟩ => exact Fin.ext (by show (x 1).val = ((rRight.emb x) 1 : Nat) - 64; omega)
  · show k0_pay1 (k0_pay3 (F := F)) x0 x = combF x0 x1 (rLeft.emb x)
    unfold combF
    have h0 : ((rLeft.emb x) 0 : Nat) = 0 + 1 * (x 0).val := rfl
    have h1 : ((rLeft.emb x) 1 : Nat) = 0 + 1 * (x 1).val := rfl
    have hx : (x 1).val < 64 := (x 1).isLt
    rw [dif_pos (by omega)]
    congr 1
    funext a
    match a with
    | ⟨0, _⟩ => exact Fin.ext (by show (x 0).val = ((rLeft.emb x) 0 : Nat); omega)
    | ⟨1, _⟩ => exact Fin.ext (by show (x 1).val = ((rLeft.emb x) 1 : Nat); omega)

end Value

section Final

variable (a1 a2 : FVec F S64x64 .f32) (f : FVec F S4096x128 .f32) (O : CellTallies nD τ sig (HIx 1)) (b : ℕ)

theorem share_full (c : Dev nD) (w : Fin cfg0.W) : (dats a1 a2 f O b 0 c).share w = fullShare :=
  (dats a1 a2 f O b 0 c).share_full (fun _ => rfl) w

/-- What the one point writes back is the combined table, read through the whole window. -/
theorem flushed2_eq (c : Dev nD) (t : Fin cfg0.N) :
    (dats a1 a2 f O b 0 c).flushed 2 t = ((cfg0.win 2).blk t).view.read (Elt F) (combF a1 a2) := by
  show (cfg0.win 2).cut (grid0.coords t) ((dats a1 a2 f O b 0 c).after 2 t) = _
  rw [after0_2, iblk0, iblk1, combBuf_eq]
  obtain ⟨-, -, -, -, e0, e1⟩ := idx_facts t
  funext j
  show combF a1 a2 j = combF a1 a2 (((cfg0.win 2).blk t).view.emb j)
  congr 1
  funext a; apply Fin.ext
  match a with
  | ⟨0, _⟩ => show (j 0).val = win0_2.index t (0 : Fin 2) * 4096 + 1 * (j 0).val; omega
  | ⟨1, _⟩ => show (j 1).val = win0_2.index t (1 : Fin 2) * 128 + 1 * (j 1).val; omega

theorem mem_blk2 (t : Fin cfg0.N) (i : S4096x128.Idx) : i ∈ ((cfg0.win 2).blk t).view.set := by
  obtain ⟨-, -, -, -, e0, e1⟩ := idx_facts t
  show i ∈ ((View.whole main_v9).slice (win0_2.rect t)).set
  rw [View.set_slice_whole, Rect.mem_set_unit]
  intro a
  have h0 : (i 0).val < 4096 := (i 0).isLt
  have h1 : (i 1).val < 128 := (i 1).isLt
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The result's array after the region: the combined table. -/
theorem final2 (c : Dev nD) : (dats a1 a2 f O b 0 c).arrAt 2 cfg0.N = combF a1 a2 :=
  (dats a1 a2 f O b 0 c).arrAt_eq_of_cover 2 _ (fun t _ => flushed2_eq a1 a2 f O b c t) (fun i => ⟨t0_0, flush0_2 t0_0, mem_blk2 t0_0 i⟩)
theorem final0 (c : Dev nD) : (dats a1 a2 f O b 0 c).arrAt 0 cfg0.N = a1 := (dats a1 a2 f O b 0 c).arrAt_in 0 rfl _
theorem final1 (c : Dev nD) : (dats a1 a2 f O b 0 c).arrAt 1 cfg0.N = a2 := (dats a1 a2 f O b 0 c).arrAt_in 1 rfl _

end Final

end Cert.Kernel.Hand

end
-- ==== Proof.K.Region.lean ====
/-
  The first call's region, entered and left: the library's record of a region over the call's proof data — the launch's
  layout, no semaphore of its own, the waits' evidence from the level facts —, the call in the pipeline's own program, and
  the same call lifted into the whole program, the core owing what it owes throughout.
-/
import proofs.«205614_g54924041781483_cont_9to1_m_645_25_alg».proof.Proof.K.RegionData
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region, entered and left -/

/-- What the TensorCore owes, as it holds it between two calls: the tallies `O`, every recorded pair at level at
    most `b`. -/
abbrev owesBelow (d : Dev nD) (O : CellTallies nD τ sig (HIx 1)) (b : ℕ) : sProp 𝕄 :=
  iprop(∃ W, ⌜(K (F := F)).WBelow (SparseCore.T d) W b⌝ ∗ owes (SparseCore.T d) O W)

/-- The two tables and the result's array at contents. -/
abbrev arrsAt (c : Dev nD) (x1 x2 : FVec F S64x64 .f32) (y : FVec F S4096x128 .f32) : sProp 𝕄 :=
  iprop(((c : Thread nD τ).loc main_arg1 ↦{fullShare} x1) ∗ ((c : Thread nD τ).loc main_arg2 ↦{fullShare} x2)
    ∗ ((c : Thread nD τ).loc main_v9 ↦{fullShare} y))

section Region

variable (lv : GSem nD τ sig → HIx 1 → ℕ) (hlv : (K (F := F)).Refines lv)
  (a1 a2 : FVec F S64x64 .f32) (f : FVec F S4096x128 .f32) (O : CellTallies nD τ sig (HIx 1)) (hO : ∀ g, O g none = 0) (b : ℕ)

set_option backward.isDefEq.respectTransparency.types false in
/-- The region as the library's record: the launch's layout, no semaphore of its own, the body obligation, the waits'
    evidence from the level facts (the core owes nothing at the staging cells' index); entered from the three arrays and
    what the core owes, left with the result's array at the combined table. -/
def reg0 : Pipeline.RegionSeg (pcfgs (F := F)) adm (dats a1 a2 f O b) none defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation a1 a2 f O b c).loose
  hwaits c := Pipeline.cellsWaits_intro cfgs (dats a1 a2 f O b) none 0 c fun w s t => (K (F := F)).mayWait_none _ hO lv hlv
  pre c := iprop(arrsAt c a1 a2 f ∗ owesBelow c O b)
  post c := iprop(arrsAt c a1 a2 (combF a1 a2) ∗ owesBelow c O b)
  X _ := iprop(emp)
  Y _ := iprop(emp)
  Z _ := iprop(emp)
  hentry c := by
    rw [Pipeline.arrays_eq cfgs (dats a1 a2 f O b) 0 c launch0.arr_whole (share_full a1 a2 f O b c), bigSep_W0]
    iintro ⟨⟨⟨H1, H2, H9⟩, HO⟩, -, -⟩
    imodintro
    isplitl [H1 H2 H9]
    · isplitl [H1]; · iexact H1
      isplitl [H2]; · iexact H2
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr <;> iempintro
  hin c := by
    rw [show (dats a1 a2 f O b 0 c).Φ 0 = iprop(emp) from rfl]
    iintro -; iempintro
  hout c := by
    rw [Pipeline.ownSems0_none,
      show (Pipeline.scopedRest (Ix := HIx 1) (Name := ℕ) (U := UU) (Lvl := ℕ) (Val := Elt F) (Pipeline.pin (pcfgs (F := F)) adm 0).spec c : sProp 𝕄)
        = BI.emp from scopedRest0_eq c]
    iintro -
    isplitr; · iempintro
    isplitr <;> iempintro
  hexit c := by
    rw [Pipeline.arrays_eq cfgs (dats a1 a2 f O b) 0 c launch0.arr_whole (share_full a1 a2 f O b c), bigSep_W0,
      final0, final1, final2]
    iintro ⟨⟨H1, H2, H9⟩, HO, -, -⟩
    imodintro
    isplitl [H1 H2 H9]
    · isplitl [H1]; · iexact H1
      isplitl [H2]; · iexact H2
      iexact H9
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · show (K (F := F)).lev _ none ≤ b
        rw [SparseCore.Cfg.lev_none]; exact Nat.zero_le _
    iexact HO

include hlv hO in
set_option maxHeartbeats 1000000 in
set_option backward.isDefEq.respectTransparency.types false in
/-- The call in the pipeline's own program: from the level facts, the staging cells' launch ghost state and duty tokens,
    the region boundary, the two tables, the result's array at anything and what the core owes, it runs to the boundary,
    the tables unchanged, the result's array at the combined table, the core owing what it owed. -/
theorem wp_entry (d : Dev nD) (Φ : PUnit → sProp 𝕄) :
    iprop(levAts (K (F := F)).L lv
        ∗ Pipeline.cellsGhost cfgs EP 0 d ∗ Pipeline.toksInit cfgs EP 0 d
        ∗ boundary (SparseCore.T d)
        ∗ ((SparseCore.T d : Thread nD τ).loc main_arg1 ↦{fullShare} a1)
        ∗ ((SparseCore.T d : Thread nD τ).loc main_arg2 ↦{fullShare} a2)
        ∗ ((SparseCore.T d : Thread nD τ).loc main_v9 ↦{fullShare} f)
        ∗ owesBelow d O b
        ∗ (iprop(boundary (SparseCore.T d)
            ∗ ((SparseCore.T d : Thread nD τ).loc main_arg1 ↦{fullShare} a1)
            ∗ ((SparseCore.T d : Thread nD τ).loc main_arg2 ↦{fullShare} a2)
            ∗ ((SparseCore.T d : Thread nD τ).loc main_v9 ↦{fullShare} combF a1 a2)
            ∗ owesBelow d O b) -∗ Φ ⟨⟩))
      ⊢ wp frame (wpE (D (F := F)) 𝒱 (SparseCore.T d) none) Set.univ
          (Prog.lift (.customCall (Pipeline.entry 0) ()) : Prog (TpuEff nD τ sig (Elt F) (ΛP (F := F)) .tc) PUnit) Φ := by
  have hR := Pipeline.RegionSeg.wp (pcfgs (F := F)) adm (dats a1 a2 f O b) none cellOf_inj EP defs₀ 𝒱₀ (K (F := F)).L lv
    (reg0 lv hlv a1 a2 f O hO b) d none (fun u hu => nomatch hu) (fun _ => .ret ⟨⟩) Φ
  rw [show (reg0 lv hlv a1 a2 f O hO b).pre d = iprop(arrsAt d a1 a2 f ∗ owesBelow d O b) from rfl,
    show (reg0 lv hlv a1 a2 f O hO b).post d = iprop(arrsAt d a1 a2 (combF a1 a2) ∗ owesBelow d O b) from rfl] at hR
  refine BIBase.Entails.trans ?_ hR
  iintro ⟨Hlev, Hg, Ht, Hb, H1, H2, H9, HO, Hk⟩
  isplitl [Hk]
  · iintro ⟨Hb, ⟨H1, H2, H9⟩, HO⟩
    rw [wp_ret]
    imodintro
    iapply Hk
    isplitl [Hb]; · iexact Hb
    isplitl [H1]; · iexact H1
    isplitl [H2]; · iexact H2
    isplitl [H9]; · iexact H9
    iexact HO
  isplitl [Hb]; · iexact Hb
  isplitl [H1 H2 H9 HO]
  · isplitr [HO]
    · isplitl [H1]; · iexact H1
      isplitl [H2]; · iexact H2
      iexact H9
    iexact HO
  isplitl [Hlev]; · iexact Hlev
  isplitl [Hg]; · iexact Hg
  iexact Ht

end Region

/-- The first call inside the whole program: the call in the pipeline's own program, lifted to the program's extended
    body table. -/
theorem wp_region (lv : GSem nD τ sig → HIx 1 → ℕ) (hlv : (K (F := F)).Refines lv) (d : Dev nD)
    (a1 a2 : FVec F S64x64 .f32) (f : FVec F S4096x128 .f32)
    (O : CellTallies nD τ sig (HIx 1)) (hO : ∀ g, O g none = 0) (b : ℕ) (Φ : PUnit → sProp 𝕄) :
    iprop(levAts (K (F := F)).L lv
        ∗ Pipeline.cellsGhost cfgs EP 0 d ∗ Pipeline.toksInit cfgs EP 0 d
        ∗ boundary (SparseCore.T d)
        ∗ ((SparseCore.T d : Thread nD τ).loc main_arg1 ↦{fullShare} a1)
        ∗ ((SparseCore.T d : Thread nD τ).loc main_arg2 ↦{fullShare} a2)
        ∗ ((SparseCore.T d : Thread nD τ).loc main_v9 ↦{fullShare} f)
        ∗ owesBelow d O b
        ∗ (iprop(boundary (SparseCore.T d)
            ∗ ((SparseCore.T d : Thread nD τ).loc main_arg1 ↦{fullShare} a1)
            ∗ ((SparseCore.T d : Thread nD τ).loc main_arg2 ↦{fullShare} a2)
            ∗ ((SparseCore.T d : Thread nD τ).loc main_v9 ↦{fullShare} combF a1 a2)
            ∗ owesBelow d O b) -∗ Φ ⟨⟩))
      ⊢ wp frame (wpE ((K (F := F)).defs (D (F := F))) 𝒱 (SparseCore.T d) none) Set.univ
          (Prog.lift (.customCall (SparseCore.inner (Pipeline.entry 0)) ())) Φ := by
  have hL : wp frame (wpE (D (F := F)) 𝒱 (SparseCore.T d) none) Set.univ
        (Prog.lift (.customCall (Pipeline.entry 0) ()) : Prog (TpuEff nD τ sig (Elt F) (ΛP (F := F)) .tc) PUnit) Φ
      ⊢ wp frame (wpE ((K (F := F)).defs (D (F := F))) 𝒱 (SparseCore.T d) none) Set.univ
        (Prog.lift (.customCall (SparseCore.inner (Pipeline.entry 0)) ())) Φ :=
    (K (F := F)).wp_liftProg (D (F := F)) 𝒱 (SparseCore.T d) Set.univ none _ Φ
  exact BIBase.Entails.trans (wp_entry lv hlv a1 a2 f O hO b d Φ) hL

end Cert.Kernel.Hand

end
-- ==== Proof.K.RegionOwes.lean ====
/-
  What the TensorCore owes sits at the calls' indices: nothing at the index of a call's own waits.
-/
import proofs.«205614_g54924041781483_cont_9to1_m_645_25_alg».proof.Proof.K.Core

noncomputable section

namespace Cert.Kernel.Hand

open Cert.Kernel Cert.Kernel.Gen
open Idealize.ShloMosaic
open Idealize.ShloMosaic.SparseCore.Cfg (HIx)

variable {F : FTy → Type} [FloatOps F]

/-- Every unit the TensorCore owes from call `n` on is a start signal of some call: none sits at the index `none`. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

end Cert.Kernel.Hand

end
-- ==== Proof.K.IdxValue.lean ====
/-
  The index array the host code builds, read at a position: column `k` of the coordinates at `(b, s)` is
  `coords[b, s, k]`, a scalar laid over the shape is that scalar everywhere, and the clamps, the product by 64 and
  the sum act position by position — so entry `(b, s)` is `clamp c₀ · 64 + clamp c₁` on words.
-/
import proofs.«205614_g54924041781483_cont_9to1_m_645_25_alg».proof.Proof.K.Terms
import Idealize.ShloMosaic.Lib.ValueIdx
import Idealize.ShloMosaic.Lib.ValueLayout
import Idealize.ShloMosaic.Lib.Pipeline.Value

noncomputable section

namespace Cert.Kernel.HandValue

open Idealize.ShloMosaic Idealize.ShloMosaic.ValueIdx Cert.Kernel Cert.Kernel.Gen

/-- A scalar laid over the `[4096, 50]` shape reads as the scalar at every position. -/
theorem bcast_scalar_apply (x : IVec S_ 32) (j : S4096x50.Idx) :
    broadcastInDim S4096x50 ![] Facts₀.bcast_S_S4096x50 x j = x ix0 :=
  broadcastInDim_apply _ _ x j ix0 (fun a => a.elim0)

/-- Column 0 of the coordinates at `(b, s)`. -/
theorem colOf0_apply (a0 : IVec S4096x50x2 32) (b : Fin 4096) (s : Fin 50) :
    Hand.colOf0 a0 (ix2 b s) = a0 (ix3 b s (0 : Fin 2)) := by
  unfold Hand.colOf0
  refine (shapeCast_apply _ _ (ix2 b s) (ix3 b s (0 : Fin 1)) ?_).trans ?_
  · rw [Shape.rowMajor_val_three, Shape.rowMajor_val_two]
    show ((b.val * 50 + s.val) * 1 + 0) = b.val * 50 + s.val
    omega
  · refine extractStridedSlice_apply _ a0 _ _ (ix3 b s (0 : Fin 2)) (fun a => ?_)
    match a with
    | ⟨0, _⟩ => show b.val = 0 + b.val; omega
    | ⟨1, _⟩ => show s.val = 0 + s.val; omega
    | ⟨2, _⟩ => show 0 = 0 + 0; omega

/-- Column 1 of the coordinates at `(b, s)`. -/
theorem colOf1_apply (a0 : IVec S4096x50x2 32) (b : Fin 4096) (s : Fin 50) :
    Hand.colOf1 a0 (ix2 b s) = a0 (ix3 b s (1 : Fin 2)) := by
  unfold Hand.colOf1
  refine (shapeCast_apply _ _ (ix2 b s) (ix3 b s (0 : Fin 1)) ?_).trans ?_
  · rw [Shape.rowMajor_val_three, Shape.rowMajor_val_two]
    show ((b.val * 50 + s.val) * 1 + 0) = b.val * 50 + s.val
    omega
  · refine extractStridedSlice_apply _ a0 _ _ (ix3 b s (1 : Fin 2)) (fun a => ?_)
    match a with
    | ⟨0, _⟩ => show b.val = 0 + b.val; omega
    | ⟨1, _⟩ => show s.val = 0 + s.val; omega
    | ⟨2, _⟩ => show 1 = 1 + 0; omega

/-- One clamp at a position: the clamp of the word there. -/
theorem clipT_apply (x : IVec S4096x50 32) (j : S4096x50.Idx) :
    Hand.clipT x (constantI S_ 32 0#32) (constantI S_ 32 63#32) j = Cert.Spec.clampW (x j) := by
  unfold Hand.clipT Cert.Spec.clampW
  show IntOp.minsi (broadcastInDim S4096x50 ![] Facts₀.bcast_S_S4096x50 (constantI S_ 32 63#32) j)
      (IntOp.maxsi (broadcastInDim S4096x50 ![] Facts₀.bcast_S_S4096x50 (constantI S_ 32 0#32) j) (x j)) = _
  rw [bcast_scalar_apply, bcast_scalar_apply]
  rfl

/-- The index array at `(b, s)` is the combined index `clamp c₀ · 64 + clamp c₁` of the specification. -/
theorem idxTerm_apply (a0 : IVec Cert.Kernel.S4096x50x2 32) (b : Fin 4096) (s : Fin 50) :
    Cert.Kernel.Hand.idxTerm a0 (ix2 b s) = Cert.Spec.idxW a0 b s := by
  unfold Hand.idxTerm Cert.Spec.idxW
  show IntOp.addi (IntOp.muli (Hand.clipT (Hand.colOf0 a0) (constantI S_ 32 0#32) (constantI S_ 32 63#32) (ix2 b s))
        (broadcastInDim S4096x50 ![] Facts₀.bcast_S_S4096x50 (constantI S_ 32 64#32) (ix2 b s)))
      (Hand.clipT (Hand.colOf1 a0) (constantI S_ 32 0#32) (constantI S_ 32 63#32) (ix2 b s)) = _
  rw [clipT_apply, clipT_apply, bcast_scalar_apply, colOf0_apply, colOf1_apply]
  rfl

end Cert.Kernel.HandValue

end
-- ==== Proof.K.Main.lean ====
/-
  @main on the TensorCore and the program's run: the host lines leave the index array, the first call the combined table;
  the SparseCore call is handed every tile's pieces of the three arrays and hands the result's slabs back; the final memory
  holds the three arguments as launched.
-/
import proofs.«205614_g54924041781483_cont_9to1_m_645_25_alg».proof.Proof.K.Launch
import proofs.«205614_g54924041781483_cont_9to1_m_645_25_alg».proof.Proof.K.Parts
import proofs.«205614_g54924041781483_cont_9to1_m_645_25_alg».proof.Proof.K.Host
import proofs.«205614_g54924041781483_cont_9to1_m_645_25_alg».proof.Proof.K.Region
import proofs.«205614_g54924041781483_cont_9to1_m_645_25_alg».proof.Proof.K.RegionOwes
import proofs.«205614_g54924041781483_cont_9to1_m_645_25_alg».proof.Proof.K.IdxValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The TensorCore's state opened at what it owes; the call's tiles as the grid's points -/

omit [FloatOps F] in
theorem tcSt_open (d : Dev nD) (n : ℕ) :
    ((K (F := F)).tcSt EH d n : sProp 𝕄)
      ⊢ iprop(owesBelow d ((K (F := F)).Otc d n) (8 * n) ∗ (owesBelow d ((K (F := F)).Otc d n) (8 * n) -∗ (K (F := F)).tcSt EH d n)) := by
  unfold SparseCore.Cfg.tcSt
  iintro ⟨HO, Hrest⟩
  isplitl [HO]; · iexact HO
  iintro HO
  isplitl [HO]; · iexact HO
  iexact Hrest

omit [FloatOps F] in
/-- A family over the call's SparseCores and their tiles is the family over the grid's points. -/
theorem bigSep_grid (Φ : grid1.Coords → sProp 𝕄) :
    (bigSep Finset.univ fun c : Fin ((K (F := F)).nCore 0) => bigSep Finset.univ fun i : Fin ((K (F := F)).nSub 0) => Φ (callL c i))
      = bigSep Finset.univ fun c : Fin (grid1.bound 0) => bigSep Finset.univ fun s : Fin (grid1.bound 1) => Φ (coordsV c s) :=
  bigSep_congr fun c _ => bigSep_congr fun i _ => congrArg Φ (by unfold callL tileOf; congr 1)

/-! ## What the SparseCore call is handed, and what it hands back -/

variable (IX : (d : Dev nD) → Buf (Elt F) (v8Loc d)) (WC : (d : Dev nD) → Buf (Elt F) (v9Loc d))

/-- The three arrays whole are what every SparseCore of the call is handed: the index array and the result cut into the
    32 tiles' blocks, the combined table split into the two SparseCores' read shares, each cut into its 16 tiles' blocks
    (what remains of its share stays behind). -/
theorem st_intro (d : Dev nD) :
    iprop((v8Loc d ↦{fullShare} IX d) ∗ (v9Loc d ↦{fullShare} WC d) ∗ (v10Loc d ↦{fullShare} m (v10Loc d)))
      ⊢ (bigSep Finset.univ fun c : Fin ((K (F := F)).nCore 0) => (P m IX WC).st 0 d c : sProp 𝕄) := by
  show _ ⊢ bigSep Finset.univ fun c : Fin ((K (F := F)).nCore 0) => bigSep Finset.univ fun i : Fin ((K (F := F)).nSub 0) =>
    hbmPieces IX WC d (callL c i) (m (v10Loc d))
  rw [bigSep_grid (fun L => hbmPieces IX WC d L (m (v10Loc d)))]
  simp only [bigSep_sep']
  rw [← idx_blocks d fullShare (IX d), ← out_blocks d fullShare (m (v10Loc d))]
  iintro ⟨H8, H9, H10⟩
  isplitl [H8]; · iexact H8
  isplitr [H10]
  swap; · iexact H10
  ihave H := (Transfers.pointsTo_toks_split fullShare 2) $$ H9
  icases H with ⟨-, Htoks⟩
  have hb : (bigSep Finset.univ fun c' : Fin (grid1.bound 0) => (v9Loc d ↦{qC (Fin.cast bound_zero c')} WC d : sProp 𝕄))
      = bigSep Finset.univ fun c' : Fin (grid1.bound 0) => bigSep Finset.univ fun s : Fin (grid1.bound 1) =>
          v9Loc d ↦[(combBlk (coordsV c' s)).view.set]{qC (cL (coordsV c' s))} WC d :=
    bigSep_congr fun c' _ => comb_blocks d c' (qC (Fin.cast bound_zero c')) (WC d)
  iapply (Entails.of_eq hb)
  iexact Htoks

omit [FloatOps F] in
theorem dn_piece (d : Dev nD) (L : grid1.Coords) :
    (iprop(∃ fo, hbmPieces IX WC d L fo) : sProp 𝕄) ⊢ iprop(∃ f, v10Loc d ↦[outSet L]{fullShare} f) := by
  iintro ⟨%fo, -, -, H⟩
  iexists fo; iexact H

/-- What the SparseCores hand back holds the result's array whole, at some contents. -/
theorem dn_elim (d : Dev nD) :
    (bigSep Finset.univ fun c : Fin ((K (F := F)).nCore 0) => (P m IX WC).dn 0 d c : sProp 𝕄) ⊢ iprop(∃ f, v10Loc d ↦{fullShare} f) := by
  show (bigSep Finset.univ fun c : Fin ((K (F := F)).nCore 0) => bigSep Finset.univ fun i : Fin ((K (F := F)).nSub 0) =>
    iprop(∃ fo, hbmPieces IX WC d (callL c i) fo)) ⊢ _
  rw [bigSep_grid (fun L => iprop(∃ fo, hbmPieces IX WC d L fo))]
  exact BIBase.Entails.trans (bigSep_mono fun c _ => bigSep_mono fun s _ => dn_piece IX WC d (coordsV c s)) (out_blocks_join d)

/-! ## The contents the protocol speaks of -/

/-- The index array as the host lines leave it. -/
def IXm (d : Dev nD) : Buf (Elt F) (v8Loc d) := idxTerm (m ((SparseCore.T d).loc main_arg0))
/-- The combined table as the first call leaves it. -/
def WCm (d : Dev nD) : Buf (Elt F) (v9Loc d) := combF (m ((SparseCore.T d).loc main_arg1)) (m ((SparseCore.T d).loc main_arg2))

omit [FloatOps F] in
/-- Every entry of the index array is a row number of the combined table. -/
theorem IXm_lt (d : Dev nD) (j : S4096x50.Idx) : (IXm m d j).toNat < 4096 := by
  obtain ⟨p, q, rfl⟩ : ∃ (p : Fin 4096) (q : Fin 50), j = ValueIdx.ix2 p q := ⟨j 0, j 1, ValueIdx.eq_ix2 j⟩
  show (idxTerm (m ((SparseCore.T d).loc main_arg0)) (ValueIdx.ix2 p q)).toNat < 4096
  rw [HandValue.idxTerm_apply]
  exact Cert.Spec.idxW_lt _ _ _

/-- What @main leaves: the three arguments as launched, the result's array at some contents. -/
abbrev FIN (d : Dev nD) : sProp 𝕄 :=
  iprop(((SparseCore.T d : Thread nD τ).loc main_arg0 ↦{fullShare} m ((SparseCore.T d).loc main_arg0))
    ∗ ((SparseCore.T d : Thread nD τ).loc main_arg1 ↦{fullShare} m ((SparseCore.T d).loc main_arg1))
    ∗ ((SparseCore.T d : Thread nD τ).loc main_arg2 ↦{fullShare} m ((SparseCore.T d).loc main_arg2))
    ∗ ∃ f, v10Loc d ↦{fullShare} f)

theorem hmain (κ : GSem nD τ sig → ℕ) (d : Dev nD) :
    iprop((K (F := F)).ctx EH (P m (IXm m) (WCm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_held]
  iintro ⟨#Hctx, Hst, ⟨Hb, Hh, -, -⟩, ⟨Hcg, Htk⟩⟩
  iapply (wp_host_block d (StableHlo.launchContents m d) _)
  isplitl [Hb]; · iexact Hb
  isplitl [Hh]; · iexact Hh
  iintro ⟨Hb, Hh⟩
  ihave Hh' := (Entails.of_eq (held_open d (hostAfter (StableHlo.launchContents m d)))) $$ Hh
  rw [hostAfter_arg0, hostAfter_arg1, hostAfter_arg2, hostAfter_v8, hostAfter_v9, hostAfter_v10]
  icases Hh' with ⟨H0, H1, H2, H8, H9, H10, -⟩
  ihave Ho := (tcSt_open d 0) $$ Hst
  icases Ho with ⟨HO, Hclose⟩
  ihave Hlev := (SparseCore.Cfg.ctx_levAts κ) $$ Hctx
  unfold mainTail
  simp only [wp_bind]
  iapply (wp_region (F := F) (K (F := F)).lev (by sl_refines_lev) d (m ((SparseCore.T d).loc main_arg1)) (m ((SparseCore.T d).loc main_arg2))
    (m ((SparseCore.T d).loc main_v9)) ((K (F := F)).Otc d 0) (fun g => Otc_none d 0 g) (8 * 0) _)
  isplitl [Hlev]; · iexact Hlev
  isplitl [Hcg]; · iexact Hcg
  isplitl [Htk]; · iexact Htk
  isplitl [Hb]; · iexact Hb
  isplitl [H1]; · iexact H1
  isplitl [H2]; · iexact H2
  isplitl [H9]; · iexact H9
  isplitl [HO]; · iexact HO
  iintro ⟨Hb, H1, H2, H9, HO⟩
  ihave Hst := Hclose $$ HO
  iapply ((K (F := F)).wp_run (D (F := F)) 𝒱 (EH := EH) (P := P m (IXm m) (WCm m)) κ d 0)
  isplitr; · iexact Hctx
  isplitl [Hst]; · iexact Hst
  isplitl [H8 H9 H10]
  · iapply (st_intro m (IXm m) (WCm m) d)
    isplitl [H8]; · iexact H8
    isplitl [H9]; · iexact H9
    iexact H10
  iintro ⟨Hst, Hdn⟩
  ihave Hf := (dn_elim m (IXm m) (WCm m) d) $$ Hdn
  rw [wp_pure]
  imodintro
  isplitl [Hst]; · iexact Hst
  isplitl [H0]; · iexact H0
  isplitl [H1]; · iexact H1
  isplitl [H2]; · iexact H2
  iexact Hf

/-- The final memory holds the three arguments as launched. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  iintro ⟨⟨H0, H1, H2, -⟩, HSI⟩
  icombine HSI H0 gives %h0
  icombine HSI H1 gives %h1
  icombine HSI H2 gives %h2
  ipureintro
  exact ⟨Buf.eq_of_forall_mem_univ h0, Buf.eq_of_forall_mem_univ h1, Buf.eq_of_forall_mem_univ h2⟩

/-! ## The program's run -/

/-- Every weakly fair execution of the program from the launch memory, its semaphores at zero, terminates without a
    fault, and its final memory holds the three arguments as launched — given one tile's task proved and a SparseCore's
    operands split among its tiles. -/
theorem run_main [∀ e, Nonempty (Elt F e)]
    (htile : (K (F := F)).TileObl (D (F := F)) 𝒱 (P m (IXm m) (WCm m)) v₀ 0)
    (hvec : (K (F := F)).VecSplit (P m (IXm m) (WCm m)) 0) :
    θ_run (Cert.Kernel.defs (F := F)) (Cert.Kernel.threads (F := F)) ⟨m, fun _ => 0, ρ⟩
      (fun r => ∀ c : Dev nD, r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) :=
  SparseCore.Cfg.θ_run_sc (K := K (F := F)) (D := D (F := F)) (𝒱 := 𝒱) (EH := EH) (P := P m (IXm m) (WCm m)) facts v₀
    (fun q hq => match q with | 0 => nomatch hq)
    (fun q _ => match q with | 0 => htile)
    (fun q _ => match q with | 0 => hvec)
    m ρ main (G (F := F)) (FIN m) (u₀ (F := F)) (hu₀ m (IXm m) (WCm m)) (hmain m ρ) (fq m) (hfin m) _ (fun _ h => h)

end Cert.Kernel.Hand
end
-- ==== Proof.K.MainV.lean ====
/-
  @main on the TensorCore and the program's run, the result named: as the frame's, but the SparseCores hand the result's
  slabs back at the looked-up rows, the 32 tiles' blocks at the one contents are the array at it, and the final memory
  holds it; that contents is the result of the program's own terms.
-/
import proofs.«205614_g54924041781483_cont_9to1_m_645_25_alg».proof.Proof.K.LaunchV
import proofs.«205614_g54924041781483_cont_9to1_m_645_25_alg».proof.Proof.K.Main

noncomputable section

namespace Cert.Kernel.HandV

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (IX : (d : Dev nD) → Buf (Elt F) (v8Loc d)) (WC : (d : Dev nD) → Buf (Elt F) (v9Loc d))
variable [FloatOps F]

/-! ## What the SparseCore call is handed, and what it hands back -/

/-- A SparseCore's operands are the frame protocol's. -/
theorem st_introV (d : Dev nD) :
    iprop((v8Loc d ↦{fullShare} IX d) ∗ (v9Loc d ↦{fullShare} WC d) ∗ (v10Loc d ↦{fullShare} m (v10Loc d)))
      ⊢ (bigSep Finset.univ fun c : Fin ((K (F := F)).nCore 0) => (PV m IX WC).st 0 d c : sProp 𝕄) :=
  st_intro m IX WC d

omit [FloatOps F] in
theorem dn_pieceV (d : Dev nD) (L : grid1.Coords) (fo : Buf (Elt F) (v10Loc d)) :
    (hbmPieces IX WC d L fo : sProp 𝕄) ⊢ (v10Loc d ↦[outSet L]{fullShare} fo) := by
  iintro ⟨-, -, H⟩
  iexact H

/-- What the SparseCores hand back holds the result's array whole, at the looked-up rows: the 32 tiles' blocks of slabs
    at the one contents are the array at it. -/
theorem dn_elimV (d : Dev nD) :
    (bigSep Finset.univ fun c : Fin ((K (F := F)).nCore 0) => (PV m IX WC).dn 0 d c : sProp 𝕄) ⊢ (v10Loc d ↦{fullShare} TGT IX WC d) := by
  show (bigSep Finset.univ fun c : Fin ((K (F := F)).nCore 0) => bigSep Finset.univ fun i : Fin ((K (F := F)).nSub 0) =>
    hbmPieces IX WC d (callL c i) (TGT IX WC d)) ⊢ _
  rw [bigSep_grid (fun L => hbmPieces IX WC d L (TGT IX WC d)), out_blocks d fullShare (TGT IX WC d)]
  exact bigSep_mono fun c _ => bigSep_mono fun s _ => dn_pieceV IX WC d (coordsV c s) (TGT IX WC d)

/-! ## @main on the TensorCore, the result named -/

/-- What @main leaves: the three arguments as launched, the result's array at the looked-up rows of the combined table. -/
abbrev FINV (d : Dev nD) : sProp 𝕄 :=
  iprop(((SparseCore.T d : Thread nD τ).loc main_arg0 ↦{fullShare} m ((SparseCore.T d).loc main_arg0))
    ∗ ((SparseCore.T d : Thread nD τ).loc main_arg1 ↦{fullShare} m ((SparseCore.T d).loc main_arg1))
    ∗ ((SparseCore.T d : Thread nD τ).loc main_arg2 ↦{fullShare} m ((SparseCore.T d).loc main_arg2))
    ∗ (v10Loc d ↦{fullShare} TGT (IXm m) (WCm m) d))

variable (ρ : Dev nD → PrngReg)

theorem hmainV (κ : GSem nD τ sig → ℕ) (d : Dev nD) :
    iprop((K (F := F)).ctx EH (PV m (IXm m) (WCm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscopedBufs_held]
  iintro ⟨#Hctx, Hst, ⟨Hb, Hh, -, -⟩, ⟨Hcg, Htk⟩⟩
  iapply (wp_host_block d (StableHlo.launchContents m d) _)
  isplitl [Hb]; · iexact Hb
  isplitl [Hh]; · iexact Hh
  iintro ⟨Hb, Hh⟩
  ihave Hh' := (Entails.of_eq (held_open d (hostAfter (StableHlo.launchContents m d)))) $$ Hh
  rw [hostAfter_arg0, hostAfter_arg1, hostAfter_arg2, hostAfter_v8, hostAfter_v9, hostAfter_v10]
  icases Hh' with ⟨H0, H1, H2, H8, H9, H10, -⟩
  ihave Ho := (tcSt_open d 0) $$ Hst
  icases Ho with ⟨HO, Hclose⟩
  ihave Hlev := (SparseCore.Cfg.ctx_levAts κ) $$ Hctx
  unfold mainTail
  simp only [wp_bind]
  iapply (wp_region (F := F) (K (F := F)).lev (by sl_refines_lev) d (m ((SparseCore.T d).loc main_arg1)) (m ((SparseCore.T d).loc main_arg2))
    (m ((SparseCore.T d).loc main_v9)) ((K (F := F)).Otc d 0) (fun g => Otc_none d 0 g) (8 * 0) _)
  isplitl [Hlev]; · iexact Hlev
  isplitl [Hcg]; · iexact Hcg
  isplitl [Htk]; · iexact Htk
  isplitl [Hb]; · iexact Hb
  isplitl [H1]; · iexact H1
  isplitl [H2]; · iexact H2
  isplitl [H9]; · iexact H9
  isplitl [HO]; · iexact HO
  iintro ⟨Hb, H1, H2, H9, HO⟩
  ihave Hst := Hclose $$ HO
  iapply ((K (F := F)).wp_run (D (F := F)) 𝒱 (EH := EH) (P := PV m (IXm m) (WCm m)) κ d 0)
  isplitr; · iexact Hctx
  isplitl [Hst]; · iexact Hst
  isplitl [H8 H9 H10]
  · iapply (st_introV m (IXm m) (WCm m) d)
    isplitl [H8]; · iexact H8
    isplitl [H9]; · iexact H9
    iexact H10
  iintro ⟨Hst, Hdn⟩
  ihave Hf := (dn_elimV m (IXm m) (WCm m) d) $$ Hdn
  rw [wp_pure]
  imodintro
  isplitl [Hst]; · iexact Hst
  isplitl [H0]; · iexact H0
  isplitl [H1]; · iexact H1
  isplitl [H2]; · iexact H2
  iexact Hf

/-- The final memory holds the result at the looked-up rows and the three arguments as launched. -/
def fqV (d : Dev nD) (s' : Phys nD τ sig (Elt F)) : Prop :=
  s'.mem.mem (v10Loc d) = TGT (IXm m) (WCm m) d ∧ fq m d s'

theorem hfinV (d : Dev nD) (s' : Phys nD τ sig (Elt F)) : iprop(FINV m d ∗ SI s') ⊢ (⌜fqV m d s'⌝ : sProp 𝕄) := by
  iintro ⟨⟨H0, H1, H2, H10⟩, HSI⟩
  icombine HSI H0 gives %h0
  icombine HSI H1 gives %h1
  icombine HSI H2 gives %h2
  icombine HSI H10 gives %h10
  ipureintro
  exact ⟨Buf.eq_of_forall_mem_univ h10, Buf.eq_of_forall_mem_univ h0, Buf.eq_of_forall_mem_univ h1, Buf.eq_of_forall_mem_univ h2⟩

/-! ## The program's run, the result named -/

/-- Every weakly fair execution of the program from the launch memory, its semaphores at zero, terminates without a
    fault, and its final memory holds the result at the looked-up rows of the combined table and the three arguments as
    launched — given one tile's task proved and a SparseCore's operands split among its tiles. -/
theorem run_mainV [∀ e, Nonempty (Elt F e)]
    (htile : (K (F := F)).TileObl (D (F := F)) 𝒱 (PV m (IXm m) (WCm m)) v₀ 0)
    (hvec : (K (F := F)).VecSplit (PV m (IXm m) (WCm m)) 0) :
    θ_run (Cert.Kernel.defs (F := F)) (Cert.Kernel.threads (F := F)) ⟨m, fun _ => 0, ρ⟩
      (fun r => ∀ c : Dev nD, r.2.mem ((SparseCore.T c).loc main_v10) = TGT (IXm m) (WCm m) c
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) :=
  SparseCore.Cfg.θ_run_sc (K := K (F := F)) (D := D (F := F)) (𝒱 := 𝒱) (EH := EH) (P := PV m (IXm m) (WCm m)) facts v₀
    (fun q hq => match q with | 0 => nomatch hq)
    (fun q _ => match q with | 0 => htile)
    (fun q _ => match q with | 0 => hvec)
    m ρ main (G (F := F)) (FINV m) (u₀ (F := F)) (hu₀V m (IXm m) (WCm m)) (hmainV m ρ) (fqV m) (hfinV m) _ (fun _ h => h)

/-! ## The named result is the result of the program's terms -/

omit [FloatOps F] in
theorem TGT_eq_KOut [FloatOps F] (d : Dev nD) :
    TGT (IXm m) (WCm m) d
      = KOut (m ((SparseCore.T d).loc main_arg0)) (m ((SparseCore.T d).loc main_arg1)) (m ((SparseCore.T d).loc main_arg2)) := by
  funext i
  obtain ⟨b, s, j, rfl⟩ : ∃ (b : Fin 4096) (s : Fin 50) (j : Fin 128), i = ValueIdx.ix3 b s j := ⟨i 0, i 1, i 2, ValueIdx.eq_ix3 i⟩
  rw [TGT_apply (IXm m) (WCm m) d b s j (IXm_lt m d _)]
  unfold KOut WCm IXm
  congr 1
  funext a
  match a with
  | ⟨0, _⟩ =>
    refine Fin.ext ?_
    show (idxTerm (m ((SparseCore.T d).loc main_arg0)) (ValueIdx.ix2 b s)).toNat = (Cert.Spec.idxW (m ((SparseCore.T d).loc main_arg0)) b s).toNat
    rw [HandValue.idxTerm_apply]
  | ⟨1, _⟩ => rfl

end Cert.Kernel.HandV

end
-- ==== Proof.K.Own.lean ====
/-
  A tile's own scoped storage, spelt out: its twenty-one DMA semaphores at rest and its nine scratch buffers, each at some
  contents, beside whatever else it owns.
-/
import proofs.«205614_g54924041781483_cont_9to1_m_645_25_alg».proof.Proof.K.Geom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable (d : Dev nD) (c : Fin τ.nSC) (i : Fin τ.nSub)

/-- The tile's DMA semaphores, as its program names them. -/
def dmaCells : List (DmaSem sig) := [cc0_sem0_0, cc0_sem1_0, cc0_sem2_0, cc1_scratch10.sem, cc1_scratch11.sem, cc1_scratch12.sem, cc1_scratch13.sem, cc1_scratch14.sem, cc1_scratch15.sem, cc1_scratch16.sem, cc1_scratch17.sem, cc1_scratch18.sem, cc1_scratch19.sem, cc1_scratch20.sem, cc1_scratch21.sem, cc1_scratch22.sem, cc1_scratch23.sem, cc1_scratch24.sem, cc1_scratch25.sem, cc1_scoped0.sem, cc1_scoped1.sem]
/-- The tile's scratch buffers, as its program names them. -/
def scratchRefs : List (Ref sig .scVector) := [cc1_scratch0, cc1_scratch2, cc1_scratch3, cc1_scratch4, cc1_scratch5, cc1_scratch6, cc1_scratch7, cc1_scratch8, cc1_scratch9]

theorem dmaCells_nodup : dmaCells.Nodup := by decide
theorem scratchRefs_nodup : scratchRefs.Nodup := by decide
theorem dma_scoped : ∀ s : DmaSem sig, (SemLoc.dma s : SemLoc sig).isScoped .scVector = true := by decide

/-- The semaphores' cells. -/
abbrev cellOfDma (s : DmaSem sig) : GSem nD τ sig := (V d c i, SemLoc.dma s)

theorem cells_sub : dmaCells.toFinset.image (cellOfDma d c i) ⊆ ownCells (sig := sig) (V d c i) := by
  intro g hg
  obtain ⟨s, -, rfl⟩ := Finset.mem_image.mp hg
  exact mem_ownCells.mpr ⟨rfl, dma_scoped s⟩

/-- The tile's scoped semaphores at rest are its DMA semaphores at rest, one by one, and the rest. -/
theorem ownSems0_V :
    (ownSems0 (V d c i) : sProp 𝕄)
      = iprop((semVal (cellOfDma d c i cc0_sem0_0) 0
          ∗ semVal (cellOfDma d c i cc0_sem1_0) 0
          ∗ semVal (cellOfDma d c i cc0_sem2_0) 0
          ∗ semVal (cellOfDma d c i (cc1_scratch10.sem)) 0
          ∗ semVal (cellOfDma d c i (cc1_scratch11.sem)) 0
          ∗ semVal (cellOfDma d c i (cc1_scratch12.sem)) 0
          ∗ semVal (cellOfDma d c i (cc1_scratch13.sem)) 0
          ∗ semVal (cellOfDma d c i (cc1_scratch14.sem)) 0
          ∗ semVal (cellOfDma d c i (cc1_scratch15.sem)) 0
          ∗ semVal (cellOfDma d c i (cc1_scratch16.sem)) 0
          ∗ semVal (cellOfDma d c i (cc1_scratch17.sem)) 0
          ∗ semVal (cellOfDma d c i (cc1_scratch18.sem)) 0
          ∗ semVal (cellOfDma d c i (cc1_scratch19.sem)) 0
          ∗ semVal (cellOfDma d c i (cc1_scratch20.sem)) 0
          ∗ semVal (cellOfDma d c i (cc1_scratch21.sem)) 0
          ∗ semVal (cellOfDma d c i (cc1_scratch22.sem)) 0
          ∗ semVal (cellOfDma d c i (cc1_scratch23.sem)) 0
          ∗ semVal (cellOfDma d c i (cc1_scratch24.sem)) 0
          ∗ semVal (cellOfDma d c i (cc1_scratch25.sem)) 0
          ∗ semVal (cellOfDma d c i (cc1_scoped0.sem)) 0
          ∗ semVal (cellOfDma d c i (cc1_scoped1.sem)) 0)
          ∗ bigSep (ownCells (sig := sig) (V d c i) \ dmaCells.toFinset.image (cellOfDma d c i)) fun g => semVal g 0) := by
  unfold SparseCore.Cfg.ownSems0
  rw [SparseCore.bigSep_sdiff_split' (cells_sub d c i),
    SparseCore.bigSep_image_of_injOn (fun a _ b _ e => by cases e; rfl),
    bigSep_eq_bigSepL dmaCells dmaCells_nodup]
  rfl

theorem refs_sub : scratchRefs.toFinset.image (fun r => (Proc.scVector c i).devRef r) ⊆ ownRefs (τ := τ) (sig := sig) (.scVector c i) := by
  intro b hb
  obtain ⟨r, hr, rfl⟩ := Finset.mem_image.mp hb
  simp only [scratchRefs, List.toFinset_cons, List.toFinset_nil, Finset.mem_insert, Finset.mem_singleton, insert_empty_eq] at hr
  rcases hr with rfl | rfl | rfl | rfl | rfl | rfl | rfl | rfl | rfl <;> exact SparseCore.Cfg.mem_ownRefs_of_owner rfl

/-- The tile's own buffers are its nine scratch buffers, each at some contents, and the rest. -/
theorem ownBufs_V :
    (ownBufs (V d c i) : sProp 𝕄)
      = iprop(((∃ f, (Memref.whole cc1_scratch0 : Memref sig .scVector .vmem S128x50 .i32).view.loc (V d c i) ↦{fullShare} f)
          ∗ (∃ f, (Memref.whole cc1_scratch2 : Memref sig .scVector .vmem S50x128 .f32).view.loc (V d c i) ↦{fullShare} f)
          ∗ (∃ f, (Memref.whole cc1_scratch3 : Memref sig .scVector .vmem S50x128 .f32).view.loc (V d c i) ↦{fullShare} f)
          ∗ (∃ f, (Memref.whole cc1_scratch4 : Memref sig .scVector .vmem S50x128 .f32).view.loc (V d c i) ↦{fullShare} f)
          ∗ (∃ f, (Memref.whole cc1_scratch5 : Memref sig .scVector .vmem S50x128 .f32).view.loc (V d c i) ↦{fullShare} f)
          ∗ (∃ f, (Memref.whole cc1_scratch6 : Memref sig .scVector .vmem S50x128 .f32).view.loc (V d c i) ↦{fullShare} f)
          ∗ (∃ f, (Memref.whole cc1_scratch7 : Memref sig .scVector .vmem S50x128 .f32).view.loc (V d c i) ↦{fullShare} f)
          ∗ (∃ f, (Memref.whole cc1_scratch8 : Memref sig .scVector .vmem S50x128 .f32).view.loc (V d c i) ↦{fullShare} f)
          ∗ (∃ f, (Memref.whole cc1_scratch9 : Memref sig .scVector .vmem S50x128 .f32).view.loc (V d c i) ↦{fullShare} f))
          ∗ bigSep (ownRefs (τ := τ) (sig := sig) (.scVector c i) \ scratchRefs.toFinset.image (fun r => (Proc.scVector c i).devRef r))
              fun b => iprop(∃ f, ((d, b) : Loc nD τ sig) ↦{fullShare} f)) := by
  unfold SparseCore.Cfg.ownBufs
  rw [SparseCore.bigSep_sdiff_split' (refs_sub c i),
    SparseCore.bigSep_image_of_injOn (fun a _ b _ e => Proc.devRef_injective _ e),
    bigSep_eq_bigSepL scratchRefs scratchRefs_nodup]
  rfl

end Cert.Kernel.Hand

end
-- ==== Proof.K.Trip.lean ====
/-
  One trip of a tile's loop, and the loop's invariant. A trip handles eight positions: for each, it waits for the slot's
  previous copy-out (from the second trip on), gathers the position's fifty rows of the shared table into the slot, waits for
  them, and starts copying the slot out to the position's slab of the result. The invariant holds the tile's slabs one by
  one: those of later trips at their old contents, those of the previous trip inside the copies in flight, the earlier
  ones written.
-/
import proofs.«205614_g54924041781483_cont_9to1_m_645_25_alg».proof.Proof.K.Geom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable [FloatOps F] (d : Dev nD) (L : grid1.Coords)

abbrev Kt : Type := Fin k1_t1_loop.trips
theorem trips_eq : k1_t1_loop.trips = 16 := by decide

theorem c1z : ∀ k : Fin k1_t1_loop.trips, k.val = 0 → ¬ k1_cond1 k = 1#1 := by decide +kernel
theorem c1p : ∀ k : Fin k1_t1_loop.trips, 0 < k.val → k1_cond1 k = 1#1 := by decide +kernel
theorem c2z : ∀ k : Fin k1_t1_loop.trips, k.val = 0 → ¬ k1_cond2 k = 1#1 := by decide +kernel
theorem c2p : ∀ k : Fin k1_t1_loop.trips, 0 < k.val → k1_cond2 k = 1#1 := by decide +kernel
theorem c3z : ∀ k : Fin k1_t1_loop.trips, k.val = 0 → ¬ k1_cond3 k = 1#1 := by decide +kernel
theorem c3p : ∀ k : Fin k1_t1_loop.trips, 0 < k.val → k1_cond3 k = 1#1 := by decide +kernel
theorem c4z : ∀ k : Fin k1_t1_loop.trips, k.val = 0 → ¬ k1_cond4 k = 1#1 := by decide +kernel
theorem c4p : ∀ k : Fin k1_t1_loop.trips, 0 < k.val → k1_cond4 k = 1#1 := by decide +kernel
theorem c5z : ∀ k : Fin k1_t1_loop.trips, k.val = 0 → ¬ k1_cond5 k = 1#1 := by decide +kernel
theorem c5p : ∀ k : Fin k1_t1_loop.trips, 0 < k.val → k1_cond5 k = 1#1 := by decide +kernel
theorem c6z : ∀ k : Fin k1_t1_loop.trips, k.val = 0 → ¬ k1_cond6 k = 1#1 := by decide +kernel
theorem c6p : ∀ k : Fin k1_t1_loop.trips, 0 < k.val → k1_cond6 k = 1#1 := by decide +kernel
theorem c7z : ∀ k : Fin k1_t1_loop.trips, k.val = 0 → ¬ k1_cond7 k = 1#1 := by decide +kernel
theorem c7p : ∀ k : Fin k1_t1_loop.trips, 0 < k.val → k1_cond7 k = 1#1 := by decide +kernel
theorem c8z : ∀ k : Fin k1_t1_loop.trips, k.val = 0 → ¬ k1_cond8 k = 1#1 := by decide +kernel
theorem c8p : ∀ k : Fin k1_t1_loop.trips, 0 < k.val → k1_cond8 k = 1#1 := by decide +kernel

/-! ## The slabs of one trip -/

/-- The eight slabs trip `k` writes, each at contents of its own. -/
abbrev rowPts (k : Kt) (f0 f1 f2 f3 f4 f5 f6 f7 : Buf (Elt F) (v10Loc d)) : sProp 𝕄 :=
  iprop(((outWin L k 0#32 (k1_off12_inb L k 0)).view.loc (V d (cV L) (jV L)) ↦[(outWin L k 0#32 (k1_off12_inb L k 0)).view.set]{fullShare} f0)
    ∗ ((outWin L k 1#32 (k1_off12_inb L k 1)).view.loc (V d (cV L) (jV L)) ↦[(outWin L k 1#32 (k1_off12_inb L k 1)).view.set]{fullShare} f1)
    ∗ ((outWin L k 2#32 (k1_off12_inb L k 2)).view.loc (V d (cV L) (jV L)) ↦[(outWin L k 2#32 (k1_off12_inb L k 2)).view.set]{fullShare} f2)
    ∗ ((outWin L k 3#32 (k1_off12_inb L k 3)).view.loc (V d (cV L) (jV L)) ↦[(outWin L k 3#32 (k1_off12_inb L k 3)).view.set]{fullShare} f3)
    ∗ ((outWin L k 4#32 (k1_off12_inb L k 4)).view.loc (V d (cV L) (jV L)) ↦[(outWin L k 4#32 (k1_off12_inb L k 4)).view.set]{fullShare} f4)
    ∗ ((outWin L k 5#32 (k1_off12_inb L k 5)).view.loc (V d (cV L) (jV L)) ↦[(outWin L k 5#32 (k1_off12_inb L k 5)).view.set]{fullShare} f5)
    ∗ ((outWin L k 6#32 (k1_off12_inb L k 6)).view.loc (V d (cV L) (jV L)) ↦[(outWin L k 6#32 (k1_off12_inb L k 6)).view.set]{fullShare} f6)
    ∗ ((outWin L k 7#32 (k1_off12_inb L k 7)).view.loc (V d (cV L) (jV L)) ↦[(outWin L k 7#32 (k1_off12_inb L k 7)).view.set]{fullShare} f7))

/-- The same slabs as a finished copy-out hands them back: at the whole array's place. -/
abbrev rowDone (k : Kt) (f0 f1 f2 f3 f4 f5 f6 f7 : Buf (Elt F) (v10Loc d)) : sProp 𝕄 :=
  iprop(((outV).view.loc (V d (cV L) (jV L)) ↦[(outWin L k 0#32 (k1_off12_inb L k 0)).view.set]{fullShare} f0)
    ∗ ((outV).view.loc (V d (cV L) (jV L)) ↦[(outWin L k 1#32 (k1_off12_inb L k 1)).view.set]{fullShare} f1)
    ∗ ((outV).view.loc (V d (cV L) (jV L)) ↦[(outWin L k 2#32 (k1_off12_inb L k 2)).view.set]{fullShare} f2)
    ∗ ((outV).view.loc (V d (cV L) (jV L)) ↦[(outWin L k 3#32 (k1_off12_inb L k 3)).view.set]{fullShare} f3)
    ∗ ((outV).view.loc (V d (cV L) (jV L)) ↦[(outWin L k 4#32 (k1_off12_inb L k 4)).view.set]{fullShare} f4)
    ∗ ((outV).view.loc (V d (cV L) (jV L)) ↦[(outWin L k 5#32 (k1_off12_inb L k 5)).view.set]{fullShare} f5)
    ∗ ((outV).view.loc (V d (cV L) (jV L)) ↦[(outWin L k 6#32 (k1_off12_inb L k 6)).view.set]{fullShare} f6)
    ∗ ((outV).view.loc (V d (cV L) (jV L)) ↦[(outWin L k 7#32 (k1_off12_inb L k 7)).view.set]{fullShare} f7))

/-- The slabs of the trips from `n` on, at the contents `m0` the tile was handed them with. -/
def todo (n : ℕ) (m0 : Buf (Elt F) (v10Loc d)) : sProp 𝕄 :=
  bigSep (Finset.univ.filter fun k : Kt => n ≤ k.val) fun k => rowPts d L k m0 m0 m0 m0 m0 m0 m0 m0
/-- The slabs of the trips before `n - 1`: written. -/
def done (n : ℕ) : sProp 𝕄 :=
  bigSep (Finset.univ.filter fun k : Kt => k.val + 1 < n) fun k => iprop(∃ f0 f1 f2 f3 f4 f5 f6 f7, rowDone d L k f0 f1 f2 f3 f4 f5 f6 f7)

omit [FloatOps F] in
theorem todo_step (n : ℕ) (k : Kt) (hk : k.val = n) (m0 : Buf (Elt F) (v10Loc d)) :
    todo (F := F) d L n m0 = iprop(rowPts d L k m0 m0 m0 m0 m0 m0 m0 m0 ∗ todo d L (n + 1) m0) := by
  unfold todo
  rw [show (Finset.univ.filter fun k' : Kt => n ≤ k'.val) = insert k (Finset.univ.filter fun k' : Kt => n + 1 ≤ k'.val) from by
    ext k'; simp only [Finset.mem_filter, Finset.mem_univ, true_and, Finset.mem_insert]
    constructor
    · intro h; by_cases e : k' = k
      · exact Or.inl e
      · exact Or.inr (by have : k'.val ≠ k.val := fun h' => e (Fin.ext h'); omega)
    · rintro (rfl | h) <;> omega]
  exact SparseCore.bigSep_insert' (by simp; omega)

omit [FloatOps F] in
theorem todo_end (n : ℕ) (hn : k1_t1_loop.trips ≤ n) (m0 : Buf (Elt F) (v10Loc d)) : todo (F := F) d L n m0 = iprop(emp) := by
  unfold todo
  rw [show (Finset.univ.filter fun k' : Kt => n ≤ k'.val) = ∅ from Finset.filter_eq_empty_iff.mpr fun k' _ => by have := k'.isLt; omega]
  exact bigSep_empty

omit [FloatOps F] in
theorem done_start (n : ℕ) (hn : n ≤ 1) : done (F := F) d L n = iprop(emp) := by
  unfold done
  rw [show (Finset.univ.filter fun k' : Kt => k'.val + 1 < n) = ∅ from Finset.filter_eq_empty_iff.mpr fun k' _ => by omega]
  exact bigSep_empty

omit [FloatOps F] in
theorem done_step (n : ℕ) (kp : Kt) (hkp : kp.val + 1 = n) :
    done (F := F) d L (n + 1) = iprop((∃ f0 f1 f2 f3 f4 f5 f6 f7, rowDone d L kp f0 f1 f2 f3 f4 f5 f6 f7) ∗ done d L n) := by
  unfold done
  rw [show (Finset.univ.filter fun k' : Kt => k'.val + 1 < n + 1) = insert kp (Finset.univ.filter fun k' : Kt => k'.val + 1 < n) from by
    ext k'; simp only [Finset.mem_filter, Finset.mem_univ, true_and, Finset.mem_insert]
    constructor
    · intro h; by_cases e : k' = kp
      · exact Or.inl e
      · exact Or.inr (by have : k'.val ≠ kp.val := fun h' => e (Fin.ext h'); omega)
    · rintro (rfl | h) <;> omega]
  exact SparseCore.bigSep_insert' (by simp; omega)

/-! ## What a trip finds and leaves -/

variable (O : CellTallies nD τ sig (HIx 1)) (W : Waits sig (HIx 1))
variable (Wsh : Buf (Elt F) ((V d (cV L) (jV L)).loc cc1_scratch1)) (fiv : Buf (Elt F) ((V d (cV L) (jV L)).loc cc1_scratch0))
variable (qs0 qs1 qs2 qs3 qs4 qs5 qs6 qs7 : PosShare TreeShare) (m0 : Buf (Elt F) (v10Loc d))

/-- What every trip holds unchanged: the right to wait, the tile's index rows, its eight read shares of the shared table,
    the gather semaphores at rest. -/
abbrev common : sProp 𝕄 :=
  iprop(Transfers.MayWaits (V d (cV L) (jV L)) (default : HIx 1) O
    ∗ ((ivV).view.loc (V d (cV L) (jV L)) ↦{fullShare} fiv)
    ∗ ((shV).view.loc (V d (cV L) (jV L)) ↦{qs0} Wsh)
    ∗ ((shV).view.loc (V d (cV L) (jV L)) ↦{qs1} Wsh)
    ∗ ((shV).view.loc (V d (cV L) (jV L)) ↦{qs2} Wsh)
    ∗ ((shV).view.loc (V d (cV L) (jV L)) ↦{qs3} Wsh)
    ∗ ((shV).view.loc (V d (cV L) (jV L)) ↦{qs4} Wsh)
    ∗ ((shV).view.loc (V d (cV L) (jV L)) ↦{qs5} Wsh)
    ∗ ((shV).view.loc (V d (cV L) (jV L)) ↦{qs6} Wsh)
    ∗ ((shV).view.loc (V d (cV L) (jV L)) ↦{qs7} Wsh)
    ∗ semVal ((V d (cV L) (jV L), .dma cc1_scratch10.sem) : GSem nD τ sig) 0
    ∗ semVal ((V d (cV L) (jV L), .dma cc1_scratch11.sem) : GSem nD τ sig) 0
    ∗ semVal ((V d (cV L) (jV L), .dma cc1_scratch12.sem) : GSem nD τ sig) 0
    ∗ semVal ((V d (cV L) (jV L), .dma cc1_scratch13.sem) : GSem nD τ sig) 0
    ∗ semVal ((V d (cV L) (jV L), .dma cc1_scratch14.sem) : GSem nD τ sig) 0
    ∗ semVal ((V d (cV L) (jV L), .dma cc1_scratch15.sem) : GSem nD τ sig) 0
    ∗ semVal ((V d (cV L) (jV L), .dma cc1_scratch16.sem) : GSem nD τ sig) 0
    ∗ semVal ((V d (cV L) (jV L), .dma cc1_scratch17.sem) : GSem nD τ sig) 0)

/-- The tile's debt, with the waits recorded so far all its own. -/
abbrev owesK : sProp 𝕄 := iprop(∃ W', ⌜∀ p ∈ W', p ∈ W ∨ p.2 = none ∨ p.2 = some (0 : Fin 1)⌝ ∗ owes (V d (cV L) (jV L)) O W')

/-- Before the first trip: the slots whole, the copy-out semaphores at rest, every slab still to do. -/
def inv0 : sProp 𝕄 :=
  iprop(owesK d L O W ∗ common d L O Wsh fiv qs0 qs1 qs2 qs3 qs4 qs5 qs6 qs7
    ∗ (∃ fb, (Memref.whole cc1_scratch2 : Memref sig .scVector .vmem S50x128 .f32).view.loc (V d (cV L) (jV L)) ↦{fullShare} fb)
    ∗ (∃ fb, (Memref.whole cc1_scratch3 : Memref sig .scVector .vmem S50x128 .f32).view.loc (V d (cV L) (jV L)) ↦{fullShare} fb)
    ∗ (∃ fb, (Memref.whole cc1_scratch4 : Memref sig .scVector .vmem S50x128 .f32).view.loc (V d (cV L) (jV L)) ↦{fullShare} fb)
    ∗ (∃ fb, (Memref.whole cc1_scratch5 : Memref sig .scVector .vmem S50x128 .f32).view.loc (V d (cV L) (jV L)) ↦{fullShare} fb)
    ∗ (∃ fb, (Memref.whole cc1_scratch6 : Memref sig .scVector .vmem S50x128 .f32).view.loc (V d (cV L) (jV L)) ↦{fullShare} fb)
    ∗ (∃ fb, (Memref.whole cc1_scratch7 : Memref sig .scVector .vmem S50x128 .f32).view.loc (V d (cV L) (jV L)) ↦{fullShare} fb)
    ∗ (∃ fb, (Memref.whole cc1_scratch8 : Memref sig .scVector .vmem S50x128 .f32).view.loc (V d (cV L) (jV L)) ↦{fullShare} fb)
    ∗ (∃ fb, (Memref.whole cc1_scratch9 : Memref sig .scVector .vmem S50x128 .f32).view.loc (V d (cV L) (jV L)) ↦{fullShare} fb)
    ∗ semVal ((V d (cV L) (jV L), .dma cc1_scratch18.sem) : GSem nD τ sig) 0
    ∗ semVal ((V d (cV L) (jV L), .dma cc1_scratch19.sem) : GSem nD τ sig) 0
    ∗ semVal ((V d (cV L) (jV L), .dma cc1_scratch20.sem) : GSem nD τ sig) 0
    ∗ semVal ((V d (cV L) (jV L), .dma cc1_scratch21.sem) : GSem nD τ sig) 0
    ∗ semVal ((V d (cV L) (jV L), .dma cc1_scratch22.sem) : GSem nD τ sig) 0
    ∗ semVal ((V d (cV L) (jV L), .dma cc1_scratch23.sem) : GSem nD τ sig) 0
    ∗ semVal ((V d (cV L) (jV L), .dma cc1_scratch24.sem) : GSem nD τ sig) 0
    ∗ semVal ((V d (cV L) (jV L), .dma cc1_scratch25.sem) : GSem nD τ sig) 0
    ∗ todo d L 0 m0)

/-- The copies-out of trip `kp` in flight: each holds its slab and its slot. -/
abbrev flights (kp : Kt) (fd0 fd1 fd2 fd3 fd4 fd5 fd6 fd7 : Buf (Elt F) (v10Loc d)) (fb0 fb1 fb2 fb3 fb4 fb5 fb6 fb7 : Buf (Elt F) ((V d (cV L) (jV L)).loc cc1_scratch2)) : sProp 𝕄 :=
  iprop(Transfers.Flight countersEmb (V d (cV L) (jV L)) (SemLoc.dma cc1_scratch18.sem) (default : HIx 1) 204800
        iprop(((outV).view.loc (V d (cV L) (jV L)) ↦[(outWin L kp 0#32 (k1_off12_inb L kp 0)).view.set]{fullShare} fd0)
          ∗ ((Memref.whole cc1_scratch2 : Memref sig .scVector .vmem S50x128 .f32).view.loc (V d (cV L) (jV L)) ↦[(Memref.whole cc1_scratch2 : Memref sig .scVector .vmem S50x128 .f32).view.set]{fullShare} fb0))
    ∗ ((Memref.whole cc1_scratch2 : Memref sig .scVector .vmem S50x128 .f32).view.loc (V d (cV L) (jV L)) ↦[Finset.univ \ (Memref.whole cc1_scratch2 : Memref sig .scVector .vmem S50x128 .f32).view.set]{fullShare} fb0)
    ∗ Transfers.Flight countersEmb (V d (cV L) (jV L)) (SemLoc.dma cc1_scratch19.sem) (default : HIx 1) 204800
        iprop(((outV).view.loc (V d (cV L) (jV L)) ↦[(outWin L kp 1#32 (k1_off12_inb L kp 1)).view.set]{fullShare} fd1)
          ∗ ((Memref.whole cc1_scratch3 : Memref sig .scVector .vmem S50x128 .f32).view.loc (V d (cV L) (jV L)) ↦[(Memref.whole cc1_scratch3 : Memref sig .scVector .vmem S50x128 .f32).view.set]{fullShare} fb1))
    ∗ ((Memref.whole cc1_scratch3 : Memref sig .scVector .vmem S50x128 .f32).view.loc (V d (cV L) (jV L)) ↦[Finset.univ \ (Memref.whole cc1_scratch3 : Memref sig .scVector .vmem S50x128 .f32).view.set]{fullShare} fb1)
    ∗ Transfers.Flight countersEmb (V d (cV L) (jV L)) (SemLoc.dma cc1_scratch20.sem) (default : HIx 1) 204800
        iprop(((outV).view.loc (V d (cV L) (jV L)) ↦[(outWin L kp 2#32 (k1_off12_inb L kp 2)).view.set]{fullShare} fd2)
          ∗ ((Memref.whole cc1_scratch4 : Memref sig .scVector .vmem S50x128 .f32).view.loc (V d (cV L) (jV L)) ↦[(Memref.whole cc1_scratch4 : Memref sig .scVector .vmem S50x128 .f32).view.set]{fullShare} fb2))
    ∗ ((Memref.whole cc1_scratch4 : Memref sig .scVector .vmem S50x128 .f32).view.loc (V d (cV L) (jV L)) ↦[Finset.univ \ (Memref.whole cc1_scratch4 : Memref sig .scVector .vmem S50x128 .f32).view.set]{fullShare} fb2)
    ∗ Transfers.Flight countersEmb (V d (cV L) (jV L)) (SemLoc.dma cc1_scratch21.sem) (default : HIx 1) 204800
        iprop(((outV).view.loc (V d (cV L) (jV L)) ↦[(outWin L kp 3#32 (k1_off12_inb L kp 3)).view.set]{fullShare} fd3)
          ∗ ((Memref.whole cc1_scratch5 : Memref sig .scVector .vmem S50x128 .f32).view.loc (V d (cV L) (jV L)) ↦[(Memref.whole cc1_scratch5 : Memref sig .scVector .vmem S50x128 .f32).view.set]{fullShare} fb3))
    ∗ ((Memref.whole cc1_scratch5 : Memref sig .scVector .vmem S50x128 .f32).view.loc (V d (cV L) (jV L)) ↦[Finset.univ \ (Memref.whole cc1_scratch5 : Memref sig .scVector .vmem S50x128 .f32).view.set]{fullShare} fb3)
    ∗ Transfers.Flight countersEmb (V d (cV L) (jV L)) (SemLoc.dma cc1_scratch22.sem) (default : HIx 1) 204800
        iprop(((outV).view.loc (V d (cV L) (jV L)) ↦[(outWin L kp 4#32 (k1_off12_inb L kp 4)).view.set]{fullShare} fd4)
          ∗ ((Memref.whole cc1_scratch6 : Memref sig .scVector .vmem S50x128 .f32).view.loc (V d (cV L) (jV L)) ↦[(Memref.whole cc1_scratch6 : Memref sig .scVector .vmem S50x128 .f32).view.set]{fullShare} fb4))
    ∗ ((Memref.whole cc1_scratch6 : Memref sig .scVector .vmem S50x128 .f32).view.loc (V d (cV L) (jV L)) ↦[Finset.univ \ (Memref.whole cc1_scratch6 : Memref sig .scVector .vmem S50x128 .f32).view.set]{fullShare} fb4)
    ∗ Transfers.Flight countersEmb (V d (cV L) (jV L)) (SemLoc.dma cc1_scratch23.sem) (default : HIx 1) 204800
        iprop(((outV).view.loc (V d (cV L) (jV L)) ↦[(outWin L kp 5#32 (k1_off12_inb L kp 5)).view.set]{fullShare} fd5)
          ∗ ((Memref.whole cc1_scratch7 : Memref sig .scVector .vmem S50x128 .f32).view.loc (V d (cV L) (jV L)) ↦[(Memref.whole cc1_scratch7 : Memref sig .scVector .vmem S50x128 .f32).view.set]{fullShare} fb5))
    ∗ ((Memref.whole cc1_scratch7 : Memref sig .scVector .vmem S50x128 .f32).view.loc (V d (cV L) (jV L)) ↦[Finset.univ \ (Memref.whole cc1_scratch7 : Memref sig .scVector .vmem S50x128 .f32).view.set]{fullShare} fb5)
    ∗ Transfers.Flight countersEmb (V d (cV L) (jV L)) (SemLoc.dma cc1_scratch24.sem) (default : HIx 1) 204800
        iprop(((outV).view.loc (V d (cV L) (jV L)) ↦[(outWin L kp 6#32 (k1_off12_inb L kp 6)).view.set]{fullShare} fd6)
          ∗ ((Memref.whole cc1_scratch8 : Memref sig .scVector .vmem S50x128 .f32).view.loc (V d (cV L) (jV L)) ↦[(Memref.whole cc1_scratch8 : Memref sig .scVector .vmem S50x128 .f32).view.set]{fullShare} fb6))
    ∗ ((Memref.whole cc1_scratch8 : Memref sig .scVector .vmem S50x128 .f32).view.loc (V d (cV L) (jV L)) ↦[Finset.univ \ (Memref.whole cc1_scratch8 : Memref sig .scVector .vmem S50x128 .f32).view.set]{fullShare} fb6)
    ∗ Transfers.Flight countersEmb (V d (cV L) (jV L)) (SemLoc.dma cc1_scratch25.sem) (default : HIx 1) 204800
        iprop(((outV).view.loc (V d (cV L) (jV L)) ↦[(outWin L kp 7#32 (k1_off12_inb L kp 7)).view.set]{fullShare} fd7)
          ∗ ((Memref.whole cc1_scratch9 : Memref sig .scVector .vmem S50x128 .f32).view.loc (V d (cV L) (jV L)) ↦[(Memref.whole cc1_scratch9 : Memref sig .scVector .vmem S50x128 .f32).view.set]{fullShare} fb7))
    ∗ ((Memref.whole cc1_scratch9 : Memref sig .scVector .vmem S50x128 .f32).view.loc (V d (cV L) (jV L)) ↦[Finset.univ \ (Memref.whole cc1_scratch9 : Memref sig .scVector .vmem S50x128 .f32).view.set]{fullShare} fb7))

/-- Before trip `n ≥ 1`: the previous trip's copies-out in flight, the later slabs to do, the earlier ones written. -/
def invPos (n : ℕ) : sProp 𝕄 :=
  if h : n - 1 < k1_t1_loop.trips then
    iprop(owesK d L O W ∗ common d L O Wsh fiv qs0 qs1 qs2 qs3 qs4 qs5 qs6 qs7
      ∗ (∃ fd0 fd1 fd2 fd3 fd4 fd5 fd6 fd7 fb0 fb1 fb2 fb3 fb4 fb5 fb6 fb7, flights d L ⟨n - 1, h⟩ fd0 fd1 fd2 fd3 fd4 fd5 fd6 fd7 fb0 fb1 fb2 fb3 fb4 fb5 fb6 fb7)
      ∗ todo d L n m0 ∗ done d L n)
  else iprop(False)

omit [FloatOps F] in
/-- Before trip `k + 1`, spelt at trip `k`'s own index. -/
theorem invPos_succ (k : Kt) :
    invPos (F := F) d L O W Wsh fiv qs0 qs1 qs2 qs3 qs4 qs5 qs6 qs7 m0 (k.val + 1)
      = iprop(owesK d L O W ∗ common d L O Wsh fiv qs0 qs1 qs2 qs3 qs4 qs5 qs6 qs7
          ∗ (∃ fd0 fd1 fd2 fd3 fd4 fd5 fd6 fd7 fb0 fb1 fb2 fb3 fb4 fb5 fb6 fb7, flights d L k fd0 fd1 fd2 fd3 fd4 fd5 fd6 fd7 fb0 fb1 fb2 fb3 fb4 fb5 fb6 fb7)
          ∗ todo d L (k.val + 1) m0 ∗ done d L (k.val + 1)) := by
  unfold invPos
  rw [dif_pos (show k.val + 1 - 1 < k1_t1_loop.trips from by have := k.isLt; omega)]
  have e : (⟨k.val + 1 - 1, (show k.val + 1 - 1 < k1_t1_loop.trips from by have := k.isLt; omega)⟩ : Kt) = k :=
    Fin.ext (show k.val + 1 - 1 = k.val by omega)
  simp only [e]

omit [FloatOps F] in
/-- A wait recorded at no call's index keeps the record the tile's own. -/
theorem bound_insert {W W' : Waits sig (HIx 1)} {x : SemLoc sig × HIx 1} (hx : x.2 = none ∨ x.2 = some (0 : Fin 1))
    (h : ∀ p ∈ W', p ∈ W ∨ p.2 = none ∨ p.2 = some (0 : Fin 1)) :
    ∀ p ∈ insert x W', p ∈ W ∨ p.2 = none ∨ p.2 = some (0 : Fin 1) := by
  intro p hp
  rcases Finset.mem_insert.mp hp with rfl | hp
  · exact .inr hx
  · exact h p hp

/-- The loop's invariant. -/
def inv (n : ℕ) (_ : Unit) : sProp 𝕄 := if n = 0 then inv0 d L O W Wsh fiv qs0 qs1 qs2 qs3 qs4 qs5 qs6 qs7 m0 else invPos d L O W Wsh fiv qs0 qs1 qs2 qs3 qs4 qs5 qs6 qs7 m0 n

end Cert.Kernel.Hand

end
-- ==== Proof.K.Values.lean ====
/-
  What a tile's copies and its gathers leave, as values. The tile's copy of its rows of the index array leaves its index
  scratch holding those rows; its copy of its block of the combined table leaves that block of the shared scratch
  holding the table's block (the two blocks are one rectangle of two arrays of one shape). A gather through a row of
  the index scratch reads, at position `(p, j)`, the shared scratch at row `index[p]`, column `j`. A slab written whole
  holds the payload on the slab and what it held off it.
-/
import proofs.«205614_g54924041781483_cont_9to1_m_645_25_alg».proof.Proof.K.Geom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

/-! ## The tile's two copies -/

/-- The tile's rows of the index array, as contents of its index scratch. -/
def ivContents (IX : (d : Dev nD) → Buf (Elt F) (v8Loc d)) (d : Dev nD) (L : grid1.Coords) : Buf (Elt F) ((V d (cV L) (jV L)).loc cc1_scratch0) :=
  fun j => IX d ((idxBlk L).view.emb j)

/-- The index scratch written whole with what its block of the index array reads holds that block. -/
theorem idxv_written (IX : (d : Dev nD) → Buf (Elt F) (v8Loc d)) (d : Dev nD) (L : grid1.Coords)
    (fiv0 : Buf (Elt F) ((V d (cV L) (jV L)).loc cc1_scratch0)) (pay : S128x50.Idx → Elt F .i32)
    (hpay : pay = (idxBlk L).view.read (Elt F) (IX d)) :
    View.write (Elt F) (ivV).view fiv0 pay Finset.univ = ivContents IX d L := by
  subst hpay
  rw [View.write_whole_univ]
  funext j
  exact (View.read_apply _ _).trans (cast_eq _ _)

/-- The tile's block of the shared scratch written whole with what the same block of the combined table reads holds the
    combined table there. -/
theorem shBlk_written (WC : (d : Dev nD) → Buf (Elt F) (v9Loc d)) (d : Dev nD) (L : grid1.Coords)
    (fsh : Buf (Elt F) (shLoc d (cV L))) (pay : S256x128.Idx → Elt F .f32)
    (hpay : pay = (combBlk L).view.read (Elt F) (WC d)) :
    ∀ i ∈ (shBlk L).view.set, (shBlk L).view.writes (Elt F) fsh [⟨Rect.whole S256x128, pay⟩] i = (WC d : Buf (Elt F) (shLoc d (cV L))) i := by
  subst hpay
  intro i hi
  obtain ⟨x, -, rfl⟩ := Finset.mem_map.1 hi
  have h := View.read_writes_cons_emb (shBlk L).view fsh (Rect.whole S256x128) ((combBlk L).view.read (Elt F) (WC d)) [] x
  rw [Rect.emb_whole_apply, View.read_apply, cast_eq] at h
  rw [h]
  exact (View.read_apply _ _).trans (cast_eq _ _)

/-! ## A slab written whole -/

/-- On the slab a write of the whole slab leaves the payload; -/
theorem slab_written (L : grid1.Coords) (k : Fin k1_t1_loop.trips) (r : BitVec 32)
    (h : ∀ a, (k1_off12 L k r) a + S1x50x128.size a ≤ S4096x50x128.size a)
    (fo : (outWin L k r h).view.ty.Contents (Elt F)) (w : S50x128.Idx → Elt F .f32) (y : S50x128.Idx) :
    View.write (Elt F) (outWin L k r h).view fo w Finset.univ ((outWin L k r h).view.emb y) = w y :=
  (View.write_emb_of_mem fo w (Finset.mem_univ y)).trans (cast_eq _ _)

/-- off it, what was there. -/
theorem slab_written_off (L : grid1.Coords) (k : Fin k1_t1_loop.trips) (r : BitVec 32)
    (h : ∀ a, (k1_off12 L k r) a + S1x50x128.size a ≤ S4096x50x128.size a)
    (fo : (outWin L k r h).view.ty.Contents (Elt F)) (w : S50x128.Idx → Elt F .f32) (i : (outWin L k r h).view.ty.Idx)
    (hi : i ∉ (outWin L k r h).view.set) :
    View.write (Elt F) (outWin L k r h).view fo w Finset.univ i = fo i :=
  View.write_of_not_mem fo w Finset.univ hi

/-! ## A gather through a row of the index scratch -/

open Idealize.ShloMosaic.ValueIdx (ix1 ix2)

/-- Row `k` of the rows an offset list of 50 words names is the word at position `k`. -/
theorem rows_apply {z : ℕ} (idx : S50.Idx → Elt F .i32) (hn : S50.numel = 50) (hz : ∀ x, (idx x).toNat < z) (p : Fin 50) :
    (SparseCore.rows idx hn hz p).val = (idx (ix1 p)).toNat := by
  unfold SparseCore.rows
  show (idx (S50.rowMajor.symm (p.cast hn.symm))).toNat = _
  congr 2
  rw [Equiv.symm_apply_eq]
  exact Fin.ext (Shape.rowMajor_val_one (ix1 p)).symm

/-- Position `p` of a row of the index scratch, addressed as the tile's program slices and squeezes it, is entry
    `(row, p)` of the scratch. -/
theorem rowView_emb (k : Fin k1_t1_loop.trips) (c : BitVec 32) (h : ∀ a, (k1_off4 k c) a + S1x50.size a ≤ S128x50.size a) (p : Fin 50) :
    (((ivV).slice (Rect.unit (s := S128x50) (k1_off4 k c) S1x50.size h) (fun _ => rfl)).squeeze S50 squeezes_S1x50_S50).view.emb (ix1 p)
      = ix2 (⟨k1_off4 k c 0, by have := h 0; show _ < 128; simp at this; omega⟩ : Fin 128) p := by
  show (Rect.unit (s := S128x50) (k1_off4 k c) S1x50.size h).emb (Shape.reshapeEquiv squeezes_S1x50_S50.numel_eq (ix1 p)) = _
  rw [Shape.reshapeEquiv_eq_of_rowMajor (y := (ix2 (0 : Fin 1) p : S1x50.Idx)) squeezes_S1x50_S50.numel_eq
    (by rw [Shape.rowMajor_val_two, Shape.rowMajor_val_one]; show 0 * 50 + p.val = p.val; omega)]
  funext a
  refine Fin.ext ?_
  rw [Rect.emb_apply]
  match a with
  | ⟨0, _⟩ => show k1_off4 k c 0 + 1 * 0 = k1_off4 k c 0; omega
  | ⟨1, _⟩ => show 0 + 1 * p.val = p.val; omega

/-- The gather through the row of the index scratch the tile's program addresses at trip `k`, slot word `c`: at position
    `(p, j)` it is the shared scratch at row `index[row, p]`, column `j`. -/
theorem gather_apply (d : Dev nD) (L : grid1.Coords)
    (Wsh : Buf (Elt F) ((V d (cV L) (jV L)).loc cc1_scratch1)) (fiv : Buf (Elt F) ((V d (cV L) (jV L)).loc cc1_scratch0))
    (hfiv : ∀ j, (fiv j).toNat < 4096)
    (k : Fin k1_t1_loop.trips) (c : BitVec 32) (h : ∀ a, (k1_off4 k c) a + S1x50.size a ≤ S128x50.size a)
    (hn : S50.numel = S50x128.size gathers_S4096x128_S50x128.axis')
    (hin : ∀ x, (View.read (Elt F) (((ivV).slice (Rect.unit (s := S128x50) (k1_off4 k c) S1x50.size h) (fun _ => rfl)).squeeze S50 squeezes_S1x50_S50).view fiv x).toNat
        < S4096x128.size gathers_S4096x128_S50x128.axis)
    (p : Fin 50) (j : Fin 128) :
    SparseCore.gatherPayload gathers_S4096x128_S50x128
        (View.read (Elt F) ((shV).slice (Rect.unit (s := S4096x128) ![0, 0] S4096x128.size inb_S4096x128_S4096x128_0_0) (fun _ => rfl)).view Wsh)
        (SparseCore.rows (View.read (Elt F) (((ivV).slice (Rect.unit (s := S128x50) (k1_off4 k c) S1x50.size h) (fun _ => rfl)).squeeze S50 squeezes_S1x50_S50).view fiv) hn hin)
        (ix2 p j)
      = Wsh (ix2 (⟨(fiv (ix2 (⟨k1_off4 k c 0, by have := h 0; show _ < 128; simp at this; omega⟩ : Fin 128) p)).toNat, hfiv _⟩ : Fin 4096) j) := by
  unfold SparseCore.gatherPayload
  rw [View.read_apply, cast_eq]
  congr 1
  funext a
  refine Fin.ext ?_
  show ((Rect.unit (s := S4096x128) ![0, 0] S4096x128.size inb_S4096x128_S4096x128_0_0).emb
      (gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j)) a).val = _
  rw [Rect.emb_apply]
  match a with
  | ⟨0, h0⟩ =>
    have e1 : gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j) ⟨0, h0⟩
        = SparseCore.rows (View.read (Elt F) (((ivV).slice (Rect.unit (s := S128x50) (k1_off4 k c) S1x50.size h) (fun _ => rfl)).squeeze S50 squeezes_S1x50_S50).view fiv) hn hin p :=
      gathers_S4096x128_S50x128.idx_axis _ (ix2 p j)
    have e2 : (SparseCore.rows (View.read (Elt F) (((ivV).slice (Rect.unit (s := S128x50) (k1_off4 k c) S1x50.size h) (fun _ => rfl)).squeeze S50 squeezes_S1x50_S50).view fiv) hn hin p).val
        = (View.read (Elt F) (((ivV).slice (Rect.unit (s := S128x50) (k1_off4 k c) S1x50.size h) (fun _ => rfl)).squeeze S50 squeezes_S1x50_S50).view fiv (ix1 p)).toNat :=
      rows_apply _ hn hin p
    have e3 : View.read (Elt F) (((ivV).slice (Rect.unit (s := S128x50) (k1_off4 k c) S1x50.size h) (fun _ => rfl)).squeeze S50 squeezes_S1x50_S50).view fiv (ix1 p)
        = fiv (ix2 (⟨k1_off4 k c 0, by have := h 0; show _ < 128; simp at this; omega⟩ : Fin 128) p) := by
      rw [View.read_apply, cast_eq, rowView_emb]
    show 0 + 1 * (gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j) ⟨0, h0⟩).val
      = (fiv (ix2 (⟨k1_off4 k c 0, by have := h 0; show _ < 128; simp at this; omega⟩ : Fin 128) p)).toNat
    rw [e1, e2, e3]
    omega
  | ⟨1, h1⟩ =>
    have e1 := gathers_S4096x128_S50x128.idx_of_ne (SparseCore.rows (View.read (Elt F) (((ivV).slice (Rect.unit (s := S128x50) (k1_off4 k c) S1x50.size h) (fun _ => rfl)).squeeze S50 squeezes_S1x50_S50).view fiv) hn hin) (ix2 p j) ⟨1, h1⟩ (by show (1 : ℕ) ≠ 0; omega)
    show 0 + 1 * (gathers_S4096x128_S50x128.idx (SparseCore.rows (View.read (Elt F) (((ivV).slice (Rect.unit (s := S128x50) (k1_off4 k c) S1x50.size h) (fun _ => rfl)).squeeze S50 squeezes_S1x50_S50).view fiv) hn hin) (ix2 p j) ⟨1, h1⟩).val = j.val
    rw [e1]
    show 0 + 1 * j.val = j.val
    omega

/-- The row of the index scratch the tile's program addresses at trip `k`, slot `r`, is row `8k + r`. -/
theorem row_off (k : Fin k1_t1_loop.trips) (r : Fin 8) : k1_off4 k (BitVec.ofNat 32 r.val) 0 = 8 * k.val + r.val := by
  rw [k1_off4_eq]; rfl

theorem row_lt (k : Fin k1_t1_loop.trips) (r : Fin 8) : 8 * k.val + r.val < 128 := by
  have h0 : k1_off4 k (BitVec.ofNat 32 r.val) 0 + 1 ≤ 128 := k1_off4_inb k r 0
  rw [row_off] at h0
  omega

/-- The same at slot `r`: the gather reads row `index[8k + r, p]` of the shared scratch. -/
theorem gather_apply_slot (d : Dev nD) (L : grid1.Coords)
    (Wsh : Buf (Elt F) ((V d (cV L) (jV L)).loc cc1_scratch1)) (fiv : Buf (Elt F) ((V d (cV L) (jV L)).loc cc1_scratch0))
    (hfiv : ∀ j, (fiv j).toNat < 4096) (k : Fin k1_t1_loop.trips) (r : Fin 8)
    (hn : S50.numel = S50x128.size gathers_S4096x128_S50x128.axis')
    (hin : ∀ x, (View.read (Elt F) (((ivV).slice (Rect.unit (s := S128x50) (k1_off4 k (BitVec.ofNat 32 r.val)) S1x50.size (k1_off4_inb k r)) (fun _ => rfl)).squeeze S50 squeezes_S1x50_S50).view fiv x).toNat
        < S4096x128.size gathers_S4096x128_S50x128.axis)
    (p : Fin 50) (j : Fin 128) :
    SparseCore.gatherPayload gathers_S4096x128_S50x128
        (View.read (Elt F) ((shV).slice (Rect.unit (s := S4096x128) ![0, 0] S4096x128.size inb_S4096x128_S4096x128_0_0) (fun _ => rfl)).view Wsh)
        (SparseCore.rows (View.read (Elt F) (((ivV).slice (Rect.unit (s := S128x50) (k1_off4 k (BitVec.ofNat 32 r.val)) S1x50.size (k1_off4_inb k r)) (fun _ => rfl)).squeeze S50 squeezes_S1x50_S50).view fiv) hn hin)
        (ix2 p j)
      = Wsh (ix2 (⟨(fiv (ix2 (⟨8 * k.val + r.val, row_lt k r⟩ : Fin 128) p)).toNat, hfiv _⟩ : Fin 4096) j) := by
  rw [gather_apply d L Wsh fiv hfiv k (BitVec.ofNat 32 r.val) (k1_off4_inb k r) hn hin p j]
  have e : (ix2 (⟨k1_off4 k (BitVec.ofNat 32 r.val) 0, by have := k1_off4_inb k r 0; show _ < 128; simp at this; omega⟩ : Fin 128) p : S128x50.Idx)
      = ix2 (⟨8 * k.val + r.val, row_lt k r⟩ : Fin 128) p := by
    congr 1
    exact Fin.ext (row_off k r)
  congr 2
  exact Fin.ext (congrArg (fun x => (fiv x).toNat) e)

end Cert.Kernel.Hand

end
-- ==== Proof.K.Tile.lean ====
/-
  Lemmas for a tile's task: the pieces of the arrays at their slices' places, the barrier's payloads — a tile's rows of
  the shared table shared out to every tile's round, and a read share of the whole table collected from its own —, and the
  tile's slabs of the result as its to-do list before the first trip.
-/
import proofs.«205614_g54924041781483_cont_9to1_m_645_25_alg».proof.Proof.K.Proto
import proofs.«205614_g54924041781483_cont_9to1_m_645_25_alg».proof.Proof.K.Own
import proofs.«205614_g54924041781483_cont_9to1_m_645_25_alg».proof.Proof.K.Trip
import proofs.«205614_g54924041781483_cont_9to1_m_645_25_alg».proof.Proof.K.Parts
import proofs.«205614_g54924041781483_cont_9to1_m_645_25_alg».proof.Proof.K.Values

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable (m : (ℓ : Loc nD τ sig) → Buf (Elt F) ℓ)
variable (IX : (d : Dev nD) → Buf (Elt F) (v8Loc d)) (WC : (d : Dev nD) → Buf (Elt F) (v9Loc d))
variable [FloatOps F] (d : Dev nD) (L : grid1.Coords)

omit [FloatOps F] in
theorem tileOf_self : tileOf (cV L) (jV L) = L := by
  funext a
  match a with
  | ⟨0, _⟩ => rfl
  | ⟨1, _⟩ => rfl

/-! ## The barrier's payloads: a tile's rows, shared out and collected -/

/-- Before the barrier a tile's rows of the shared table, written, go out as read shares: one to every tile's round, what
    remains kept. -/
theorem pays_intro : (shLoc d (cV L) ↦[(shBlk L).view.set]{fullShare} WC d : sProp 𝕄)
    ⊢ iprop((shLoc d (cV L) ↦[(shBlk L).view.set]{qKeep} WC d)
        ∗ bigSep Finset.univ fun j : Fin (grid1.bound 1) => (bRd (F := F) WC).payload (bcell d (cV L) (j.castLE hsub1)) 0 (jV L).val) := by
  refine (Transfers.pointsTo_toks_split fullShare 16).trans (sep_mono_right ?_)
  refine Entails.of_eq (bigSep_congr fun j _ => ?_)
  show _ = bPay WC (bcell d (cV L) (j.castLE hsub1)) (jV L).val
  unfold bPay; dsimp only
  rw [dif_pos (jV L).isLt]
  show _ = (shLoc d (cV L) ↦[(shBlk (tileOf (cV L) ⟨(jV L).val, (jV L).isLt⟩)).view.set]{_} WC d : sProp 𝕄)
  rw [show (⟨(jV L).val, (jV L).isLt⟩ : Fin τ.nSub) = jV L from rfl, tileOf_self]
  rfl

/-- After it, what a tile's own round collected is a read share of the whole shared table. -/
theorem pays_elim : (bigSep ((bRd (F := F) WC).duties (bcell d (cV L) (jV L)) 0 \ ∅) fun n => (bRd (F := F) WC).payload (bcell d (cV L) (jV L)) 0 n)
    ⊢ (shLoc d (cV L) ↦{qT (jL L)} WC d : sProp 𝕄) := by
  rw [Finset.sdiff_empty, bRd_duties₀, SparseCore.bigSep_image_of_injOn (fun a _ b _ e => Fin.val_injective e),
    sh_blocks d (cV L) (L 0) (qT (jL L)) (WC d)]
  refine Entails.of_eq (bigSep_congr fun n _ => ?_)
  show bPay WC (bcell d (cV L) (jV L)) n.val = _
  unfold bPay; dsimp only
  rw [dif_pos n.isLt]
  rfl

/-! ## Spellings: a piece at its array's place is the piece at its slice's place -/

omit [FloatOps F] in
theorem pts_idx (f : Buf (Elt F) (v8Loc d)) :
    (v8Loc d ↦[(idxBlk L).view.set]{fullShare} f : sProp 𝕄) = ((idxBlk L).view.loc (V d (cV L) (jV L)) ↦[(idxBlk L).view.set]{fullShare} f) := rfl
omit [FloatOps F] in
theorem pts_comb (q : PosShare TreeShare) (f : Buf (Elt F) (v9Loc d)) :
    (v9Loc d ↦[(combBlk L).view.set]{q} f : sProp 𝕄) = ((combBlk L).view.loc (V d (cV L) (jV L)) ↦[(combBlk L).view.set]{q} f) := rfl
omit [FloatOps F] in
theorem pts_sh (q : PosShare TreeShare) (f : Buf (Elt F) (shLoc d (cV L))) :
    (shLoc d (cV L) ↦[(shBlk L).view.set]{q} f : sProp 𝕄) = ((shBlk L).view.loc (V d (cV L) (jV L)) ↦[(shBlk L).view.set]{q} f) := rfl
omit [FloatOps F] in
theorem pts_shAll (q : PosShare TreeShare) (f : Buf (Elt F) (shLoc d (cV L))) :
    (shLoc d (cV L) ↦{q} f : sProp 𝕄) = ((shV).view.loc (V d (cV L) (jV L)) ↦{q} f) := rfl

/-- The tile's to-do list before the first trip is its slabs of the result as it was handed them. -/
theorem todo_intro (m0 : Buf (Elt F) (v10Loc d)) : (v10Loc d ↦[outSet L]{fullShare} m0 : sProp 𝕄) ⊢ todo d L 0 m0 := by
  rw [out_windows d L fullShare m0]
  unfold todo
  rw [show (Finset.univ.filter fun k : Kt => 0 ≤ k.val) = Finset.univ from Finset.filter_true_of_mem fun _ _ => Nat.zero_le _]
  refine Entails.of_eq (bigSep_congr fun k _ => ?_)
  exact bigSep_univ_eq_bigSepL [(0 : Fin 8), 1, 2, 3, 4, 5, 6, 7] (by decide) (by decide) _

omit [FloatOps F] in
theorem ivContents_lt (hIX : ∀ j, (IX d j).toNat < 4096) : ∀ j, (ivContents IX d L j).toNat < 4096 := fun j => hIX _

end Cert.Kernel.Hand

end
-- ==== Proof.K.TripV.lean ====
/-
  The loop's invariant with the slabs' contents named: the slabs the earlier trips wrote, and the ones the previous
  trip's copies-out hold in flight, are at the target — entry `(b, s, j)` of the result row `IX[b, s]` of the combined
  table, column `j` —, the shared table being the combined table and the tile's index rows its rows of the index array.
-/
import proofs.«205614_g54924041781483_cont_9to1_m_645_25_alg».proof.Proof.K.Trip
import proofs.«205614_g54924041781483_cont_9to1_m_645_25_alg».proof.Proof.K.Values
import proofs.«205614_g54924041781483_cont_9to1_m_645_25_alg».proof.Proof.K.Target

noncomputable section

namespace Cert.Kernel.HandV

open Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable [FloatOps F] (IX : (d : Dev nD) → Buf (Elt F) (v8Loc d)) (WC : (d : Dev nD) → Buf (Elt F) (v9Loc d)) (d : Dev nD) (L : grid1.Coords)

/-! ## The slabs written, at the target -/

/-- The eight slabs of trip `k`, handed back by their copies-out, at the target. -/
abbrev rowDoneV (k : Kt) : sProp 𝕄 := rowDone d L k (TGT IX WC d) (TGT IX WC d) (TGT IX WC d) (TGT IX WC d) (TGT IX WC d) (TGT IX WC d) (TGT IX WC d) (TGT IX WC d)

/-- The slabs of the trips before `n - 1`: written, at the target. -/
def doneV (n : ℕ) : sProp 𝕄 :=
  bigSep (Finset.univ.filter fun k : Kt => k.val + 1 < n) fun k => rowDoneV IX WC d L k

omit [FloatOps F] in
theorem doneV_start (n : ℕ) (hn : n ≤ 1) : doneV (F := F) IX WC d L n = iprop(emp) := by
  unfold doneV
  rw [show (Finset.univ.filter fun k' : Kt => k'.val + 1 < n) = ∅ from Finset.filter_eq_empty_iff.mpr fun k' _ => by omega]
  exact bigSep_empty

omit [FloatOps F] in
theorem done_stepV (n : ℕ) (kp : Kt) (hkp : kp.val + 1 = n) :
    doneV (F := F) IX WC d L (n + 1) = iprop(rowDoneV IX WC d L kp ∗ doneV IX WC d L n) := by
  unfold doneV
  rw [show (Finset.univ.filter fun k' : Kt => k'.val + 1 < n + 1) = insert kp (Finset.univ.filter fun k' : Kt => k'.val + 1 < n) from by
    ext k'; simp only [Finset.mem_filter, Finset.mem_univ, true_and, Finset.mem_insert]
    constructor
    · intro h; by_cases e : k' = kp
      · exact Or.inl e
      · exact Or.inr (by have : k'.val ≠ kp.val := fun h' => e (Fin.ext h'); omega)
    · rintro (rfl | h) <;> omega]
  exact SparseCore.bigSep_insert' (by simp; omega)

/-! ## What a trip finds and leaves -/

variable (O : CellTallies nD τ sig (HIx 1)) (W : Waits sig (HIx 1))
variable (qs0 qs1 qs2 qs3 qs4 qs5 qs6 qs7 : PosShare TreeShare) (m0 : Buf (Elt F) (v10Loc d))

/-- The copies-out of trip `kp` in flight, their slabs at the target. -/
abbrev flightsV (kp : Kt) (fb0 fb1 fb2 fb3 fb4 fb5 fb6 fb7 : Buf (Elt F) ((V d (cV L) (jV L)).loc cc1_scratch2)) : sProp 𝕄 :=
  flights d L kp (TGT IX WC d) (TGT IX WC d) (TGT IX WC d) (TGT IX WC d) (TGT IX WC d) (TGT IX WC d) (TGT IX WC d) (TGT IX WC d) fb0 fb1 fb2 fb3 fb4 fb5 fb6 fb7

/-- Before trip `n ≥ 1`: the previous trip's copies-out in flight with their slabs at the target, the later slabs to do,
    the earlier ones written at the target; the shared table is the combined table, the index rows the tile's rows of the
    index array. -/
def invPosV (n : ℕ) : sProp 𝕄 :=
  if h : n - 1 < k1_t1_loop.trips then
    iprop(owesK d L O W ∗ common d L O (WC d : Buf (Elt F) ((V d (cV L) (jV L)).loc cc1_scratch1)) (ivContents IX d L) qs0 qs1 qs2 qs3 qs4 qs5 qs6 qs7
      ∗ (∃ fb0 fb1 fb2 fb3 fb4 fb5 fb6 fb7, flightsV IX WC d L ⟨n - 1, h⟩ fb0 fb1 fb2 fb3 fb4 fb5 fb6 fb7)
      ∗ todo d L n m0 ∗ doneV IX WC d L n)
  else iprop(False)

omit [FloatOps F] in
/-- Before trip `k + 1`, spelt at trip `k`'s own index. -/
theorem invPosV_succ (k : Kt) :
    invPosV (F := F) IX WC d L O W qs0 qs1 qs2 qs3 qs4 qs5 qs6 qs7 m0 (k.val + 1)
      = iprop(owesK d L O W ∗ common d L O (WC d : Buf (Elt F) ((V d (cV L) (jV L)).loc cc1_scratch1)) (ivContents IX d L) qs0 qs1 qs2 qs3 qs4 qs5 qs6 qs7
          ∗ (∃ fb0 fb1 fb2 fb3 fb4 fb5 fb6 fb7, flightsV IX WC d L k fb0 fb1 fb2 fb3 fb4 fb5 fb6 fb7)
          ∗ todo d L (k.val + 1) m0 ∗ doneV IX WC d L (k.val + 1)) := by
  unfold invPosV
  rw [dif_pos (show k.val + 1 - 1 < k1_t1_loop.trips from by have := k.isLt; omega)]
  have e : (⟨k.val + 1 - 1, (show k.val + 1 - 1 < k1_t1_loop.trips from by have := k.isLt; omega)⟩ : Kt) = k :=
    Fin.ext (show k.val + 1 - 1 = k.val by omega)
  simp only [e]

/-- The loop's invariant, with values. -/
def invV (n : ℕ) (_ : Unit) : sProp 𝕄 :=
  if n = 0 then inv0 d L O W (WC d : Buf (Elt F) ((V d (cV L) (jV L)).loc cc1_scratch1)) (ivContents IX d L) qs0 qs1 qs2 qs3 qs4 qs5 qs6 qs7 m0
  else invPosV IX WC d L O W qs0 qs1 qs2 qs3 qs4 qs5 qs6 qs7 m0 n

end Cert.Kernel.HandV

end
-- ==== Proof.K.SlabV.lean ====
/-
  A slab's value. The copy-out of trip `k`, slot `r` writes into slab `256 · s + 128 · c + 8k + r` of the result what
  the slot holds: the rows the gather brought, row `p` of which is row `index[8k + r, p]` of the shared table — and the
  tile's index rows are rows `256 · s + 128 · c + ·` of the index array, the shared table the combined table. So the slab
  holds, at `(p, j)`, the combined table at row `IX[256 · s + 128 · c + 8k + r, p]`, column `j`: the target.
-/
import proofs.«205614_g54924041781483_cont_9to1_m_645_25_alg».proof.Proof.K.Trip
import proofs.«205614_g54924041781483_cont_9to1_m_645_25_alg».proof.Proof.K.Values
import proofs.«205614_g54924041781483_cont_9to1_m_645_25_alg».proof.Proof.K.Target

noncomputable section

namespace Cert.Kernel.HandV

open Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

open Idealize.ShloMosaic.ValueIdx (ix1 ix2 ix3)

variable (IX : (d : Dev nD) → Buf (Elt F) (v8Loc d)) (WC : (d : Dev nD) → Buf (Elt F) (v9Loc d))

/-- The first coordinate of slab `(k, r)` is a position of the result. -/
theorem slab_lt (L : grid1.Coords) (k : Kt) (r : Fin 8) : 256 * (L 1).val + 128 * (L 0).val + 8 * k.val + r.val < 4096 := by
  have h0 : k1_off12 L k (BitVec.ofNat 32 r.val) 0 + 1 ≤ 4096 := k1_off12_inb L k r 0
  rw [k1_off12_eq] at h0
  have e : (![256 * (L 1).val + 128 * (L 0).val + 8 * k.val + r.val, 0, 0] : Fin 3 → ℕ) 0 = 256 * (L 1).val + 128 * (L 0).val + 8 * k.val + r.val := rfl
  omega

/-- Entry `(p, j)` of slab `(k, r)`, as the tile's program slices and squeezes it, is entry
    `(256 · s + 128 · c + 8k + r, p, j)` of the result. -/
theorem outWin_emb (L : grid1.Coords) (k : Kt) (r : Fin 8) (p : Fin 50) (j : Fin 128) :
    (outWin L k (BitVec.ofNat 32 r.val) (k1_off12_inb L k r)).view.emb (ix2 p j)
      = ix3 (⟨256 * (L 1).val + 128 * (L 0).val + 8 * k.val + r.val, slab_lt L k r⟩ : Fin 4096) p j := by
  show (Rect.unit (s := S4096x50x128) (k1_off12 L k (BitVec.ofNat 32 r.val)) S1x50x128.size (k1_off12_inb L k r)).emb
      (Shape.reshapeEquiv squeezes_S1x50x128_S50x128.numel_eq (ix2 p j)) = _
  rw [Shape.reshapeEquiv_eq_of_rowMajor (y := (ix3 (0 : Fin 1) p j : S1x50x128.Idx)) squeezes_S1x50x128_S50x128.numel_eq
    (by rw [Shape.rowMajor_val_three, Shape.rowMajor_val_two]; show (0 * 50 + p.val) * 128 + j.val = p.val * 128 + j.val; omega)]
  funext a
  refine Fin.ext ?_
  rw [Rect.emb_apply]
  show k1_off12 L k (BitVec.ofNat 32 r.val) a + 1 * ((ix3 (0 : Fin 1) p j : S1x50x128.Idx) a).val = _
  rw [k1_off12_eq]
  match a with
  | ⟨0, _⟩ => show 256 * (L 1).val + 128 * (L 0).val + 8 * k.val + r.val + 1 * 0 = 256 * (L 1).val + 128 * (L 0).val + 8 * k.val + r.val; omega
  | ⟨1, _⟩ => show 0 + 1 * p.val = p.val; omega
  | ⟨2, _⟩ => show 0 + 1 * j.val = j.val; omega

/-- Row `a` of the tile's rows of the index array is row `256 · s + 128 · c + a` of the index array. -/
theorem idxBlk_emb (L : grid1.Coords) (a : Fin 128) (p : Fin 50) (hlt : 256 * (L 1).val + 128 * (L 0).val + a.val < 4096) :
    (idxBlk L).view.emb (ix2 a p) = ix2 (⟨256 * (L 1).val + 128 * (L 0).val + a.val, hlt⟩ : Fin 4096) p := by
  show (Rect.unit (s := S4096x50) (k1_off2 L) S128x50.size (k1_off2_inb L)).emb (ix2 a p) = _
  funext b
  refine Fin.ext ?_
  rw [Rect.emb_apply]
  show k1_off2 L b + 1 * ((ix2 a p : S128x50.Idx) b).val = _
  rw [k1_off2_eq]
  match b with
  | ⟨0, _⟩ => show 256 * (L 1).val + 128 * (L 0).val + 1 * a.val = 256 * (L 1).val + 128 * (L 0).val + a.val; omega
  | ⟨1, _⟩ => show 0 + 1 * p.val = p.val; omega

/-- A whole buffer written whole reads as what was written. -/
theorem read_whole_written {κ : Kind} (b : Ref sig κ) (fb : b.ty.Contents (Elt F)) (G : (Rect.whole b.ty.shape).shape.Idx → Elt F b.ty.elt) :
    (View.whole b).read (Elt F) ((View.whole b).writes (Elt F) fb [⟨Rect.whole b.ty.shape, G⟩]) = G := by
  funext x
  have h := View.read_writes_cons_emb (View.whole b) fb (Rect.whole b.ty.shape) G [] x
  rw [Rect.emb_whole_apply] at h
  exact h

/-- Slab `(k, r)` written whole with a payload that is, entry by entry, row `index[8k + r, p]` of the combined table,
    the index rows being the tile's rows of the index array: on the slab, the target. -/
theorem slab_value (d : Dev nD) (L : grid1.Coords) (hIX : ∀ j, (IX d j).toNat < 4096) (m0 : Buf (Elt F) (v10Loc d)) (k : Kt) (r : Fin 8)
    (w : S50x128.Idx → Elt F .f32)
    (hw : ∀ (p : Fin 50) (j : Fin 128), w (ix2 p j)
        = WC d (ix2 (⟨(ivContents IX d L (ix2 (⟨8 * k.val + r.val, row_lt k r⟩ : Fin 128) p)).toNat, hIX _⟩ : Fin 4096) j)) :
    ∀ i ∈ (outWin L k (BitVec.ofNat 32 r.val) (k1_off12_inb L k r)).view.set,
      (outWin L k (BitVec.ofNat 32 r.val) (k1_off12_inb L k r)).view.writes (Elt F) m0 [⟨Rect.whole S50x128, w⟩] i = TGT IX WC d i := by
  intro i hi
  obtain ⟨y, -, rfl⟩ := Finset.mem_map.1 hi
  obtain ⟨p, j, rfl⟩ : ∃ (p : Fin 50) (j : Fin 128), y = ix2 p j := ⟨y 0, y 1, ValueIdx.eq_ix2 y⟩
  have h := View.read_writes_cons_emb (outWin L k (BitVec.ofNat 32 r.val) (k1_off12_inb L k r)).view m0 (Rect.whole S50x128) w [] (ix2 p j)
  rw [Rect.emb_whole_apply, View.read_apply, cast_eq] at h
  have hb : 256 * (L 1).val + 128 * (L 0).val + (8 * k.val + r.val) < 4096 := by have := slab_lt L k r; omega
  have e : ivContents IX d L (ix2 (⟨8 * k.val + r.val, row_lt k r⟩ : Fin 128) p)
      = IX d (ix2 (⟨256 * (L 1).val + 128 * (L 0).val + 8 * k.val + r.val, slab_lt L k r⟩ : Fin 4096) p) := by
    unfold ivContents
    rw [idxBlk_emb L (⟨8 * k.val + r.val, row_lt k r⟩ : Fin 128) p hb]
    congr 2
    exact Fin.ext (by show 256 * (L 1).val + 128 * (L 0).val + (8 * k.val + r.val) = 256 * (L 1).val + 128 * (L 0).val + 8 * k.val + r.val; omega)
  rw [h, hw p j, outWin_emb, TGT_apply IX WC d _ p j (hIX _)]
  congr 2
  exact Fin.ext (congrArg BitVec.toNat e)

end Cert.Kernel.HandV

end
-- ==== Proof.K.TripRunV.lean ====
/-
  One trip of a tile's loop, run, with the slabs' contents named: from the valued invariant before it to the valued
  invariant after it. The run is the frame's; what is added is that each slab a trip's copies-out take in flight holds
  the target — the slot holds the gathered rows, row `p` of which is row `index[8k + r, p]` of the shared table.
-/
import proofs.«205614_g54924041781483_cont_9to1_m_645_25_alg».proof.Proof.K.TripV
import proofs.«205614_g54924041781483_cont_9to1_m_645_25_alg».proof.Proof.K.SlabV

noncomputable section

namespace Cert.Kernel.HandV

open Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

open Idealize.ShloMosaic.ValueIdx (ix1 ix2 ix3)

variable [FloatOps F] (IX : (d : Dev nD) → Buf (Elt F) (v8Loc d)) (WC : (d : Dev nD) → Buf (Elt F) (v9Loc d)) (d : Dev nD) (L : grid1.Coords)
variable (O : CellTallies nD τ sig (HIx 1)) (W : Waits sig (HIx 1))
variable (qs0 qs1 qs2 qs3 qs4 qs5 qs6 qs7 : PosShare TreeShare) (m0 : Buf (Elt F) (v10Loc d))

omit [FloatOps F] in
/-- A copy-out in flight holding a slab: the slab's contents may be replaced by any that agree with them on the slab. -/
theorem flight_slab_congr (thr : Thread nD τ) (sem : SemLoc sig) (N : ℕ) (ℓ : Loc nD τ sig) (I : Finset (Idx ℓ)) (f g : Buf (Elt F) ℓ) (B : sProp 𝕄)
    (h : ∀ i ∈ I, f i = g i) :
    (Transfers.Flight countersEmb thr sem (default : HIx 1) N iprop((ℓ ↦[I]{fullShare} f) ∗ B) : sProp 𝕄)
      ⊢ Transfers.Flight countersEmb thr sem (default : HIx 1) N iprop((ℓ ↦[I]{fullShare} g) ∗ B) :=
  Entails.of_eq (by rw [pointsTo_congr h])

set_option maxHeartbeats 8000000 in
/-- The first trip. -/
theorem step0V (k : Kt) (hk : k.val = 0) (hIX : ∀ j, (IX d j).toNat < 4096) (v2 : BitVec 32) :
    inv0 d L O W (WC d : Buf (Elt F) ((V d (cV L) (jV L)).loc cc1_scratch1)) (ivContents IX d L) qs0 qs1 qs2 qs3 qs4 qs5 qs6 qs7 m0
      ⊢ wp frame (wpE (defs₀ (F := F)) 𝒱₀ (V d (cV L) (jV L)) none) Set.univ (k1_t1_body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1 v2 k ⟨⟩)
          (fun _ => invPosV IX WC d L O W qs0 qs1 qs2 qs3 qs4 qs5 qs6 qs7 m0 (k.val + 1)) := by
  have hfiv : ∀ j, (ivContents IX d L j).toNat < 4096 := fun j => hIX _
  have hin : ∀ (k : Fin k1_t1_loop.trips) (c : BitVec 32) (h : ∀ a, (k1_off4 k c) a + S1x50.size a ≤ S128x50.size a) (x : S50.Idx),
      (View.read (Elt F) (((ivV).slice (Rect.unit (s := S128x50) (k1_off4 k c) S1x50.size h) (fun _ => rfl)).squeeze S50 squeezes_S1x50_S50).view (ivContents IX d L) x).toNat < 4096 := by
    intro k c h x
    rw [(View.read_apply _ _).trans (cast_eq _ _)]
    exact hfiv _
  rw [invPosV_succ, doneV_start IX WC d L (k.val + 1) (by omega)]
  unfold inv0
  rw [todo_step d L 0 k hk m0, show (0 : ℕ) + 1 = k.val + 1 by omega]
  unfold owesK common flightsV flights rowPts
  iintro ⟨⟨%W', %hW', HO⟩, ⟨#Hmw, Hiv, Hsh0, Hsh1, Hsh2, Hsh3, Hsh4, Hsh5, Hsh6, Hsh7, Hg0, Hg1, Hg2, Hg3, Hg4, Hg5, Hg6, Hg7⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, Ho0, Ho1, Ho2, Ho3, Ho4, Ho5, Ho6, Ho7, ⟨Hw0, Hw1, Hw2, Hw3, Hw4, Hw5, Hw6, Hw7⟩, Htodo⟩
  unfold k1_t1_body
  rw [k1_part1_eq_skeleton, k1_part2_eq_skeleton, k1_part3_eq_skeleton, k1_part4_eq_skeleton, k1_part5_eq_skeleton]
  unfold k1_part1_skel k1_part2_skel k1_part3_skel k1_part4_skel k1_part5_skel
  sl_exec (disch := first | sl_exact (c1z k hk) | sl_exact (c2z k hk) | sl_exact (c3z k hk) | sl_exact (c4z k hk) | sl_exact (c5z k hk) | sl_exact (c6z k hk) | sl_exact (c7z k hk) | sl_exact (c8z k hk))
  sl_step
  isplitl [HO]
  · iexists _; isplitr
    swap; · iexact HO
    ipureintro
    repeat' (first | exact hW' | refine bound_insert (.inl rfl) ?_)
  ihave Ho0 := (flight_slab_congr _ _ _ _ _ _ (TGT IX WC d) _
      (show ∀ i ∈ (outWin L k 0#32 (k1_off12_inb L k 0)).view.set,
          (outWin L k 0#32 (k1_off12_inb L k 0)).view.writes (Elt F) m0 [⟨Rect.whole S50x128, step0V.sl.dma0 IX WC d L k hin fb0⟩] i = TGT IX WC d i from
        slab_value IX WC d L hIX m0 k 0 (step0V.sl.dma0 IX WC d L k hin fb0)
          (fun p j => (congrFun (read_whole_written cc1_scratch2 fb0 (step0V.sl.gather0 IX WC d L k hin)) (ix2 p j)).trans
            (gather_apply_slot d L (WC d) (ivContents IX d L) hfiv k 0 _ _ p j)))) $$ Ho0
  ihave Ho1 := (flight_slab_congr _ _ _ _ _ _ (TGT IX WC d) _
      (show ∀ i ∈ (outWin L k 1#32 (k1_off12_inb L k 1)).view.set,
          (outWin L k 1#32 (k1_off12_inb L k 1)).view.writes (Elt F) m0 [⟨Rect.whole S50x128, step0V.sl.dma0_1 IX WC d L k hin fb1⟩] i = TGT IX WC d i from
        slab_value IX WC d L hIX m0 k 1 (step0V.sl.dma0_1 IX WC d L k hin fb1)
          (fun p j => (congrFun (read_whole_written cc1_scratch3 fb1 (step0V.sl.gather1 IX WC d L k hin)) (ix2 p j)).trans
            (gather_apply_slot d L (WC d) (ivContents IX d L) hfiv k 1 _ _ p j)))) $$ Ho1
  ihave Ho2 := (flight_slab_congr _ _ _ _ _ _ (TGT IX WC d) _
      (show ∀ i ∈ (outWin L k 2#32 (k1_off12_inb L k 2)).view.set,
          (outWin L k 2#32 (k1_off12_inb L k 2)).view.writes (Elt F) m0 [⟨Rect.whole S50x128, step0V.sl.dma0_2 IX WC d L k hin fb2⟩] i = TGT IX WC d i from
        slab_value IX WC d L hIX m0 k 2 (step0V.sl.dma0_2 IX WC d L k hin fb2)
          (fun p j => (congrFun (read_whole_written cc1_scratch4 fb2 (step0V.sl.gather2 IX WC d L k hin)) (ix2 p j)).trans
            (gather_apply_slot d L (WC d) (ivContents IX d L) hfiv k 2 _ _ p j)))) $$ Ho2
  ihave Ho3 := (flight_slab_congr _ _ _ _ _ _ (TGT IX WC d) _
      (show ∀ i ∈ (outWin L k 3#32 (k1_off12_inb L k 3)).view.set,
          (outWin L k 3#32 (k1_off12_inb L k 3)).view.writes (Elt F) m0 [⟨Rect.whole S50x128, step0V.sl.dma0_3 IX WC d L k hin fb3⟩] i = TGT IX WC d i from
        slab_value IX WC d L hIX m0 k 3 (step0V.sl.dma0_3 IX WC d L k hin fb3)
          (fun p j => (congrFun (read_whole_written cc1_scratch5 fb3 (step0V.sl.gather3 IX WC d L k hin)) (ix2 p j)).trans
            (gather_apply_slot d L (WC d) (ivContents IX d L) hfiv k 3 _ _ p j)))) $$ Ho3
  ihave Ho4 := (flight_slab_congr _ _ _ _ _ _ (TGT IX WC d) _
      (show ∀ i ∈ (outWin L k 4#32 (k1_off12_inb L k 4)).view.set,
          (outWin L k 4#32 (k1_off12_inb L k 4)).view.writes (Elt F) m0 [⟨Rect.whole S50x128, step0V.sl.dma0_4 IX WC d L k hin fb4⟩] i = TGT IX WC d i from
        slab_value IX WC d L hIX m0 k 4 (step0V.sl.dma0_4 IX WC d L k hin fb4)
          (fun p j => (congrFun (read_whole_written cc1_scratch6 fb4 (step0V.sl.gather4 IX WC d L k hin)) (ix2 p j)).trans
            (gather_apply_slot d L (WC d) (ivContents IX d L) hfiv k 4 _ _ p j)))) $$ Ho4
  ihave Ho5 := (flight_slab_congr _ _ _ _ _ _ (TGT IX WC d) _
      (show ∀ i ∈ (outWin L k 5#32 (k1_off12_inb L k 5)).view.set,
          (outWin L k 5#32 (k1_off12_inb L k 5)).view.writes (Elt F) m0 [⟨Rect.whole S50x128, step0V.sl.dma0_5 IX WC d L k hin fb5⟩] i = TGT IX WC d i from
        slab_value IX WC d L hIX m0 k 5 (step0V.sl.dma0_5 IX WC d L k hin fb5)
          (fun p j => (congrFun (read_whole_written cc1_scratch7 fb5 (step0V.sl.gather5 IX WC d L k hin)) (ix2 p j)).trans
            (gather_apply_slot d L (WC d) (ivContents IX d L) hfiv k 5 _ _ p j)))) $$ Ho5
  ihave Ho6 := (flight_slab_congr _ _ _ _ _ _ (TGT IX WC d) _
      (show ∀ i ∈ (outWin L k 6#32 (k1_off12_inb L k 6)).view.set,
          (outWin L k 6#32 (k1_off12_inb L k 6)).view.writes (Elt F) m0 [⟨Rect.whole S50x128, step0V.sl.dma0_6 IX WC d L k hin fb6⟩] i = TGT IX WC d i from
        slab_value IX WC d L hIX m0 k 6 (step0V.sl.dma0_6 IX WC d L k hin fb6)
          (fun p j => (congrFun (read_whole_written cc1_scratch8 fb6 (step0V.sl.gather6 IX WC d L k hin)) (ix2 p j)).trans
            (gather_apply_slot d L (WC d) (ivContents IX d L) hfiv k 6 _ _ p j)))) $$ Ho6
  ihave Ho7 := (flight_slab_congr _ _ _ _ _ _ (TGT IX WC d) _
      (show ∀ i ∈ (outWin L k 7#32 (k1_off12_inb L k 7)).view.set,
          (outWin L k 7#32 (k1_off12_inb L k 7)).view.writes (Elt F) m0 [⟨Rect.whole S50x128, step0V.sl.dma0_7 IX WC d L k hin fb7⟩] i = TGT IX WC d i from
        slab_value IX WC d L hIX m0 k 7 (step0V.sl.dma0_7 IX WC d L k hin fb7)
          (fun p j => (congrFun (read_whole_written cc1_scratch9 fb7 (step0V.sl.gather7 IX WC d L k hin)) (ix2 p j)).trans
            (gather_apply_slot d L (WC d) (ivContents IX d L) hfiv k 7 _ _ p j)))) $$ Ho7
  sl_close

set_option maxHeartbeats 8000000 in
/-- A later trip. -/
theorem stepPosV (k : Kt) (hk : 0 < k.val) (hIX : ∀ j, (IX d j).toNat < 4096) (v2 : BitVec 32) :
    invPosV IX WC d L O W qs0 qs1 qs2 qs3 qs4 qs5 qs6 qs7 m0 k.val
      ⊢ wp frame (wpE (defs₀ (F := F)) 𝒱₀ (V d (cV L) (jV L)) none) Set.univ (k1_t1_body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1 v2 k ⟨⟩)
          (fun _ => invPosV IX WC d L O W qs0 qs1 qs2 qs3 qs4 qs5 qs6 qs7 m0 (k.val + 1)) := by
  have hkp : k.val - 1 < k1_t1_loop.trips := by have := k.isLt; omega
  have hfiv : ∀ j, (ivContents IX d L j).toNat < 4096 := fun j => hIX _
  have hin : ∀ (k : Fin k1_t1_loop.trips) (c : BitVec 32) (h : ∀ a, (k1_off4 k c) a + S1x50.size a ≤ S128x50.size a) (x : S50.Idx),
      (View.read (Elt F) (((ivV).slice (Rect.unit (s := S128x50) (k1_off4 k c) S1x50.size h) (fun _ => rfl)).squeeze S50 squeezes_S1x50_S50).view (ivContents IX d L) x).toNat < 4096 := by
    intro k c h x
    rw [(View.read_apply _ _).trans (cast_eq _ _)]
    exact hfiv _
  rw [invPosV_succ]
  unfold invPosV
  rw [dif_pos hkp, todo_step d L k.val k rfl m0, done_stepV IX WC d L k.val ⟨k.val - 1, hkp⟩ (show k.val - 1 + 1 = k.val by omega)]
  unfold owesK common flightsV flights rowPts rowDoneV rowDone
  iintro ⟨⟨%W', %hW', HO⟩, ⟨#Hmw, Hiv, Hsh0, Hsh1, Hsh2, Hsh3, Hsh4, Hsh5, Hsh6, Hsh7, Hg0, Hg1, Hg2, Hg3, Hg4, Hg5, Hg6, Hg7⟩, ⟨%fb0, %fb1, %fb2, %fb3, %fb4, %fb5, %fb6, %fb7, Ho0, Hb0, Ho1, Hb1, Ho2, Hb2, Ho3, Hb3, Ho4, Hb4, Ho5, Hb5, Ho6, Hb6, Ho7, Hb7⟩, ⟨⟨Hw0, Hw1, Hw2, Hw3, Hw4, Hw5, Hw6, Hw7⟩, Htodo⟩, Hdone⟩
  unfold k1_t1_body
  rw [k1_part1_eq_skeleton, k1_part2_eq_skeleton, k1_part3_eq_skeleton, k1_part4_eq_skeleton, k1_part5_eq_skeleton]
  unfold k1_part1_skel k1_part2_skel k1_part3_skel k1_part4_skel k1_part5_skel
  sl_exec (disch := first | sl_exact (c1p k hk) | sl_exact (c2p k hk) | sl_exact (c3p k hk) | sl_exact (c4p k hk) | sl_exact (c5p k hk) | sl_exact (c6p k hk) | sl_exact (c7p k hk) | sl_exact (c8p k hk))
  sl_step
  isplitl [HO]
  · iexists _; isplitr
    swap; · iexact HO
    ipureintro
    repeat' (first | exact hW' | refine bound_insert (.inl rfl) ?_)
  ihave Ho0 := (flight_slab_congr _ _ _ _ _ _ (TGT IX WC d) _
      (show ∀ i ∈ (outWin L k 0#32 (k1_off12_inb L k 0)).view.set,
          (outWin L k 0#32 (k1_off12_inb L k 0)).view.writes (Elt F) m0 [⟨Rect.whole S50x128, stepPosV.sl.dma0 IX WC d L k hin fb0⟩] i = TGT IX WC d i from
        slab_value IX WC d L hIX m0 k 0 (stepPosV.sl.dma0 IX WC d L k hin fb0)
          (fun p j => (congrFun (read_whole_written cc1_scratch2 fb0 (stepPosV.sl.gather0 IX WC d L k hin)) (ix2 p j)).trans
            (gather_apply_slot d L (WC d) (ivContents IX d L) hfiv k 0 _ _ p j)))) $$ Ho0
  ihave Ho1 := (flight_slab_congr _ _ _ _ _ _ (TGT IX WC d) _
      (show ∀ i ∈ (outWin L k 1#32 (k1_off12_inb L k 1)).view.set,
          (outWin L k 1#32 (k1_off12_inb L k 1)).view.writes (Elt F) m0 [⟨Rect.whole S50x128, stepPosV.sl.dma0_1 IX WC d L k hin fb1⟩] i = TGT IX WC d i from
        slab_value IX WC d L hIX m0 k 1 (stepPosV.sl.dma0_1 IX WC d L k hin fb1)
          (fun p j => (congrFun (read_whole_written cc1_scratch3 fb1 (stepPosV.sl.gather1 IX WC d L k hin)) (ix2 p j)).trans
            (gather_apply_slot d L (WC d) (ivContents IX d L) hfiv k 1 _ _ p j)))) $$ Ho1
  ihave Ho2 := (flight_slab_congr _ _ _ _ _ _ (TGT IX WC d) _
      (show ∀ i ∈ (outWin L k 2#32 (k1_off12_inb L k 2)).view.set,
          (outWin L k 2#32 (k1_off12_inb L k 2)).view.writes (Elt F) m0 [⟨Rect.whole S50x128, stepPosV.sl.dma0_2 IX WC d L k hin fb2⟩] i = TGT IX WC d i from
        slab_value IX WC d L hIX m0 k 2 (stepPosV.sl.dma0_2 IX WC d L k hin fb2)
          (fun p j => (congrFun (read_whole_written cc1_scratch4 fb2 (stepPosV.sl.gather2 IX WC d L k hin)) (ix2 p j)).trans
            (gather_apply_slot d L (WC d) (ivContents IX d L) hfiv k 2 _ _ p j)))) $$ Ho2
  ihave Ho3 := (flight_slab_congr _ _ _ _ _ _ (TGT IX WC d) _
      (show ∀ i ∈ (outWin L k 3#32 (k1_off12_inb L k 3)).view.set,
          (outWin L k 3#32 (k1_off12_inb L k 3)).view.writes (Elt F) m0 [⟨Rect.whole S50x128, stepPosV.sl.dma0_3 IX WC d L k hin fb3⟩] i = TGT IX WC d i from
        slab_value IX WC d L hIX m0 k 3 (stepPosV.sl.dma0_3 IX WC d L k hin fb3)
          (fun p j => (congrFun (read_whole_written cc1_scratch5 fb3 (stepPosV.sl.gather3 IX WC d L k hin)) (ix2 p j)).trans
            (gather_apply_slot d L (WC d) (ivContents IX d L) hfiv k 3 _ _ p j)))) $$ Ho3
  ihave Ho4 := (flight_slab_congr _ _ _ _ _ _ (TGT IX WC d) _
      (show ∀ i ∈ (outWin L k 4#32 (k1_off12_inb L k 4)).view.set,
          (outWin L k 4#32 (k1_off12_inb L k 4)).view.writes (Elt F) m0 [⟨Rect.whole S50x128, stepPosV.sl.dma0_4 IX WC d L k hin fb4⟩] i = TGT IX WC d i from
        slab_value IX WC d L hIX m0 k 4 (stepPosV.sl.dma0_4 IX WC d L k hin fb4)
          (fun p j => (congrFun (read_whole_written cc1_scratch6 fb4 (stepPosV.sl.gather4 IX WC d L k hin)) (ix2 p j)).trans
            (gather_apply_slot d L (WC d) (ivContents IX d L) hfiv k 4 _ _ p j)))) $$ Ho4
  ihave Ho5 := (flight_slab_congr _ _ _ _ _ _ (TGT IX WC d) _
      (show ∀ i ∈ (outWin L k 5#32 (k1_off12_inb L k 5)).view.set,
          (outWin L k 5#32 (k1_off12_inb L k 5)).view.writes (Elt F) m0 [⟨Rect.whole S50x128, stepPosV.sl.dma0_5 IX WC d L k hin fb5⟩] i = TGT IX WC d i from
        slab_value IX WC d L hIX m0 k 5 (stepPosV.sl.dma0_5 IX WC d L k hin fb5)
          (fun p j => (congrFun (read_whole_written cc1_scratch7 fb5 (stepPosV.sl.gather5 IX WC d L k hin)) (ix2 p j)).trans
            (gather_apply_slot d L (WC d) (ivContents IX d L) hfiv k 5 _ _ p j)))) $$ Ho5
  ihave Ho6 := (flight_slab_congr _ _ _ _ _ _ (TGT IX WC d) _
      (show ∀ i ∈ (outWin L k 6#32 (k1_off12_inb L k 6)).view.set,
          (outWin L k 6#32 (k1_off12_inb L k 6)).view.writes (Elt F) m0 [⟨Rect.whole S50x128, stepPosV.sl.dma0_6 IX WC d L k hin fb6⟩] i = TGT IX WC d i from
        slab_value IX WC d L hIX m0 k 6 (stepPosV.sl.dma0_6 IX WC d L k hin fb6)
          (fun p j => (congrFun (read_whole_written cc1_scratch8 fb6 (stepPosV.sl.gather6 IX WC d L k hin)) (ix2 p j)).trans
            (gather_apply_slot d L (WC d) (ivContents IX d L) hfiv k 6 _ _ p j)))) $$ Ho6
  ihave Ho7 := (flight_slab_congr _ _ _ _ _ _ (TGT IX WC d) _
      (show ∀ i ∈ (outWin L k 7#32 (k1_off12_inb L k 7)).view.set,
          (outWin L k 7#32 (k1_off12_inb L k 7)).view.writes (Elt F) m0 [⟨Rect.whole S50x128, stepPosV.sl.dma0_7 IX WC d L k hin fb7⟩] i = TGT IX WC d i from
        slab_value IX WC d L hIX m0 k 7 (stepPosV.sl.dma0_7 IX WC d L k hin fb7)
          (fun p j => (congrFun (read_whole_written cc1_scratch9 fb7 (stepPosV.sl.gather7 IX WC d L k hin)) (ix2 p j)).trans
            (gather_apply_slot d L (WC d) (ivContents IX d L) hfiv k 7 _ _ p j)))) $$ Ho7
  sl_close

/-- Every trip keeps the valued invariant. -/
theorem stepV (k : Kt) (acc : Unit) (hIX : ∀ j, (IX d j).toNat < 4096) (v2 : BitVec 32) :
    invV IX WC d L O W qs0 qs1 qs2 qs3 qs4 qs5 qs6 qs7 m0 k.val acc
      ⊢ wp frame (wpE (defs₀ (F := F)) 𝒱₀ (V d (cV L) (jV L)) none) Set.univ (k1_t1_body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1 v2 k acc)
          (invV IX WC d L O W qs0 qs1 qs2 qs3 qs4 qs5 qs6 qs7 m0 (k.val + 1)) := by
  have e : (invV IX WC d L O W qs0 qs1 qs2 qs3 qs4 qs5 qs6 qs7 m0 (k.val + 1) : Unit → sProp 𝕄) = fun _ => invPosV IX WC d L O W qs0 qs1 qs2 qs3 qs4 qs5 qs6 qs7 m0 (k.val + 1) := by
    funext _; unfold invV; rw [if_neg (by omega)]
  rw [e]
  unfold invV
  by_cases hk : k.val = 0
  · rw [if_pos hk]; exact step0V IX WC d L O W qs0 qs1 qs2 qs3 qs4 qs5 qs6 qs7 m0 k hk hIX v2
  · rw [if_neg hk]; exact stepPosV IX WC d L O W qs0 qs1 qs2 qs3 qs4 qs5 qs6 qs7 m0 k (Nat.pos_of_ne_zero hk) hIX v2

end Cert.Kernel.HandV

end
-- ==== Proof.K.TileV.lean ====
/-
  A tile's whole task, with what it leaves in the result: its rows of the combined table into the shared memory and its
  rows of the index array into its own memory; the barrier, at which it hands every tile a read share of its rows and
  receives one of every tile's; the sixteen trips of the lookup loop; the last trip's copies-out collected. Every slab
  the tile owns ends at the target: entry `(b, s, j)` is row `idx[b, s]` of the combined table, column `j`.
-/
import proofs.«205614_g54924041781483_cont_9to1_m_645_25_alg».proof.Proof.K.Tile
import proofs.«205614_g54924041781483_cont_9to1_m_645_25_alg».proof.Proof.K.TripRunV
import proofs.«205614_g54924041781483_cont_9to1_m_645_25_alg».proof.Proof.K.ProtoV

noncomputable section

namespace Cert.Kernel.HandV

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable (m : (ℓ : Loc nD τ sig) → Buf (Elt F) ℓ)
variable (IX : (d : Dev nD) → Buf (Elt F) (v8Loc d)) (WC : (d : Dev nD) → Buf (Elt F) (v9Loc d))
variable [FloatOps F] (d : Dev nD) (L : grid1.Coords)

/-- The last trip. -/
abbrev kLast : Kt := ⟨k1_t1_loop.trips - 1, by decide⟩

/-- After the last trip: its copies-out in flight, nothing to do, the earlier slabs written. -/
theorem invV_end (O : CellTallies nD τ sig (HIx 1)) (W : Waits sig (HIx 1)) (qs0 qs1 qs2 qs3 qs4 qs5 qs6 qs7 : PosShare TreeShare) (m0 : Buf (Elt F) (v10Loc d)) (acc : Unit) :
    invV IX WC d L O W qs0 qs1 qs2 qs3 qs4 qs5 qs6 qs7 m0 k1_t1_loop.trips acc
      = iprop(owesK d L O W ∗ common d L O (WC d : Buf (Elt F) ((V d (cV L) (jV L)).loc cc1_scratch1)) (ivContents IX d L) qs0 qs1 qs2 qs3 qs4 qs5 qs6 qs7
          ∗ (∃ fb0 fb1 fb2 fb3 fb4 fb5 fb6 fb7, flightsV IX WC d L kLast fb0 fb1 fb2 fb3 fb4 fb5 fb6 fb7) ∗ emp ∗ doneV IX WC d L k1_t1_loop.trips) := by
  unfold invV
  rw [if_neg (by decide)]
  unfold invPosV
  rw [dif_pos (by decide), todo_end d L k1_t1_loop.trips le_rfl m0]

/-- Every slab written is the tile's slabs of the result at the target. -/
theorem doneV_all : (doneV IX WC d L (k1_t1_loop.trips + 1) : sProp 𝕄) ⊢ (v10Loc d ↦[outSet L]{fullShare} TGT IX WC d) := by
  rw [out_windows d L fullShare (TGT IX WC d)]
  unfold doneV
  rw [show (Finset.univ.filter fun k : Kt => k.val + 1 < k1_t1_loop.trips + 1) = Finset.univ from Finset.filter_true_of_mem fun k _ => by have := k.isLt; omega]
  refine Entails.of_eq (bigSep_congr fun k _ => ?_)
  exact (show (bigSep Finset.univ fun r : Fin 8 => (v10Loc d ↦[(outWin L k (BitVec.ofNat 32 r.val) (k1_off12_inb L k r)).view.set]{fullShare} TGT IX WC d : sProp 𝕄))
      = rowDoneV IX WC d L k from bigSep_univ_eq_bigSepL [(0 : Fin 8), 1, 2, 3, 4, 5, 6, 7] (by decide) (by decide) _).symm

set_option maxHeartbeats 8000000 in
theorem tile_bodyV (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hIX : ∀ j, (IX d j).toNat < 4096) :
    iprop(levAts (K (F := F)).L (K (F := F)).lev ∗ bkit WC d (cV L) (jV L)
        ∗ (hbmPieces IX WC d L (m (v10Loc d)) ∗ ∃ f, shLoc d (cV L) ↦[(shBlk L).view.set]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (cc1__body L (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1)
          fun _ => iprop((hbmPieces IX WC d L (TGT IX WC d) ∗ (shLoc d (cV L) ↦[(shBlk L).view.set]{qKeep} WC d) ∗ (shLoc d (cV L) ↦{qT (jL L)} WC d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold bkit hbmPieces
  iintro ⟨#Hlv, ⟨⟨%κ, #Hinv⟩, Htoks, #Hrch, Hat, Hcred⟩, ⟨⟨Hi, Hc, Hout⟩, %fsh, Hsh⟩, ⟨⟨⟨%fiv0, Hiv⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩⟩, Hbrest⟩, ⟨⟨Hd0, Hd1, Hd2, Hg0, Hg1, Hg2, Hg3, Hg4, Hg5, Hg6, Hg7, Ho0, Ho1, Ho2, Ho3, Ho4, Ho5, Ho6, Ho7, Hs0, Hs1⟩, Hsrest⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (pts_idx d L _)) $$ Hi
  ihave Hc' := (Entails.of_eq (pts_comb d L _ _)) $$ Hc
  ihave Hsh' := (Entails.of_eq (pts_sh d L _ _)) $$ Hsh
  rw [cc1__body_eq_skeleton]; unfold cc1__body_skel
  rw [k1_part6_eq_skeleton]; unfold k1_part6_skel
  -- the two copies, each waited for
  sl_exec
  -- the tile's rows of the shared table, written, at the table's contents; the index rows, landed
  ihave Hsh2 := (Entails.of_eq (pointsTo_congr (shBlk_written WC d L fsh (tile_bodyV.sl.dma0 WC d L) rfl))) $$ Hsh'
  ihave Hsh3 := (Entails.of_eq (pts_sh d L fullShare (WC d)).symm) $$ Hsh2
  ihave Hpays := (pays_intro WC d L) $$ Hsh3
  icases Hpays with ⟨Hkeep, Hpays⟩
  ihave Hiv2 := (Entails.of_eq (congrArg (fun f => ((ivV).view.loc (V d (cV L) (jV L)) ↦{fullShare} f : sProp 𝕄)) (idxv_written IX d L fiv0 (tile_bodyV.sl.dma0_1 IX d L) rfl))) $$ Hiv
  -- the barrier: a read share of the rows to every tile's round, one of every tile's rows from the tile's own
  rw [wp_bind]
  iapply (SparseCore.wp_subcoreBarrier 𝒱₀ none EB (bRd (F := F) WC) d (sc := cV L) (i := jV L) sc_bar0 (grid1.bound 1) hsub1 (L 1) rfl κ (fun _ => 0) (jV L).val
      (fun j => bRd_mem₀ WC d _ _ _) (fun _ => rfl) (bRd_expect WC d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim WC d L) $$ Hgot
  ihave Hall' := (Entails.of_eq (pts_shAll d L (qT (jL L)) (WC d))) $$ Hall
  -- eight read shares of the whole table, one per slot
  ihave Hspl := (Transfers.pointsTo_toks_split (qT (jL L)) 8) $$ Hall'
  icases Hspl with ⟨Hshrest, Hshs⟩
  ihave Hshs' := (Entails.of_eq (show (bigSep Finset.univ fun r : Fin 8 => ((shV).view.loc (V d (cV L) (jV L)) ↦{Transfers.shareTok (qT (jL L)) 8 r} (WC d : Buf (Elt F) (shLoc d (cV L))) : sProp 𝕄))
      = iprop(((shV).view.loc (V d (cV L) (jV L)) ↦{(Transfers.shareTok (qT (jL L)) 8 (0 : Fin 8))} (WC d : Buf (Elt F) (shLoc d (cV L)))) ∗ ((shV).view.loc (V d (cV L) (jV L)) ↦{(Transfers.shareTok (qT (jL L)) 8 (1 : Fin 8))} (WC d : Buf (Elt F) (shLoc d (cV L)))) ∗ ((shV).view.loc (V d (cV L) (jV L)) ↦{(Transfers.shareTok (qT (jL L)) 8 (2 : Fin 8))} (WC d : Buf (Elt F) (shLoc d (cV L)))) ∗ ((shV).view.loc (V d (cV L) (jV L)) ↦{(Transfers.shareTok (qT (jL L)) 8 (3 : Fin 8))} (WC d : Buf (Elt F) (shLoc d (cV L)))) ∗ ((shV).view.loc (V d (cV L) (jV L)) ↦{(Transfers.shareTok (qT (jL L)) 8 (4 : Fin 8))} (WC d : Buf (Elt F) (shLoc d (cV L)))) ∗ ((shV).view.loc (V d (cV L) (jV L)) ↦{(Transfers.shareTok (qT (jL L)) 8 (5 : Fin 8))} (WC d : Buf (Elt F) (shLoc d (cV L)))) ∗ ((shV).view.loc (V d (cV L) (jV L)) ↦{(Transfers.shareTok (qT (jL L)) 8 (6 : Fin 8))} (WC d : Buf (Elt F) (shLoc d (cV L)))) ∗ ((shV).view.loc (V d (cV L) (jV L)) ↦{(Transfers.shareTok (qT (jL L)) 8 (7 : Fin 8))} (WC d : Buf (Elt F) (shLoc d (cV L)))))
      from bigSep_univ_eq_bigSepL [(0 : Fin 8), 1, 2, 3, 4, 5, 6, 7] (by decide) (by decide) _)) $$ Hshs
  icases Hshs' with ⟨Hsh0, Hsh1, Hsh2, Hsh3, Hsh4, Hsh5, Hsh6, Hsh7⟩
  ihave Htodo := (todo_intro d L (m (v10Loc d))) $$ Hout
  -- the loop
  sl_for (invV IX WC d L O W (Transfers.shareTok (qT (jL L)) 8 (0 : Fin 8)) (Transfers.shareTok (qT (jL L)) 8 (1 : Fin 8)) (Transfers.shareTok (qT (jL L)) 8 (2 : Fin 8)) (Transfers.shareTok (qT (jL L)) 8 (3 : Fin 8)) (Transfers.shareTok (qT (jL L)) 8 (4 : Fin 8)) (Transfers.shareTok (qT (jL L)) 8 (5 : Fin 8)) (Transfers.shareTok (qT (jL L)) 8 (6 : Fin 8)) (Transfers.shareTok (qT (jL L)) 8 (7 : Fin 8)) (m (v10Loc d))) $$ [HO Hiv2 Hsh0 Hsh1 Hsh2 Hsh3 Hsh4 Hsh5 Hsh6 Hsh7 Hg0 Hg1 Hg2 Hg3 Hg4 Hg5 Hg6 Hg7 Hb0 Hb1 Hb2 Hb3 Hb4 Hb5 Hb6 Hb7 Ho0 Ho1 Ho2 Ho3 Ho4 Ho5 Ho6 Ho7 Htodo]
  · intro k acc
    exact stepV IX WC d L O W (Transfers.shareTok (qT (jL L)) 8 (0 : Fin 8)) (Transfers.shareTok (qT (jL L)) 8 (1 : Fin 8)) (Transfers.shareTok (qT (jL L)) 8 (2 : Fin 8)) (Transfers.shareTok (qT (jL L)) 8 (3 : Fin 8)) (Transfers.shareTok (qT (jL L)) 8 (4 : Fin 8)) (Transfers.shareTok (qT (jL L)) 8 (5 : Fin 8)) (Transfers.shareTok (qT (jL L)) 8 (6 : Fin 8)) (Transfers.shareTok (qT (jL L)) 8 (7 : Fin 8)) (m (v10Loc d)) k acc hIX _
  · unfold invV; rw [if_pos rfl]; unfold inv0 owesK common
    isplitl [HO]
    · iexists _; isplitr
      swap; · iexact HO
      ipureintro
      refine bound_insert (.inr rfl) (bound_insert (.inl rfl) (bound_insert (.inl rfl) fun p hp => .inl hp))
    sl_close
  iintro %acc HI
  ihave HI' := (Entails.of_eq (invV_end IX WC d L O W (Transfers.shareTok (qT (jL L)) 8 (0 : Fin 8)) (Transfers.shareTok (qT (jL L)) 8 (1 : Fin 8)) (Transfers.shareTok (qT (jL L)) 8 (2 : Fin 8)) (Transfers.shareTok (qT (jL L)) 8 (3 : Fin 8)) (Transfers.shareTok (qT (jL L)) 8 (4 : Fin 8)) (Transfers.shareTok (qT (jL L)) 8 (5 : Fin 8)) (Transfers.shareTok (qT (jL L)) 8 (6 : Fin 8)) (Transfers.shareTok (qT (jL L)) 8 (7 : Fin 8)) (m (v10Loc d)) acc)) $$ HI
  unfold owesK common flightsV flights
  icases HI' with ⟨⟨%W', %hW', HO⟩, ⟨-, Hiv, Hsh0, Hsh1, Hsh2, Hsh3, Hsh4, Hsh5, Hsh6, Hsh7, Hg0, Hg1, Hg2, Hg3, Hg4, Hg5, Hg6, Hg7⟩, ⟨%gb0, %gb1, %gb2, %gb3, %gb4, %gb5, %gb6, %gb7, Ho0, Hb0, Ho1, Hb1, Ho2, Hb2, Ho3, Hb3, Ho4, Hb4, Ho5, Hb5, Ho6, Hb6, Ho7, Hb7⟩, -, Hdone⟩
  -- the last trip's copies-out, collected
  sl_exec
  sl_step
  -- the last trip's slabs join the written ones: every slab of the tile at the target
  ihave Hdone' := (Entails.of_eq (done_stepV IX WC d L k1_t1_loop.trips kLast (by decide)).symm) $$ [Ho0_dst Ho1_dst Ho2_dst Ho3_dst Ho4_dst Ho5_dst Ho6_dst Ho7_dst Hdone]
  · isplitr [Hdone]
    swap; · iexact Hdone
    isplitl [Ho0_dst]; · iexact Ho0_dst
    isplitl [Ho1_dst]; · iexact Ho1_dst
    isplitl [Ho2_dst]; · iexact Ho2_dst
    isplitl [Ho3_dst]; · iexact Ho3_dst
    isplitl [Ho4_dst]; · iexact Ho4_dst
    isplitl [Ho5_dst]; · iexact Ho5_dst
    isplitl [Ho6_dst]; · iexact Ho6_dst
    iexact Ho7_dst
  ihave Hout' := (doneV_all IX WC d L) $$ Hdone'
  -- the eight read shares of the shared table and what was left of the tile's share: its share again
  ihave Hshs := (Entails.of_eq (show (bigSep Finset.univ fun r : Fin 8 => ((shV).view.loc (V d (cV L) (jV L)) ↦{Transfers.shareTok (qT (jL L)) 8 r} (WC d : Buf (Elt F) (shLoc d (cV L))) : sProp 𝕄))
      = iprop(((shV).view.loc (V d (cV L) (jV L)) ↦{(Transfers.shareTok (qT (jL L)) 8 (0 : Fin 8))} (WC d : Buf (Elt F) (shLoc d (cV L)))) ∗ ((shV).view.loc (V d (cV L) (jV L)) ↦{(Transfers.shareTok (qT (jL L)) 8 (1 : Fin 8))} (WC d : Buf (Elt F) (shLoc d (cV L)))) ∗ ((shV).view.loc (V d (cV L) (jV L)) ↦{(Transfers.shareTok (qT (jL L)) 8 (2 : Fin 8))} (WC d : Buf (Elt F) (shLoc d (cV L)))) ∗ ((shV).view.loc (V d (cV L) (jV L)) ↦{(Transfers.shareTok (qT (jL L)) 8 (3 : Fin 8))} (WC d : Buf (Elt F) (shLoc d (cV L)))) ∗ ((shV).view.loc (V d (cV L) (jV L)) ↦{(Transfers.shareTok (qT (jL L)) 8 (4 : Fin 8))} (WC d : Buf (Elt F) (shLoc d (cV L)))) ∗ ((shV).view.loc (V d (cV L) (jV L)) ↦{(Transfers.shareTok (qT (jL L)) 8 (5 : Fin 8))} (WC d : Buf (Elt F) (shLoc d (cV L)))) ∗ ((shV).view.loc (V d (cV L) (jV L)) ↦{(Transfers.shareTok (qT (jL L)) 8 (6 : Fin 8))} (WC d : Buf (Elt F) (shLoc d (cV L)))) ∗ ((shV).view.loc (V d (cV L) (jV L)) ↦{(Transfers.shareTok (qT (jL L)) 8 (7 : Fin 8))} (WC d : Buf (Elt F) (shLoc d (cV L)))))
      from bigSep_univ_eq_bigSepL [(0 : Fin 8), 1, 2, 3, 4, 5, 6, 7] (by decide) (by decide) _).symm) $$ [Hsh0 Hsh1 Hsh2 Hsh3 Hsh4 Hsh5 Hsh6 Hsh7]
  · isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    isplitl [Hsh6]; · iexact Hsh6
    iexact Hsh7
  ihave Hall2 := (Transfers.pointsTo_toks_join (qT (jL L)) 8) $$ [Hshrest Hshs]
  · isplitl [Hshrest]; · iexact Hshrest
    iexact Hshs
  ihave Hall3 := (Entails.of_eq (pts_shAll d L (qT (jL L)) (WC d)).symm) $$ Hall2
  ihave Hi2 := (Entails.of_eq (pts_idx d L (IX d)).symm) $$ Hi'
  ihave Hc2 := (Entails.of_eq (pts_comb d L (qC (cL L)) (WC d)).symm) $$ Hc'
  isplitl [Hi2 Hc2 Hout' Hkeep Hall3]
  · isplitl [Hi2 Hc2 Hout']
    · isplitl [Hi2]; · iexact Hi2
      isplitl [Hc2]; · iexact Hc2
      iexact Hout'
    isplitl [Hkeep]; · iexact Hkeep
    iexact Hall3
  isplitl [Hiv Hb0 Hb1 Hb2 Hb3 Hb4 Hb5 Hb6 Hb7 Hbrest]
  · isplitl [Hiv Hb0 Hb1 Hb2 Hb3 Hb4 Hb5 Hb6 Hb7]
    · isplitl [Hiv]; · iexists _; iexact Hiv
      isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    iexact Hbrest
  isplitl [Hd0 Hd1 Hd2 Hg0 Hg1 Hg2 Hg3 Hg4 Hg5 Hg6 Hg7 Ho0 Ho1 Ho2 Ho3 Ho4 Ho5 Ho6 Ho7 Hs0 Hs1 Hsrest]
  · isplitl [Hd0 Hd1 Hd2 Hg0 Hg1 Hg2 Hg3 Hg4 Hg5 Hg6 Hg7 Ho0 Ho1 Ho2 Ho3 Ho4 Ho5 Ho6 Ho7 Hs0 Hs1]
    · isplitl [Hd0]; · iexact Hd0
      isplitl [Hd1]; · iexact Hd1
      isplitl [Hd2]; · iexact Hd2
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Hs0]; · iexact Hs0
      iexact Hs1
    iexact Hsrest
  iexists _; isplitr
  swap; · iexact HO
  ipureintro
  repeat' (first | exact hW' | refine bound_insert (.inl rfl) ?_)

end Cert.Kernel.HandV

end
-- ==== Proof.K.SplitV.lean ====
/-
  How a SparseCore's operands split among its sixteen tiles and gather again, with the result's slabs at the target, and
  a tile's task as the obligation the launch asks.
-/
import proofs.«205614_g54924041781483_cont_9to1_m_645_25_alg».proof.Proof.K.TileV

noncomputable section

namespace Cert.Kernel.HandV

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idxV" => (Memref.whole Cert.Kernel.main_v8_scv : Memref Cert.Kernel.sig Kind.scVector Space.hbm Cert.Kernel.S4096x50 EltTy.i32)
local notation "combV" => (Memref.whole Cert.Kernel.main_v9_scv : Memref Cert.Kernel.sig Kind.scVector Space.hbm Cert.Kernel.S4096x128 EltTy.f32)
local notation "outV" => (Memref.whole Cert.Kernel.main_v10_scv : Memref Cert.Kernel.sig Kind.scVector Space.hbm Cert.Kernel.S4096x50x128 EltTy.f32)
local notation "shV" => (Memref.whole Cert.Kernel.cc1_scratch1 : Memref Cert.Kernel.sig Kind.scVector Space.shared Cert.Kernel.S4096x128 EltTy.f32)
local notation "ivV" => (Memref.whole Cert.Kernel.cc1_scratch0 : Memref Cert.Kernel.sig Kind.scVector Space.vmem Cert.Kernel.S128x50 EltTy.i32)

variable (m : (ℓ : Loc nD τ sig) → Buf (Elt F) ℓ)
variable (IX : (d : Dev nD) → Buf (Elt F) (v8Loc d)) (WC : (d : Dev nD) → Buf (Elt F) (v9Loc d))
variable [FloatOps F]

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The call's tiles of SparseCore `c` are the sixteen grid points of its row. -/
theorem bigSep_tiles (c : Fin ((K (F := F)).nCore 0)) (Φ : grid1.Coords → sProp 𝕄) :
    (bigSep Finset.univ fun i : Fin ((K (F := F)).nSub 0) => Φ (callL c i))
      = bigSep Finset.univ fun s : Fin (grid1.bound 1) => Φ (coordsV (Fin.cast nSC_eq (coreOf c)) s) :=
  bigSep_congr fun _ _ => congrArg Φ (by unfold callL tileOf; congr 1)

omit [FloatOps F] in
theorem bigSep_tasks16 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplitV : (K (F := F)).VecSplit (PV m IX WC) 0 := by
  intro d c
  show iprop((bigSep Finset.univ fun i : Fin ((K (F := F)).nSub 0) => hbmPieces IX WC d (callL c i) (m (v10Loc d))) ∗ ownBufs (S d (coreOf c)))
    ⊢ |={Set.univ}=> iprop(
      (bigSep Finset.univ fun i : Fin ((K (F := F)).nSub 0) =>
        iprop(hbmPieces IX WC d (callL c i) (m (v10Loc d)) ∗ ∃ f, shLoc d (coreOf c) ↦[(shBlk (callL c i)).view.set]{fullShare} f))
      ∗ ((bigSep Finset.univ fun i : Fin ((K (F := F)).nSub 0) =>
            iprop(hbmPieces IX WC d (callL c i) (TGT IX WC d) ∗ shPiece WC d (coreOf c) ((K (F := F)).sub 0 i) qKeep
              ∗ (shLoc d (coreOf c) ↦{qT (Fin.cast nSub_zero i)} WC d)))
          -∗ iprop((bigSep Finset.univ fun i : Fin ((K (F := F)).nSub 0) => hbmPieces IX WC d (callL c i) (TGT IX WC d)) ∗ ownBufs (S d (coreOf c)))))
  rw [ownBufs_S]
  iintro ⟨Hst, ⟨%fsh, Hsh⟩, Hrest⟩; imodintro
  isplitl [Hst Hsh]
  · rw [bigSep_sep' (Φ := fun i : Fin ((K (F := F)).nSub 0) => hbmPieces IX WC d (callL c i) (m (v10Loc d)))
      (Ψ := fun i : Fin ((K (F := F)).nSub 0) => iprop(∃ f, shLoc d (coreOf c) ↦[(shBlk (callL c i)).view.set]{fullShare} f))]
    isplitl [Hst]; · iexact Hst
    rw [bigSep_tiles (F := F) c (fun L => iprop(∃ f, shLoc d (coreOf c) ↦[(shBlk L).view.set]{fullShare} f))]
    ihave Hsh' := (Entails.of_eq (sh_blocks d (coreOf c) (Fin.cast nSC_eq (coreOf c)) fullShare fsh)) $$ Hsh
    iapply (SparseCore.ent (bigSep_mono (Φ := fun s : Fin (grid1.bound 1) => (shLoc d (coreOf c) ↦[(shBlk (coordsV (Fin.cast nSC_eq (coreOf c)) s)).view.set]{fullShare} fsh : sProp 𝕄))
      (Ψ := fun s => iprop(∃ f, shLoc d (coreOf c) ↦[(shBlk (coordsV (Fin.cast nSC_eq (coreOf c)) s)).view.set]{fullShare} f))
      fun s _ => BI.BIClass.exists_intro (Φ := fun f => (shLoc d (coreOf c) ↦[(shBlk (coordsV (Fin.cast nSC_eq (coreOf c)) s)).view.set]{fullShare} f : sProp 𝕄)) fsh))
    iexact Hsh'
  iintro Htd
  ihave Htd' := (Entails.of_eq (bigSep_sep' (s := Finset.univ) (Φ := fun i : Fin ((K (F := F)).nSub 0) => hbmPieces IX WC d (callL c i) (TGT IX WC d))
      (Ψ := fun i : Fin ((K (F := F)).nSub 0) => iprop(shPiece WC d (coreOf c) ((K (F := F)).sub 0 i) qKeep ∗ (shLoc d (coreOf c) ↦{qT (Fin.cast nSub_zero i)} WC d))))) $$ Htd
  icases Htd' with ⟨Hdn, Hsh2⟩
  ihave Hsh3 := (Entails.of_eq (bigSep_sep' (s := Finset.univ) (Φ := fun i : Fin ((K (F := F)).nSub 0) => shPiece WC d (coreOf c) ((K (F := F)).sub 0 i) qKeep)
      (Ψ := fun i : Fin ((K (F := F)).nSub 0) => (shLoc d (coreOf c) ↦{qT (Fin.cast nSub_zero i)} WC d : sProp 𝕄)))) $$ Hsh2
  icases Hsh3 with ⟨Hkeep, Htoks⟩
  isplitl [Hdn]; · iexact Hdn
  isplitr [Hrest]
  swap; · iexact Hrest
  iexists (WC d)
  -- what the writers kept of their rows is the table at what they kept; with every tile's read share, the table whole
  ihave Hkeep' := (Entails.of_eq ((bigSep_tiles (F := F) c (fun L => (shLoc d (coreOf c) ↦[(shBlk L).view.set]{qKeep} WC d : sProp 𝕄))).trans
    (sh_blocks d (coreOf c) (Fin.cast nSC_eq (coreOf c)) qKeep (WC d)).symm)) $$ Hkeep
  ihave Htoks' := (Entails.of_eq (bigSep_tasks16 (F := F) (fun j : Fin 16 => (shLoc d (coreOf c) ↦{qT j} WC d : sProp 𝕄)))) $$ Htoks
  iapply (Transfers.pointsTo_toks_join fullShare 16)
  isplitl [Hkeep']; · iexact Hkeep'
  iexact Htoks'

/-! ## The obligation -/

theorem defs₀_vector (c : Fin τ.nSC) (s : Fin τ.nSub) :
    defs₀ (F := F) (.scVector c s) 1 ()
      = SparseCore.onTile hcore1 hsub1 (fun c s => cc1__body (coordsV c s) (Memref.whole main_v8_scv) (Memref.isWhole_whole _) (Memref.whole main_v9_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scoped0 cc1_scoped1) ⟨⟩ c s := rfl

set_option maxRecDepth 16384 in
set_option maxHeartbeats 4000000 in
theorem tileOblV (hF : (K (F := F)).Facts) (hIX : ∀ d j, (IX d j).toNat < 4096) : (K (F := F)).TileObl (D (F := F)) 𝒱 (PV m IX WC) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_bodyV m IX WC d (coordsV ⟨_, hci.1⟩ ⟨_, hci.2⟩) hF O W hO hOlev (hIX d)

end Cert.Kernel.HandV

end
-- ==== Proof.WordFacts.lean ====
/-
  Word arithmetic behind the two one-hot matrices. On a 32-bit word `w` whose value is below 4096 (so non-negative as a
  signed number), signed division and remainder by 64 are the unsigned ones; the sign corrections the floor-division
  and floor-remainder sequences add never fire (a non-negative dividend and a positive divisor need none), so the
  sequences give `w / 64` and `w % 64`. A comparison of two words, widened and converted to a number, is `1` where
  they are equal and `0` elsewhere.
-/
import Idealize.ShloMosaic.PureOps
import Idealize.ShloMosaic.Lib.ValueIdx

noncomputable section

namespace Cert.KernelIdeal.HandValue

open Idealize.ShloMosaic Idealize.ShloMosaic.ValueIdx

/-- Floor division by 64 as a sequence of word operations: the truncated quotient, less one where the signs of
    dividend and divisor differ and the remainder is not zero. -/
def floorDivW (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- Floor remainder by `n` as a sequence of word operations: the truncated remainder, plus `n` where it is not zero
    and its sign differs from the divisor's. -/
def floorModW (n w : BitVec 32) : BitVec 32 :=
  Scalar.select
    (IntOp.andi (IntOp.xori (IntOp.cmpi .slt (IntOp.remsi .vector w n) 0#32) (Scalar.cmpi .slt n 0#32))
      (IntOp.cmpi .ne (IntOp.remsi .vector w n) 0#32))
    (IntOp.addi (IntOp.remsi .vector w n) n)
    (IntOp.remsi .vector w n)

/-- A word below 4096 has its sign bit clear. -/
theorem msb_of_lt {w : BitVec 32} (hw : w.toNat < 4096) : w.msb = false :=
  BitVec.msb_eq_false_iff_two_mul_lt.2 (by omega)

/-- Signed division of a word below 4096 by 64 is the unsigned one. -/
theorem divsi_64 {w : BitVec 32} (hw : w.toNat < 4096) : IntOp.divsi .vector w 64#32 = w / 64#32 := by
  unfold IntOp.divsi
  rw [if_neg (by rintro (h | ⟨-, h⟩) <;> exact absurd h (by decide)), BitVec.sdiv_eq, msb_of_lt hw]
  rfl

/-- Signed remainder of a word below 4096 by 64 is the unsigned one. -/
theorem remsi_64 {w : BitVec 32} (hw : w.toNat < 4096) : IntOp.remsi .vector w 64#32 = w % 64#32 := by
  unfold IntOp.remsi
  rw [if_neg (by rintro (h | ⟨-, h⟩) <;> exact absurd h (by decide)), BitVec.srem_eq, msb_of_lt hw]
  rfl

theorem udiv_64 (w : BitVec 32) : w / 64#32 = BitVec.ofNat 32 (w.toNat / 64) :=
  BitVec.eq_of_toNat_eq (by
    rw [BitVec.toNat_udiv, BitVec.toNat_ofNat]
    have := w.isLt
    show w.toNat / 64 = (w.toNat / 64) % 2 ^ 32
    omega)

theorem umod_64 (w : BitVec 32) : w % 64#32 = BitVec.ofNat 32 (w.toNat % 64) :=
  BitVec.eq_of_toNat_eq (by
    rw [BitVec.toNat_umod, BitVec.toNat_ofNat]
    show w.toNat % 64 = (w.toNat % 64) % 2 ^ 32
    omega)

/-- A conjunction of one-bit words whose first is zero is zero. -/
theorem andi_zero_left (x : BitVec 1) : IntOp.andi 0#1 x = 0#1 := by
  unfold IntOp.andi; simp

/-- A word with its sign bit clear is not below zero as a signed number. -/
theorem cmpi_slt_zero {w : BitVec 32} (hm : w.msb = false) : IntOp.cmpi .slt w 0#32 = 0#1 := by
  show BitVec.ofBool (w.slt 0#32) = 0#1
  have e0 : (0#32).toInt = 0 := by decide
  have h : ¬ (w.toInt < (0#32).toInt) := by rw [e0, BitVec.toInt_eq_toNat_of_msb hm]; omega
  rw [BitVec.slt_eq_decide, decide_eq_false h]
  rfl

/-- A non-zero word with its sign bit clear is above zero as a signed number. -/
theorem cmpi_sgt_zero {w : BitVec 32} (hm : w.msb = false) (h0 : w.toNat ≠ 0) : IntOp.cmpi .sgt w 0#32 = 1#1 := by
  show BitVec.ofBool ((0#32).slt w) = 1#1
  have e0 : (0#32).toInt = 0 := by decide
  have h : (0#32).toInt < w.toInt := by rw [e0, BitVec.toInt_eq_toNat_of_msb hm]; omega
  rw [BitVec.slt_eq_decide, decide_eq_true h]
  rfl

/-- The floor-division sequence on a word below 4096 gives its value divided by 64. -/
theorem floorDivW_eq {w : BitVec 32} (hw : w.toNat < 4096) : floorDivW w = BitVec.ofNat 32 (w.toNat / 64) := by
  have hm := msb_of_lt hw
  unfold floorDivW
  rw [divsi_64 hw, remsi_64 hw]
  by_cases h0 : w.toNat = 0
  · have e : w = 0#32 := BitVec.eq_of_toNat_eq (by simpa using h0)
    subst e
    decide
  · rw [cmpi_sgt_zero hm h0, cmpi_slt_zero hm]
    have e : IntOp.cmpi .ne (IntOp.subi ((1#1).setWidth 32) ((0#1).setWidth 32))
        (Scalar.subi (Scalar.extui (Scalar.cmpi .sgt 64#32 0#32)) (Scalar.extui (Scalar.cmpi .slt 64#32 0#32))) = 0#1 := by decide
    rw [e, andi_zero_left, select_zero, udiv_64]

/-- The floor-remainder sequence by 64 on a word below 4096 gives its value modulo 64. -/
theorem floorModW_eq {w : BitVec 32} (hw : w.toNat < 4096) : floorModW 64#32 w = BitVec.ofNat 32 (w.toNat % 64) := by
  unfold floorModW
  rw [remsi_64 hw]
  have hm : (w % 64#32).msb = false := by
    refine BitVec.msb_eq_false_iff_two_mul_lt.2 ?_
    rw [BitVec.toNat_umod]
    show 2 * (w.toNat % 64) < 2 ^ 32
    omega
  rw [cmpi_slt_zero hm]
  have e : IntOp.xori 0#1 (Scalar.cmpi .slt 64#32 0#32) = 0#1 := by decide
  rw [e, andi_zero_left, select_zero, umod_64]

/-- The divisor the remainder sequence uses (64, or 1 were it zero) is 64. -/
theorem divisor_64 : Scalar.select (Scalar.cmpi .eq 64#32 0#32) 1#32 64#32 = 64#32 := by decide

/-- Two numbers below `2 ^ 32` give the same word exactly when they are equal. -/
theorem ofNat_eq_iff {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- A comparison of two words for equality, widened to 32 bits and converted to an extended real: `1` where they are
    equal, `0` elsewhere. -/
theorem sitofp_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have e : (IntOp.cmpi .eq x x).setWidth 32 = 1#32 := by
      show (BitVec.ofBool (x == x)).setWidth 32 = 1#32
      rw [beq_self_eq_true]
      decide
    rw [e]
    norm_num
  · rw [if_neg h]
    have e : (IntOp.cmpi .eq x y).setWidth 32 = 0#32 := by
      show (BitVec.ofBool (x == y)).setWidth 32 = 0#32
      rw [beq_eq_false_iff_ne.2 h]
      decide
    rw [e]
    norm_num

end Cert.KernelIdeal.HandValue

end
-- ==== Proof.CombValue.lean ====
/-
  The combined table the first call writes, and the result read off it, at the exact values.

  The first call multiplies two one-hot matrices with the two tables. Entry `(v, k)` of the row one-hot matrix is `1`
  where `v / 64 = k` and `0` elsewhere, of the column one-hot matrix where `v % 64 = k`: the position words are below
  4096, so the floor-division and floor-remainder sequences give `v / 64` and `v % 64`. A product into a zero accumulator is the
  plain sum `∑ k, onehot(v, k) · T(k, j)`; every term but the selected one is `0 · T(k, j) = 0`, and the selected one is
  `1 · T(r, j) = T(r, j)`. So row `v` of the combined table is row `v / 64` of the row table beside row `v % 64` of the
  column table — the combined table of the specification — and the result, the combined table looked up at the combined
  index, is the specification's result.
-/
import proofs.«205614_g54924041781483_cont_9to1_m_645_25_alg».proof.Proof.KI.Terms
import proofs.«205614_g54924041781483_cont_9to1_m_645_25_alg».proof.Proof.WordFacts
import Idealize.ShloMosaic.Lib.ValueIdx
import Idealize.ShloMosaic.PureOps.Ideal.Laws

noncomputable section

namespace Cert.KernelIdeal.HandValue

open Idealize.ShloMosaic Idealize.ShloMosaic.ValueIdx Cert.KernelIdeal Cert.KernelIdeal.Gen

/-! ## The position words -/

/-- The row position of entry `(v, k)`, as a word. -/
theorem iota0_apply (v : Fin 4096) (k : Fin 64) :
    iota .tc S4096x64 32 [0] Facts₀.iota_S4096x64_d0_w32 (ix2 v k) = BitVec.ofNat 32 v.val := by
  show BitVec.ofNat 32 (0 * 4096 + v.val) = _
  rw [Nat.zero_mul, Nat.zero_add]

/-- The column position of entry `(v, k)`, as a word. -/
theorem iota1_apply (v : Fin 4096) (k : Fin 64) :
    iota .tc S4096x64 32 [1] Facts₀.iota_S4096x64_d1_w32 (ix2 v k) = BitVec.ofNat 32 k.val := by
  show BitVec.ofNat 32 (0 * 64 + k.val) = _
  rw [Nat.zero_mul, Nat.zero_add]

/-- A number below 4096 is the value of its word. -/
theorem toNat_ofNat_of_lt {n : Nat} (h : n < 4096) : (BitVec.ofNat 32 n).toNat = n := by
  rw [BitVec.toNat_ofNat]
  exact Nat.mod_eq_of_lt (by omega)

/-! ## The two one-hot matrices at an entry -/

/-- Entry `(v, k)` of the row one-hot matrix: `1` where `v / 64 = k`, else `0`. -/
theorem rowOneHot_apply (v : Fin 4096) (k : Fin 64) :
    k0_pay3 (F := Ideal) (ix2 v k) = if v.val / 64 = k.val then (1 : EReal) else 0 := by
  have e : k0_pay3 (F := Ideal) (ix2 v k)
      = FloatOps.sitofp (F := Ideal) .f32 ((IntOp.cmpi .eq
          (floorDivW (iota .tc S4096x64 32 [0] Facts₀.iota_S4096x64_d0_w32 (ix2 v k)))
          (iota .tc S4096x64 32 [1] Facts₀.iota_S4096x64_d1_w32 (ix2 v k))).setWidth 32) := rfl
  have hv : (BitVec.ofNat 32 v.val).toNat < 4096 := by rw [toNat_ofNat_of_lt v.isLt]; exact v.isLt
  rw [e, iota0_apply, iota1_apply, floorDivW_eq hv, sitofp_cmpi_eq, toNat_ofNat_of_lt v.isLt]
  have := v.isLt; have := k.isLt
  exact if_congr (ofNat_eq_iff (by omega) (by omega)) rfl rfl

/-- Entry `(v, k)` of the column one-hot matrix, converted: `1` where `v % 64 = k`, else `0`. -/
theorem colOneHot_apply (v : Fin 4096) (k : Fin 64) :
    (sitofp (F := Ideal) .f32 k0_pay4 : FVec Ideal S4096x64 .f32) (ix2 v k) = if v.val % 64 = k.val then (1 : EReal) else 0 := by
  have e : (sitofp (F := Ideal) .f32 k0_pay4 : FVec Ideal S4096x64 .f32) (ix2 v k)
      = FloatOps.sitofp (F := Ideal) .f32 ((IntOp.cmpi .eq
          (floorModW (Scalar.select (Scalar.cmpi .eq 64#32 0#32) 1#32 64#32) (iota .tc S4096x64 32 [0] Facts₀.iota_S4096x64_d0_w32 (ix2 v k)))
          (iota .tc S4096x64 32 [1] Facts₀.iota_S4096x64_d1_w32 (ix2 v k))).setWidth 32) := rfl
  have hv : (BitVec.ofNat 32 v.val).toNat < 4096 := by rw [toNat_ofNat_of_lt v.isLt]; exact v.isLt
  rw [e, iota0_apply, iota1_apply, divisor_64, floorModW_eq hv, sitofp_cmpi_eq, toNat_ofNat_of_lt v.isLt]
  have := v.isLt; have := k.isLt
  exact if_congr (ofNat_eq_iff (by omega) (by omega)) rfl rfl

/-! ## A product with a table, entry by entry -/

/-- A `[4096, 64]` by `[64, 64]` product into a zero accumulator at entry `(v, j)`: the sum over the shared axis. -/
theorem matmul_zero_apply (A : FVec Ideal S4096x64 .f32) (T : FVec Ideal S64x64 .f32) (v : Fin 4096) (j : Fin 64) :
    matmul dot_S4096x64_S64x64_S4096x64_1_0_0_1_n_n none A T (constant S4096x64 .f32 0x00000000#32) (ix2 v j)
      = ∑ k : Fin 64, A (ix2 v k) * T (ix2 k j) := by
  show FloatOps.matmul dot_S4096x64_S64x64_S4096x64_1_0_0_1_n_n none A T (constant S4096x64 .f32 0x00000000#32) (ix2 v j) = _
  rw [Ideal.matmul_constant_zero_apply,
    ← Equiv.sum_comp (contrEquiv1 dot_S4096x64_S64x64_S4096x64_1_0_0_1_n_n 64 rfl rfl).symm]
  refine Finset.sum_congr rfl fun k _ => ?_
  have hl : dot_S4096x64_S64x64_S4096x64_1_0_0_1_n_n.lhsIdx (ix2 v j)
      ((contrEquiv1 dot_S4096x64_S64x64_S4096x64_1_0_0_1_n_n 64 rfl rfl).symm k) = ix2 v k := by
    funext a
    match a with
    | ⟨0, _⟩ => exact Fin.ext rfl
    | ⟨1, _⟩ =>
      refine Fin.ext ?_
      refine (dot_S4096x64_S64x64_S4096x64_1_0_0_1_n_n.lhsIdx_val_of_single (cl := (1 : Fin 2)) rfl _ _).trans ?_
      exact contrEquiv1_symm_val _ 64 rfl rfl k
  have hr : dot_S4096x64_S64x64_S4096x64_1_0_0_1_n_n.rhsIdx (ix2 v j)
      ((contrEquiv1 dot_S4096x64_S64x64_S4096x64_1_0_0_1_n_n 64 rfl rfl).symm k) = ix2 k j := by
    funext a
    match a with
    | ⟨0, _⟩ =>
      refine Fin.ext ?_
      refine (dot_S4096x64_S64x64_S4096x64_1_0_0_1_n_n.rhsIdx_val_of_single (cr := (0 : Fin 2)) rfl _ _).trans ?_
      exact contrEquiv1_symm_val _ 64 rfl rfl k
    | ⟨1, _⟩ => exact Fin.ext rfl
  rw [hl, hr]

/-- A one-hot row times a table is the selected row: all terms but one are `0 · T(k, j) = 0`, and that one is
    `1 · T(r, j)`. -/
theorem oneHot_sum (T : S64x64.Idx → EReal) (r : Nat) (hr : r < 64) (j : Fin 64) :
    ∑ k : Fin 64, (if r = k.val then (1 : EReal) else 0) * T (ix2 k j) = T (ix2 (⟨r, hr⟩ : Fin 64) j) := by
  rw [Finset.sum_eq_single (⟨r, hr⟩ : Fin 64)]
  · rw [if_pos rfl, one_mul]
  · intro k _ hk
    rw [if_neg (fun h => hk (Fin.ext h.symm)), zero_mul]
  · intro h
    exact absurd (Finset.mem_univ _) h

/-! ## The combined table and the result -/

/-- The combined table the first call writes is the specification's. -/
theorem combF_eq (rowT colT : FVec Ideal Cert.KernelIdeal.S64x64 .f32) (hr : ∀ i, ∃ x : ℝ, rowT i = (x : EReal)) (hc : ∀ i, ∃ x : ℝ, colT i = (x : EReal)) :
    Cert.KernelIdeal.Hand.combF (F := Ideal) rowT colT = Cert.Spec.comb rowT colT := by
  funext i
  unfold Hand.combF Cert.Spec.comb Cert.Spec.combAt
  by_cases h : (i 1).val < 64
  · rw [dif_pos h, dif_pos h]
    unfold k0_pay1
    rw [matmul_zero_apply]
    simp only [rowOneHot_apply]
    exact oneHot_sum rowT _ _ _
  · rw [dif_neg h, dif_neg h]
    unfold k0_pay2
    rw [matmul_zero_apply]
    simp only [colOneHot_apply]
    exact oneHot_sum colT _ _ _

/-- The kernel's result, the combined table looked up at the combined index, is the specification's result. -/
theorem KOut_eq (a0 : IVec Cert.KernelIdeal.S4096x50x2 32) (rowT colT : FVec Ideal Cert.KernelIdeal.S64x64 .f32) (hr : ∀ i, ∃ x : ℝ, rowT i = (x : EReal)) (hc : ∀ i, ∃ x : ℝ, colT i = (x : EReal)) :
    Cert.KernelIdeal.Hand.KOut (F := Ideal) a0 rowT colT = Cert.Spec.out a0 rowT colT := by
  funext i
  unfold Hand.KOut
  rw [combF_eq rowT colT hr hc]
  exact Cert.Spec.comb_lookup a0 rowT colT (i 0) (i 1) (i 2)

end Cert.KernelIdeal.HandValue

end
-- ==== Proof.PreFacts.lean ====
/-
  The precondition gives finiteness: it states, for each of the two tables, that every entry's absolute value is below
  `+∞`, conjoined over all entries. An entry whose absolute value `max x (-x)` is below `+∞` is neither `+∞` nor `-∞`,
  so it is a real number.
-/
import proofs.«205614_g54924041781483_cont_9to1_m_645_25_alg».proof.Defs
import proofs.«205614_g54924041781483_cont_9to1_m_645_25_alg».proof.Proof.Gen.Pre_input_domain
import Idealize.ShloMosaic.Lib.ValueIdx
import Idealize.ShloMosaic.Lib.Pipeline.Value
import Idealize.ShloMosaic.Lib.ReduceAll
import Idealize.ShloMosaic.Lib.Affine

noncomputable section

namespace Cert.KernelIdeal.HandValue

open Idealize.ShloMosaic Idealize.ShloMosaic.ValueIdx

/-- The scalar shape has one index. -/
instance subsingleton_scalarIdx : Subsingleton Cert.Pre_input_domain.S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- One table's conjunct of the precondition, entry by entry. -/
theorem real_of_all_lt_inf (a : FVec Ideal Cert.Pre_input_domain.S64x64 .f32)
    (hb : Cert.Pre_input_domain.S_.BroadcastsInDim Cert.Pre_input_domain.S64x64 (![] : Fin 0 → Fin Cert.Pre_input_domain.S64x64.rank))
    (hr : Cert.Pre_input_domain.S64x64.ReducesTo [0, 1] Cert.Pre_input_domain.S_) (hu : 0 < Cert.Pre_input_domain.S_.numel)
    (e : Host.reduce IntOp.andi (cmpf .olt (Host.absf a) (broadcastInDim Cert.Pre_input_domain.S64x64 ![] hb (constant (F := Ideal) Cert.Pre_input_domain.S_ .f32 0x7F800000#32)))
        (constantI Cert.Pre_input_domain.S_ 1 1#1) hr hu ix0 = 1#1)
    (i : Cert.Pre_input_domain.S64x64.Idx) : ∃ r : ℝ, a i = (r : EReal) := by
  have h1 := Host.reduce_andi_all _ _ hr hu ix0 e i
  have h2 : broadcastInDim Cert.Pre_input_domain.S64x64 ![] hb (constant (F := Ideal) Cert.Pre_input_domain.S_ .f32 0x7F800000#32) i
      = Ideal.ofBits .f32 0x7F800000#32 :=
    broadcastInDim_apply _ hb _ i ix0 (fun d => d.elim0)
  have h3 : Ideal.cmp .olt (max (a i) (-(a i))) (broadcastInDim Cert.Pre_input_domain.S64x64 ![] hb (constant (F := Ideal) Cert.Pre_input_domain.S_ .f32 0x7F800000#32) i) = 1#1 := h1
  rw [h2, ofBits_inf] at h3
  refine real_of_abs_lt_top (a i) ?_
  by_contra hn
  simp [Ideal.cmp, hn] at h3

/-- Under the precondition every entry of the two tables is a real number. -/
theorem finite_of_pre (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  have h1 := congrFun (h c) ix0
  dsimp only [Cert.Pre_input_domain.fn] at h1
  obtain ⟨h8, -⟩ := IntOp.andi_eq_one.1 h1
  obtain ⟨h3, h7⟩ := IntOp.andi_eq_one.1 h8
  exact ⟨fun i => real_of_all_lt_inf _ _ _ _ h3 i, fun i => real_of_all_lt_inf _ _ _ _ h7 i⟩

end Cert.KernelIdeal.HandValue

end
-- ==== Proof.RefRun.lean ====
/-
  The reference program as one straight line of host operations, and its run.

  The program slices the two coordinate columns out of the coordinate array, clamps each into [0, 63], looks the rows of the
  two tables up at the clamped coordinates, and lays the two lookups side by side. It is printed through three functions it
  calls: the clamp (a maximum with a broadcast lower bound, then a minimum with a broadcast upper bound), the row lookup
  (a negative index has the table's height added; the rows are gathered; where the index lies outside the table a constant
  is written instead) and, inside the lookup, the select that applies the negative-index rule. Calling a function executes
  its body on the operands, so the program is the list below: sixty-seven operations, each callee's operations written at
  its call site over the buffers that call names. Every weakly fair execution of such a line terminates with each buffer at
  the fold of the operations' results over the contents the run started from.
-/
import proofs.«205614_g54924041781483_cont_9to1_m_645_25_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The program's sixty-seven operations, in order: the first column's slice and its clamp (operations 1 to 10), the second
    column's (11 to 20), the lookup in the first table (21 to 43), the lookup in the second (44 to 66), the concatenation. -/
abbrev ops : List (HloOp τ sig (Elt F)) :=
  [ StableHlo.unary main_arg0 main_v0 ((extractStridedSlice S4096x50x1 ![0, 0, 0] · slices_S4096x50x2_S4096x50x1_0_0_0) : (⟨S4096x50x2, .i32⟩ : BufTy).Contents (Elt F) → (⟨S4096x50x1, .i32⟩ : BufTy).Contents (Elt F)),
    StableHlo.reshape main_v0 main_v1 rfl shapeCasts_S4096x50x1_S4096x50,
    StableHlo.nullary main_c (constantI S_ 32 0#32),
    StableHlo.nullary main_c_0 (constantI S_ 32 63#32),
    StableHlo.TRef.unary (TRef.of main_c : TRef sig ⟨S_, .i32⟩) main_call0.v0 id,
    StableHlo.TRef.unary main_call0.v0 main_call0.v1 (broadcastInDim S4096x50 ![] bcast_S_S4096x50),
    StableHlo.TRef.binary main_call0.v1 (TRef.of main_v1 : TRef sig ⟨S4096x50, .i32⟩) main_call0.v2 maxsi,
    StableHlo.TRef.unary (TRef.of main_c_0 : TRef sig ⟨S_, .i32⟩) main_call0.v3 id,
    StableHlo.TRef.unary main_call0.v3 main_call0.v4 (broadcastInDim S4096x50 ![] bcast_S_S4096x50),
    StableHlo.TRef.binary main_call0.v4 main_call0.v2 main_call0.v5 minsi,
    StableHlo.unary main_arg0 main_v3 ((extractStridedSlice S4096x50x1 ![0, 0, 1] · slices_S4096x50x2_S4096x50x1_0_0_1) : (⟨S4096x50x2, .i32⟩ : BufTy).Contents (Elt F) → (⟨S4096x50x1, .i32⟩ : BufTy).Contents (Elt F)),
    StableHlo.reshape main_v3 main_v4 rfl shapeCasts_S4096x50x1_S4096x50,
    StableHlo.nullary main_c_1 (constantI S_ 32 0#32),
    StableHlo.nullary main_c_2 (constantI S_ 32 63#32),
    StableHlo.TRef.unary (TRef.of main_c_1 : TRef sig ⟨S_, .i32⟩) main_call1.v0 id,
    StableHlo.TRef.unary main_call1.v0 main_call1.v1 (broadcastInDim S4096x50 ![] bcast_S_S4096x50),
    StableHlo.TRef.binary main_call1.v1 (TRef.of main_v4 : TRef sig ⟨S4096x50, .i32⟩) main_call1.v2 maxsi,
    StableHlo.TRef.unary (TRef.of main_c_2 : TRef sig ⟨S_, .i32⟩) main_call1.v3 id,
    StableHlo.TRef.unary main_call1.v3 main_call1.v4 (broadcastInDim S4096x50 ![] bcast_S_S4096x50),
    StableHlo.TRef.binary main_call1.v4 main_call1.v2 main_call1.v5 minsi,
    StableHlo.TRef.nullary main_call2.c (constantI S_ 32 0#32),
    StableHlo.TRef.unary main_call2.c main_call2.v0 (broadcastInDim S4096x50 ![] bcast_S_S4096x50),
    StableHlo.TRef.binary (TRef.of main_v2 : TRef sig ⟨S4096x50, .i32⟩) main_call2.v0 main_call2.v1 (cmpi .slt),
    StableHlo.TRef.nullary main_call2.c_0 (constantI S_ 32 64#32),
    StableHlo.TRef.unary main_call2.c_0 main_call2.v2 (broadcastInDim S4096x50 ![] bcast_S_S4096x50),
    StableHlo.TRef.binary (TRef.of main_v2 : TRef sig ⟨S4096x50, .i32⟩) main_call2.v2 main_call2.v3 addi,
    StableHlo.TRef.ternary main_call2.v1 main_call2.v3 (TRef.of main_v2 : TRef sig ⟨S4096x50, .i32⟩) main_call2.call0.v0 select,
    StableHlo.TRef.unary main_call2.call0.v0 main_call2.v5 (broadcastInDim S4096x50x1 ![0, 1] bcast_S4096x50_S4096x50x1_0_1),
    StableHlo.TRef.nullary main_call2.c_1 (constantI S1 32 63#32),
    StableHlo.TRef.nullary main_call2.c_2 (constantI S_ 32 0#32),
    StableHlo.TRef.unary main_call2.c_2 main_call2.v6 (broadcastInDim S4096x50x1 ![] bcast_S_S4096x50x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S4096x50x1 ![0, 1, 2] bcast_S1x1x1_S4096x50x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x50x1_S4096x50_d2 h_S_),
    StableHlo.TRef.binary (TRef.of main_arg1 : TRef sig ⟨S64x64, .f32⟩) main_call2.v5 main_call2.v13 (fun x i => Host.gather gather_S64x64_S4096x50x1_S4096x50x64_2_0_n_n_0_2_164 x i),
    StableHlo.TRef.unary main_call2.v12 main_call2.v14 (broadcastInDim S4096x50x64 ![0, 1] bcast_S4096x50_S4096x50x64_0_1),
    StableHlo.TRef.nullary main_call2.cst (constant S_ .f32 0x7FC00000#32),
    StableHlo.TRef.unary main_call2.cst main_call2.v15 (broadcastInDim S4096x50x64 ![] bcast_S_S4096x50x64),
    StableHlo.TRef.ternary main_call2.v14 main_call2.v13 main_call2.v15 main_call2.v16 select,
    StableHlo.TRef.nullary main_call3.c (constantI S_ 32 0#32),
    StableHlo.TRef.unary main_call3.c main_call3.v0 (broadcastInDim S4096x50 ![] bcast_S_S4096x50),
    StableHlo.TRef.binary (TRef.of main_v5 : TRef sig ⟨S4096x50, .i32⟩) main_call3.v0 main_call3.v1 (cmpi .slt),
    StableHlo.TRef.nullary main_call3.c_0 (constantI S_ 32 64#32),
    StableHlo.TRef.unary main_call3.c_0 main_call3.v2 (broadcastInDim S4096x50 ![] bcast_S_S4096x50),
    StableHlo.TRef.binary (TRef.of main_v5 : TRef sig ⟨S4096x50, .i32⟩) main_call3.v2 main_call3.v3 addi,
    StableHlo.TRef.ternary main_call3.v1 main_call3.v3 (TRef.of main_v5 : TRef sig ⟨S4096x50, .i32⟩) main_call3.call0.v0 select,
    StableHlo.TRef.unary main_call3.call0.v0 main_call3.v5 (broadcastInDim S4096x50x1 ![0, 1] bcast_S4096x50_S4096x50x1_0_1),
    StableHlo.TRef.nullary main_call3.c_1 (constantI S1 32 63#32),
    StableHlo.TRef.nullary main_call3.c_2 (constantI S_ 32 0#32),
    StableHlo.TRef.unary main_call3.c_2 main_call3.v6 (broadcastInDim S4096x50x1 ![] bcast_S_S4096x50x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S4096x50x1 ![0, 1, 2] bcast_S1x1x1_S4096x50x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4096x50x1_S4096x50_d2 h_S_),
    StableHlo.TRef.binary (TRef.of main_arg2 : TRef sig ⟨S64x64, .f32⟩) main_call3.v5 main_call3.v13 (fun x i => Host.gather gather_S64x64_S4096x50x1_S4096x50x64_2_0_n_n_0_2_164 x i),
    StableHlo.TRef.unary main_call3.v12 main_call3.v14 (broadcastInDim S4096x50x64 ![0, 1] bcast_S4096x50_S4096x50x64_0_1),
    StableHlo.TRef.nullary main_call3.cst (constant S_ .f32 0x7FC00000#32),
    StableHlo.TRef.unary main_call3.cst main_call3.v15 (broadcastInDim S4096x50x64 ![] bcast_S_S4096x50x64),
    StableHlo.TRef.ternary main_call3.v14 main_call3.v13 main_call3.v15 main_call3.v16 select,
    StableHlo.binary main_v6 main_v7 main_v8 ((fun a b => concatenate S4096x50x128 2 [⟨S4096x50x64, a⟩, ⟨S4096x50x64, b⟩] concatenates_S4096x50x64_S4096x50x64_S4096x50x128_d2) : (⟨S4096x50x64, .f32⟩ : BufTy).Contents (Elt F) → (⟨S4096x50x64, .f32⟩ : BufTy).Contents (Elt F) → (⟨S4096x50x128, .f32⟩ : BufTy).Contents (Elt F)) ]

/-- The program is that straight line: a call is its callee's body run on the operands, and sequencing a finished line with
    what follows is the longer line, both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own list only. -/
theorem ops_sub : (ops : List (HloOp τ sig (Elt F))).Forall fun op => op.bufs ⊆ tcRefs τ sig :=
  ⟨unary_bufs_sub .., reshape_bufs_sub .., nullary_bufs_sub .., nullary_bufs_sub .., unary_bufs_sub .., unary_bufs_sub ..,
    binary_bufs_sub .., unary_bufs_sub .., unary_bufs_sub .., binary_bufs_sub .., unary_bufs_sub .., reshape_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- From any memory with zero counters, every weakly fair execution of the program terminates, and every buffer ends at the
    fold of the operations' results over the contents it started from. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.LibRowGatherConcat.lean ====
/-
  Reading lemmas for the reference's value, over the library's definitions only.

  * A gather of whole rows: for an operand `V × 64`, a `16384 × 1` column of start indices and the
    dimension numbers of a row lookup (offset axis 1, axis 0 collapsed and indexed), the result at `(p, c)` is
    the operand at `(r, c)` where `r` is the start index of row `p` read signed and clamped into `[0, V − 1]`.
  * A concatenation at an index: once the coordinate along the axis is located in piece `k`, the result is
    piece `k` at the index with that local coordinate; and where a coordinate falls among sizes laid end to
    end, by partial sums.
  * A conjunction-reduction of an array of ones from one is one.
  * A 32-bit word below a bound `V ≤ 2³¹` is nonnegative as a signed number and reads the same signed and
    unsigned.
-/
import Idealize.ShloMosaic.Lib.ValueIdx
import Idealize.ShloMosaic.Lib.ReduceAll
import Idealize.ShloMosaic.PureOps

noncomputable section

namespace Cert.Lib.RowGatherConcat

open Idealize.ShloMosaic Idealize.ShloMosaic.ValueIdx

/-! ## A gather of rows -/

/-- The dimension numbers of a row lookup in a `V × 64` table at a `16384 × 1` column of indices. -/
abbrev rowDims (V : Nat) (wf : GatherDims.WF ⟨2, ![V, 64]⟩ ⟨2, ![16384, 1]⟩ ⟨2, ![16384, 64]⟩ [1] [0] [] [0] [] 1 ![1, 64]) :
    GatherDims ⟨2, ![V, 64]⟩ ⟨2, ![16384, 1]⟩ ⟨2, ![16384, 64]⟩ where
  offsetDims := [1]
  collapsedSliceDims := [0]
  operandBatchingDims := []
  startIndicesBatchingDims := []
  startIndexMap := [0]
  indexVectorDim := 1
  sliceSizes := ![1, 64]
  wf := wf

section
variable {α : Type} {V w : Nat}
    (wf : GatherDims.WF ⟨2, ![V, 64]⟩ ⟨2, ![16384, 1]⟩ ⟨2, ![16384, 64]⟩ [1] [0] [] [0] [] 1 ![1, 64])
    (idx : IVec ⟨2, ![16384, 1]⟩ w) (p : Fin 16384) (c : Fin 64)

theorem row_axis0 :
    (rowDims V wf).start (ix2 p c) idx 0 + (rowDims V wf).batchCoord (ix2 p c) 0 + (rowDims V wf).offCoord (ix2 p c) 0
      = min (idx (ix2 p 0)).toInt.toNat (V - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims V wf).startIndexMap from List.mem_singleton.mpr rfl)]
  have hsi : (rowDims V wf).siIdx (ix2 p c) ⟨List.idxOf (0 : Fin 2) (rowDims V wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

theorem row_axis1 :
    (rowDims V wf).start (ix2 p c) idx 1 + (rowDims V wf).batchCoord (ix2 p c) 1 + (rowDims V wf).offCoord (ix2 p c) 1
      = c.val := by
  rw [GatherDims.batchCoord_eq_zero _ _ _ List.not_mem_nil]
  have h0 : (rowDims V wf).start (ix2 p c) idx 1 = 0 := by
    unfold GatherDims.start
    rw [dif_neg (show (1 : Fin 2) ∉ ([0] : List (Fin 2)) by decide)]
  have h1 : (rowDims V wf).offCoord (ix2 p c) 1 = c.val := by
    unfold GatherDims.offCoord
    rw [dif_pos (show (1 : Fin 2) ∈ (rowDims V wf).sKept from
      (GatherDims.mem_sKept _ _).mpr ⟨(show (1 : Fin 2) ∉ ([0] : List (Fin 2)) by decide), List.not_mem_nil⟩)]
    rfl
  rw [h0, h1]; omega

theorem gather_row_apply (hV : 0 < V) (x : (⟨2, ![V, 64]⟩ : Shape).Idx → α) :
    Host.gather (rowDims V wf) x idx (ix2 p c)
      = x (ix2 ⟨min (idx (ix2 p 0)).toInt.toNat (V - 1), by omega⟩ c) := by
  unfold Host.gather
  refine congrArg x (funext fun a => Fin.ext ?_)
  have key : ∀ a : Fin 2, ((rowDims V wf).operandIdx (ix2 p c) idx a).val
      = ((ix2 (⟨min (idx (ix2 p 0)).toInt.toNat (V - 1), by omega⟩ : Fin V) c : (⟨2, ![V, 64]⟩ : Shape).Idx) a).val :=
    Fin.forall_fin_two.2 ⟨row_axis0 wf idx p c, row_axis1 wf idx p c⟩
  exact key a
end

/-! ## A concatenation at an index -/

/-- Where a position falls among sizes laid end to end, by the partial sums: in piece `k` when the first `k`
    sizes sum to at most `c` and the first `k + 1` to more, at `c` less the first `k` sizes. -/
theorem locate_val : ∀ (ns : List Nat) (c : Nat) (h : c < ns.sum) (k : Nat),
    (ns.take k).sum ≤ c → c < (ns.take (k + 1)).sum →
    (locate ns c h).1.val = k ∧ (locate ns c h).2.val = c - (ns.take k).sum
  | [], c, h, _, _, _ => absurd h (Nat.not_lt_zero _)
  | n :: ns, c, h, 0, _, hhi => by
    have hc : c < n := by simpa using hhi
    rw [locate, dif_pos hc]
    exact ⟨rfl, by simp⟩
  | n :: ns, c, h, k + 1, hlo, hhi => by
    have hlo' : n + (ns.take k).sum ≤ c := by simpa using hlo
    have hhi' : c < n + (ns.take (k + 1)).sum := by simpa using hhi
    have hc : ¬ c < n := by omega
    have ih := locate_val ns (c - n) (by rw [List.sum_cons] at h; omega) k (by omega) (by omega)
    rw [locate, dif_neg hc]
    refine ⟨?_, ?_⟩
    · show (locate ns (c - n) _).1.val + 1 = k + 1
      rw [ih.1]
    · show (locate ns (c - n) _).2.val = c - ((n :: ns).take (k + 1)).sum
      rw [ih.2]; simp; omega

variable {α : Type}

/-- A concatenation read at an index: piece `k` of the list at the index `i` with the same coordinates off the
    axis, once the axis coordinate is located in piece `k` at `i`'s axis coordinate. -/
theorem concatenate_apply_of_locate {t : Shape} (a : Fin t.rank) (xs : List ((s : Shape) × (s.Idx → α)))
    (h : Shape.Concatenates (xs.map (·.1)) t a) (j : t.Idx) (k : Fin xs.length) (hr : xs[k].1.rank = t.rank)
    (i : xs[k].1.Idx)
    (hk : (locate ((xs.map (·.1)).map fun s => if h : s.rank = t.rank then s.size (a.cast h.symm) else 0) (j a).val
        (by rw [h.2.2]; exact (j a).isLt)).1.val = k.val)
    (hpos : (locate ((xs.map (·.1)).map fun s => if h : s.rank = t.rank then s.size (a.cast h.symm) else 0) (j a).val
        (by rw [h.2.2]; exact (j a).isLt)).2.val = (i (a.cast hr.symm)).val)
    (hi : ∀ b : Fin xs[k].1.rank, b.cast hr ≠ a → (i b).val = (j (b.cast hr)).val) :
    concatenate t a xs h j = xs[k].2 i := by
  let ns : List Nat := (xs.map (·.1)).map fun s => if h : s.rank = t.rank then s.size (a.cast h.symm) else 0
  have PF : (j a).val < ns.sum := by rw [h.2.2]; exact (j a).isLt
  have HLen : ∀ kr : (k : Fin ns.length) × Fin ns[k], kr.1.val < xs.length := fun kr => by simpa [ns] using kr.1.isLt
  have HP : ∀ kr : (k : Fin ns.length) × Fin ns[k], (xs[kr.1.val]'(HLen kr)).1 ∈ xs.map (·.1) := fun kr =>
    List.mem_map.2 ⟨_, List.getElem_mem (HLen kr), rfl⟩
  have HR : ∀ kr : (k : Fin ns.length) × Fin ns[k], (xs[kr.1.val]'(HLen kr)).1.rank = t.rank := fun kr => (h.2.1 _ (HP kr)).1
  have HK : ∀ (kr : (k : Fin ns.length) × Fin ns[k]) (b : Fin (xs[kr.1.val]'(HLen kr)).1.rank), b.cast (HR kr) = a →
      ns[kr.1] = (xs[kr.1.val]'(HLen kr)).1.size b := fun kr b hb => by
    have : ns[kr.1.val]'(kr.1.isLt) = (if h' : (xs[kr.1.val]'(HLen kr)).1.rank = t.rank then (xs[kr.1.val]'(HLen kr)).1.size (a.cast h'.symm) else 0) := by
      simp [ns]
    have e : a.cast (HR kr).symm = b := Fin.ext (by have := congrArg Fin.val hb; simpa using this.symm)
    rw [Fin.getElem_fin, this, dif_pos (HR kr), e]
  have HB : ∀ (kr : (k : Fin ns.length) × Fin ns[k]) (b : Fin (xs[kr.1.val]'(HLen kr)).1.rank), b.cast (HR kr) ≠ a →
      t.size (b.cast (HR kr)) = (xs[kr.1.val]'(HLen kr)).1.size b := fun kr b hb =>
    ((h.2.1 _ (HP kr)).2 (b.cast (HR kr)) hb).symm
  show (fun kr : (k : Fin ns.length) × Fin ns[k] =>
      (xs[kr.1.val]'(HLen kr)).2 (fun b => if hb : b.cast (HR kr) = a then kr.2.cast (HK kr b hb) else (j (b.cast (HR kr))).cast (HB kr b hb)))
      (locate ns (j a).val PF) = xs[k].2 i
  have hk' : (locate ns (j a).val PF).1.val = k.val := hk
  have hpos' : (locate ns (j a).val PF).2.val = (i (a.cast hr.symm)).val := hpos
  generalize locate ns (j a).val PF = kr at hk' hpos'
  obtain ⟨⟨kv, hkv⟩, pos⟩ := kr
  obtain ⟨kk, hkk⟩ := k
  simp only at hk' hpos'
  subst hk'
  refine congrArg (xs[kv]'hkk).2 (funext fun b => Fin.ext ?_)
  by_cases hb : b.cast hr = a
  · rw [dif_pos hb]
    have e : b = a.cast hr.symm := Fin.ext (by have := congrArg Fin.val hb; simpa using this)
    show pos.val = (i b).val
    rw [hpos']
    exact congrArg (fun q => (i q).val) e.symm
  · rw [dif_neg hb]
    simpa using (hi b hb).symm

/-! ## A conjunction of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` of an array that is one everywhere, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ fun i _ => hx i

/-! ## Words below a bound -/

section Words
variable {w : BitVec 32} {V : Nat}

theorem word_toInt (hV : V ≤ 2 ^ 31) (hw : w.toNat < V) : w.toInt = (w.toNat : Int) :=
  BitVec.toInt_eq_toNat_of_lt (by omega)

theorem word_toInt_toNat (hV : V ≤ 2 ^ 31) (hw : w.toNat < V) : w.toInt.toNat = w.toNat := by
  rw [word_toInt hV hw]; exact Int.toNat_natCast _

theorem word_not_slt (hV : V ≤ 2 ^ 31) (hw : w.toNat < V) : ¬ IntOp.cmpi .slt w 0#32 = 1#1 := by
  rw [IntOp.cmpi_slt, word_toInt hV hw, show (0#32 : BitVec 32).toInt = 0 from by decide]; omega

theorem word_sge (hV : V ≤ 2 ^ 31) (hw : w.toNat < V) : IntOp.cmpi .sge w 0#32 = 1#1 := by
  rw [IntOp.cmpi_sge, word_toInt hV hw, show (0#32 : BitVec 32).toInt = 0 from by decide]; omega

theorem word_sle {c : BitVec 32} (hV : V ≤ 2 ^ 31) (hc : c.toNat + 1 = V) (hw : w.toNat < V) : IntOp.cmpi .sle w c = 1#1 := by
  rw [IntOp.cmpi_sle, word_toInt hV hw, word_toInt (w := c) hV (by omega)]; omega

end Words

end Cert.Lib.RowGatherConcat

end
-- ==== Proof.RefValue.lean ====
/-
  What the reference computes, entry by entry.

  The reference's result is written here as one term of its three inputs — the two coordinate columns sliced out and clamped
  into [0, 63], each table's rows looked up at a clamped column, the two lookups laid side by side — and read at an entry
  (b, s, j). The lookup adds the table's height to a negative index, gathers rows at the index read signed and clamped into
  the table, and writes a constant wherever the index lies outside [0, 63]. A clamped coordinate lies in [0, 63]: nothing is
  added to it, the gather's own clamp leaves it alone, and the constant is written nowhere. So entry (b, s, j) is the first
  table at (clamped first coordinate, j) for j < 64 and the second table at (clamped second coordinate, j - 64) otherwise.
-/
import proofs.«205614_g54924041781483_cont_9to1_m_645_25_alg».proof.Proof.Gen.ReferenceIdeal
import proofs.«205614_g54924041781483_cont_9to1_m_645_25_alg».proof.Proof.Spec
import proofs.«205614_g54924041781483_cont_9to1_m_645_25_alg».proof.Proof.LibRowGatherConcat
import Idealize.ShloMosaic.Lib.ValueIdx
import Idealize.ShloMosaic.Lib.Pipeline.Value

noncomputable section

namespace Cert.Proof.Ref

open Cert.ReferenceIdeal Cert.ReferenceIdeal.Gen Idealize.ShloMosaic Idealize.ShloMosaic.ValueIdx Cert.Lib.RowGatherConcat

/-- The dimension numbers of the row lookup: a 64 × 64 table, a 4096 × 50 × 1 array of row numbers, whole rows of 64. -/
abbrev gD : GatherDims S64x64 S4096x50x1 S4096x50x64 := gather_S64x64_S4096x50x1_S4096x50x64_2_0_n_n_0_2_164

/-! ## The terms -/

/-- Column `k` of the coordinates, as a 4096 × 50 array: the slice at offset `k` of the last axis with that axis dropped. -/
def column0 (coords : IVec S4096x50x2 32) : IVec S4096x50 32 :=
  shapeCast S4096x50 (extractStridedSlice S4096x50x1 ![0, 0, 0] coords slices_S4096x50x2_S4096x50x1_0_0_0) shapeCasts_S4096x50x1_S4096x50
@[inherit_doc column0]
def column1 (coords : IVec S4096x50x2 32) : IVec S4096x50 32 :=
  shapeCast S4096x50 (extractStridedSlice S4096x50x1 ![0, 0, 1] coords slices_S4096x50x2_S4096x50x1_0_0_1) shapeCasts_S4096x50x1_S4096x50

/-- The clamp: the larger of the word and 0, then the smaller of that and 63, both bounds broadcast from scalars. -/
def clip (x : IVec S4096x50 32) : IVec S4096x50 32 :=
  minsi (broadcastInDim S4096x50 ![] bcast_S_S4096x50 (id (constantI S_ 32 63#32)))
    (maxsi (broadcastInDim S4096x50 ![] bcast_S_S4096x50 (id (constantI S_ 32 0#32))) x)

/-- The row numbers the lookup gathers at: a negative one has 64 added, and a unit axis is appended. -/
def rowNumbers (idx : IVec S4096x50 32) : IVec S4096x50x1 32 :=
  broadcastInDim S4096x50x1 ![0, 1] bcast_S4096x50_S4096x50x1_0_1
    (select (cmpi .slt idx (broadcastInDim S4096x50 ![] bcast_S_S4096x50 (constantI S_ 32 0#32)))
      (addi idx (broadcastInDim S4096x50 ![] bcast_S_S4096x50 (constantI S_ 32 64#32))) idx)

/-- Where the row number lies in [0, 63]: both comparisons, conjoined along the unit axis. -/
def inTable (idx : IVec S4096x50 32) : IVec S4096x50 1 :=
  Host.reduce IntOp.andi
    (andi (cmpi .sge (rowNumbers idx) (broadcastInDim S4096x50x1 ![] bcast_S_S4096x50x1 (constantI S_ 32 0#32)))
      (cmpi .sle (rowNumbers idx)
        (broadcastInDim S4096x50x1 ![0, 1, 2] bcast_S1x1x1_S4096x50x1_0_1_2 (broadcastInDim S1x1x1 ![2] bcast_S1_S1x1x1_2 (constantI S1 32 63#32)))))
    (constantI S_ 1 1#1) reducesTo_S4096x50x1_S4096x50_d2 h_S_

variable {α : Type}

/-- The lookup: the gathered rows where the row number lies in the table, `fill` elsewhere. -/
def take (tbl : S64x64.Idx → α) (fill : S4096x50x64.Idx → α) (idx : IVec S4096x50 32) : S4096x50x64.Idx → α :=
  select (broadcastInDim S4096x50x64 ![0, 1] bcast_S4096x50_S4096x50x64_0_1 (inTable idx)) (Host.gather gD tbl (rowNumbers idx)) fill

/-- The reference's result as one term of its inputs. -/
def refOut (fill : S4096x50x64.Idx → α) (coords : IVec S4096x50x2 32) (rowT colT : S64x64.Idx → α) : S4096x50x128.Idx → α :=
  concatenate S4096x50x128 2
    [⟨S4096x50x64, take rowT fill (clip (column0 coords))⟩, ⟨S4096x50x64, take colT fill (clip (column1 coords))⟩]
    concatenates_S4096x50x64_S4096x50x64_S4096x50x128_d2

/-! ## The columns and the clamp at an entry -/

theorem column0_apply (coords : IVec S4096x50x2 32) (b : Fin 4096) (s : Fin 50) :
    column0 coords (ix2 b s) = coords (ix3 b s (0 : Fin 2)) := by
  unfold column0
  rw [shapeCast_apply _ shapeCasts_S4096x50x1_S4096x50 (ix2 b s) (ix3 b s (0 : Fin 1)) (by
    rw [Shape.rowMajor_val_three, Shape.rowMajor_val_two]
    show (b.val * 50 + s.val) * 1 + 0 = b.val * 50 + s.val
    omega)]
  exact extractStridedSlice_apply _ coords _ (ix3 b s (0 : Fin 1)) (ix3 b s (0 : Fin 2)) (fun a => by
    match a with
    | ⟨0, _⟩ => show b.val = 0 + b.val; omega
    | ⟨1, _⟩ => show s.val = 0 + s.val; omega
    | ⟨2, _⟩ => rfl)

theorem column1_apply (coords : IVec S4096x50x2 32) (b : Fin 4096) (s : Fin 50) :
    column1 coords (ix2 b s) = coords (ix3 b s (1 : Fin 2)) := by
  unfold column1
  rw [shapeCast_apply _ shapeCasts_S4096x50x1_S4096x50 (ix2 b s) (ix3 b s (0 : Fin 1)) (by
    rw [Shape.rowMajor_val_three, Shape.rowMajor_val_two]
    show (b.val * 50 + s.val) * 1 + 0 = b.val * 50 + s.val
    omega)]
  exact extractStridedSlice_apply _ coords _ (ix3 b s (0 : Fin 1)) (ix3 b s (1 : Fin 2)) (fun a => by
    match a with
    | ⟨0, _⟩ => show b.val = 0 + b.val; omega
    | ⟨1, _⟩ => show s.val = 0 + s.val; omega
    | ⟨2, _⟩ => rfl)

/-- The clamp at an entry is the clamp of the word there. -/
theorem clip_apply (x : IVec S4096x50 32) (i : S4096x50.Idx) : clip x i = Cert.Spec.clampW (x i) := rfl

/-! ## The gather at an entry -/

section Gather
variable {w : Nat} (idx : IVec S4096x50x1 w) (b : Fin 4096) (s : Fin 50) (j : Fin 64)

/-- Along the table's rows the gather reads the row number, read signed and clamped into [0, 63]. -/
theorem gather_axis0 :
    gD.start (ix3 b s j) idx 0 + gD.batchCoord (ix3 b s j) 0 + gD.offCoord (ix3 b s j) 0
      = min (idx (ix3 b s (0 : Fin 1))).toInt.toNat 63 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gD.startIndexMap from List.mem_singleton.mpr rfl)]
  have hsi : gD.siIdx (ix3 b s j) ⟨List.idxOf (0 : Fin 2) gD.startIndexMap,
      List.idxOf_lt_length_iff.2 (List.mem_singleton.mpr rfl)⟩ = ix3 b s (0 : Fin 1) := by
    funext a; refine Fin.ext ?_
    match a with
    | ⟨0, _⟩ => rfl
    | ⟨1, _⟩ => rfl
    | ⟨2, _⟩ => rfl
  rw [hsi]
  rfl

/-- Along the table's columns the gather reads the entry's own last coordinate. -/
theorem gather_axis1 :
    gD.start (ix3 b s j) idx 1 + gD.batchCoord (ix3 b s j) 1 + gD.offCoord (ix3 b s j) 1 = j.val := by
  rw [GatherDims.batchCoord_eq_zero _ _ _ List.not_mem_nil]
  have h0 : gD.start (ix3 b s j) idx 1 = 0 := by
    unfold GatherDims.start
    rw [dif_neg (show (1 : Fin 2) ∉ gD.startIndexMap by decide)]
  have h1 : gD.offCoord (ix3 b s j) 1 = j.val := by
    unfold GatherDims.offCoord
    rw [dif_pos (show (1 : Fin 2) ∈ gD.sKept from
      (GatherDims.mem_sKept _ _).mpr ⟨(show (1 : Fin 2) ∉ gD.collapsedSliceDims by decide), List.not_mem_nil⟩)]
    rfl
  rw [h0, h1]; omega

/-- The gather at entry (b, s, j): the table at (row number of (b, s) read signed and clamped into [0, 63], j). -/
theorem gather_apply (x : S64x64.Idx → α) :
    Host.gather gD x idx (ix3 b s j)
      = x (ix2 (⟨min (idx (ix3 b s (0 : Fin 1))).toInt.toNat 63, by omega⟩ : Fin 64) j) := by
  unfold Host.gather
  refine congrArg x (funext fun a => Fin.ext ?_)
  have key : ∀ a : Fin 2, (gD.operandIdx (ix3 b s j) idx a).val
      = ((ix2 (⟨min (idx (ix3 b s (0 : Fin 1))).toInt.toNat 63, by omega⟩ : Fin 64) j : S64x64.Idx) a).val :=
    Fin.forall_fin_two.2 ⟨gather_axis0 idx b s j, gather_axis1 idx b s j⟩
  exact key a

end Gather

/-! ## The lookup at an entry, for row numbers in the table -/

section Take
variable (idx : IVec S4096x50 32) (hidx : ∀ (b : Fin 4096) (s : Fin 50), (idx (ix2 b s)).toNat < 64)
include hidx

/-- A row number in [0, 63] is gathered at as it is. -/
theorem rowNumbers_apply (b : Fin 4096) (s : Fin 50) (u : Fin 1) : rowNumbers idx (ix3 b s u) = idx (ix2 b s) := by
  unfold rowNumbers
  rw [broadcastInDim_apply _ bcast_S4096x50_S4096x50x1_0_1 _ (ix3 b s u) (ix2 b s) (fun a => by
    match a with
    | ⟨0, _⟩ => rfl
    | ⟨1, _⟩ => rfl)]
  rw [select_apply]
  show Scalar.select (IntOp.cmpi .slt (idx (ix2 b s)) 0#32) _ _ = _
  rw [eq_zero_of_ne_one (word_not_slt (V := 64) (by norm_num) (hidx b s)), select_zero]

/-- Every row number lies in the table. -/
theorem inTable_apply (i : S4096x50.Idx) : inTable idx i = 1#1 := by
  unfold inTable
  refine reduce_andi_ones _ _ reducesTo_S4096x50x1_S4096x50_d2 h_S_ (fun k => ?_) (fun _ => rfl) i
  obtain ⟨p, q, u, rfl⟩ : ∃ (p : Fin 4096) (q : Fin 50) (u : Fin 1), k = ix3 p q u := ⟨k 0, k 1, k 2, eq_ix3 k⟩
  show IntOp.andi (IntOp.cmpi .sge (rowNumbers idx (ix3 p q u)) 0#32) (IntOp.cmpi .sle (rowNumbers idx (ix3 p q u)) 63#32) = 1#1
  rw [rowNumbers_apply idx hidx p q u, word_sge (V := 64) (by norm_num) (hidx p q),
    word_sle (V := 64) (c := 63#32) (by norm_num) (by decide) (hidx p q)]
  rfl

/-- The lookup at entry (b, s, j): the table at (row number of (b, s), j). -/
theorem take_apply (tbl : S64x64.Idx → α) (fill : S4096x50x64.Idx → α) (b : Fin 4096) (s : Fin 50) (j : Fin 64) :
    take tbl fill idx (ix3 b s j) = tbl (ix2 (⟨(idx (ix2 b s)).toNat, hidx b s⟩ : Fin 64) j) := by
  unfold take
  rw [select_apply]
  have hmask : broadcastInDim S4096x50x64 ![0, 1] bcast_S4096x50_S4096x50x64_0_1 (inTable idx) (ix3 b s j) = 1#1 := by
    rw [broadcastInDim_apply _ bcast_S4096x50_S4096x50x64_0_1 _ (ix3 b s j) (ix2 b s) (fun a => by
      match a with
      | ⟨0, _⟩ => rfl
      | ⟨1, _⟩ => rfl)]
    exact inTable_apply idx hidx _
  rw [hmask, select_one, gather_apply]
  refine congrArg tbl (congrArg (fun r => ix2 r j) (Fin.ext ?_))
  show min (rowNumbers idx (ix3 b s (0 : Fin 1))).toInt.toNat 63 = (idx (ix2 b s)).toNat
  rw [rowNumbers_apply idx hidx b s 0, word_toInt_toNat (V := 64) (by norm_num) (hidx b s)]
  have := hidx b s
  omega

end Take

/-! ## The result at an entry -/

/-- The reference's term is the specification: entry (b, s, j) is the first table at (clamped first coordinate, j) for
    j < 64, and the second table at (clamped second coordinate, j - 64) otherwise. -/
theorem refOut_eq (fill : S4096x50x64.Idx → α) (coords : IVec S4096x50x2 32) (rowT colT : S64x64.Idx → α) :
    refOut fill coords rowT colT = Cert.Spec.out coords rowT colT := by
  funext i
  obtain ⟨b, s, j, rfl⟩ : ∃ (b : Fin 4096) (s : Fin 50) (j : Fin 128), i = ix3 b s j := ⟨i 0, i 1, i 2, eq_ix3 i⟩
  show refOut fill coords rowT colT (ix3 b s j) = Cert.Spec.outAt coords rowT colT b s j
  have h0 : ∀ (p : Fin 4096) (q : Fin 50), (clip (column0 coords) (ix2 p q)).toNat < 64 := fun p q => by
    rw [clip_apply]; exact Cert.Spec.clampW_lt _
  have h1 : ∀ (p : Fin 4096) (q : Fin 50), (clip (column1 coords) (ix2 p q)).toNat < 64 := fun p q => by
    rw [clip_apply]; exact Cert.Spec.clampW_lt _
  unfold refOut Cert.Spec.outAt
  by_cases h : j.val < 64
  · rw [dif_pos h]
    rw [concatenate_pair_apply_left 2 _ _ concatenates_S4096x50x64_S4096x50x64_S4096x50x128_d2 (ix3 b s j) rfl
      (ix3 b s (⟨j.val, h⟩ : Fin 64)) (fun d => by
        match d with
        | ⟨0, _⟩ => rfl
        | ⟨1, _⟩ => rfl
        | ⟨2, _⟩ => rfl)]
    rw [take_apply _ h0]
    refine congrArg rowT (congrArg (fun r => ix2 r (⟨j.val, h⟩ : Fin 64)) (Fin.ext ?_))
    show (clip (column0 coords) (ix2 b s)).toNat = (Cert.Spec.clampW (coords (ix3 b s (0 : Fin 2)))).toNat
    rw [clip_apply, column0_apply]
  · rw [dif_neg h]
    rw [concatenate_pair_apply_right 2 _ _ concatenates_S4096x50x64_S4096x50x64_S4096x50x128_d2 (ix3 b s j) rfl rfl
      (ix3 b s (⟨j.val - 64, by omega⟩ : Fin 64)) (fun d hd => by
        match d with
        | ⟨0, _⟩ => rfl
        | ⟨1, _⟩ => rfl
        | ⟨2, _⟩ => exact absurd rfl hd) (by show j.val - 64 + 64 = j.val; omega)]
    rw [take_apply _ h1]
    refine congrArg colT (congrArg (fun r => ix2 r (⟨j.val - 64, by omega⟩ : Fin 64)) (Fin.ext ?_))
    show (clip (column1 coords) (ix2 b s)).toNat = (Cert.Spec.clampW (coords (ix3 b s (1 : Fin 2)))).toNat
    rw [clip_apply, column1_apply]

end Cert.Proof.Ref

end
-- ==== Proof.RefResult.lean ====
/-
  The reference's run with its result named: every weakly fair execution ends with the result buffer at the specification
  and the three inputs unchanged.

  The run of the straight line leaves each buffer at the fold of the operations' results. The line is read in five stretches:
  the first coordinate column sliced out and clamped, the second, the lookup in the first table, the lookup in the second, the
  concatenation. After each stretch the buffer it produces holds that stretch's term of the buffers it reads, and the buffers
  the later stretches read are as they were. Composed, the result buffer holds the reference's term of the three inputs, which
  is the specification; and no operation writes an input.
-/
import proofs.«205614_g54924041781483_cont_9to1_m_645_25_alg».proof.Proof.RefRun
import proofs.«205614_g54924041781483_cont_9to1_m_645_25_alg».proof.Proof.RefValue

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The constant the lookup writes outside the table, broadcast to the lookup's shape. -/
abbrev fillOf (F : FTy → Type) [FloatOps F] : FVec F S4096x50x64 .f32 :=
  broadcastInDim S4096x50x64 ![] bcast_S_S4096x50x64 (constant S_ .f32 0x7FC00000#32)

/-! ## The five stretches -/

/-- Operations 1 to 10: the first coordinate column, clamped. -/
abbrev opsA : List (HloOp τ sig (Elt F)) :=
  [ StableHlo.unary main_arg0 main_v0 ((extractStridedSlice S4096x50x1 ![0, 0, 0] · slices_S4096x50x2_S4096x50x1_0_0_0) : (⟨S4096x50x2, .i32⟩ : BufTy).Contents (Elt F) → (⟨S4096x50x1, .i32⟩ : BufTy).Contents (Elt F)),
    StableHlo.reshape main_v0 main_v1 rfl shapeCasts_S4096x50x1_S4096x50,
    StableHlo.nullary main_c (constantI S_ 32 0#32),
    StableHlo.nullary main_c_0 (constantI S_ 32 63#32),
    StableHlo.TRef.unary (TRef.of main_c : TRef sig ⟨S_, .i32⟩) main_call0.v0 id,
    StableHlo.TRef.unary main_call0.v0 main_call0.v1 (broadcastInDim S4096x50 ![] bcast_S_S4096x50),
    StableHlo.TRef.binary main_call0.v1 (TRef.of main_v1 : TRef sig ⟨S4096x50, .i32⟩) main_call0.v2 maxsi,
    StableHlo.TRef.unary (TRef.of main_c_0 : TRef sig ⟨S_, .i32⟩) main_call0.v3 id,
    StableHlo.TRef.unary main_call0.v3 main_call0.v4 (broadcastInDim S4096x50 ![] bcast_S_S4096x50),
    StableHlo.TRef.binary main_call0.v4 main_call0.v2 main_call0.v5 minsi ]

/-- Operations 11 to 20: the second coordinate column, clamped. -/
abbrev opsB : List (HloOp τ sig (Elt F)) :=
  [ StableHlo.unary main_arg0 main_v3 ((extractStridedSlice S4096x50x1 ![0, 0, 1] · slices_S4096x50x2_S4096x50x1_0_0_1) : (⟨S4096x50x2, .i32⟩ : BufTy).Contents (Elt F) → (⟨S4096x50x1, .i32⟩ : BufTy).Contents (Elt F)),
    StableHlo.reshape main_v3 main_v4 rfl shapeCasts_S4096x50x1_S4096x50,
    StableHlo.nullary main_c_1 (constantI S_ 32 0#32),
    StableHlo.nullary main_c_2 (constantI S_ 32 63#32),
    StableHlo.TRef.unary (TRef.of main_c_1 : TRef sig ⟨S_, .i32⟩) main_call1.v0 id,
    StableHlo.TRef.unary main_call1.v0 main_call1.v1 (broadcastInDim S4096x50 ![] bcast_S_S4096x50),
    StableHlo.TRef.binary main_call1.v1 (TRef.of main_v4 : TRef sig ⟨S4096x50, .i32⟩) main_call1.v2 maxsi,
    StableHlo.TRef.unary (TRef.of main_c_2 : TRef sig ⟨S_, .i32⟩) main_call1.v3 id,
    StableHlo.TRef.unary main_call1.v3 main_call1.v4 (broadcastInDim S4096x50 ![] bcast_S_S4096x50),
    StableHlo.TRef.binary main_call1.v4 main_call1.v2 main_call1.v5 minsi ]

/-- Operations 21 to 43: the lookup in the first table. -/
abbrev opsC : List (HloOp τ sig (Elt F)) :=
  [ StableHlo.TRef.nullary main_call2.c (constantI S_ 32 0#32),
    StableHlo.TRef.unary main_call2.c main_call2.v0 (broadcastInDim S4096x50 ![] bcast_S_S4096x50),
    StableHlo.TRef.binary (TRef.of main_v2 : TRef sig ⟨S4096x50, .i32⟩) main_call2.v0 main_call2.v1 (cmpi .slt),
    StableHlo.TRef.nullary main_call2.c_0 (constantI S_ 32 64#32),
    StableHlo.TRef.unary main_call2.c_0 main_call2.v2 (broadcastInDim S4096x50 ![] bcast_S_S4096x50),
    StableHlo.TRef.binary (TRef.of main_v2 : TRef sig ⟨S4096x50, .i32⟩) main_call2.v2 main_call2.v3 addi,
    StableHlo.TRef.ternary main_call2.v1 main_call2.v3 (TRef.of main_v2 : TRef sig ⟨S4096x50, .i32⟩) main_call2.call0.v0 select,
    StableHlo.TRef.unary main_call2.call0.v0 main_call2.v5 (broadcastInDim S4096x50x1 ![0, 1] bcast_S4096x50_S4096x50x1_0_1),
    StableHlo.TRef.nullary main_call2.c_1 (constantI S1 32 63#32),
    StableHlo.TRef.nullary main_call2.c_2 (constantI S_ 32 0#32),
    StableHlo.TRef.unary main_call2.c_2 main_call2.v6 (broadcastInDim S4096x50x1 ![] bcast_S_S4096x50x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S4096x50x1 ![0, 1, 2] bcast_S1x1x1_S4096x50x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x50x1_S4096x50_d2 h_S_),
    StableHlo.TRef.binary (TRef.of main_arg1 : TRef sig ⟨S64x64, .f32⟩) main_call2.v5 main_call2.v13 (fun x i => Host.gather gather_S64x64_S4096x50x1_S4096x50x64_2_0_n_n_0_2_164 x i),
    StableHlo.TRef.unary main_call2.v12 main_call2.v14 (broadcastInDim S4096x50x64 ![0, 1] bcast_S4096x50_S4096x50x64_0_1),
    StableHlo.TRef.nullary main_call2.cst (constant S_ .f32 0x7FC00000#32),
    StableHlo.TRef.unary main_call2.cst main_call2.v15 (broadcastInDim S4096x50x64 ![] bcast_S_S4096x50x64),
    StableHlo.TRef.ternary main_call2.v14 main_call2.v13 main_call2.v15 main_call2.v16 select ]

/-- Operations 44 to 66: the lookup in the second table. -/
abbrev opsD : List (HloOp τ sig (Elt F)) :=
  [ StableHlo.TRef.nullary main_call3.c (constantI S_ 32 0#32),
    StableHlo.TRef.unary main_call3.c main_call3.v0 (broadcastInDim S4096x50 ![] bcast_S_S4096x50),
    StableHlo.TRef.binary (TRef.of main_v5 : TRef sig ⟨S4096x50, .i32⟩) main_call3.v0 main_call3.v1 (cmpi .slt),
    StableHlo.TRef.nullary main_call3.c_0 (constantI S_ 32 64#32),
    StableHlo.TRef.unary main_call3.c_0 main_call3.v2 (broadcastInDim S4096x50 ![] bcast_S_S4096x50),
    StableHlo.TRef.binary (TRef.of main_v5 : TRef sig ⟨S4096x50, .i32⟩) main_call3.v2 main_call3.v3 addi,
    StableHlo.TRef.ternary main_call3.v1 main_call3.v3 (TRef.of main_v5 : TRef sig ⟨S4096x50, .i32⟩) main_call3.call0.v0 select,
    StableHlo.TRef.unary main_call3.call0.v0 main_call3.v5 (broadcastInDim S4096x50x1 ![0, 1] bcast_S4096x50_S4096x50x1_0_1),
    StableHlo.TRef.nullary main_call3.c_1 (constantI S1 32 63#32),
    StableHlo.TRef.nullary main_call3.c_2 (constantI S_ 32 0#32),
    StableHlo.TRef.unary main_call3.c_2 main_call3.v6 (broadcastInDim S4096x50x1 ![] bcast_S_S4096x50x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S4096x50x1 ![0, 1, 2] bcast_S1x1x1_S4096x50x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4096x50x1_S4096x50_d2 h_S_),
    StableHlo.TRef.binary (TRef.of main_arg2 : TRef sig ⟨S64x64, .f32⟩) main_call3.v5 main_call3.v13 (fun x i => Host.gather gather_S64x64_S4096x50x1_S4096x50x64_2_0_n_n_0_2_164 x i),
    StableHlo.TRef.unary main_call3.v12 main_call3.v14 (broadcastInDim S4096x50x64 ![0, 1] bcast_S4096x50_S4096x50x64_0_1),
    StableHlo.TRef.nullary main_call3.cst (constant S_ .f32 0x7FC00000#32),
    StableHlo.TRef.unary main_call3.cst main_call3.v15 (broadcastInDim S4096x50x64 ![] bcast_S_S4096x50x64),
    StableHlo.TRef.ternary main_call3.v14 main_call3.v13 main_call3.v15 main_call3.v16 select ]

/-- Operation 67: the two lookups side by side. -/
abbrev opsE : List (HloOp τ sig (Elt F)) :=
  [ StableHlo.binary main_v6 main_v7 main_v8 ((fun a b => concatenate S4096x50x128 2 [⟨S4096x50x64, a⟩, ⟨S4096x50x64, b⟩] concatenates_S4096x50x64_S4096x50x64_S4096x50x128_d2) : (⟨S4096x50x64, .f32⟩ : BufTy).Contents (Elt F) → (⟨S4096x50x64, .f32⟩ : BufTy).Contents (Elt F) → (⟨S4096x50x128, .f32⟩ : BufTy).Contents (Elt F)) ]

/-- The line is the five stretches one after the other. -/
theorem ops_split : (ops : List (HloOp τ sig (Elt F))) = opsA ++ (opsB ++ (opsC ++ (opsD ++ opsE))) := by
  simp only [List.cons_append, List.nil_append]

/-- The fold over two stretches is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## Each stretch's result, and what it leaves alone -/

-- the reduction and the gather are searches over their operand's entries: kept folded while a fold is computed
attribute [local irreducible] Host.reduce Host.gather

theorem segA_result (W : Valuation τ sig (Elt F)) :
    after opsA W (main_v2 : DevRef τ sig) = clip (column0 (W (main_arg0 : DevRef τ sig))) := by
  after_results_simp
  rfl
theorem segA_main_arg0 (W : Valuation τ sig (Elt F)) : after opsA W (main_arg0 : DevRef τ sig) = W (main_arg0 : DevRef τ sig) := by
  after_results_simp
theorem segA_main_arg1 (W : Valuation τ sig (Elt F)) : after opsA W (main_arg1 : DevRef τ sig) = W (main_arg1 : DevRef τ sig) := by
  after_results_simp
theorem segA_main_arg2 (W : Valuation τ sig (Elt F)) : after opsA W (main_arg2 : DevRef τ sig) = W (main_arg2 : DevRef τ sig) := by
  after_results_simp

theorem segB_result (W : Valuation τ sig (Elt F)) :
    after opsB W (main_v5 : DevRef τ sig) = clip (column1 (W (main_arg0 : DevRef τ sig))) := by
  after_results_simp
  rfl
theorem segB_main_v2 (W : Valuation τ sig (Elt F)) : after opsB W (main_v2 : DevRef τ sig) = W (main_v2 : DevRef τ sig) := by
  after_results_simp
theorem segB_main_arg0 (W : Valuation τ sig (Elt F)) : after opsB W (main_arg0 : DevRef τ sig) = W (main_arg0 : DevRef τ sig) := by
  after_results_simp
theorem segB_main_arg1 (W : Valuation τ sig (Elt F)) : after opsB W (main_arg1 : DevRef τ sig) = W (main_arg1 : DevRef τ sig) := by
  after_results_simp
theorem segB_main_arg2 (W : Valuation τ sig (Elt F)) : after opsB W (main_arg2 : DevRef τ sig) = W (main_arg2 : DevRef τ sig) := by
  after_results_simp

theorem segC_result (W : Valuation τ sig (Elt F)) :
    after opsC W (main_v6 : DevRef τ sig)
      = take (α := F .f32) (W (main_arg1 : DevRef τ sig)) (fillOf F) (W (main_v2 : DevRef τ sig)) := by
  after_results_simp
  rfl
theorem segC_main_v5 (W : Valuation τ sig (Elt F)) : after opsC W (main_v5 : DevRef τ sig) = W (main_v5 : DevRef τ sig) := by
  after_results_simp
theorem segC_main_arg0 (W : Valuation τ sig (Elt F)) : after opsC W (main_arg0 : DevRef τ sig) = W (main_arg0 : DevRef τ sig) := by
  after_results_simp
theorem segC_main_arg1 (W : Valuation τ sig (Elt F)) : after opsC W (main_arg1 : DevRef τ sig) = W (main_arg1 : DevRef τ sig) := by
  after_results_simp
theorem segC_main_arg2 (W : Valuation τ sig (Elt F)) : after opsC W (main_arg2 : DevRef τ sig) = W (main_arg2 : DevRef τ sig) := by
  after_results_simp

theorem segD_result (W : Valuation τ sig (Elt F)) :
    after opsD W (main_v7 : DevRef τ sig)
      = take (α := F .f32) (W (main_arg2 : DevRef τ sig)) (fillOf F) (W (main_v5 : DevRef τ sig)) := by
  after_results_simp
  rfl
theorem segD_main_v6 (W : Valuation τ sig (Elt F)) : after opsD W (main_v6 : DevRef τ sig) = W (main_v6 : DevRef τ sig) := by
  after_results_simp
theorem segD_main_arg0 (W : Valuation τ sig (Elt F)) : after opsD W (main_arg0 : DevRef τ sig) = W (main_arg0 : DevRef τ sig) := by
  after_results_simp
theorem segD_main_arg1 (W : Valuation τ sig (Elt F)) : after opsD W (main_arg1 : DevRef τ sig) = W (main_arg1 : DevRef τ sig) := by
  after_results_simp
theorem segD_main_arg2 (W : Valuation τ sig (Elt F)) : after opsD W (main_arg2 : DevRef τ sig) = W (main_arg2 : DevRef τ sig) := by
  after_results_simp

theorem segE_result (W : Valuation τ sig (Elt F)) :
    after opsE W (main_v8 : DevRef τ sig)
      = concatenate (α := F .f32) S4096x50x128 2 [⟨S4096x50x64, W (main_v6 : DevRef τ sig)⟩, ⟨S4096x50x64, W (main_v7 : DevRef τ sig)⟩]
          concatenates_S4096x50x64_S4096x50x64_S4096x50x128_d2 := by
  after_results_simp
theorem segE_main_arg0 (W : Valuation τ sig (Elt F)) : after opsE W (main_arg0 : DevRef τ sig) = W (main_arg0 : DevRef τ sig) := by
  after_results_simp
theorem segE_main_arg1 (W : Valuation τ sig (Elt F)) : after opsE W (main_arg1 : DevRef τ sig) = W (main_arg1 : DevRef τ sig) := by
  after_results_simp
theorem segE_main_arg2 (W : Valuation τ sig (Elt F)) : after opsE W (main_arg2 : DevRef τ sig) = W (main_arg2 : DevRef τ sig) := by
  after_results_simp

/-! ## The whole line -/

/-- The fold at the result buffer is the reference's term of the three inputs. -/
theorem out_eq (V : Valuation τ sig (Elt F)) :
    after ops V (main_v8 : DevRef τ sig)
      = refOut (α := F .f32) (fillOf F) (V (main_arg0 : DevRef τ sig)) (V (main_arg1 : DevRef τ sig)) (V (main_arg2 : DevRef τ sig)) := by
  rw [ops_split, after_append, after_append, after_append, after_append]
  rw [segE_result, segD_result, segD_main_v6, segC_result, segC_main_arg2, segC_main_v5, segB_result, segB_main_arg1, segB_main_v2,
    segB_main_arg2, segA_result, segA_main_arg0, segA_main_arg1, segA_main_arg2]
  rfl

theorem arg0_eq (V : Valuation τ sig (Elt F)) : after ops V (main_arg0 : DevRef τ sig) = V (main_arg0 : DevRef τ sig) := by
  rw [ops_split, after_append, after_append, after_append, after_append,
    segE_main_arg0, segD_main_arg0, segC_main_arg0, segB_main_arg0, segA_main_arg0]
theorem arg1_eq (V : Valuation τ sig (Elt F)) : after ops V (main_arg1 : DevRef τ sig) = V (main_arg1 : DevRef τ sig) := by
  rw [ops_split, after_append, after_append, after_append, after_append,
    segE_main_arg1, segD_main_arg1, segC_main_arg1, segB_main_arg1, segA_main_arg1]
theorem arg2_eq (V : Valuation τ sig (Elt F)) : after ops V (main_arg2 : DevRef τ sig) = V (main_arg2 : DevRef τ sig) := by
  rw [ops_split, after_append, after_append, after_append, after_append,
    segE_main_arg2, segD_main_arg2, segC_main_arg2, segB_main_arg2, segA_main_arg2]

/-- From any memory with zero counters, at the exact instance: every weakly fair execution of the reference terminates with
    the result buffer at the specification of the three inputs, and the inputs unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v8)
          = Cert.Spec.out (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run defs _ _).mono (fun _ h c =>
      ⟨(h c main_v8).trans ((out_eq _).trans (refOut_eq _ _ _ _)),
        (h c main_arg0).trans (arg0_eq _), (h c main_arg1).trans (arg1_eq _), (h c main_arg2).trans (arg2_eq _)⟩)
    (run_main m g)

end Cert.Proof.Ref

end
-- ==== Proof.lean ====
/-
  Both programs compute one function of the coordinate array and the two tables (Cert.Spec.out): entry (b, s, j) of the result
  is the first table at (first coordinate clamped into [0, 63], j) for j < 64, and the second table at (second coordinate
  clamped, j - 64) otherwise. The kernel builds a combined table of 64 · 64 rows, row 64 r + c holding row r of the first table
  beside row c of the second, and looks it up at 64 · (first clamped) + (second clamped); the reference looks each table up by
  itself and lays the two lookups side by side. Each program's run ends with its result at that function of its inputs and its
  inputs unchanged; the frames are the runs with the result forgotten.
-/
import proofs.«205614_g54924041781483_cont_9to1_m_645_25_alg».proof.Defs
import proofs.«205614_g54924041781483_cont_9to1_m_645_25_alg».proof.Proof.Gen.Kernel
import proofs.«205614_g54924041781483_cont_9to1_m_645_25_alg».proof.Proof.Gen.Kernel.Skeleton
import proofs.«205614_g54924041781483_cont_9to1_m_645_25_alg».proof.Proof.Gen.Kernel.Launch
import proofs.«205614_g54924041781483_cont_9to1_m_645_25_alg».proof.Proof.Gen.Kernel.Points
import proofs.«205614_g54924041781483_cont_9to1_m_645_25_alg».proof.Proof.Gen.KernelIdeal
import proofs.«205614_g54924041781483_cont_9to1_m_645_25_alg».proof.Proof.Gen.KernelIdeal.Skeleton
import proofs.«205614_g54924041781483_cont_9to1_m_645_25_alg».proof.Proof.Gen.KernelIdeal.Launch
import proofs.«205614_g54924041781483_cont_9to1_m_645_25_alg».proof.Proof.Gen.KernelIdeal.Points
import proofs.«205614_g54924041781483_cont_9to1_m_645_25_alg».proof.Proof.Gen.ReferenceIdeal
import proofs.«205614_g54924041781483_cont_9to1_m_645_25_alg».proof.Proof.Gen.Pre_input_domain
import proofs.«205614_g54924041781483_cont_9to1_m_645_25_alg».proof.Proof.KI.MainV
import proofs.«205614_g54924041781483_cont_9to1_m_645_25_alg».proof.Proof.KI.SplitV
import proofs.«205614_g54924041781483_cont_9to1_m_645_25_alg».proof.Proof.K.MainV
import proofs.«205614_g54924041781483_cont_9to1_m_645_25_alg».proof.Proof.K.SplitV
import proofs.«205614_g54924041781483_cont_9to1_m_645_25_alg».proof.Proof.CombValue
import proofs.«205614_g54924041781483_cont_9to1_m_645_25_alg».proof.Proof.PreFacts
import proofs.«205614_g54924041781483_cont_9to1_m_645_25_alg».proof.Proof.RefResult
import Idealize.ShloMosaic.Adequacy
import Idealize.ShloMosaic.Init

noncomputable section

namespace Cert.Proof

open Idealize.ShloMosaic Idealize.SL.Sem

/-- What each tile of the lookup call owes, and how the call's operands are dealt to its tiles (word level). -/
theorem tileK (m : (ℓ : Loc Cert.Kernel.nD Cert.Kernel.τ Cert.Kernel.sig) → Buf (Elt Bits) ℓ) :
    (Cert.Kernel.Hand.K (F := Bits)).TileObl (Cert.Kernel.Hand.D (F := Bits)) Cert.Kernel.Hand.𝒱 (Cert.Kernel.HandV.PV m (Cert.Kernel.Hand.IXm m) (Cert.Kernel.Hand.WCm m)) Cert.Kernel.Hand.v₀ 0 :=
  Cert.Kernel.HandV.tileOblV m (Cert.Kernel.Hand.IXm m) (Cert.Kernel.Hand.WCm m) Cert.Kernel.Hand.facts (fun d j => Cert.Kernel.Hand.IXm_lt m d j)
theorem vecK (m : (ℓ : Loc Cert.Kernel.nD Cert.Kernel.τ Cert.Kernel.sig) → Buf (Elt Bits) ℓ) :
    (Cert.Kernel.Hand.K (F := Bits)).VecSplit (Cert.Kernel.HandV.PV m (Cert.Kernel.Hand.IXm m) (Cert.Kernel.Hand.WCm m)) 0 :=
  Cert.Kernel.HandV.vecSplitV m (Cert.Kernel.Hand.IXm m) (Cert.Kernel.Hand.WCm m)

/-- What each tile of the lookup call owes, and how the call's operands are dealt to its tiles (extended reals). -/
theorem tileKI (m : (ℓ : Loc Cert.KernelIdeal.nD Cert.KernelIdeal.τ Cert.KernelIdeal.sig) → Buf (Elt Ideal) ℓ) :
    (Cert.KernelIdeal.Hand.K (F := Ideal)).TileObl (Cert.KernelIdeal.Hand.D (F := Ideal)) Cert.KernelIdeal.Hand.𝒱 (Cert.KernelIdeal.HandV.PV m (Cert.KernelIdeal.Hand.IXm m) (Cert.KernelIdeal.Hand.WCm m)) Cert.KernelIdeal.Hand.v₀ 0 :=
  Cert.KernelIdeal.HandV.tileOblV m (Cert.KernelIdeal.Hand.IXm m) (Cert.KernelIdeal.Hand.WCm m) Cert.KernelIdeal.Hand.facts (fun d j => Cert.KernelIdeal.Hand.IXm_lt m d j)
theorem vecKI (m : (ℓ : Loc Cert.KernelIdeal.nD Cert.KernelIdeal.τ Cert.KernelIdeal.sig) → Buf (Elt Ideal) ℓ) :
    (Cert.KernelIdeal.Hand.K (F := Ideal)).VecSplit (Cert.KernelIdeal.HandV.PV m (Cert.KernelIdeal.Hand.IXm m) (Cert.KernelIdeal.Hand.WCm m)) 0 :=
  Cert.KernelIdeal.HandV.vecSplitV m (Cert.KernelIdeal.Hand.IXm m) (Cert.KernelIdeal.Hand.WCm m)

/-- The word-level kernel runs to its end and leaves its three inputs as they were: its run with the result forgotten. -/
theorem frame_K : Cert.frame_Kernel := fun m ρ _ =>
  (θ_run _ _ _).mono (fun _ h c => (h c).2) (Cert.Kernel.HandV.run_mainV (F := Bits) m ρ (tileK m) (vecK m))

/-- The same of the kernel read over the extended reals. -/
theorem frame_KI : Cert.frame_KernelIdeal := fun m ρ _ =>
  (θ_run _ _ _).mono (fun _ h c => (h c).2) (Cert.KernelIdeal.HandV.run_mainV (F := Ideal) m ρ (tileKI m) (vecKI m))

/-- The reference's run with its result forgotten. -/
theorem frame_R : Cert.frame_ReferenceIdeal := fun m ρ _ =>
  (θ_run Cert.ReferenceIdeal.defs _ _).mono (fun _ h c => (h c).2) (Cert.Proof.Ref.run m ρ)

/-- From inputs that agree, both programs end with the specification's function of the inputs in their result arrays: the
    kernel's lookup in the combined table is that function (a row of the combined table is a row of each table side by side),
    and so is the reference's pair of lookups. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun _ h c => ⟨(h c).1.trans ?_, (h c).2⟩) (Cert.KernelIdeal.HandV.run_mainV (F := Ideal) m ρ (tileKI m) (vecKI m))
    exact (Cert.KernelIdeal.HandV.TGT_eq_KOut m c).trans
      (Cert.KernelIdeal.HandValue.KOut_eq _ _ _ (Cert.KernelIdeal.HandValue.finite_of_pre m hpre c).1 (Cert.KernelIdeal.HandValue.finite_of_pre m hpre c).2)
  · refine (θ_run _ _ _).mono (fun _ h c => ⟨(h c).1.trans ?_, (h c).2⟩) (Cert.Proof.Ref.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
